-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v233)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v233) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v377) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128x256 : S_.BroadcastsInDim S5x128x256 (![] : Fin 0 → Fin S5x128x256.rank)
  reducesTo_S5x128x256_S_d0_1_2 : S5x128x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part3 {F : FTy → Type} [FloatOps F] (main_arg12 : FVec F S5x128 .f32) (main_arg13 : FVec F S5x128 .f32) (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  let main_v54 : FVec F S5x128 .f32 := Host.absf main_arg12
  let main_cst_20 : FVec F S_ .f32 := constant S_ .f32 0x7F800000#32
  let main_v55 : FVec F S5x128 .f32 := broadcastInDim S5x128 ![] bcast_S_S5x128 main_cst_20
  let main_v56 : IVec S5x128 1 := cmpf .olt main_v54 main_v55
  let main_c_21 : IVec S_ 1 := constantI S_ 1 1#1
  let main_v57 : IVec S_ 1 := (fun x v => Host.reduce IntOp.andi x v reducesTo_S5x128_S_d0_1 h_S_) main_v56 main_c_21
  let main_v58 : IVec S_ 1 := andi main_v53 main_v57
  let main_v59 : FVec F S5x128 .f32 := Host.absf main_arg13
  let main_cst_22 : FVec F S_ .f32 := constant S_ .f32 0x7F800000#32
  let main_v60 : FVec F S5x128 .f32 := broadcastInDim S5x128 ![] bcast_S_S5x128 main_cst_22
  let main_v61 : IVec S5x128 1 := cmpf .olt main_v59 main_v60
  let main_c_23 : IVec S_ 1 := constantI S_ 1 1#1
  let main_v62 : IVec S_ 1 := (fun x v => Host.reduce IntOp.andi x v reducesTo_S5x128_S_d0_1 h_S_) main_v61 main_c_23
  let main_v63 : IVec S_ 1 := andi main_v58 main_v62
  main_v63

def fn_part2 {F : FTy → Type} [FloatOps F] (main_arg8 : FVec F S5x256x128 .f32) (main_arg9 : FVec F S5x128 .f32) (main_arg10 : FVec F S5x128 .f32) (main_arg11 : FVec F S5x128 .f32) (main_arg12 : FVec F S5x128 .f32) (main_arg13 : FVec F S5x128 .f32) (main_v33 : IVec S_ 1) : IVec S_ 1 :=
  let main_v34 : FVec F S5x256x128 .f32 := Host.absf main_arg8
  let main_cst_12 : FVec F S_ .f32 := constant S_ .f32 0x7F800000#32
  let main_v35 : FVec F S5x256x128 .f32 := broadcastInDim S5x256x128 ![] bcast_S_S5x256x128 main_cst_12
  let main_v36 : IVec S5x256x128 1 := cmpf .olt main_v34 main_v35
  let main_c_13 : IVec S_ 1 := constantI S_ 1 1#1
  let main_v37 : IVec S_ 1 := (fun x v => Host.reduce IntOp.andi x v reducesTo_S5x256x128_S_d0_1_2 h_S_) main_v36 main_c_13
  let main_v38 : IVec S_ 1 := andi main_v33 main_v37
  let main_v39 : FVec F S5x128 .f32 := Host.absf main_arg9
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128 .f32 := Host.absf main_arg10
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  let main_v49 : FVec F S5x128 .f32 := Host.absf main_arg11
  let main_cst_18 : FVec F S_ .f32 := constant S_ .f32 0x7F800000#32
  let main_v50 : FVec F S5x128 .f32 := broadcastInDim S5x128 ![] bcast_S_S5x128 main_cst_18
  fn_part3 (F := F) main_arg12 main_arg13 main_v48 main_v49 main_v50

def fn_part1 {F : FTy → Type} [FloatOps F] (main_arg5 : FVec F S5x256 .f32) (main_arg6 : FVec F S5x256 .f32) (main_arg7 : FVec F S5x256 .f32) (main_arg8 : FVec F S5x256x128 .f32) (main_arg9 : FVec F S5x128 .f32) (main_arg10 : FVec F S5x128 .f32) (main_arg11 : FVec F S5x128 .f32) (main_arg12 : FVec F S5x128 .f32) (main_arg13 : FVec F S5x128 .f32) (main_v13 : IVec S_ 1) (main_v16 : IVec S5x256 1) : IVec S_ 1 :=
  let main_c_5 : IVec S_ 1 := constantI S_ 1 1#1
  let main_v17 : IVec S_ 1 := (fun x v => Host.reduce IntOp.andi x v reducesTo_S5x256_S_d0_1 h_S_) main_v16 main_c_5
  let main_v18 : IVec S_ 1 := andi main_v13 main_v17
  let main_v19 : FVec F S5x256 .f32 := Host.absf main_arg5
  let main_cst_6 : FVec F S_ .f32 := constant S_ .f32 0x7F800000#32
  let main_v20 : FVec F S5x256 .f32 := broadcastInDim S5x256 ![] bcast_S_S5x256 main_cst_6
  let main_v21 : IVec S5x256 1 := cmpf .olt main_v19 main_v20
  let main_c_7 : IVec S_ 1 := constantI S_ 1 1#1
  let main_v22 : IVec S_ 1 := (fun x v => Host.reduce IntOp.andi x v reducesTo_S5x256_S_d0_1 h_S_) main_v21 main_c_7
  let main_v23 : IVec S_ 1 := andi main_v18 main_v22
  let main_v24 : FVec F S5x256 .f32 := Host.absf main_arg6
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S5x256 .f32 := Host.absf main_arg7
  let main_cst_10 : FVec F S_ .f32 := constant S_ .f32 0x7F800000#32
  let main_v30 : FVec F S5x256 .f32 := broadcastInDim S5x256 ![] bcast_S_S5x256 main_cst_10
  let main_v31 : IVec S5x256 1 := cmpf .olt main_v29 main_v30
  let main_c_11 : IVec S_ 1 := constantI S_ 1 1#1
  let main_v32 : IVec S_ 1 := (fun x v => Host.reduce IntOp.andi x v reducesTo_S5x256_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x640000 32) (main_arg2 : FVec F S5x128x256 .f32) (main_arg3 : FVec F S5x256 .f32) (main_arg4 : FVec F S5x256 .f32) (main_arg5 : FVec F S5x256 .f32) (main_arg6 : FVec F S5x256 .f32) (main_arg7 : FVec F S5x256 .f32) (main_arg8 : FVec F S5x256x128 .f32) (main_arg9 : FVec F S5x128 .f32) (main_arg10 : FVec F S5x128 .f32) (main_arg11 : FVec F S5x128 .f32) (main_arg12 : FVec F S5x128 .f32) (main_arg13 : FVec F S5x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x128x256 .f32 := Host.absf main_arg2
  let main_cst_0 : FVec F S_ .f32 := constant S_ .f32 0x7F800000#32
  let main_v5 : FVec F S5x128x256 .f32 := broadcastInDim S5x128x256 ![] bcast_S_S5x128x256 main_cst_0
  let main_v6 : IVec S5x128x256 1 := cmpf .olt main_v4 main_v5
  let main_c_1 : IVec S_ 1 := constantI S_ 1 1#1
  let main_v7 : IVec S_ 1 := (fun x v => Host.reduce IntOp.andi x v reducesTo_S5x128x256_S_d0_1_2 h_S_) main_v6 main_c_1
  let main_v8 : IVec S_ 1 := andi main_v3 main_v7
  let main_v9 : FVec F S5x256 .f32 := Host.absf main_arg3
  let main_cst_2 : FVec F S_ .f32 := constant S_ .f32 0x7F800000#32
  let main_v10 : FVec F S5x256 .f32 := broadcastInDim S5x256 ![] bcast_S_S5x256 main_cst_2
  let main_v11 : IVec S5x256 1 := cmpf .olt main_v9 main_v10
  let main_c_3 : IVec S_ 1 := constantI S_ 1 1#1
  let main_v12 : IVec S_ 1 := (fun x v => Host.reduce IntOp.andi x v reducesTo_S5x256_S_d0_1 h_S_) main_v11 main_c_3
  let main_v13 : IVec S_ 1 := andi main_v8 main_v12
  let main_v14 : FVec F S5x256 .f32 := Host.absf main_arg4
  let main_cst_4 : FVec F S_ .f32 := constant S_ .f32 0x7F800000#32
  let main_v15 : FVec F S5x256 .f32 := broadcastInDim S5x256 ![] bcast_S_S5x256 main_cst_4
  let main_v16 : IVec S5x256 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x640000 : Shape := ⟨2, ![2, 640000]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S2000x128 : Shape := ⟨2, ![2000, 128]⟩
abbrev S2000x256 : Shape := ⟨2, ![2000, 256]⟩

abbrev nBuf : Space → Nat
  | .hbm => 263
  | .vmem => 80
  | .smem => 0
  | _ => 0

abbrev hbmTy0_0 (i : Nat) : BufTy := match i % 128 with
  | 0 => ⟨S100000x128, .f32⟩
  | 1 => ⟨S2x640000, .i32⟩
  | 2 => ⟨S5x128x256, .f32⟩
  | 3 => ⟨S5x256, .f32⟩
  | 4 => ⟨S5x256, .f32⟩
  | 5 => ⟨S5x256, .f32⟩
  | 6 => ⟨S5x256, .f32⟩
  | 7 => ⟨S5x256, .f32⟩
  | 8 => ⟨S5x256x128, .f32⟩
  | 9 => ⟨S5x128, .f32⟩
  | 10 => ⟨S5x128, .f32⟩
  | 11 => ⟨S5x128, .f32⟩
  | 12 => ⟨S5x128, .f32⟩
  | 13 => ⟨S5x128, .f32⟩
  | 14 => ⟨S1x640000, .i32⟩
  | 15 => ⟨S640000, .i32⟩
  | 16 => ⟨S1x640000, .i32⟩
  | 17 => ⟨S640000, .i32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x128, .f32⟩
  | 27 => ⟨S_, .f32⟩
  | 28 => ⟨S100000x128, .f32⟩
  | 29 => ⟨S640000x1, .i32⟩
  | 30 => ⟨S100000x128, .f32⟩
  | 31 => ⟨S100000x128, .f32⟩
  | 32 => ⟨S1x128x256, .f32⟩
  | 33 => ⟨S128x256, .f32⟩
  | 34 => ⟨S1x256, .f32⟩
  | 35 => ⟨S256, .f32⟩
  | 36 => ⟨S1x256, .f32⟩
  | 37 => ⟨S256, .f32⟩
  | 38 => ⟨S1x256, .f32⟩
  | 39 => ⟨S256, .f32⟩
  | 40 => ⟨S1x256, .f32⟩
  | 41 => ⟨S256, .f32⟩
  | 42 => ⟨S1x256, .f32⟩
  | 43 => ⟨S256, .f32⟩
  | 44 => ⟨S1x256x128, .f32⟩
  | 45 => ⟨S256x128, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x256, .f32⟩
  | 57 => ⟨S1x256, .f32⟩
  | 58 => ⟨S1x256, .f32⟩
  | 59 => ⟨S1x256, .f32⟩
  | 60 => ⟨S1x256, .f32⟩
  | 61 => ⟨S1x128, .f32⟩
  | 62 => ⟨S1x128, .f32⟩
  | 63 => ⟨S1x128, .f32⟩
  | 64 => ⟨S1x128, .f32⟩
  | 65 => ⟨S1x128, .f32⟩
  | 66 => ⟨S100000x128, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000x128, .f32⟩
  | 76 => ⟨S_, .f32⟩
  | 77 => ⟨S100000x128, .f32⟩
  | 78 => ⟨S640000x1, .i32⟩
  | 79 => ⟨S100000x128, .f32⟩
  | 80 => ⟨S100000x128, .f32⟩
  | 81 => ⟨S1x128x256, .f32⟩
  | 82 => ⟨S128x256, .f32⟩
  | 83 => ⟨S1x256, .f32⟩
  | 84 => ⟨S256, .f32⟩
  | 85 => ⟨S1x256, .f32⟩
  | 86 => ⟨S256, .f32⟩
  | 87 => ⟨S1x256, .f32⟩
  | 88 => ⟨S256, .f32⟩
  | 89 => ⟨S1x256, .f32⟩
  | 90 => ⟨S256, .f32⟩
  | 91 => ⟨S1x256, .f32⟩
  | 92 => ⟨S256, .f32⟩
  | 93 => ⟨S1x256x128, .f32⟩
  | 94 => ⟨S256x128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S128, .f32⟩
  | 103 => ⟨S1x128, .f32⟩
  | 104 => ⟨S128, .f32⟩
  | 105 => ⟨S1x256, .f32⟩
  | 106 => ⟨S1x256, .f32⟩
  | 107 => ⟨S1x256, .f32⟩
  | 108 => ⟨S1x256, .f32⟩
  | 109 => ⟨S1x256, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S100000x128, .f32⟩
  | 116 => ⟨S_, .i32⟩
  | 117 => ⟨S640000, .i32⟩
  | 118 => ⟨S640000, .i1⟩
  | 119 => ⟨S_, .i32⟩
  | 120 => ⟨S640000, .i32⟩
  | 121 => ⟨S640000, .i32⟩
  | 122 => ⟨S640000, .i32⟩
  | 123 => ⟨S640000x1, .i32⟩
  | 124 => ⟨S640000x128, .f32⟩
  | 125 => ⟨S_, .f32⟩
  | 126 => ⟨S100000x128, .f32⟩
  | 127 => ⟨S640000x1, .i32⟩
  | _ => ⟨S100000x128, .f32⟩

abbrev hbmTy0_1 (i : Nat) : BufTy := match i % 128 with
  | 0 => ⟨S100000x128, .f32⟩
  | 1 => ⟨S100000x128, .f32⟩
  | 2 => ⟨S1x128x256, .f32⟩
  | 3 => ⟨S128x256, .f32⟩
  | 4 => ⟨S1x256, .f32⟩
  | 5 => ⟨S256, .f32⟩
  | 6 => ⟨S1x256, .f32⟩
  | 7 => ⟨S256, .f32⟩
  | 8 => ⟨S1x256, .f32⟩
  | 9 => ⟨S256, .f32⟩
  | 10 => ⟨S1x256, .f32⟩
  | 11 => ⟨S256, .f32⟩
  | 12 => ⟨S1x256, .f32⟩
  | 13 => ⟨S256, .f32⟩
  | 14 => ⟨S1x256x128, .f32⟩
  | 15 => ⟨S256x128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S1x128, .f32⟩
  | 25 => ⟨S128, .f32⟩
  | 26 => ⟨S1x256, .f32⟩
  | 27 => ⟨S1x256, .f32⟩
  | 28 => ⟨S1x256, .f32⟩
  | 29 => ⟨S1x256, .f32⟩
  | 30 => ⟨S1x256, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S100000x128, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000x128, .f32⟩
  | 46 => ⟨S_, .f32⟩
  | 47 => ⟨S100000x128, .f32⟩
  | 48 => ⟨S640000x1, .i32⟩
  | 49 => ⟨S100000x128, .f32⟩
  | 50 => ⟨S100000x128, .f32⟩
  | 51 => ⟨S1x128x256, .f32⟩
  | 52 => ⟨S128x256, .f32⟩
  | 53 => ⟨S1x256, .f32⟩
  | 54 => ⟨S256, .f32⟩
  | 55 => ⟨S1x256, .f32⟩
  | 56 => ⟨S256, .f32⟩
  | 57 => ⟨S1x256, .f32⟩
  | 58 => ⟨S256, .f32⟩
  | 59 => ⟨S1x256, .f32⟩
  | 60 => ⟨S256, .f32⟩
  | 61 => ⟨S1x256, .f32⟩
  | 62 => ⟨S256, .f32⟩
  | 63 => ⟨S1x256x128, .f32⟩
  | 64 => ⟨S256x128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x256, .f32⟩
  | 76 => ⟨S1x256, .f32⟩
  | 77 => ⟨S1x256, .f32⟩
  | 78 => ⟨S1x256, .f32⟩
  | 79 => ⟨S1x256, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S100000x128, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000x128, .f32⟩
  | 95 => ⟨S_, .f32⟩
  | 96 => ⟨S100000x128, .f32⟩
  | 97 => ⟨S640000x1, .i32⟩
  | 98 => ⟨S100000x128, .f32⟩
  | 99 => ⟨S100000x128, .f32⟩
  | 100 => ⟨S1x128x256, .f32⟩
  | 101 => ⟨S128x256, .f32⟩
  | 102 => ⟨S1x256, .f32⟩
  | 103 => ⟨S256, .f32⟩
  | 104 => ⟨S1x256, .f32⟩
  | 105 => ⟨S256, .f32⟩
  | 106 => ⟨S1x256, .f32⟩
  | 107 => ⟨S256, .f32⟩
  | 108 => ⟨S1x256, .f32⟩
  | 109 => ⟨S256, .f32⟩
  | 110 => ⟨S1x256, .f32⟩
  | 111 => ⟨S256, .f32⟩
  | 112 => ⟨S1x256x128, .f32⟩
  | 113 => ⟨S256x128, .f32⟩
  | 114 => ⟨S1x128, .f32⟩
  | 115 => ⟨S128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S128, .f32⟩
  | 124 => ⟨S1x256, .f32⟩
  | 125 => ⟨S1x256, .f32⟩
  | 126 => ⟨S1x256, .f32⟩
  | 127 => ⟨S1x256, .f32⟩
  | _ => ⟨S100000x128, .f32⟩

abbrev hbmTy0_2 (i : Nat) : BufTy := match i % 128 with
  | 0 => ⟨S1x256, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S256x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x256, .f32⟩
  | .local _ .vmem, ⟨51, _⟩ => ⟨S1x256, .f32⟩
  | .local _ .vmem, ⟨52, _⟩ => ⟨S1x256, .f32⟩
  | .local _ .vmem, ⟨53, _⟩ => ⟨S1x256, .f32⟩
  | .local _ .vmem, ⟨54, _⟩ => ⟨S1x256, .f32⟩
  | .local _ .vmem, ⟨55, _⟩ => ⟨S1x256, .f32⟩
  | .local _ .vmem, ⟨56, _⟩ => ⟨S256x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S128x256, .f32⟩
  | .local _ .vmem, ⟨67, _⟩ => ⟨S1x256, .f32⟩
  | .local _ .vmem, ⟨68, _⟩ => ⟨S1x256, .f32⟩
  | .local _ .vmem, ⟨69, _⟩ => ⟨S1x256, .f32⟩
  | .local _ .vmem, ⟨70, _⟩ => ⟨S1x256, .f32⟩
  | .local _ .vmem, ⟨71, _⟩ => ⟨S1x256, .f32⟩
  | .local _ .vmem, ⟨72, _⟩ => ⟨S256x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_1 : Ref sig .tc := ⟨.hbm, 67, rfl⟩
abbrev main_v50 : Ref sig .tc := ⟨.hbm, 68, rfl⟩
abbrev main_v51 : Ref sig .tc := ⟨.hbm, 69, rfl⟩
abbrev main_c_2 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_c_4 : Ref sig .tc := ⟨.hbm, 116, rfl⟩
abbrev main_v96 : Ref sig .tc := ⟨.hbm, 117, rfl⟩
abbrev main_v97 : Ref sig .tc := ⟨.hbm, 118, rfl⟩
abbrev main_c_5 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_6 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_c_7 : Ref sig .tc := ⟨.hbm, 165, rfl⟩
abbrev main_v142 : Ref sig .tc := ⟨.hbm, 166, rfl⟩
abbrev main_v143 : Ref sig .tc := ⟨.hbm, 167, rfl⟩
abbrev main_c_8 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_cst_9 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_c_10 : Ref sig .tc := ⟨.hbm, 214, rfl⟩
abbrev main_v188 : Ref sig .tc := ⟨.hbm, 215, rfl⟩
abbrev main_v189 : Ref sig .tc := ⟨.hbm, 216, rfl⟩
abbrev main_c_11 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_cst_12 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg13_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg11_0 : Ref sig .tc := ⟨.vmem, 44, rfl⟩
abbrev cc2_stg12_0 : Ref sig .tc := ⟨.vmem, 45, rfl⟩
abbrev cc2_stg13_0 : Ref sig .tc := ⟨.vmem, 46, rfl⟩
abbrev cc2_stg13_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg2_0 : Ref sig .tc := ⟨.vmem, 51, rfl⟩
abbrev cc3_stg3_0 : Ref sig .tc := ⟨.vmem, 52, rfl⟩
abbrev cc3_stg4_0 : Ref sig .tc := ⟨.vmem, 53, rfl⟩
abbrev cc3_stg5_0 : Ref sig .tc := ⟨.vmem, 54, rfl⟩
abbrev cc3_stg6_0 : Ref sig .tc := ⟨.vmem, 55, rfl⟩
abbrev cc3_stg7_0 : Ref sig .tc := ⟨.vmem, 56, rfl⟩
abbrev cc3_stg8_0 : Ref sig .tc := ⟨.vmem, 57, rfl⟩
abbrev cc3_stg9_0 : Ref sig .tc := ⟨.vmem, 58, rfl⟩
abbrev cc3_stg10_0 : Ref sig .tc := ⟨.vmem, 59, rfl⟩
abbrev cc3_stg11_0 : Ref sig .tc := ⟨.vmem, 60, rfl⟩
abbrev cc3_stg12_0 : Ref sig .tc := ⟨.vmem, 61, rfl⟩
abbrev cc3_stg13_0 : Ref sig .tc := ⟨.vmem, 62, rfl⟩
abbrev cc3_stg13_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg2_0 : Ref sig .tc := ⟨.vmem, 67, rfl⟩
abbrev cc4_stg3_0 : Ref sig .tc := ⟨.vmem, 68, rfl⟩
abbrev cc4_stg4_0 : Ref sig .tc := ⟨.vmem, 69, rfl⟩
abbrev cc4_stg5_0 : Ref sig .tc := ⟨.vmem, 70, rfl⟩
abbrev cc4_stg6_0 : Ref sig .tc := ⟨.vmem, 71, rfl⟩
abbrev cc4_stg7_0 : Ref sig .tc := ⟨.vmem, 72, rfl⟩
abbrev cc4_stg8_0 : Ref sig .tc := ⟨.vmem, 73, rfl⟩
abbrev cc4_stg9_0 : Ref sig .tc := ⟨.vmem, 74, rfl⟩
abbrev cc4_stg10_0 : Ref sig .tc := ⟨.vmem, 75, rfl⟩
abbrev cc4_stg11_0 : Ref sig .tc := ⟨.vmem, 76, rfl⟩
abbrev cc4_stg12_0 : Ref sig .tc := ⟨.vmem, 77, rfl⟩
abbrev cc4_stg13_0 : Ref sig .tc := ⟨.vmem, 78, rfl⟩
abbrev cc4_stg13_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem13_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem11_0 : DmaSem sig := 44
abbrev cc2_sem12_0 : DmaSem sig := 45
abbrev cc2_sem13_0 : DmaSem sig := 46
abbrev cc2_sem13_1 : DmaSem sig := 47
abbrev cc3_sem0_0 : DmaSem sig := 48
abbrev cc3_sem0_1 : DmaSem sig := 49
abbrev cc3_sem1_0 : DmaSem sig := 50
abbrev cc3_sem2_0 : DmaSem sig := 51
abbrev cc3_sem3_0 : DmaSem sig := 52
abbrev cc3_sem4_0 : DmaSem sig := 53
abbrev cc3_sem5_0 : DmaSem sig := 54
abbrev cc3_sem6_0 : DmaSem sig := 55
abbrev cc3_sem7_0 : DmaSem sig := 56
abbrev cc3_sem8_0 : DmaSem sig := 57
abbrev cc3_sem9_0 : DmaSem sig := 58
abbrev cc3_sem10_0 : DmaSem sig := 59
abbrev cc3_sem11_0 : DmaSem sig := 60
abbrev cc3_sem12_0 : DmaSem sig := 61
abbrev cc3_sem13_0 : DmaSem sig := 62
abbrev cc3_sem13_1 : DmaSem sig := 63
abbrev cc4_sem0_0 : DmaSem sig := 64
abbrev cc4_sem0_1 : DmaSem sig := 65
abbrev cc4_sem1_0 : DmaSem sig := 66
abbrev cc4_sem2_0 : DmaSem sig := 67
abbrev cc4_sem3_0 : DmaSem sig := 68
abbrev cc4_sem4_0 : DmaSem sig := 69
abbrev cc4_sem5_0 : DmaSem sig := 70
abbrev cc4_sem6_0 : DmaSem sig := 71
abbrev cc4_sem7_0 : DmaSem sig := 72
abbrev cc4_sem8_0 : DmaSem sig := 73
abbrev cc4_sem9_0 : DmaSem sig := 74
abbrev cc4_sem10_0 : DmaSem sig := 75
abbrev cc4_sem11_0 : DmaSem sig := 76
abbrev cc4_sem12_0 : DmaSem sig := 77
abbrev cc4_sem13_0 : DmaSem sig := 78
abbrev cc4_sem13_1 : DmaSem sig := 79

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S2000x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S2000x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S2000x128 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S100000x128.size a
  hwx0_13 : ∀ i : grid0.Coords, EltTy.bits .f32 = 32 ∨ (Rect.block (s := S100000x128) S2000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .f32 = 32 ∨ (Rect.block (s := S256x128) S256x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x128.size a ≤ S100000x128.size a
  hwx1_13 : ∀ i : grid1.Coords, EltTy.bits .f32 = 32 ∨ (Rect.block (s := S100000x128) S2000x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S256x128.size a
  hwx2_7 : ∀ i : grid2.Coords, EltTy.bits .f32 = 32 ∨ (Rect.block (s := S256x128) S256x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2000x128.size a ≤ S100000x128.size a
  hwx2_13 : ∀ i : grid2.Coords, EltTy.bits .f32 = 32 ∨ (Rect.block (s := S100000x128) S2000x128.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S256x128.size a
  hwx3_7 : ∀ i : grid3.Coords, EltTy.bits .f32 = 32 ∨ (Rect.block (s := S256x128) S256x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S2000x128.size a ≤ S100000x128.size a
  hwx3_13 : ∀ i : grid3.Coords, EltTy.bits .f32 = 32 ∨ (Rect.block (s := S100000x128) S2000x128.size (cc3_transform_13 i) (hinb3_13 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S2000x128.size a ≤ S100000x128.size a
  hwx4_13 : ∀ i : grid4.Coords, EltTy.bits .f32 = 32 ∨ (Rect.block (s := S100000x128) S2000x128.size (cc4_transform_13 i) (hinb4_13 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v48) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v49) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v60) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v85) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v86) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v88) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v89) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v74) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v90) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v91) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v92) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v93) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v94) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v95) S2000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v106) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v108) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v131) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v132) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v133) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v134) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v135) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v120) S256x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v136) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v137) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v138) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v139) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v140) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v141) S2000x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v152) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v154) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v177) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v178) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v179) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v180) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v181) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v166) S256x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v182) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v183) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v184) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v185) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v186) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v187) S2000x128.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

abbrev win4_0 : Pipeline.Window sig grid4 :=
  Pipeline.Window.ofSpec (Memref.whole main_v198) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v200) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v223) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v224) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v225) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v226) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v227) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v212) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v228) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v229) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v230) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v231) S1x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v232) S1x128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v233) S2000x128.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128x256 : Shape := ⟨3, ![1, 128, 256]⟩
abbrev S128x256 : Shape := ⟨2, ![128, 256]⟩
abbrev S100000x256 : Shape := ⟨2, ![100000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩

abbrev nBuf : Space → Nat
  | .hbm => 435
  | .vmem => 0
  | .smem => 0
  | _ => 0

abbrev hbmTy0_0 (i : Nat) : BufTy := match i % 128 with
  | 0 => ⟨S100000x128, .f32⟩
  | 1 => ⟨S2x640000, .i32⟩
  | 2 => ⟨S5x128x256, .f32⟩
  | 3 => ⟨S5x256, .f32⟩
  | 4 => ⟨S5x256, .f32⟩
  | 5 => ⟨S5x256, .f32⟩
  | 6 => ⟨S5x256, .f32⟩
  | 7 => ⟨S5x256, .f32⟩
  | 8 => ⟨S5x256x128, .f32⟩
  | 9 => ⟨S5x128, .f32⟩
  | 10 => ⟨S5x128, .f32⟩
  | 11 => ⟨S5x128, .f32⟩
  | 12 => ⟨S5x128, .f32⟩
  | 13 => ⟨S5x128, .f32⟩
  | 14 => ⟨S1x640000, .i32⟩
  | 15 => ⟨S640000, .i32⟩
  | 16 => ⟨S1x640000, .i32⟩
  | 17 => ⟨S640000, .i32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x128, .f32⟩
  | 27 => ⟨S_, .f32⟩
  | 28 => ⟨S100000x128, .f32⟩
  | 29 => ⟨S640000x1, .i32⟩
  | 30 => ⟨S100000x128, .f32⟩
  | 31 => ⟨S100000x128, .f32⟩
  | 32 => ⟨S1x128x256, .f32⟩
  | 33 => ⟨S128x256, .f32⟩
  | 34 => ⟨S100000x256, .f32⟩
  | 35 => ⟨S1x256, .f32⟩
  | 36 => ⟨S256, .f32⟩
  | 37 => ⟨S1x256, .f32⟩
  | 38 => ⟨S100000x256, .f32⟩
  | 39 => ⟨S100000x256, .f32⟩
  | 40 => ⟨S1x256, .f32⟩
  | 41 => ⟨S256, .f32⟩
  | 42 => ⟨S1x256, .f32⟩
  | 43 => ⟨S256, .f32⟩
  | 44 => ⟨S1x256, .f32⟩
  | 45 => ⟨S256, .f32⟩
  | 46 => ⟨S1x256, .f32⟩
  | 47 => ⟨S256, .f32⟩
  | 48 => ⟨S1x256, .f32⟩
  | 49 => ⟨S100000x256, .f32⟩
  | 50 => ⟨S100000x256, .f32⟩
  | 51 => ⟨S_, .f32⟩
  | 52 => ⟨S256, .f32⟩
  | 53 => ⟨S256, .f32⟩
  | 54 => ⟨S256, .f32⟩
  | 55 => ⟨S1x256, .f32⟩
  | 56 => ⟨S100000x256, .f32⟩
  | 57 => ⟨S100000x256, .f32⟩
  | 58 => ⟨S1x256, .f32⟩
  | 59 => ⟨S100000x256, .f32⟩
  | 60 => ⟨S100000x256, .f32⟩
  | 61 => ⟨S1x256, .f32⟩
  | 62 => ⟨S100000x256, .f32⟩
  | 63 => ⟨S100000x256, .f32⟩
  | 64 => ⟨S_, .f32⟩
  | 65 => ⟨S100000x256, .f32⟩
  | 66 => ⟨S100000x256, .f32⟩
  | 67 => ⟨S1x256x128, .f32⟩
  | 68 => ⟨S256x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S_, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S_, .f32⟩
  | 112 => ⟨S100000x128, .f32⟩
  | 113 => ⟨S640000x1, .i32⟩
  | 114 => ⟨S100000x128, .f32⟩
  | 115 => ⟨S100000x128, .f32⟩
  | 116 => ⟨S1x128x256, .f32⟩
  | 117 => ⟨S128x256, .f32⟩
  | 118 => ⟨S100000x256, .f32⟩
  | 119 => ⟨S1x256, .f32⟩
  | 120 => ⟨S256, .f32⟩
  | 121 => ⟨S1x256, .f32⟩
  | 122 => ⟨S100000x256, .f32⟩
  | 123 => ⟨S100000x256, .f32⟩
  | 124 => ⟨S1x256, .f32⟩
  | 125 => ⟨S256, .f32⟩
  | 126 => ⟨S1x256, .f32⟩
  | 127 => ⟨S256, .f32⟩
  | _ => ⟨S100000x128, .f32⟩

abbrev hbmTy0_1 (i : Nat) : BufTy := match i % 128 with
  | 0 => ⟨S1x256, .f32⟩
  | 1 => ⟨S256, .f32⟩
  | 2 => ⟨S1x256, .f32⟩
  | 3 => ⟨S256, .f32⟩
  | 4 => ⟨S1x256, .f32⟩
  | 5 => ⟨S100000x256, .f32⟩
  | 6 => ⟨S100000x256, .f32⟩
  | 7 => ⟨S_, .f32⟩
  | 8 => ⟨S256, .f32⟩
  | 9 => ⟨S256, .f32⟩
  | 10 => ⟨S256, .f32⟩
  | 11 => ⟨S1x256, .f32⟩
  | 12 => ⟨S100000x256, .f32⟩
  | 13 => ⟨S100000x256, .f32⟩
  | 14 => ⟨S1x256, .f32⟩
  | 15 => ⟨S100000x256, .f32⟩
  | 16 => ⟨S100000x256, .f32⟩
  | 17 => ⟨S1x256, .f32⟩
  | 18 => ⟨S100000x256, .f32⟩
  | 19 => ⟨S100000x256, .f32⟩
  | 20 => ⟨S_, .f32⟩
  | 21 => ⟨S100000x256, .f32⟩
  | 22 => ⟨S100000x256, .f32⟩
  | 23 => ⟨S1x256x128, .f32⟩
  | 24 => ⟨S256x128, .f32⟩
  | 25 => ⟨S100000x128, .f32⟩
  | 26 => ⟨S1x128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000x128, .f32⟩
  | 67 => ⟨S_, .f32⟩
  | 68 => ⟨S100000x128, .f32⟩
  | 69 => ⟨S640000x1, .i32⟩
  | 70 => ⟨S100000x128, .f32⟩
  | 71 => ⟨S100000x128, .f32⟩
  | 72 => ⟨S1x128x256, .f32⟩
  | 73 => ⟨S128x256, .f32⟩
  | 74 => ⟨S100000x256, .f32⟩
  | 75 => ⟨S1x256, .f32⟩
  | 76 => ⟨S256, .f32⟩
  | 77 => ⟨S1x256, .f32⟩
  | 78 => ⟨S100000x256, .f32⟩
  | 79 => ⟨S100000x256, .f32⟩
  | 80 => ⟨S1x256, .f32⟩
  | 81 => ⟨S256, .f32⟩
  | 82 => ⟨S1x256, .f32⟩
  | 83 => ⟨S256, .f32⟩
  | 84 => ⟨S1x256, .f32⟩
  | 85 => ⟨S256, .f32⟩
  | 86 => ⟨S1x256, .f32⟩
  | 87 => ⟨S256, .f32⟩
  | 88 => ⟨S1x256, .f32⟩
  | 89 => ⟨S100000x256, .f32⟩
  | 90 => ⟨S100000x256, .f32⟩
  | 91 => ⟨S_, .f32⟩
  | 92 => ⟨S256, .f32⟩
  | 93 => ⟨S256, .f32⟩
  | 94 => ⟨S256, .f32⟩
  | 95 => ⟨S1x256, .f32⟩
  | 96 => ⟨S100000x256, .f32⟩
  | 97 => ⟨S100000x256, .f32⟩
  | 98 => ⟨S1x256, .f32⟩
  | 99 => ⟨S100000x256, .f32⟩
  | 100 => ⟨S100000x256, .f32⟩
  | 101 => ⟨S1x256, .f32⟩
  | 102 => ⟨S100000x256, .f32⟩
  | 103 => ⟨S100000x256, .f32⟩
  | 104 => ⟨S_, .f32⟩
  | 105 => ⟨S100000x256, .f32⟩
  | 106 => ⟨S100000x256, .f32⟩
  | 107 => ⟨S1x256x128, .f32⟩
  | 108 => ⟨S256x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S128, .f32⟩
  | _ => ⟨S100000x128, .f32⟩

abbrev hbmTy0_2 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000x128, .f32⟩
  | 23 => ⟨S_, .f32⟩
  | 24 => ⟨S100000x128, .f32⟩
  | 25 => ⟨S640000x1, .i32⟩
  | 26 => ⟨S100000x128, .f32⟩
  | 27 => ⟨S100000x128, .f32⟩
  | 28 => ⟨S1x128x256, .f32⟩
  | 29 => ⟨S128x256, .f32⟩
  | 30 => ⟨S100000x256, .f32⟩
  | 31 => ⟨S1x256, .f32⟩
  | 32 => ⟨S256, .f32⟩
  | 33 => ⟨S1x256, .f32⟩
  | 34 => ⟨S100000x256, .f32⟩
  | 35 => ⟨S100000x256, .f32⟩
  | 36 => ⟨S1x256, .f32⟩
  | 37 => ⟨S256, .f32⟩
  | 38 => ⟨S1x256, .f32⟩
  | 39 => ⟨S256, .f32⟩
  | 40 => ⟨S1x256, .f32⟩
  | 41 => ⟨S256, .f32⟩
  | 42 => ⟨S1x256, .f32⟩
  | 43 => ⟨S256, .f32⟩
  | 44 => ⟨S1x256, .f32⟩
  | 45 => ⟨S100000x256, .f32⟩
  | 46 => ⟨S100000x256, .f32⟩
  | 47 => ⟨S_, .f32⟩
  | 48 => ⟨S256, .f32⟩
  | 49 => ⟨S256, .f32⟩
  | 50 => ⟨S256, .f32⟩
  | 51 => ⟨S1x256, .f32⟩
  | 52 => ⟨S100000x256, .f32⟩
  | 53 => ⟨S100000x256, .f32⟩
  | 54 => ⟨S1x256, .f32⟩
  | 55 => ⟨S100000x256, .f32⟩
  | 56 => ⟨S100000x256, .f32⟩
  | 57 => ⟨S1x256, .f32⟩
  | 58 => ⟨S100000x256, .f32⟩
  | 59 => ⟨S100000x256, .f32⟩
  | 60 => ⟨S_, .f32⟩
  | 61 => ⟨S100000x256, .f32⟩
  | 62 => ⟨S100000x256, .f32⟩
  | 63 => ⟨S1x256x128, .f32⟩
  | 64 => ⟨S256x128, .f32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x128, .f32⟩
  | 107 => ⟨S_, .f32⟩
  | 108 => ⟨S100000x128, .f32⟩
  | 109 => ⟨S640000x1, .i32⟩
  | 110 => ⟨S100000x128, .f32⟩
  | 111 => ⟨S100000x128, .f32⟩
  | 112 => ⟨S1x128x256, .f32⟩
  | 113 => ⟨S128x256, .f32⟩
  | 114 => ⟨S100000x256, .f32⟩
  | 115 => ⟨S1x256, .f32⟩
  | 116 => ⟨S256, .f32⟩
  | 117 => ⟨S1x256, .f32⟩
  | 118 => ⟨S100000x256, .f32⟩
  | 119 => ⟨S100000x256, .f32⟩
  | 120 => ⟨S1x256, .f32⟩
  | 121 => ⟨S256, .f32⟩
  | 122 => ⟨S1x256, .f32⟩
  | 123 => ⟨S256, .f32⟩
  | 124 => ⟨S1x256, .f32⟩
  | 125 => ⟨S256, .f32⟩
  | 126 => ⟨S1x256, .f32⟩
  | 127 => ⟨S256, .f32⟩
  | _ => ⟨S100000x128, .f32⟩

abbrev hbmTy0_3 (i : Nat) : BufTy := match i % 128 with
  | 0 => ⟨S1x256, .f32⟩
  | 1 => ⟨S100000x256, .f32⟩
  | 2 => ⟨S100000x256, .f32⟩
  | 3 => ⟨S_, .f32⟩
  | 4 => ⟨S256, .f32⟩
  | 5 => ⟨S256, .f32⟩
  | 6 => ⟨S256, .f32⟩
  | 7 => ⟨S1x256, .f32⟩
  | 8 => ⟨S100000x256, .f32⟩
  | 9 => ⟨S100000x256, .f32⟩
  | 10 => ⟨S1x256, .f32⟩
  | 11 => ⟨S100000x256, .f32⟩
  | 12 => ⟨S100000x256, .f32⟩
  | 13 => ⟨S1x256, .f32⟩
  | 14 => ⟨S100000x256, .f32⟩
  | 15 => ⟨S100000x256, .f32⟩
  | 16 => ⟨S_, .f32⟩
  | 17 => ⟨S100000x256, .f32⟩
  | 18 => ⟨S100000x256, .f32⟩
  | 19 => ⟨S1x256x128, .f32⟩
  | 20 => ⟨S256x128, .f32⟩
  | 21 => ⟨S100000x128, .f32⟩
  | 22 => ⟨S1x128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_2 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_call1_cst : Ref sig .tc := ⟨.hbm, 99, rfl⟩
abbrev main_call1_v0 : Ref sig .tc := ⟨.hbm, 100, rfl⟩
abbrev main_v78 : Ref sig .tc := ⟨.hbm, 101, rfl⟩
abbrev main_c_3 : Ref sig .tc := ⟨.hbm, 102, rfl⟩
abbrev main_v79 : Ref sig .tc := ⟨.hbm, 103, rfl⟩
abbrev main_v80 : Ref sig .tc := ⟨.hbm, 104, rfl⟩
abbrev main_c_4 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_5 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_6 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_call2_cst : Ref sig .tc := ⟨.hbm, 148, rfl⟩
abbrev main_call2_v0 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_7 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_call3_cst : Ref sig .tc := ⟨.hbm, 183, rfl⟩
abbrev main_call3_v0 : Ref sig .tc := ⟨.hbm, 184, rfl⟩
abbrev main_v153 : Ref sig .tc := ⟨.hbm, 185, rfl⟩
abbrev main_c_8 : Ref sig .tc := ⟨.hbm, 186, rfl⟩
abbrev main_v154 : Ref sig .tc := ⟨.hbm, 187, rfl⟩
abbrev main_v155 : Ref sig .tc := ⟨.hbm, 188, rfl⟩
abbrev main_c_9 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_10 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_cst_11 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_call4_cst : Ref sig .tc := ⟨.hbm, 232, rfl⟩
abbrev main_call4_v0 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_cst_12 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_call5_cst : Ref sig .tc := ⟨.hbm, 267, rfl⟩
abbrev main_call5_v0 : Ref sig .tc := ⟨.hbm, 268, rfl⟩
abbrev main_v228 : Ref sig .tc := ⟨.hbm, 269, rfl⟩
abbrev main_c_13 : Ref sig .tc := ⟨.hbm, 270, rfl⟩
abbrev main_v229 : Ref sig .tc := ⟨.hbm, 271, rfl⟩
abbrev main_v230 : Ref sig .tc := ⟨.hbm, 272, rfl⟩
abbrev main_c_14 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_cst_15 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_cst_16 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_call6_cst : Ref sig .tc := ⟨.hbm, 316, rfl⟩
abbrev main_call6_v0 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_v289 : Ref sig .tc := ⟨.hbm, 336, rfl⟩
abbrev main_v290 : Ref sig .tc := ⟨.hbm, 337, rfl⟩
abbrev main_cst_17 : Ref sig .tc := ⟨.hbm, 338, rfl⟩
abbrev main_v291 : Ref sig .tc := ⟨.hbm, 339, rfl⟩
abbrev main_v292 : Ref sig .tc := ⟨.hbm, 340, rfl⟩
abbrev main_v293 : Ref sig .tc := ⟨.hbm, 341, rfl⟩
abbrev main_v294 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_call7_cst : Ref sig .tc := ⟨.hbm, 351, rfl⟩
abbrev main_call7_v0 : Ref sig .tc := ⟨.hbm, 352, rfl⟩
abbrev main_v303 : Ref sig .tc := ⟨.hbm, 353, rfl⟩
abbrev main_c_18 : Ref sig .tc := ⟨.hbm, 354, rfl⟩
abbrev main_v304 : Ref sig .tc := ⟨.hbm, 355, rfl⟩
abbrev main_v305 : Ref sig .tc := ⟨.hbm, 356, rfl⟩
abbrev main_c_19 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_cst_20 : Ref sig .tc := ⟨.hbm, 363, rfl⟩
abbrev main_v311 : Ref sig .tc := ⟨.hbm, 364, rfl⟩
abbrev main_v312 : Ref sig .tc := ⟨.hbm, 365, rfl⟩
abbrev main_v313 : Ref sig .tc := ⟨.hbm, 366, rfl⟩
abbrev main_v314 : Ref sig .tc := ⟨.hbm, 367, rfl⟩
abbrev main_v315 : Ref sig .tc := ⟨.hbm, 368, rfl⟩
abbrev main_v316 : Ref sig .tc := ⟨.hbm, 369, rfl⟩
abbrev main_v317 : Ref sig .tc := ⟨.hbm, 370, rfl⟩
abbrev main_v318 : Ref sig .tc := ⟨.hbm, 371, rfl⟩
abbrev main_v319 : Ref sig .tc := ⟨.hbm, 372, rfl⟩
abbrev main_v320 : Ref sig .tc := ⟨.hbm, 373, rfl⟩
abbrev main_v321 : Ref sig .tc := ⟨.hbm, 374, rfl⟩
abbrev main_v322 : Ref sig .tc := ⟨.hbm, 375, rfl⟩
abbrev main_v323 : Ref sig .tc := ⟨.hbm, 376, rfl⟩
abbrev main_v324 : Ref sig .tc := ⟨.hbm, 377, rfl⟩
abbrev main_v325 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev main_v329 : Ref sig .tc := ⟨.hbm, 382, rfl⟩
abbrev main_v330 : Ref sig .tc := ⟨.hbm, 383, rfl⟩
abbrev main_v331 : Ref sig .tc := ⟨.hbm, 384, rfl⟩
abbrev main_v332 : Ref sig .tc := ⟨.hbm, 385, rfl⟩
abbrev main_v333 : Ref sig .tc := ⟨.hbm, 386, rfl⟩
abbrev main_cst_21 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_v338 : Ref sig .tc := ⟨.hbm, 392, rfl⟩
abbrev main_v339 : Ref sig .tc := ⟨.hbm, 393, rfl⟩
abbrev main_v340 : Ref sig .tc := ⟨.hbm, 394, rfl⟩
abbrev main_v341 : Ref sig .tc := ⟨.hbm, 395, rfl⟩
abbrev main_v342 : Ref sig .tc := ⟨.hbm, 396, rfl⟩
abbrev main_v343 : Ref sig .tc := ⟨.hbm, 397, rfl⟩
abbrev main_v344 : Ref sig .tc := ⟨.hbm, 398, rfl⟩
abbrev main_v345 : Ref sig .tc := ⟨.hbm, 399, rfl⟩
abbrev main_call8_cst : Ref sig .tc := ⟨.hbm, 400, rfl⟩
abbrev main_call8_v0 : Ref sig .tc := ⟨.hbm, 401, rfl⟩
abbrev main_v346 : Ref sig .tc := ⟨.hbm, 402, rfl⟩
abbrev main_v347 : Ref sig .tc := ⟨.hbm, 403, rfl⟩
abbrev main_v348 : Ref sig .tc := ⟨.hbm, 404, rfl⟩
abbrev main_v349 : Ref sig .tc := ⟨.hbm, 405, rfl⟩
abbrev main_v350 : Ref sig .tc := ⟨.hbm, 406, rfl⟩
abbrev main_v351 : Ref sig .tc := ⟨.hbm, 407, rfl⟩
abbrev main_v352 : Ref sig .tc := ⟨.hbm, 408, rfl⟩
abbrev main_v353 : Ref sig .tc := ⟨.hbm, 409, rfl⟩
abbrev main_v354 : Ref sig .tc := ⟨.hbm, 410, rfl⟩
abbrev main_v355 : Ref sig .tc := ⟨.hbm, 411, rfl⟩
abbrev main_v356 : Ref sig .tc := ⟨.hbm, 412, rfl⟩
abbrev main_v357 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_v364 : Ref sig .tc := ⟨.hbm, 420, rfl⟩
abbrev main_v365 : Ref sig .tc := ⟨.hbm, 421, rfl⟩
abbrev main_cst_22 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_v369 : Ref sig .tc := ⟨.hbm, 426, rfl⟩
abbrev main_v370 : Ref sig .tc := ⟨.hbm, 427, rfl⟩
abbrev main_v371 : Ref sig .tc := ⟨.hbm, 428, rfl⟩
abbrev main_v372 : Ref sig .tc := ⟨.hbm, 429, rfl⟩
abbrev main_v373 : Ref sig .tc := ⟨.hbm, 430, rfl⟩
abbrev main_v374 : Ref sig .tc := ⟨.hbm, 431, rfl⟩
abbrev main_v375 : Ref sig .tc := ⟨.hbm, 432, rfl⟩
abbrev main_v376 : Ref sig .tc := ⟨.hbm, 433, rfl⟩
abbrev main_v377 : Ref sig .tc := ⟨.hbm, 434, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S256 : S_.BroadcastsInDim S256 (![] : Fin 0 → Fin S256.rank)
  bcast_S_S100000x256 : S_.BroadcastsInDim S100000x256 (![] : Fin 0 → Fin S100000x256.rank)
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.RefOps.lean ====
/-
  The reference's host operations, layer by layer.

  The reference computes five layers one after the other. Its operations, in program order, are cut here after the
  operation that writes each layer's output array, so that list l holds exactly the operations of layer l (the first
  list also holds the four operations that cut the two index rows out of the edge array, which every layer reads).
-/
import proofs.«159699_j9251359555640_1_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The 88 operations of layer 0, in order; the last one writes the layer's output, `main_v78`. -/
abbrev ops0 : List (HloOp τ sig (Elt F)) :=
  ( unary main_arg1 main_v0 ((extractStridedSlice S1x640000 ![0, 0] · slices_S2x640000_S1x640000_0_0) : (⟨S2x640000, .i32⟩ : BufTy).Contents (Elt F) → (⟨S1x640000, .i32⟩ : BufTy).Contents (Elt F))
  :: reshape main_v0 main_v1 rfl shapeCasts_S1x640000_S640000
  :: unary main_arg1 main_v2 ((extractStridedSlice S1x640000 ![1, 0] · slices_S2x640000_S1x640000_1_0) : (⟨S2x640000, .i32⟩ : BufTy).Contents (Elt F) → (⟨S1x640000, .i32⟩ : BufTy).Contents (Elt F))
  :: reshape main_v2 main_v3 rfl shapeCasts_S1x640000_S640000
  :: nullary main_c (constantI S_ 32 0#32)
  :: unary main_c main_v4 (broadcastInDim S640000 ![] bcast_S_S640000 : (⟨S_, .i32⟩ : BufTy).Contents (Elt F) → (⟨S640000, .i32⟩ : BufTy).Contents (Elt F))
  :: binary main_v1 main_v4 main_v5 (cmpi .slt : (⟨S640000, .i32⟩ : BufTy).Contents (Elt F) → (⟨S640000, .i32⟩ : BufTy).Contents (Elt F) → (⟨S640000, .i1⟩ : BufTy).Contents (Elt F))
  :: nullary main_c_0 (constantI S_ 32 100000#32)
  :: unary main_c_0 main_v6 (broadcastInDim S640000 ![] bcast_S_S640000 : (⟨S_, .i32⟩ : BufTy).Contents (Elt F) → (⟨S640000, .i32⟩ : BufTy).Contents (Elt F))
  :: binary main_v1 main_v6 main_v7 (addi : (⟨S640000, .i32⟩ : BufTy).Contents (Elt F) → (⟨S640000, .i32⟩ : BufTy).Contents (Elt F) → (⟨S640000, .i32⟩ : BufTy).Contents (Elt F))
  :: ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v8 main_v9 (broadcastInDim S640000x1 ![0] bcast_S640000_S640000x1_0 : (⟨S640000, .i32⟩ : BufTy).Contents (Elt F) → (⟨S640000x1, .i32⟩ : BufTy).Contents (Elt F))
  :: binary main_arg0 main_v9 main_v10 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F))
  :: nullary main_cst (constant S_ .f32 0x00000000#32)
  :: unary main_cst main_v11 (broadcastInDim S100000x128 ![] bcast_S_S100000x128 : (⟨S_, .f32⟩ : BufTy).Contents (Elt F) → (⟨S100000x128, .f32⟩ : BufTy).Contents (Elt F))
  :: unary main_v3 main_v12 (broadcastInDim S640000x1 ![0] bcast_S640000_S640000x1_0 : (⟨S640000, .i32⟩ : BufTy).Contents (Elt F) → (⟨S640000x1, .i32⟩ : BufTy).Contents (Elt F))
  :: ternary main_v11 main_v12 main_v10 main_v13 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F))
  :: binary main_arg0 main_v13 main_v14 (addf : (⟨S100000x128, .f32⟩ : BufTy).Contents (Elt F) → (⟨S100000x128, .f32⟩ : BufTy).Contents (Elt F) → (⟨S100000x128, .f32⟩ : BufTy).Contents (Elt F))
  :: unary main_arg2 main_v15 ((extractStridedSlice S1x128x256 ![0, 0, 0] · slices_S5x128x256_S1x128x256_0_0_0) : (⟨S5x128x256, .f32⟩ : BufTy).Contents (Elt F) → (⟨S1x128x256, .f32⟩ : BufTy).Contents (Elt F))
  :: reshape main_v15 main_v16 rfl shapeCasts_S1x128x256_S128x256
  :: binary main_v14 main_v16 main_v17 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F))
  :: unary main_arg3 main_v18 ((extractStridedSlice S1x256 ![0, 0] · slices_S5x256_S1x256_0_0) : (⟨S5x256, .f32⟩ : BufTy).Contents (Elt F) → (⟨S1x256, .f32⟩ : BufTy).Contents (Elt F))
  :: reshape main_v18 main_v19 rfl shapeCasts_S1x256_S256
  :: unary main_v19 main_v20 (broadcastInDim S1x256 ![1] bcast_S256_S1x256_1 : (⟨S256, .f32⟩ : BufTy).Contents (Elt F) → (⟨S1x256, .f32⟩ : BufTy).Contents (Elt F))
  :: unary main_v20 main_v21 (broadcastInDim S100000x256 ![0, 1] bcast_S1x256_S100000x256_0_1 : (⟨S1x256, .f32⟩ : BufTy).Contents (Elt F) → (⟨S100000x256, .f32⟩ : BufTy).Contents (Elt F))
  :: binary main_v17 main_v21 main_v22 (addf : (⟨S100000x256, .f32⟩ : BufTy).Contents (Elt F) → (⟨S100000x256, .f32⟩ : BufTy).Contents (Elt F) → (⟨S100000x256, .f32⟩ : BufTy).Contents (Elt F))
  :: unary main_arg4 main_v23 ((extractStridedSlice S1x256 ![0, 0] · slices_S5x256_S1x256_0_0) : (⟨S5x256, .f32⟩ : BufTy).Contents (Elt F) → (⟨S1x256, .f32⟩ : BufTy).Contents (Elt F))
  :: reshape main_v23 main_v24 rfl shapeCasts_S1x256_S256
  :: unary main_arg5 main_v25 ((extractStridedSlice S1x256 ![0, 0] · slices_S5x256_S1x256_0_0) : (⟨S5x256, .f32⟩ : BufTy).Contents (Elt F) → (⟨S1x256, .f32⟩ : BufTy).Contents (Elt F))
  :: reshape main_v25 main_v26 rfl shapeCasts_S1x256_S256
  :: unary main_arg6 main_v27 ((extractStridedSlice S1x256 ![0, 0] · slices_S5x256_S1x256_0_0) : (⟨S5x256, .f32⟩ : BufTy).Contents (Elt F) → (⟨S1x256, .f32⟩ : BufTy).Contents (Elt F))
  :: reshape main_v27 main_v28 rfl shapeCasts_S1x256_S256
  :: unary main_arg7 main_v29 ((extractStridedSlice S1x256 ![0, 0] · slices_S5x256_S1x256_0_0) : (⟨S5x256, .f32⟩ : BufTy).Contents (Elt F) → (⟨S1x256, .f32⟩ : BufTy).Contents (Elt F))
  :: reshape main_v29 main_v30 rfl shapeCasts_S1x256_S256
  :: unary main_v28 main_v31 (broadcastInDim S1x256 ![1] bcast_S256_S1x256_1 : (⟨S256, .f32⟩ : BufTy).Contents (Elt F) → (⟨S1x256, .f32⟩ : BufTy).Contents (Elt F))
  :: unary main_v31 main_v32 (broadcastInDim S100000x256 ![0, 1] bcast_S1x256_S100000x256_0_1 : (⟨S1x256, .f32⟩ : BufTy).Contents (Elt F) → (⟨S100000x256, .f32⟩ : BufTy).Contents (Elt F))
  :: binary main_v22 main_v32 main_v33 (subf : (⟨S100000x256, .f32⟩ : BufTy).Contents (Elt F) → (⟨S100000x256, .f32⟩ : BufTy).Contents (Elt F) → (⟨S100000x256, .f32⟩ : BufTy).Contents (Elt F))
  :: nullary main_cst_1 (constant S_ .f32 0x3727C5AC#32)
  :: unary main_cst_1 main_v34 (broadcastInDim S256 ![] bcast_S_S256 : (⟨S_, .f32⟩ : BufTy).Contents (Elt F) → (⟨S256, .f32⟩ : BufTy).Contents (Elt F))
  :: binary main_v30 main_v34 main_v35 (addf : (⟨S256, .f32⟩ : BufTy).Contents (Elt F) → (⟨S256, .f32⟩ : BufTy).Contents (Elt F) → (⟨S256, .f32⟩ : BufTy).Contents (Elt F))
  :: unary main_v35 main_v36 (Host.rsqrt : (⟨S256, .f32⟩ : BufTy).Contents (Elt F) → (⟨S256, .f32⟩ : BufTy).Contents (Elt F))
  :: unary main_v36 main_v37 (broadcastInDim S1x256 ![1] bcast_S256_S1x256_1 : (⟨S256, .f32⟩ : BufTy).Contents (Elt F) → (⟨S1x256, .f32⟩ : BufTy).Contents (Elt F))
  :: unary main_v37 main_v38 (broadcastInDim S100000x256 ![0, 1] bcast_S1x256_S100000x256_0_1 : (⟨S1x256, .f32⟩ : BufTy).Contents (Elt F) → (⟨S100000x256, .f32⟩ : BufTy).Contents (Elt F))
  :: binary main_v33 main_v38 main_v39 (mulf : (⟨S100000x256, .f32⟩ : BufTy).Contents (Elt F) → (⟨S100000x256, .f32⟩ : BufTy).Contents (Elt F) → (⟨S100000x256, .f32⟩ : BufTy).Contents (Elt F))
  :: unary main_v24 main_v40 (broadcastInDim S1x256 ![1] bcast_S256_S1x256_1 : (⟨S256, .f32⟩ : BufTy).Contents (Elt F) → (⟨S1x256, .f32⟩ : BufTy).Contents (Elt F))
  :: unary main_v40 main_v41 (broadcastInDim S100000x256 ![0, 1] bcast_S1x256_S100000x256_0_1 : (⟨S1x256, .f32⟩ : BufTy).Contents (Elt F) → (⟨S100000x256, .f32⟩ : BufTy).Contents (Elt F))
  :: binary main_v39 main_v41 main_v42 (mulf : (⟨S100000x256, .f32⟩ : BufTy).Contents (Elt F) → (⟨S100000x256, .f32⟩ : BufTy).Contents (Elt F) → (⟨S100000x256, .f32⟩ : BufTy).Contents (Elt F))
  :: unary main_v26 main_v43 (broadcastInDim S1x256 ![1] bcast_S256_S1x256_1 : (⟨S256, .f32⟩ : BufTy).Contents (Elt F) → (⟨S1x256, .f32⟩ : BufTy).Contents (Elt F))
  :: unary main_v43 main_v44 (broadcastInDim S100000x256 ![0, 1] bcast_S1x256_S100000x256_0_1 : (⟨S1x256, .f32⟩ : BufTy).Contents (Elt F) → (⟨S100000x256, .f32⟩ : BufTy).Contents (Elt F))
  :: binary main_v42 main_v44 main_v45 (addf : (⟨S100000x256, .f32⟩ : BufTy).Contents (Elt F) → (⟨S100000x256, .f32⟩ : BufTy).Contents (Elt F) → (⟨S100000x256, .f32⟩ : BufTy).Contents (Elt F))
  :: TRef.nullary (TRef.of (T := ⟨S_, .f32⟩) main_call0_cst) (constant S_ .f32 0x00000000#32)
  :: TRef.unary (TRef.of (T := ⟨S_, .f32⟩) main_call0_cst) (TRef.of (T := ⟨S100000x256, .f32⟩) main_call0_v0) (broadcastInDim S100000x256 ![] bcast_S_S100000x256)
  :: TRef.binary (TRef.of (T := ⟨S100000x256, .f32⟩) main_v45) (TRef.of (T := ⟨S100000x256, .f32⟩) main_call0_v0) (TRef.of (T := ⟨S100000x256, .f32⟩) main_v46) maximumf
  :: unary main_arg8 main_v47 ((extractStridedSlice S1x256x128 ![0, 0, 0] · slices_S5x256x128_S1x256x128_0_0_0) : (⟨S5x256x128, .f32⟩ : BufTy).Contents (Elt F) → (⟨S1x256x128, .f32⟩ : BufTy).Contents (Elt F))
  :: reshape main_v47 main_v48 rfl shapeCasts_S1x256x128_S256x128
  :: binary main_v46 main_v48 main_v49 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F))
  :: unary main_arg9 main_v50 ((extractStridedSlice S1x128 ![0, 0] · slices_S5x128_S1x128_0_0) : (⟨S5x128, .f32⟩ : BufTy).Contents (Elt F) → (⟨S1x128, .f32⟩ : BufTy).Contents (Elt F))
  :: reshape main_v50 main_v51 rfl shapeCasts_S1x128_S128
  :: unary main_v51 main_v52 (broadcastInDim S1x128 ![1] bcast_S128_S1x128_1 : (⟨S128, .f32⟩ : BufTy).Contents (Elt F) → (⟨S1x128, .f32⟩ : BufTy).Contents (Elt F))
  :: unary main_v52 main_v53 (broadcastInDim S100000x128 ![0, 1] bcast_S1x128_S100000x128_0_1 : (⟨S1x128, .f32⟩ : BufTy).Contents (Elt F) → (⟨S100000x128, .f32⟩ : BufTy).Contents (Elt F))
  :: binary main_v49 main_v53 main_v54 (addf : (⟨S100000x128, .f32⟩ : BufTy).Contents (Elt F) → (⟨S100000x128, .f32⟩ : BufTy).Contents (Elt F) → (⟨S100000x128, .f32⟩ : BufTy).Contents (Elt F))
  :: unary main_arg10 main_v55 ((extractStridedSlice S1x128 ![0, 0] · slices_S5x128_S1x128_0_0) : (⟨S5x128, .f32⟩ : BufTy).Contents (Elt F) → (⟨S1x128, .f32⟩ : BufTy).Contents (Elt F))
  :: reshape main_v55 main_v56 rfl shapeCasts_S1x128_S128
  :: unary main_arg11 main_v57 ((extractStridedSlice S1x128 ![0, 0] · slices_S5x128_S1x128_0_0) : (⟨S5x128, .f32⟩ : BufTy).Contents (Elt F) → (⟨S1x128, .f32⟩ : BufTy).Contents (Elt F))
  :: reshape main_v57 main_v58 rfl shapeCasts_S1x128_S128
  :: unary main_arg12 main_v59 ((extractStridedSlice S1x128 ![0, 0] · slices_S5x128_S1x128_0_0) : (⟨S5x128, .f32⟩ : BufTy).Contents (Elt F) → (⟨S1x128, .f32⟩ : BufTy).Contents (Elt F))
  :: reshape main_v59 main_v60 rfl shapeCasts_S1x128_S128
  :: unary main_arg13 main_v61 ((extractStridedSlice S1x128 ![0, 0] · slices_S5x128_S1x128_0_0) : (⟨S5x128, .f32⟩ : BufTy).Contents (Elt F) → (⟨S1x128, .f32⟩ : BufTy).Contents (Elt F))
  :: reshape main_v61 main_v62 rfl shapeCasts_S1x128_S128
  :: unary main_v60 main_v63 (broadcastInDim S1x128 ![1] bcast_S128_S1x128_1 : (⟨S128, .f32⟩ : BufTy).Contents (Elt F) → (⟨S1x128, .f32⟩ : BufTy).Contents (Elt F))
  :: unary main_v63 main_v64 (broadcastInDim S100000x128 ![0, 1] bcast_S1x128_S100000x128_0_1 : (⟨S1x128, .f32⟩ : BufTy).Contents (Elt F) → (⟨S100000x128, .f32⟩ : BufTy).Contents (Elt F))
  :: binary main_v54 main_v64 main_v65 (subf : (⟨S100000x128, .f32⟩ : BufTy).Contents (Elt F) → (⟨S100000x128, .f32⟩ : BufTy).Contents (Elt F) → (⟨S100000x128, .f32⟩ : BufTy).Contents (Elt F))
  :: nullary main_cst_2 (constant S_ .f32 0x3727C5AC#32)
  :: unary main_cst_2 main_v66 (broadcastInDim S128 ![] bcast_S_S128 : (⟨S_, .f32⟩ : BufTy).Contents (Elt F) → (⟨S128, .f32⟩ : BufTy).Contents (Elt F))
  :: binary main_v62 main_v66 main_v67 (addf : (⟨S128, .f32⟩ : BufTy).Contents (Elt F) → (⟨S128, .f32⟩ : BufTy).Contents (Elt F) → (⟨S128, .f32⟩ : BufTy).Contents (Elt F))
  :: unary main_v67 main_v68 (Host.rsqrt : (⟨S128, .f32⟩ : BufTy).Contents (Elt F) → (⟨S128, .f32⟩ : BufTy).Contents (Elt F))
  :: unary main_v68 main_v69 (broadcastInDim S1x128 ![1] bcast_S128_S1x128_1 : (⟨S128, .f32⟩ : BufTy).Contents (Elt F) → (⟨S1x128, .f32⟩ : BufTy).Contents (Elt F))
  :: unary main_v69 main_v70 (broadcastInDim S100000x128 ![0, 1] bcast_S1x128_S100000x128_0_1 : (⟨S1x128, .f32⟩ : BufTy).Contents (Elt F) → (⟨S100000x128, .f32⟩ : BufTy).Contents (Elt F))
  :: binary main_v65 main_v70 main_v71 (mulf : (⟨S100000x128, .f32⟩ : BufTy).Contents (Elt F) → (⟨S100000x128, .f32⟩ : BufTy).Contents (Elt F) → (⟨S100000x128, .f32⟩ : BufTy).Contents (Elt F))
  :: unary main_v56 main_v72 (broadcastInDim S1x128 ![1] bcast_S128_S1x128_1 : (⟨S128, .f32⟩ : BufTy).Contents (Elt F) → (⟨S1x128, .f32⟩ : BufTy).Contents (Elt F))
  :: unary main_v72 main_v73 (broadcastInDim S100000x128 ![0, 1] bcast_S1x128_S100000x128_0_1 : (⟨S1x128, .f32⟩ : BufTy).Contents (Elt F) → (⟨S100000x128, .f32⟩ : BufTy).Contents (Elt F))
  :: binary main_v71 main_v73 main_v74 (mulf : (⟨S100000x128, .f32⟩ : BufTy).Contents (Elt F) → (⟨S100000x128, .f32⟩ : BufTy).Contents (Elt F) → (⟨S100000x128, .f32⟩ : BufTy).Contents (Elt F))
  :: unary main_v58 main_v75 (broadcastInDim S1x128 ![1] bcast_S128_S1x128_1 : (⟨S128, .f32⟩ : BufTy).Contents (Elt F) → (⟨S1x128, .f32⟩ : BufTy).Contents (Elt F))
  :: unary main_v75 main_v76 (broadcastInDim S100000x128 ![0, 1] bcast_S1x128_S100000x128_0_1 : (⟨S1x128, .f32⟩ : BufTy).Contents (Elt F) → (⟨S100000x128, .f32⟩ : BufTy).Contents (Elt F))
  :: binary main_v74 main_v76 main_v77 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call1_cst) (constant S_ .f32 0x00000000#32)
  :: TRef.unary (TRef.of (T := ⟨S_, .f32⟩) main_call1_cst) (TRef.of (T := ⟨S100000x128, .f32⟩) main_call1_v0) (broadcastInDim S100000x128 ![] bcast_S_S100000x128)
  :: TRef.binary (TRef.of (T := ⟨S100000x128, .f32⟩) main_v77) (TRef.of (T := ⟨S100000x128, .f32⟩) main_call1_v0) (TRef.of (T := ⟨S100000x128, .f32⟩) main_v78) maximumf
  :: [] )

/-- The 84 operations of layer 1, in order; the last one writes the layer's output, `main_v153`. -/
abbrev ops1 : List (HloOp τ sig (Elt F)) :=
  ( nullary main_c_3 (constantI S_ 32 0#32)
  :: unary main_c_3 main_v79 (broadcastInDim S640000 ![] bcast_S_S640000 : (⟨S_, .i32⟩ : BufTy).Contents (Elt F) → (⟨S640000, .i32⟩ : BufTy).Contents (Elt F))
  :: binary main_v1 main_v79 main_v80 (cmpi .slt : (⟨S640000, .i32⟩ : BufTy).Contents (Elt F) → (⟨S640000, .i32⟩ : BufTy).Contents (Elt F) → (⟨S640000, .i1⟩ : BufTy).Contents (Elt F))
  :: nullary main_c_4 (constantI S_ 32 100000#32)
  :: unary main_c_4 main_v81 (broadcastInDim S640000 ![] bcast_S_S640000 : (⟨S_, .i32⟩ : BufTy).Contents (Elt F) → (⟨S640000, .i32⟩ : BufTy).Contents (Elt F))
  :: binary main_v1 main_v81 main_v82 (addi : (⟨S640000, .i32⟩ : BufTy).Contents (Elt F) → (⟨S640000, .i32⟩ : BufTy).Contents (Elt F) → (⟨S640000, .i32⟩ : BufTy).Contents (Elt F))
  :: ternary main_v80 main_v82 main_v1 main_v83 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v83 main_v84 (broadcastInDim S640000x1 ![0] bcast_S640000_S640000x1_0 : (⟨S640000, .i32⟩ : BufTy).Contents (Elt F) → (⟨S640000x1, .i32⟩ : BufTy).Contents (Elt F))
  :: binary main_v78 main_v84 main_v85 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F))
  :: nullary main_cst_5 (constant S_ .f32 0x00000000#32)
  :: unary main_cst_5 main_v86 (broadcastInDim S100000x128 ![] bcast_S_S100000x128 : (⟨S_, .f32⟩ : BufTy).Contents (Elt F) → (⟨S100000x128, .f32⟩ : BufTy).Contents (Elt F))
  :: unary main_v3 main_v87 (broadcastInDim S640000x1 ![0] bcast_S640000_S640000x1_0 : (⟨S640000, .i32⟩ : BufTy).Contents (Elt F) → (⟨S640000x1, .i32⟩ : BufTy).Contents (Elt F))
  :: ternary main_v86 main_v87 main_v85 main_v88 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F))
  :: binary main_v78 main_v88 main_v89 (addf : (⟨S100000x128, .f32⟩ : BufTy).Contents (Elt F) → (⟨S100000x128, .f32⟩ : BufTy).Contents (Elt F) → (⟨S100000x128, .f32⟩ : BufTy).Contents (Elt F))
  :: unary main_arg2 main_v90 ((extractStridedSlice S1x128x256 ![1, 0, 0] · slices_S5x128x256_S1x128x256_1_0_0) : (⟨S5x128x256, .f32⟩ : BufTy).Contents (Elt F) → (⟨S1x128x256, .f32⟩ : BufTy).Contents (Elt F))
  :: reshape main_v90 main_v91 rfl shapeCasts_S1x128x256_S128x256
  :: binary main_v89 main_v91 main_v92 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F))
  :: unary main_arg3 main_v93 ((extractStridedSlice S1x256 ![1, 0] · slices_S5x256_S1x256_1_0) : (⟨S5x256, .f32⟩ : BufTy).Contents (Elt F) → (⟨S1x256, .f32⟩ : BufTy).Contents (Elt F))
  :: reshape main_v93 main_v94 rfl shapeCasts_S1x256_S256
  :: unary main_v94 main_v95 (broadcastInDim S1x256 ![1] bcast_S256_S1x256_1 : (⟨S256, .f32⟩ : BufTy).Contents (Elt F) → (⟨S1x256, .f32⟩ : BufTy).Contents (Elt F))
  :: unary main_v95 main_v96 (broadcastInDim S100000x256 ![0, 1] bcast_S1x256_S100000x256_0_1 : (⟨S1x256, .f32⟩ : BufTy).Contents (Elt F) → (⟨S100000x256, .f32⟩ : BufTy).Contents (Elt F))
  :: binary main_v92 main_v96 main_v97 (addf : (⟨S100000x256, .f32⟩ : BufTy).Contents (Elt F) → (⟨S100000x256, .f32⟩ : BufTy).Contents (Elt F) → (⟨S100000x256, .f32⟩ : BufTy).Contents (Elt F))
  :: unary main_arg4 main_v98 ((extractStridedSlice S1x256 ![1, 0] · slices_S5x256_S1x256_1_0) : (⟨S5x256, .f32⟩ : BufTy).Contents (Elt F) → (⟨S1x256, .f32⟩ : BufTy).Contents (Elt F))
  :: reshape main_v98 main_v99 rfl shapeCasts_S1x256_S256
  :: unary main_arg5 main_v100 ((extractStridedSlice S1x256 ![1, 0] · slices_S5x256_S1x256_1_0) : (⟨S5x256, .f32⟩ : BufTy).Contents (Elt F) → (⟨S1x256, .f32⟩ : BufTy).Contents (Elt F))
  :: reshape main_v100 main_v101 rfl shapeCasts_S1x256_S256
  :: unary main_arg6 main_v102 ((extractStridedSlice S1x256 ![1, 0] · slices_S5x256_S1x256_1_0) : (⟨S5x256, .f32⟩ : BufTy).Contents (Elt F) → (⟨S1x256, .f32⟩ : BufTy).Contents (Elt F))
  :: reshape main_v102 main_v103 rfl shapeCasts_S1x256_S256
  :: unary main_arg7 main_v104 ((extractStridedSlice S1x256 ![1, 0] · slices_S5x256_S1x256_1_0) : (⟨S5x256, .f32⟩ : BufTy).Contents (Elt F) → (⟨S1x256, .f32⟩ : BufTy).Contents (Elt F))
  :: reshape main_v104 main_v105 rfl shapeCasts_S1x256_S256
  :: unary main_v103 main_v106 (broadcastInDim S1x256 ![1] bcast_S256_S1x256_1 : (⟨S256, .f32⟩ : BufTy).Contents (Elt F) → (⟨S1x256, .f32⟩ : BufTy).Contents (Elt F))
  :: unary main_v106 main_v107 (broadcastInDim S100000x256 ![0, 1] bcast_S1x256_S100000x256_0_1 : (⟨S1x256, .f32⟩ : BufTy).Contents (Elt F) → (⟨S100000x256, .f32⟩ : BufTy).Contents (Elt F))
  :: binary main_v97 main_v107 main_v108 (subf : (⟨S100000x256, .f32⟩ : BufTy).Contents (Elt F) → (⟨S100000x256, .f32⟩ : BufTy).Contents (Elt F) → (⟨S100000x256, .f32⟩ : BufTy).Contents (Elt F))
  :: nullary main_cst_6 (constant S_ .f32 0x3727C5AC#32)
  :: unary main_cst_6 main_v109 (broadcastInDim S256 ![] bcast_S_S256 : (⟨S_, .f32⟩ : BufTy).Contents (Elt F) → (⟨S256, .f32⟩ : BufTy).Contents (Elt F))
  :: binary main_v105 main_v109 main_v110 (addf : (⟨S256, .f32⟩ : BufTy).Contents (Elt F) → (⟨S256, .f32⟩ : BufTy).Contents (Elt F) → (⟨S256, .f32⟩ : BufTy).Contents (Elt F))
  :: unary main_v110 main_v111 (Host.rsqrt : (⟨S256, .f32⟩ : BufTy).Contents (Elt F) → (⟨S256, .f32⟩ : BufTy).Contents (Elt F))
  :: unary main_v111 main_v112 (broadcastInDim S1x256 ![1] bcast_S256_S1x256_1 : (⟨S256, .f32⟩ : BufTy).Contents (Elt F) → (⟨S1x256, .f32⟩ : BufTy).Contents (Elt F))
  :: unary main_v112 main_v113 (broadcastInDim S100000x256 ![0, 1] bcast_S1x256_S100000x256_0_1 : (⟨S1x256, .f32⟩ : BufTy).Contents (Elt F) → (⟨S100000x256, .f32⟩ : BufTy).Contents (Elt F))
  :: binary main_v108 main_v113 main_v114 (mulf : (⟨S100000x256, .f32⟩ : BufTy).Contents (Elt F) → (⟨S100000x256, .f32⟩ : BufTy).Contents (Elt F) → (⟨S100000x256, .f32⟩ : BufTy).Contents (Elt F))
  :: unary main_v99 main_v115 (broadcastInDim S1x256 ![1] bcast_S256_S1x256_1 : (⟨S256, .f32⟩ : BufTy).Contents (Elt F) → (⟨S1x256, .f32⟩ : BufTy).Contents (Elt F))
  :: unary main_v115 main_v116 (broadcastInDim S100000x256 ![0, 1] bcast_S1x256_S100000x256_0_1 : (⟨S1x256, .f32⟩ : BufTy).Contents (Elt F) → (⟨S100000x256, .f32⟩ : BufTy).Contents (Elt F))
  :: binary main_v114 main_v116 main_v117 (mulf : (⟨S100000x256, .f32⟩ : BufTy).Contents (Elt F) → (⟨S100000x256, .f32⟩ : BufTy).Contents (Elt F) → (⟨S100000x256, .f32⟩ : BufTy).Contents (Elt F))
  :: unary main_v101 main_v118 (broadcastInDim S1x256 ![1] bcast_S256_S1x256_1 : (⟨S256, .f32⟩ : BufTy).Contents (Elt F) → (⟨S1x256, .f32⟩ : BufTy).Contents (Elt F))
  :: unary main_v118 main_v119 (broadcastInDim S100000x256 ![0, 1] bcast_S1x256_S100000x256_0_1 : (⟨S1x256, .f32⟩ : BufTy).Contents (Elt F) → (⟨S100000x256, .f32⟩ : BufTy).Contents (Elt F))
  :: binary main_v117 main_v119 main_v120 (addf : (⟨S100000x256, .f32⟩ : BufTy).Contents (Elt F) → (⟨S100000x256, .f32⟩ : BufTy).Contents (Elt F) → (⟨S100000x256, .f32⟩ : BufTy).Contents (Elt F))
  :: TRef.nullary (TRef.of (T := ⟨S_, .f32⟩) main_call2_cst) (constant S_ .f32 0x00000000#32)
  :: TRef.unary (TRef.of (T := ⟨S_, .f32⟩) main_call2_cst) (TRef.of (T := ⟨S100000x256, .f32⟩) main_call2_v0) (broadcastInDim S100000x256 ![] bcast_S_S100000x256)
  :: TRef.binary (TRef.of (T := ⟨S100000x256, .f32⟩) main_v120) (TRef.of (T := ⟨S100000x256, .f32⟩) main_call2_v0) (TRef.of (T := ⟨S100000x256, .f32⟩) main_v121) maximumf
  :: unary main_arg8 main_v122 ((extractStridedSlice S1x256x128 ![1, 0, 0] · slices_S5x256x128_S1x256x128_1_0_0) : (⟨S5x256x128, .f32⟩ : BufTy).Contents (Elt F) → (⟨S1x256x128, .f32⟩ : BufTy).Contents (Elt F))
  :: reshape main_v122 main_v123 rfl shapeCasts_S1x256x128_S256x128
  :: binary main_v121 main_v123 main_v124 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F))
  :: unary main_arg9 main_v125 ((extractStridedSlice S1x128 ![1, 0] · slices_S5x128_S1x128_1_0) : (⟨S5x128, .f32⟩ : BufTy).Contents (Elt F) → (⟨S1x128, .f32⟩ : BufTy).Contents (Elt F))
  :: reshape main_v125 main_v126 rfl shapeCasts_S1x128_S128
  :: unary main_v126 main_v127 (broadcastInDim S1x128 ![1] bcast_S128_S1x128_1 : (⟨S128, .f32⟩ : BufTy).Contents (Elt F) → (⟨S1x128, .f32⟩ : BufTy).Contents (Elt F))
  :: unary main_v127 main_v128 (broadcastInDim S100000x128 ![0, 1] bcast_S1x128_S100000x128_0_1 : (⟨S1x128, .f32⟩ : BufTy).Contents (Elt F) → (⟨S100000x128, .f32⟩ : BufTy).Contents (Elt F))
  :: binary main_v124 main_v128 main_v129 (addf : (⟨S100000x128, .f32⟩ : BufTy).Contents (Elt F) → (⟨S100000x128, .f32⟩ : BufTy).Contents (Elt F) → (⟨S100000x128, .f32⟩ : BufTy).Contents (Elt F))
  :: unary main_arg10 main_v130 ((extractStridedSlice S1x128 ![1, 0] · slices_S5x128_S1x128_1_0) : (⟨S5x128, .f32⟩ : BufTy).Contents (Elt F) → (⟨S1x128, .f32⟩ : BufTy).Contents (Elt F))
  :: reshape main_v130 main_v131 rfl shapeCasts_S1x128_S128
  :: unary main_arg11 main_v132 ((extractStridedSlice S1x128 ![1, 0] · slices_S5x128_S1x128_1_0) : (⟨S5x128, .f32⟩ : BufTy).Contents (Elt F) → (⟨S1x128, .f32⟩ : BufTy).Contents (Elt F))
  :: reshape main_v132 main_v133 rfl shapeCasts_S1x128_S128
  :: unary main_arg12 main_v134 ((extractStridedSlice S1x128 ![1, 0] · slices_S5x128_S1x128_1_0) : (⟨S5x128, .f32⟩ : BufTy).Contents (Elt F) → (⟨S1x128, .f32⟩ : BufTy).Contents (Elt F))
  :: reshape main_v134 main_v135 rfl shapeCasts_S1x128_S128
  :: unary main_arg13 main_v136 ((extractStridedSlice S1x128 ![1, 0] · slices_S5x128_S1x128_1_0) : (⟨S5x128, .f32⟩ : BufTy).Contents (Elt F) → (⟨S1x128, .f32⟩ : BufTy).Contents (Elt F))
  :: reshape main_v136 main_v137 rfl shapeCasts_S1x128_S128
  :: unary main_v135 main_v138 (broadcastInDim S1x128 ![1] bcast_S128_S1x128_1 : (⟨S128, .f32⟩ : BufTy).Contents (Elt F) → (⟨S1x128, .f32⟩ : BufTy).Contents (Elt F))
  :: unary main_v138 main_v139 (broadcastInDim S100000x128 ![0, 1] bcast_S1x128_S100000x128_0_1 : (⟨S1x128, .f32⟩ : BufTy).Contents (Elt F) → (⟨S100000x128, .f32⟩ : BufTy).Contents (Elt F))
  :: binary main_v129 main_v139 main_v140 (subf : (⟨S100000x128, .f32⟩ : BufTy).Contents (Elt F) → (⟨S100000x128, .f32⟩ : BufTy).Contents (Elt F) → (⟨S100000x128, .f32⟩ : BufTy).Contents (Elt F))
  :: nullary main_cst_7 (constant S_ .f32 0x3727C5AC#32)
  :: unary main_cst_7 main_v141 (broadcastInDim S128 ![] bcast_S_S128 : (⟨S_, .f32⟩ : BufTy).Contents (Elt F) → (⟨S128, .f32⟩ : BufTy).Contents (Elt F))
  :: binary main_v137 main_v141 main_v142 (addf : (⟨S128, .f32⟩ : BufTy).Contents (Elt F) → (⟨S128, .f32⟩ : BufTy).Contents (Elt F) → (⟨S128, .f32⟩ : BufTy).Contents (Elt F))
  :: unary main_v142 main_v143 (Host.rsqrt : (⟨S128, .f32⟩ : BufTy).Contents (Elt F) → (⟨S128, .f32⟩ : BufTy).Contents (Elt F))
  :: unary main_v143 main_v144 (broadcastInDim S1x128 ![1] bcast_S128_S1x128_1 : (⟨S128, .f32⟩ : BufTy).Contents (Elt F) → (⟨S1x128, .f32⟩ : BufTy).Contents (Elt F))
  :: unary main_v144 main_v145 (broadcastInDim S100000x128 ![0, 1] bcast_S1x128_S100000x128_0_1 : (⟨S1x128, .f32⟩ : BufTy).Contents (Elt F) → (⟨S100000x128, .f32⟩ : BufTy).Contents (Elt F))
  :: binary main_v140 main_v145 main_v146 (mulf : (⟨S100000x128, .f32⟩ : BufTy).Contents (Elt F) → (⟨S100000x128, .f32⟩ : BufTy).Contents (Elt F) → (⟨S100000x128, .f32⟩ : BufTy).Contents (Elt F))
  :: unary main_v131 main_v147 (broadcastInDim S1x128 ![1] bcast_S128_S1x128_1 : (⟨S128, .f32⟩ : BufTy).Contents (Elt F) → (⟨S1x128, .f32⟩ : BufTy).Contents (Elt F))
  :: unary main_v147 main_v148 (broadcastInDim S100000x128 ![0, 1] bcast_S1x128_S100000x128_0_1 : (⟨S1x128, .f32⟩ : BufTy).Contents (Elt F) → (⟨S100000x128, .f32⟩ : BufTy).Contents (Elt F))
  :: binary main_v146 main_v148 main_v149 (mulf : (⟨S100000x128, .f32⟩ : BufTy).Contents (Elt F) → (⟨S100000x128, .f32⟩ : BufTy).Contents (Elt F) → (⟨S100000x128, .f32⟩ : BufTy).Contents (Elt F))
  :: unary main_v133 main_v150 (broadcastInDim S1x128 ![1] bcast_S128_S1x128_1 : (⟨S128, .f32⟩ : BufTy).Contents (Elt F) → (⟨S1x128, .f32⟩ : BufTy).Contents (Elt F))
  :: unary main_v150 main_v151 (broadcastInDim S100000x128 ![0, 1] bcast_S1x128_S100000x128_0_1 : (⟨S1x128, .f32⟩ : BufTy).Contents (Elt F) → (⟨S100000x128, .f32⟩ : BufTy).Contents (Elt F))
  :: binary main_v149 main_v151 main_v152 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call3_cst) (constant S_ .f32 0x00000000#32)
  :: TRef.unary (TRef.of (T := ⟨S_, .f32⟩) main_call3_cst) (TRef.of (T := ⟨S100000x128, .f32⟩) main_call3_v0) (broadcastInDim S100000x128 ![] bcast_S_S100000x128)
  :: TRef.binary (TRef.of (T := ⟨S100000x128, .f32⟩) main_v152) (TRef.of (T := ⟨S100000x128, .f32⟩) main_call3_v0) (TRef.of (T := ⟨S100000x128, .f32⟩) main_v153) maximumf
  :: [] )

/-- The 84 operations of layer 2, in order; the last one writes the layer's output, `main_v228`. -/
abbrev ops2 : List (HloOp τ sig (Elt F)) :=
  ( nullary main_c_8 (constantI S_ 32 0#32)
  :: unary main_c_8 main_v154 (broadcastInDim S640000 ![] bcast_S_S640000 : (⟨S_, .i32⟩ : BufTy).Contents (Elt F) → (⟨S640000, .i32⟩ : BufTy).Contents (Elt F))
  :: binary main_v1 main_v154 main_v155 (cmpi .slt : (⟨S640000, .i32⟩ : BufTy).Contents (Elt F) → (⟨S640000, .i32⟩ : BufTy).Contents (Elt F) → (⟨S640000, .i1⟩ : BufTy).Contents (Elt F))
  :: nullary main_c_9 (constantI S_ 32 100000#32)
  :: unary main_c_9 main_v156 (broadcastInDim S640000 ![] bcast_S_S640000 : (⟨S_, .i32⟩ : BufTy).Contents (Elt F) → (⟨S640000, .i32⟩ : BufTy).Contents (Elt F))
  :: binary main_v1 main_v156 main_v157 (addi : (⟨S640000, .i32⟩ : BufTy).Contents (Elt F) → (⟨S640000, .i32⟩ : BufTy).Contents (Elt F) → (⟨S640000, .i32⟩ : BufTy).Contents (Elt F))
  :: ternary main_v155 main_v157 main_v1 main_v158 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v158 main_v159 (broadcastInDim S640000x1 ![0] bcast_S640000_S640000x1_0 : (⟨S640000, .i32⟩ : BufTy).Contents (Elt F) → (⟨S640000x1, .i32⟩ : BufTy).Contents (Elt F))
  :: binary main_v153 main_v159 main_v160 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F))
  :: nullary main_cst_10 (constant S_ .f32 0x00000000#32)
  :: unary main_cst_10 main_v161 (broadcastInDim S100000x128 ![] bcast_S_S100000x128 : (⟨S_, .f32⟩ : BufTy).Contents (Elt F) → (⟨S100000x128, .f32⟩ : BufTy).Contents (Elt F))
  :: unary main_v3 main_v162 (broadcastInDim S640000x1 ![0] bcast_S640000_S640000x1_0 : (⟨S640000, .i32⟩ : BufTy).Contents (Elt F) → (⟨S640000x1, .i32⟩ : BufTy).Contents (Elt F))
  :: ternary main_v161 main_v162 main_v160 main_v163 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F))
  :: binary main_v153 main_v163 main_v164 (addf : (⟨S100000x128, .f32⟩ : BufTy).Contents (Elt F) → (⟨S100000x128, .f32⟩ : BufTy).Contents (Elt F) → (⟨S100000x128, .f32⟩ : BufTy).Contents (Elt F))
  :: unary main_arg2 main_v165 ((extractStridedSlice S1x128x256 ![2, 0, 0] · slices_S5x128x256_S1x128x256_2_0_0) : (⟨S5x128x256, .f32⟩ : BufTy).Contents (Elt F) → (⟨S1x128x256, .f32⟩ : BufTy).Contents (Elt F))
  :: reshape main_v165 main_v166 rfl shapeCasts_S1x128x256_S128x256
  :: binary main_v164 main_v166 main_v167 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F))
  :: unary main_arg3 main_v168 ((extractStridedSlice S1x256 ![2, 0] · slices_S5x256_S1x256_2_0) : (⟨S5x256, .f32⟩ : BufTy).Contents (Elt F) → (⟨S1x256, .f32⟩ : BufTy).Contents (Elt F))
  :: reshape main_v168 main_v169 rfl shapeCasts_S1x256_S256
  :: unary main_v169 main_v170 (broadcastInDim S1x256 ![1] bcast_S256_S1x256_1 : (⟨S256, .f32⟩ : BufTy).Contents (Elt F) → (⟨S1x256, .f32⟩ : BufTy).Contents (Elt F))
  :: unary main_v170 main_v171 (broadcastInDim S100000x256 ![0, 1] bcast_S1x256_S100000x256_0_1 : (⟨S1x256, .f32⟩ : BufTy).Contents (Elt F) → (⟨S100000x256, .f32⟩ : BufTy).Contents (Elt F))
  :: binary main_v167 main_v171 main_v172 (addf : (⟨S100000x256, .f32⟩ : BufTy).Contents (Elt F) → (⟨S100000x256, .f32⟩ : BufTy).Contents (Elt F) → (⟨S100000x256, .f32⟩ : BufTy).Contents (Elt F))
  :: unary main_arg4 main_v173 ((extractStridedSlice S1x256 ![2, 0] · slices_S5x256_S1x256_2_0) : (⟨S5x256, .f32⟩ : BufTy).Contents (Elt F) → (⟨S1x256, .f32⟩ : BufTy).Contents (Elt F))
  :: reshape main_v173 main_v174 rfl shapeCasts_S1x256_S256
  :: unary main_arg5 main_v175 ((extractStridedSlice S1x256 ![2, 0] · slices_S5x256_S1x256_2_0) : (⟨S5x256, .f32⟩ : BufTy).Contents (Elt F) → (⟨S1x256, .f32⟩ : BufTy).Contents (Elt F))
  :: reshape main_v175 main_v176 rfl shapeCasts_S1x256_S256
  :: unary main_arg6 main_v177 ((extractStridedSlice S1x256 ![2, 0] · slices_S5x256_S1x256_2_0) : (⟨S5x256, .f32⟩ : BufTy).Contents (Elt F) → (⟨S1x256, .f32⟩ : BufTy).Contents (Elt F))
  :: reshape main_v177 main_v178 rfl shapeCasts_S1x256_S256
  :: unary main_arg7 main_v179 ((extractStridedSlice S1x256 ![2, 0] · slices_S5x256_S1x256_2_0) : (⟨S5x256, .f32⟩ : BufTy).Contents (Elt F) → (⟨S1x256, .f32⟩ : BufTy).Contents (Elt F))
  :: reshape main_v179 main_v180 rfl shapeCasts_S1x256_S256
  :: unary main_v178 main_v181 (broadcastInDim S1x256 ![1] bcast_S256_S1x256_1 : (⟨S256, .f32⟩ : BufTy).Contents (Elt F) → (⟨S1x256, .f32⟩ : BufTy).Contents (Elt F))
  :: unary main_v181 main_v182 (broadcastInDim S100000x256 ![0, 1] bcast_S1x256_S100000x256_0_1 : (⟨S1x256, .f32⟩ : BufTy).Contents (Elt F) → (⟨S100000x256, .f32⟩ : BufTy).Contents (Elt F))
  :: binary main_v172 main_v182 main_v183 (subf : (⟨S100000x256, .f32⟩ : BufTy).Contents (Elt F) → (⟨S100000x256, .f32⟩ : BufTy).Contents (Elt F) → (⟨S100000x256, .f32⟩ : BufTy).Contents (Elt F))
  :: nullary main_cst_11 (constant S_ .f32 0x3727C5AC#32)
  :: unary main_cst_11 main_v184 (broadcastInDim S256 ![] bcast_S_S256 : (⟨S_, .f32⟩ : BufTy).Contents (Elt F) → (⟨S256, .f32⟩ : BufTy).Contents (Elt F))
  :: binary main_v180 main_v184 main_v185 (addf : (⟨S256, .f32⟩ : BufTy).Contents (Elt F) → (⟨S256, .f32⟩ : BufTy).Contents (Elt F) → (⟨S256, .f32⟩ : BufTy).Contents (Elt F))
  :: unary main_v185 main_v186 (Host.rsqrt : (⟨S256, .f32⟩ : BufTy).Contents (Elt F) → (⟨S256, .f32⟩ : BufTy).Contents (Elt F))
  :: unary main_v186 main_v187 (broadcastInDim S1x256 ![1] bcast_S256_S1x256_1 : (⟨S256, .f32⟩ : BufTy).Contents (Elt F) → (⟨S1x256, .f32⟩ : BufTy).Contents (Elt F))
  :: unary main_v187 main_v188 (broadcastInDim S100000x256 ![0, 1] bcast_S1x256_S100000x256_0_1 : (⟨S1x256, .f32⟩ : BufTy).Contents (Elt F) → (⟨S100000x256, .f32⟩ : BufTy).Contents (Elt F))
  :: binary main_v183 main_v188 main_v189 (mulf : (⟨S100000x256, .f32⟩ : BufTy).Contents (Elt F) → (⟨S100000x256, .f32⟩ : BufTy).Contents (Elt F) → (⟨S100000x256, .f32⟩ : BufTy).Contents (Elt F))
  :: unary main_v174 main_v190 (broadcastInDim S1x256 ![1] bcast_S256_S1x256_1 : (⟨S256, .f32⟩ : BufTy).Contents (Elt F) → (⟨S1x256, .f32⟩ : BufTy).Contents (Elt F))
  :: unary main_v190 main_v191 (broadcastInDim S100000x256 ![0, 1] bcast_S1x256_S100000x256_0_1 : (⟨S1x256, .f32⟩ : BufTy).Contents (Elt F) → (⟨S100000x256, .f32⟩ : BufTy).Contents (Elt F))
  :: binary main_v189 main_v191 main_v192 (mulf : (⟨S100000x256, .f32⟩ : BufTy).Contents (Elt F) → (⟨S100000x256, .f32⟩ : BufTy).Contents (Elt F) → (⟨S100000x256, .f32⟩ : BufTy).Contents (Elt F))
  :: unary main_v176 main_v193 (broadcastInDim S1x256 ![1] bcast_S256_S1x256_1 : (⟨S256, .f32⟩ : BufTy).Contents (Elt F) → (⟨S1x256, .f32⟩ : BufTy).Contents (Elt F))
  :: unary main_v193 main_v194 (broadcastInDim S100000x256 ![0, 1] bcast_S1x256_S100000x256_0_1 : (⟨S1x256, .f32⟩ : BufTy).Contents (Elt F) → (⟨S100000x256, .f32⟩ : BufTy).Contents (Elt F))
  :: binary main_v192 main_v194 main_v195 (addf : (⟨S100000x256, .f32⟩ : BufTy).Contents (Elt F) → (⟨S100000x256, .f32⟩ : BufTy).Contents (Elt F) → (⟨S100000x256, .f32⟩ : BufTy).Contents (Elt F))
  :: TRef.nullary (TRef.of (T := ⟨S_, .f32⟩) main_call4_cst) (constant S_ .f32 0x00000000#32)
  :: TRef.unary (TRef.of (T := ⟨S_, .f32⟩) main_call4_cst) (TRef.of (T := ⟨S100000x256, .f32⟩) main_call4_v0) (broadcastInDim S100000x256 ![] bcast_S_S100000x256)
  :: TRef.binary (TRef.of (T := ⟨S100000x256, .f32⟩) main_v195) (TRef.of (T := ⟨S100000x256, .f32⟩) main_call4_v0) (TRef.of (T := ⟨S100000x256, .f32⟩) main_v196) maximumf
  :: unary main_arg8 main_v197 ((extractStridedSlice S1x256x128 ![2, 0, 0] · slices_S5x256x128_S1x256x128_2_0_0) : (⟨S5x256x128, .f32⟩ : BufTy).Contents (Elt F) → (⟨S1x256x128, .f32⟩ : BufTy).Contents (Elt F))
  :: reshape main_v197 main_v198 rfl shapeCasts_S1x256x128_S256x128
  :: binary main_v196 main_v198 main_v199 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F))
  :: unary main_arg9 main_v200 ((extractStridedSlice S1x128 ![2, 0] · slices_S5x128_S1x128_2_0) : (⟨S5x128, .f32⟩ : BufTy).Contents (Elt F) → (⟨S1x128, .f32⟩ : BufTy).Contents (Elt F))
  :: reshape main_v200 main_v201 rfl shapeCasts_S1x128_S128
  :: unary main_v201 main_v202 (broadcastInDim S1x128 ![1] bcast_S128_S1x128_1 : (⟨S128, .f32⟩ : BufTy).Contents (Elt F) → (⟨S1x128, .f32⟩ : BufTy).Contents (Elt F))
  :: unary main_v202 main_v203 (broadcastInDim S100000x128 ![0, 1] bcast_S1x128_S100000x128_0_1 : (⟨S1x128, .f32⟩ : BufTy).Contents (Elt F) → (⟨S100000x128, .f32⟩ : BufTy).Contents (Elt F))
  :: binary main_v199 main_v203 main_v204 (addf : (⟨S100000x128, .f32⟩ : BufTy).Contents (Elt F) → (⟨S100000x128, .f32⟩ : BufTy).Contents (Elt F) → (⟨S100000x128, .f32⟩ : BufTy).Contents (Elt F))
  :: unary main_arg10 main_v205 ((extractStridedSlice S1x128 ![2, 0] · slices_S5x128_S1x128_2_0) : (⟨S5x128, .f32⟩ : BufTy).Contents (Elt F) → (⟨S1x128, .f32⟩ : BufTy).Contents (Elt F))
  :: reshape main_v205 main_v206 rfl shapeCasts_S1x128_S128
  :: unary main_arg11 main_v207 ((extractStridedSlice S1x128 ![2, 0] · slices_S5x128_S1x128_2_0) : (⟨S5x128, .f32⟩ : BufTy).Contents (Elt F) → (⟨S1x128, .f32⟩ : BufTy).Contents (Elt F))
  :: reshape main_v207 main_v208 rfl shapeCasts_S1x128_S128
  :: unary main_arg12 main_v209 ((extractStridedSlice S1x128 ![2, 0] · slices_S5x128_S1x128_2_0) : (⟨S5x128, .f32⟩ : BufTy).Contents (Elt F) → (⟨S1x128, .f32⟩ : BufTy).Contents (Elt F))
  :: reshape main_v209 main_v210 rfl shapeCasts_S1x128_S128
  :: unary main_arg13 main_v211 ((extractStridedSlice S1x128 ![2, 0] · slices_S5x128_S1x128_2_0) : (⟨S5x128, .f32⟩ : BufTy).Contents (Elt F) → (⟨S1x128, .f32⟩ : BufTy).Contents (Elt F))
  :: reshape main_v211 main_v212 rfl shapeCasts_S1x128_S128
  :: unary main_v210 main_v213 (broadcastInDim S1x128 ![1] bcast_S128_S1x128_1 : (⟨S128, .f32⟩ : BufTy).Contents (Elt F) → (⟨S1x128, .f32⟩ : BufTy).Contents (Elt F))
  :: unary main_v213 main_v214 (broadcastInDim S100000x128 ![0, 1] bcast_S1x128_S100000x128_0_1 : (⟨S1x128, .f32⟩ : BufTy).Contents (Elt F) → (⟨S100000x128, .f32⟩ : BufTy).Contents (Elt F))
  :: binary main_v204 main_v214 main_v215 (subf : (⟨S100000x128, .f32⟩ : BufTy).Contents (Elt F) → (⟨S100000x128, .f32⟩ : BufTy).Contents (Elt F) → (⟨S100000x128, .f32⟩ : BufTy).Contents (Elt F))
  :: nullary main_cst_12 (constant S_ .f32 0x3727C5AC#32)
  :: unary main_cst_12 main_v216 (broadcastInDim S128 ![] bcast_S_S128 : (⟨S_, .f32⟩ : BufTy).Contents (Elt F) → (⟨S128, .f32⟩ : BufTy).Contents (Elt F))
  :: binary main_v212 main_v216 main_v217 (addf : (⟨S128, .f32⟩ : BufTy).Contents (Elt F) → (⟨S128, .f32⟩ : BufTy).Contents (Elt F) → (⟨S128, .f32⟩ : BufTy).Contents (Elt F))
  :: unary main_v217 main_v218 (Host.rsqrt : (⟨S128, .f32⟩ : BufTy).Contents (Elt F) → (⟨S128, .f32⟩ : BufTy).Contents (Elt F))
  :: unary main_v218 main_v219 (broadcastInDim S1x128 ![1] bcast_S128_S1x128_1 : (⟨S128, .f32⟩ : BufTy).Contents (Elt F) → (⟨S1x128, .f32⟩ : BufTy).Contents (Elt F))
  :: unary main_v219 main_v220 (broadcastInDim S100000x128 ![0, 1] bcast_S1x128_S100000x128_0_1 : (⟨S1x128, .f32⟩ : BufTy).Contents (Elt F) → (⟨S100000x128, .f32⟩ : BufTy).Contents (Elt F))
  :: binary main_v215 main_v220 main_v221 (mulf : (⟨S100000x128, .f32⟩ : BufTy).Contents (Elt F) → (⟨S100000x128, .f32⟩ : BufTy).Contents (Elt F) → (⟨S100000x128, .f32⟩ : BufTy).Contents (Elt F))
  :: unary main_v206 main_v222 (broadcastInDim S1x128 ![1] bcast_S128_S1x128_1 : (⟨S128, .f32⟩ : BufTy).Contents (Elt F) → (⟨S1x128, .f32⟩ : BufTy).Contents (Elt F))
  :: unary main_v222 main_v223 (broadcastInDim S100000x128 ![0, 1] bcast_S1x128_S100000x128_0_1 : (⟨S1x128, .f32⟩ : BufTy).Contents (Elt F) → (⟨S100000x128, .f32⟩ : BufTy).Contents (Elt F))
  :: binary main_v221 main_v223 main_v224 (mulf : (⟨S100000x128, .f32⟩ : BufTy).Contents (Elt F) → (⟨S100000x128, .f32⟩ : BufTy).Contents (Elt F) → (⟨S100000x128, .f32⟩ : BufTy).Contents (Elt F))
  :: unary main_v208 main_v225 (broadcastInDim S1x128 ![1] bcast_S128_S1x128_1 : (⟨S128, .f32⟩ : BufTy).Contents (Elt F) → (⟨S1x128, .f32⟩ : BufTy).Contents (Elt F))
  :: unary main_v225 main_v226 (broadcastInDim S100000x128 ![0, 1] bcast_S1x128_S100000x128_0_1 : (⟨S1x128, .f32⟩ : BufTy).Contents (Elt F) → (⟨S100000x128, .f32⟩ : BufTy).Contents (Elt F))
  :: binary main_v224 main_v226 main_v227 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call5_cst) (constant S_ .f32 0x00000000#32)
  :: TRef.unary (TRef.of (T := ⟨S_, .f32⟩) main_call5_cst) (TRef.of (T := ⟨S100000x128, .f32⟩) main_call5_v0) (broadcastInDim S100000x128 ![] bcast_S_S100000x128)
  :: TRef.binary (TRef.of (T := ⟨S100000x128, .f32⟩) main_v227) (TRef.of (T := ⟨S100000x128, .f32⟩) main_call5_v0) (TRef.of (T := ⟨S100000x128, .f32⟩) main_v228) maximumf
  :: [] )

/-- The 84 operations of layer 3, in order; the last one writes the layer's output, `main_v303`. -/
abbrev ops3 : List (HloOp τ sig (Elt F)) :=
  ( nullary main_c_13 (constantI S_ 32 0#32)
  :: unary main_c_13 main_v229 (broadcastInDim S640000 ![] bcast_S_S640000 : (⟨S_, .i32⟩ : BufTy).Contents (Elt F) → (⟨S640000, .i32⟩ : BufTy).Contents (Elt F))
  :: binary main_v1 main_v229 main_v230 (cmpi .slt : (⟨S640000, .i32⟩ : BufTy).Contents (Elt F) → (⟨S640000, .i32⟩ : BufTy).Contents (Elt F) → (⟨S640000, .i1⟩ : BufTy).Contents (Elt F))
  :: nullary main_c_14 (constantI S_ 32 100000#32)
  :: unary main_c_14 main_v231 (broadcastInDim S640000 ![] bcast_S_S640000 : (⟨S_, .i32⟩ : BufTy).Contents (Elt F) → (⟨S640000, .i32⟩ : BufTy).Contents (Elt F))
  :: binary main_v1 main_v231 main_v232 (addi : (⟨S640000, .i32⟩ : BufTy).Contents (Elt F) → (⟨S640000, .i32⟩ : BufTy).Contents (Elt F) → (⟨S640000, .i32⟩ : BufTy).Contents (Elt F))
  :: ternary main_v230 main_v232 main_v1 main_v233 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v233 main_v234 (broadcastInDim S640000x1 ![0] bcast_S640000_S640000x1_0 : (⟨S640000, .i32⟩ : BufTy).Contents (Elt F) → (⟨S640000x1, .i32⟩ : BufTy).Contents (Elt F))
  :: binary main_v228 main_v234 main_v235 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F))
  :: nullary main_cst_15 (constant S_ .f32 0x00000000#32)
  :: unary main_cst_15 main_v236 (broadcastInDim S100000x128 ![] bcast_S_S100000x128 : (⟨S_, .f32⟩ : BufTy).Contents (Elt F) → (⟨S100000x128, .f32⟩ : BufTy).Contents (Elt F))
  :: unary main_v3 main_v237 (broadcastInDim S640000x1 ![0] bcast_S640000_S640000x1_0 : (⟨S640000, .i32⟩ : BufTy).Contents (Elt F) → (⟨S640000x1, .i32⟩ : BufTy).Contents (Elt F))
  :: ternary main_v236 main_v237 main_v235 main_v238 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F))
  :: binary main_v228 main_v238 main_v239 (addf : (⟨S100000x128, .f32⟩ : BufTy).Contents (Elt F) → (⟨S100000x128, .f32⟩ : BufTy).Contents (Elt F) → (⟨S100000x128, .f32⟩ : BufTy).Contents (Elt F))
  :: unary main_arg2 main_v240 ((extractStridedSlice S1x128x256 ![3, 0, 0] · slices_S5x128x256_S1x128x256_3_0_0) : (⟨S5x128x256, .f32⟩ : BufTy).Contents (Elt F) → (⟨S1x128x256, .f32⟩ : BufTy).Contents (Elt F))
  :: reshape main_v240 main_v241 rfl shapeCasts_S1x128x256_S128x256
  :: binary main_v239 main_v241 main_v242 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F))
  :: unary main_arg3 main_v243 ((extractStridedSlice S1x256 ![3, 0] · slices_S5x256_S1x256_3_0) : (⟨S5x256, .f32⟩ : BufTy).Contents (Elt F) → (⟨S1x256, .f32⟩ : BufTy).Contents (Elt F))
  :: reshape main_v243 main_v244 rfl shapeCasts_S1x256_S256
  :: unary main_v244 main_v245 (broadcastInDim S1x256 ![1] bcast_S256_S1x256_1 : (⟨S256, .f32⟩ : BufTy).Contents (Elt F) → (⟨S1x256, .f32⟩ : BufTy).Contents (Elt F))
  :: unary main_v245 main_v246 (broadcastInDim S100000x256 ![0, 1] bcast_S1x256_S100000x256_0_1 : (⟨S1x256, .f32⟩ : BufTy).Contents (Elt F) → (⟨S100000x256, .f32⟩ : BufTy).Contents (Elt F))
  :: binary main_v242 main_v246 main_v247 (addf : (⟨S100000x256, .f32⟩ : BufTy).Contents (Elt F) → (⟨S100000x256, .f32⟩ : BufTy).Contents (Elt F) → (⟨S100000x256, .f32⟩ : BufTy).Contents (Elt F))
  :: unary main_arg4 main_v248 ((extractStridedSlice S1x256 ![3, 0] · slices_S5x256_S1x256_3_0) : (⟨S5x256, .f32⟩ : BufTy).Contents (Elt F) → (⟨S1x256, .f32⟩ : BufTy).Contents (Elt F))
  :: reshape main_v248 main_v249 rfl shapeCasts_S1x256_S256
  :: unary main_arg5 main_v250 ((extractStridedSlice S1x256 ![3, 0] · slices_S5x256_S1x256_3_0) : (⟨S5x256, .f32⟩ : BufTy).Contents (Elt F) → (⟨S1x256, .f32⟩ : BufTy).Contents (Elt F))
  :: reshape main_v250 main_v251 rfl shapeCasts_S1x256_S256
  :: unary main_arg6 main_v252 ((extractStridedSlice S1x256 ![3, 0] · slices_S5x256_S1x256_3_0) : (⟨S5x256, .f32⟩ : BufTy).Contents (Elt F) → (⟨S1x256, .f32⟩ : BufTy).Contents (Elt F))
  :: reshape main_v252 main_v253 rfl shapeCasts_S1x256_S256
  :: unary main_arg7 main_v254 ((extractStridedSlice S1x256 ![3, 0] · slices_S5x256_S1x256_3_0) : (⟨S5x256, .f32⟩ : BufTy).Contents (Elt F) → (⟨S1x256, .f32⟩ : BufTy).Contents (Elt F))
  :: reshape main_v254 main_v255 rfl shapeCasts_S1x256_S256
  :: unary main_v253 main_v256 (broadcastInDim S1x256 ![1] bcast_S256_S1x256_1 : (⟨S256, .f32⟩ : BufTy).Contents (Elt F) → (⟨S1x256, .f32⟩ : BufTy).Contents (Elt F))
  :: unary main_v256 main_v257 (broadcastInDim S100000x256 ![0, 1] bcast_S1x256_S100000x256_0_1 : (⟨S1x256, .f32⟩ : BufTy).Contents (Elt F) → (⟨S100000x256, .f32⟩ : BufTy).Contents (Elt F))
  :: binary main_v247 main_v257 main_v258 (subf : (⟨S100000x256, .f32⟩ : BufTy).Contents (Elt F) → (⟨S100000x256, .f32⟩ : BufTy).Contents (Elt F) → (⟨S100000x256, .f32⟩ : BufTy).Contents (Elt F))
  :: nullary main_cst_16 (constant S_ .f32 0x3727C5AC#32)
  :: unary main_cst_16 main_v259 (broadcastInDim S256 ![] bcast_S_S256 : (⟨S_, .f32⟩ : BufTy).Contents (Elt F) → (⟨S256, .f32⟩ : BufTy).Contents (Elt F))
  :: binary main_v255 main_v259 main_v260 (addf : (⟨S256, .f32⟩ : BufTy).Contents (Elt F) → (⟨S256, .f32⟩ : BufTy).Contents (Elt F) → (⟨S256, .f32⟩ : BufTy).Contents (Elt F))
  :: unary main_v260 main_v261 (Host.rsqrt : (⟨S256, .f32⟩ : BufTy).Contents (Elt F) → (⟨S256, .f32⟩ : BufTy).Contents (Elt F))
  :: unary main_v261 main_v262 (broadcastInDim S1x256 ![1] bcast_S256_S1x256_1 : (⟨S256, .f32⟩ : BufTy).Contents (Elt F) → (⟨S1x256, .f32⟩ : BufTy).Contents (Elt F))
  :: unary main_v262 main_v263 (broadcastInDim S100000x256 ![0, 1] bcast_S1x256_S100000x256_0_1 : (⟨S1x256, .f32⟩ : BufTy).Contents (Elt F) → (⟨S100000x256, .f32⟩ : BufTy).Contents (Elt F))
  :: binary main_v258 main_v263 main_v264 (mulf : (⟨S100000x256, .f32⟩ : BufTy).Contents (Elt F) → (⟨S100000x256, .f32⟩ : BufTy).Contents (Elt F) → (⟨S100000x256, .f32⟩ : BufTy).Contents (Elt F))
  :: unary main_v249 main_v265 (broadcastInDim S1x256 ![1] bcast_S256_S1x256_1 : (⟨S256, .f32⟩ : BufTy).Contents (Elt F) → (⟨S1x256, .f32⟩ : BufTy).Contents (Elt F))
  :: unary main_v265 main_v266 (broadcastInDim S100000x256 ![0, 1] bcast_S1x256_S100000x256_0_1 : (⟨S1x256, .f32⟩ : BufTy).Contents (Elt F) → (⟨S100000x256, .f32⟩ : BufTy).Contents (Elt F))
  :: binary main_v264 main_v266 main_v267 (mulf : (⟨S100000x256, .f32⟩ : BufTy).Contents (Elt F) → (⟨S100000x256, .f32⟩ : BufTy).Contents (Elt F) → (⟨S100000x256, .f32⟩ : BufTy).Contents (Elt F))
  :: unary main_v251 main_v268 (broadcastInDim S1x256 ![1] bcast_S256_S1x256_1 : (⟨S256, .f32⟩ : BufTy).Contents (Elt F) → (⟨S1x256, .f32⟩ : BufTy).Contents (Elt F))
  :: unary main_v268 main_v269 (broadcastInDim S100000x256 ![0, 1] bcast_S1x256_S100000x256_0_1 : (⟨S1x256, .f32⟩ : BufTy).Contents (Elt F) → (⟨S100000x256, .f32⟩ : BufTy).Contents (Elt F))
  :: binary main_v267 main_v269 main_v270 (addf : (⟨S100000x256, .f32⟩ : BufTy).Contents (Elt F) → (⟨S100000x256, .f32⟩ : BufTy).Contents (Elt F) → (⟨S100000x256, .f32⟩ : BufTy).Contents (Elt F))
  :: TRef.nullary (TRef.of (T := ⟨S_, .f32⟩) main_call6_cst) (constant S_ .f32 0x00000000#32)
  :: TRef.unary (TRef.of (T := ⟨S_, .f32⟩) main_call6_cst) (TRef.of (T := ⟨S100000x256, .f32⟩) main_call6_v0) (broadcastInDim S100000x256 ![] bcast_S_S100000x256)
  :: TRef.binary (TRef.of (T := ⟨S100000x256, .f32⟩) main_v270) (TRef.of (T := ⟨S100000x256, .f32⟩) main_call6_v0) (TRef.of (T := ⟨S100000x256, .f32⟩) main_v271) maximumf
  :: unary main_arg8 main_v272 ((extractStridedSlice S1x256x128 ![3, 0, 0] · slices_S5x256x128_S1x256x128_3_0_0) : (⟨S5x256x128, .f32⟩ : BufTy).Contents (Elt F) → (⟨S1x256x128, .f32⟩ : BufTy).Contents (Elt F))
  :: reshape main_v272 main_v273 rfl shapeCasts_S1x256x128_S256x128
  :: binary main_v271 main_v273 main_v274 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F))
  :: unary main_arg9 main_v275 ((extractStridedSlice S1x128 ![3, 0] · slices_S5x128_S1x128_3_0) : (⟨S5x128, .f32⟩ : BufTy).Contents (Elt F) → (⟨S1x128, .f32⟩ : BufTy).Contents (Elt F))
  :: reshape main_v275 main_v276 rfl shapeCasts_S1x128_S128
  :: unary main_v276 main_v277 (broadcastInDim S1x128 ![1] bcast_S128_S1x128_1 : (⟨S128, .f32⟩ : BufTy).Contents (Elt F) → (⟨S1x128, .f32⟩ : BufTy).Contents (Elt F))
  :: unary main_v277 main_v278 (broadcastInDim S100000x128 ![0, 1] bcast_S1x128_S100000x128_0_1 : (⟨S1x128, .f32⟩ : BufTy).Contents (Elt F) → (⟨S100000x128, .f32⟩ : BufTy).Contents (Elt F))
  :: binary main_v274 main_v278 main_v279 (addf : (⟨S100000x128, .f32⟩ : BufTy).Contents (Elt F) → (⟨S100000x128, .f32⟩ : BufTy).Contents (Elt F) → (⟨S100000x128, .f32⟩ : BufTy).Contents (Elt F))
  :: unary main_arg10 main_v280 ((extractStridedSlice S1x128 ![3, 0] · slices_S5x128_S1x128_3_0) : (⟨S5x128, .f32⟩ : BufTy).Contents (Elt F) → (⟨S1x128, .f32⟩ : BufTy).Contents (Elt F))
  :: reshape main_v280 main_v281 rfl shapeCasts_S1x128_S128
  :: unary main_arg11 main_v282 ((extractStridedSlice S1x128 ![3, 0] · slices_S5x128_S1x128_3_0) : (⟨S5x128, .f32⟩ : BufTy).Contents (Elt F) → (⟨S1x128, .f32⟩ : BufTy).Contents (Elt F))
  :: reshape main_v282 main_v283 rfl shapeCasts_S1x128_S128
  :: unary main_arg12 main_v284 ((extractStridedSlice S1x128 ![3, 0] · slices_S5x128_S1x128_3_0) : (⟨S5x128, .f32⟩ : BufTy).Contents (Elt F) → (⟨S1x128, .f32⟩ : BufTy).Contents (Elt F))
  :: reshape main_v284 main_v285 rfl shapeCasts_S1x128_S128
  :: unary main_arg13 main_v286 ((extractStridedSlice S1x128 ![3, 0] · slices_S5x128_S1x128_3_0) : (⟨S5x128, .f32⟩ : BufTy).Contents (Elt F) → (⟨S1x128, .f32⟩ : BufTy).Contents (Elt F))
  :: reshape main_v286 main_v287 rfl shapeCasts_S1x128_S128
  :: unary main_v285 main_v288 (broadcastInDim S1x128 ![1] bcast_S128_S1x128_1 : (⟨S128, .f32⟩ : BufTy).Contents (Elt F) → (⟨S1x128, .f32⟩ : BufTy).Contents (Elt F))
  :: unary main_v288 main_v289 (broadcastInDim S100000x128 ![0, 1] bcast_S1x128_S100000x128_0_1 : (⟨S1x128, .f32⟩ : BufTy).Contents (Elt F) → (⟨S100000x128, .f32⟩ : BufTy).Contents (Elt F))
  :: binary main_v279 main_v289 main_v290 (subf : (⟨S100000x128, .f32⟩ : BufTy).Contents (Elt F) → (⟨S100000x128, .f32⟩ : BufTy).Contents (Elt F) → (⟨S100000x128, .f32⟩ : BufTy).Contents (Elt F))
  :: nullary main_cst_17 (constant S_ .f32 0x3727C5AC#32)
  :: unary main_cst_17 main_v291 (broadcastInDim S128 ![] bcast_S_S128 : (⟨S_, .f32⟩ : BufTy).Contents (Elt F) → (⟨S128, .f32⟩ : BufTy).Contents (Elt F))
  :: binary main_v287 main_v291 main_v292 (addf : (⟨S128, .f32⟩ : BufTy).Contents (Elt F) → (⟨S128, .f32⟩ : BufTy).Contents (Elt F) → (⟨S128, .f32⟩ : BufTy).Contents (Elt F))
  :: unary main_v292 main_v293 (Host.rsqrt : (⟨S128, .f32⟩ : BufTy).Contents (Elt F) → (⟨S128, .f32⟩ : BufTy).Contents (Elt F))
  :: unary main_v293 main_v294 (broadcastInDim S1x128 ![1] bcast_S128_S1x128_1 : (⟨S128, .f32⟩ : BufTy).Contents (Elt F) → (⟨S1x128, .f32⟩ : BufTy).Contents (Elt F))
  :: unary main_v294 main_v295 (broadcastInDim S100000x128 ![0, 1] bcast_S1x128_S100000x128_0_1 : (⟨S1x128, .f32⟩ : BufTy).Contents (Elt F) → (⟨S100000x128, .f32⟩ : BufTy).Contents (Elt F))
  :: binary main_v290 main_v295 main_v296 (mulf : (⟨S100000x128, .f32⟩ : BufTy).Contents (Elt F) → (⟨S100000x128, .f32⟩ : BufTy).Contents (Elt F) → (⟨S100000x128, .f32⟩ : BufTy).Contents (Elt F))
  :: unary main_v281 main_v297 (broadcastInDim S1x128 ![1] bcast_S128_S1x128_1 : (⟨S128, .f32⟩ : BufTy).Contents (Elt F) → (⟨S1x128, .f32⟩ : BufTy).Contents (Elt F))
  :: unary main_v297 main_v298 (broadcastInDim S100000x128 ![0, 1] bcast_S1x128_S100000x128_0_1 : (⟨S1x128, .f32⟩ : BufTy).Contents (Elt F) → (⟨S100000x128, .f32⟩ : BufTy).Contents (Elt F))
  :: binary main_v296 main_v298 main_v299 (mulf : (⟨S100000x128, .f32⟩ : BufTy).Contents (Elt F) → (⟨S100000x128, .f32⟩ : BufTy).Contents (Elt F) → (⟨S100000x128, .f32⟩ : BufTy).Contents (Elt F))
  :: unary main_v283 main_v300 (broadcastInDim S1x128 ![1] bcast_S128_S1x128_1 : (⟨S128, .f32⟩ : BufTy).Contents (Elt F) → (⟨S1x128, .f32⟩ : BufTy).Contents (Elt F))
  :: unary main_v300 main_v301 (broadcastInDim S100000x128 ![0, 1] bcast_S1x128_S100000x128_0_1 : (⟨S1x128, .f32⟩ : BufTy).Contents (Elt F) → (⟨S100000x128, .f32⟩ : BufTy).Contents (Elt F))
  :: binary main_v299 main_v301 main_v302 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call7_cst) (constant S_ .f32 0x00000000#32)
  :: TRef.unary (TRef.of (T := ⟨S_, .f32⟩) main_call7_cst) (TRef.of (T := ⟨S100000x128, .f32⟩) main_call7_v0) (broadcastInDim S100000x128 ![] bcast_S_S100000x128)
  :: TRef.binary (TRef.of (T := ⟨S100000x128, .f32⟩) main_v302) (TRef.of (T := ⟨S100000x128, .f32⟩) main_call7_v0) (TRef.of (T := ⟨S100000x128, .f32⟩) main_v303) maximumf
  :: [] )

/-- The 81 operations of layer 4, in order; the last one writes the layer's output, `main_v377`. -/
abbrev ops4 : List (HloOp τ sig (Elt F)) :=
  ( nullary main_c_18 (constantI S_ 32 0#32)
  :: unary main_c_18 main_v304 (broadcastInDim S640000 ![] bcast_S_S640000 : (⟨S_, .i32⟩ : BufTy).Contents (Elt F) → (⟨S640000, .i32⟩ : BufTy).Contents (Elt F))
  :: binary main_v1 main_v304 main_v305 (cmpi .slt : (⟨S640000, .i32⟩ : BufTy).Contents (Elt F) → (⟨S640000, .i32⟩ : BufTy).Contents (Elt F) → (⟨S640000, .i1⟩ : BufTy).Contents (Elt F))
  :: nullary main_c_19 (constantI S_ 32 100000#32)
  :: unary main_c_19 main_v306 (broadcastInDim S640000 ![] bcast_S_S640000 : (⟨S_, .i32⟩ : BufTy).Contents (Elt F) → (⟨S640000, .i32⟩ : BufTy).Contents (Elt F))
  :: binary main_v1 main_v306 main_v307 (addi : (⟨S640000, .i32⟩ : BufTy).Contents (Elt F) → (⟨S640000, .i32⟩ : BufTy).Contents (Elt F) → (⟨S640000, .i32⟩ : BufTy).Contents (Elt F))
  :: ternary main_v305 main_v307 main_v1 main_v308 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v308 main_v309 (broadcastInDim S640000x1 ![0] bcast_S640000_S640000x1_0 : (⟨S640000, .i32⟩ : BufTy).Contents (Elt F) → (⟨S640000x1, .i32⟩ : BufTy).Contents (Elt F))
  :: binary main_v303 main_v309 main_v310 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F))
  :: nullary main_cst_20 (constant S_ .f32 0x00000000#32)
  :: unary main_cst_20 main_v311 (broadcastInDim S100000x128 ![] bcast_S_S100000x128 : (⟨S_, .f32⟩ : BufTy).Contents (Elt F) → (⟨S100000x128, .f32⟩ : BufTy).Contents (Elt F))
  :: unary main_v3 main_v312 (broadcastInDim S640000x1 ![0] bcast_S640000_S640000x1_0 : (⟨S640000, .i32⟩ : BufTy).Contents (Elt F) → (⟨S640000x1, .i32⟩ : BufTy).Contents (Elt F))
  :: ternary main_v311 main_v312 main_v310 main_v313 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F))
  :: binary main_v303 main_v313 main_v314 (addf : (⟨S100000x128, .f32⟩ : BufTy).Contents (Elt F) → (⟨S100000x128, .f32⟩ : BufTy).Contents (Elt F) → (⟨S100000x128, .f32⟩ : BufTy).Contents (Elt F))
  :: unary main_arg2 main_v315 ((extractStridedSlice S1x128x256 ![4, 0, 0] · slices_S5x128x256_S1x128x256_4_0_0) : (⟨S5x128x256, .f32⟩ : BufTy).Contents (Elt F) → (⟨S1x128x256, .f32⟩ : BufTy).Contents (Elt F))
  :: reshape main_v315 main_v316 rfl shapeCasts_S1x128x256_S128x256
  :: binary main_v314 main_v316 main_v317 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F))
  :: unary main_arg3 main_v318 ((extractStridedSlice S1x256 ![4, 0] · slices_S5x256_S1x256_4_0) : (⟨S5x256, .f32⟩ : BufTy).Contents (Elt F) → (⟨S1x256, .f32⟩ : BufTy).Contents (Elt F))
  :: reshape main_v318 main_v319 rfl shapeCasts_S1x256_S256
  :: unary main_v319 main_v320 (broadcastInDim S1x256 ![1] bcast_S256_S1x256_1 : (⟨S256, .f32⟩ : BufTy).Contents (Elt F) → (⟨S1x256, .f32⟩ : BufTy).Contents (Elt F))
  :: unary main_v320 main_v321 (broadcastInDim S100000x256 ![0, 1] bcast_S1x256_S100000x256_0_1 : (⟨S1x256, .f32⟩ : BufTy).Contents (Elt F) → (⟨S100000x256, .f32⟩ : BufTy).Contents (Elt F))
  :: binary main_v317 main_v321 main_v322 (addf : (⟨S100000x256, .f32⟩ : BufTy).Contents (Elt F) → (⟨S100000x256, .f32⟩ : BufTy).Contents (Elt F) → (⟨S100000x256, .f32⟩ : BufTy).Contents (Elt F))
  :: unary main_arg4 main_v323 ((extractStridedSlice S1x256 ![4, 0] · slices_S5x256_S1x256_4_0) : (⟨S5x256, .f32⟩ : BufTy).Contents (Elt F) → (⟨S1x256, .f32⟩ : BufTy).Contents (Elt F))
  :: reshape main_v323 main_v324 rfl shapeCasts_S1x256_S256
  :: unary main_arg5 main_v325 ((extractStridedSlice S1x256 ![4, 0] · slices_S5x256_S1x256_4_0) : (⟨S5x256, .f32⟩ : BufTy).Contents (Elt F) → (⟨S1x256, .f32⟩ : BufTy).Contents (Elt F))
  :: reshape main_v325 main_v326 rfl shapeCasts_S1x256_S256
  :: unary main_arg6 main_v327 ((extractStridedSlice S1x256 ![4, 0] · slices_S5x256_S1x256_4_0) : (⟨S5x256, .f32⟩ : BufTy).Contents (Elt F) → (⟨S1x256, .f32⟩ : BufTy).Contents (Elt F))
  :: reshape main_v327 main_v328 rfl shapeCasts_S1x256_S256
  :: unary main_arg7 main_v329 ((extractStridedSlice S1x256 ![4, 0] · slices_S5x256_S1x256_4_0) : (⟨S5x256, .f32⟩ : BufTy).Contents (Elt F) → (⟨S1x256, .f32⟩ : BufTy).Contents (Elt F))
  :: reshape main_v329 main_v330 rfl shapeCasts_S1x256_S256
  :: unary main_v328 main_v331 (broadcastInDim S1x256 ![1] bcast_S256_S1x256_1 : (⟨S256, .f32⟩ : BufTy).Contents (Elt F) → (⟨S1x256, .f32⟩ : BufTy).Contents (Elt F))
  :: unary main_v331 main_v332 (broadcastInDim S100000x256 ![0, 1] bcast_S1x256_S100000x256_0_1 : (⟨S1x256, .f32⟩ : BufTy).Contents (Elt F) → (⟨S100000x256, .f32⟩ : BufTy).Contents (Elt F))
  :: binary main_v322 main_v332 main_v333 (subf : (⟨S100000x256, .f32⟩ : BufTy).Contents (Elt F) → (⟨S100000x256, .f32⟩ : BufTy).Contents (Elt F) → (⟨S100000x256, .f32⟩ : BufTy).Contents (Elt F))
  :: nullary main_cst_21 (constant S_ .f32 0x3727C5AC#32)
  :: unary main_cst_21 main_v334 (broadcastInDim S256 ![] bcast_S_S256 : (⟨S_, .f32⟩ : BufTy).Contents (Elt F) → (⟨S256, .f32⟩ : BufTy).Contents (Elt F))
  :: binary main_v330 main_v334 main_v335 (addf : (⟨S256, .f32⟩ : BufTy).Contents (Elt F) → (⟨S256, .f32⟩ : BufTy).Contents (Elt F) → (⟨S256, .f32⟩ : BufTy).Contents (Elt F))
  :: unary main_v335 main_v336 (Host.rsqrt : (⟨S256, .f32⟩ : BufTy).Contents (Elt F) → (⟨S256, .f32⟩ : BufTy).Contents (Elt F))
  :: unary main_v336 main_v337 (broadcastInDim S1x256 ![1] bcast_S256_S1x256_1 : (⟨S256, .f32⟩ : BufTy).Contents (Elt F) → (⟨S1x256, .f32⟩ : BufTy).Contents (Elt F))
  :: unary main_v337 main_v338 (broadcastInDim S100000x256 ![0, 1] bcast_S1x256_S100000x256_0_1 : (⟨S1x256, .f32⟩ : BufTy).Contents (Elt F) → (⟨S100000x256, .f32⟩ : BufTy).Contents (Elt F))
  :: binary main_v333 main_v338 main_v339 (mulf : (⟨S100000x256, .f32⟩ : BufTy).Contents (Elt F) → (⟨S100000x256, .f32⟩ : BufTy).Contents (Elt F) → (⟨S100000x256, .f32⟩ : BufTy).Contents (Elt F))
  :: unary main_v324 main_v340 (broadcastInDim S1x256 ![1] bcast_S256_S1x256_1 : (⟨S256, .f32⟩ : BufTy).Contents (Elt F) → (⟨S1x256, .f32⟩ : BufTy).Contents (Elt F))
  :: unary main_v340 main_v341 (broadcastInDim S100000x256 ![0, 1] bcast_S1x256_S100000x256_0_1 : (⟨S1x256, .f32⟩ : BufTy).Contents (Elt F) → (⟨S100000x256, .f32⟩ : BufTy).Contents (Elt F))
  :: binary main_v339 main_v341 main_v342 (mulf : (⟨S100000x256, .f32⟩ : BufTy).Contents (Elt F) → (⟨S100000x256, .f32⟩ : BufTy).Contents (Elt F) → (⟨S100000x256, .f32⟩ : BufTy).Contents (Elt F))
  :: unary main_v326 main_v343 (broadcastInDim S1x256 ![1] bcast_S256_S1x256_1 : (⟨S256, .f32⟩ : BufTy).Contents (Elt F) → (⟨S1x256, .f32⟩ : BufTy).Contents (Elt F))
  :: unary main_v343 main_v344 (broadcastInDim S100000x256 ![0, 1] bcast_S1x256_S100000x256_0_1 : (⟨S1x256, .f32⟩ : BufTy).Contents (Elt F) → (⟨S100000x256, .f32⟩ : BufTy).Contents (Elt F))
  :: binary main_v342 main_v344 main_v345 (addf : (⟨S100000x256, .f32⟩ : BufTy).Contents (Elt F) → (⟨S100000x256, .f32⟩ : BufTy).Contents (Elt F) → (⟨S100000x256, .f32⟩ : BufTy).Contents (Elt F))
  :: TRef.nullary (TRef.of (T := ⟨S_, .f32⟩) main_call8_cst) (constant S_ .f32 0x00000000#32)
  :: TRef.unary (TRef.of (T := ⟨S_, .f32⟩) main_call8_cst) (TRef.of (T := ⟨S100000x256, .f32⟩) main_call8_v0) (broadcastInDim S100000x256 ![] bcast_S_S100000x256)
  :: TRef.binary (TRef.of (T := ⟨S100000x256, .f32⟩) main_v345) (TRef.of (T := ⟨S100000x256, .f32⟩) main_call8_v0) (TRef.of (T := ⟨S100000x256, .f32⟩) main_v346) maximumf
  :: unary main_arg8 main_v347 ((extractStridedSlice S1x256x128 ![4, 0, 0] · slices_S5x256x128_S1x256x128_4_0_0) : (⟨S5x256x128, .f32⟩ : BufTy).Contents (Elt F) → (⟨S1x256x128, .f32⟩ : BufTy).Contents (Elt F))
  :: reshape main_v347 main_v348 rfl shapeCasts_S1x256x128_S256x128
  :: binary main_v346 main_v348 main_v349 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F))
  :: unary main_arg9 main_v350 ((extractStridedSlice S1x128 ![4, 0] · slices_S5x128_S1x128_4_0) : (⟨S5x128, .f32⟩ : BufTy).Contents (Elt F) → (⟨S1x128, .f32⟩ : BufTy).Contents (Elt F))
  :: reshape main_v350 main_v351 rfl shapeCasts_S1x128_S128
  :: unary main_v351 main_v352 (broadcastInDim S1x128 ![1] bcast_S128_S1x128_1 : (⟨S128, .f32⟩ : BufTy).Contents (Elt F) → (⟨S1x128, .f32⟩ : BufTy).Contents (Elt F))
  :: unary main_v352 main_v353 (broadcastInDim S100000x128 ![0, 1] bcast_S1x128_S100000x128_0_1 : (⟨S1x128, .f32⟩ : BufTy).Contents (Elt F) → (⟨S100000x128, .f32⟩ : BufTy).Contents (Elt F))
  :: binary main_v349 main_v353 main_v354 (addf : (⟨S100000x128, .f32⟩ : BufTy).Contents (Elt F) → (⟨S100000x128, .f32⟩ : BufTy).Contents (Elt F) → (⟨S100000x128, .f32⟩ : BufTy).Contents (Elt F))
  :: unary main_arg10 main_v355 ((extractStridedSlice S1x128 ![4, 0] · slices_S5x128_S1x128_4_0) : (⟨S5x128, .f32⟩ : BufTy).Contents (Elt F) → (⟨S1x128, .f32⟩ : BufTy).Contents (Elt F))
  :: reshape main_v355 main_v356 rfl shapeCasts_S1x128_S128
  :: unary main_arg11 main_v357 ((extractStridedSlice S1x128 ![4, 0] · slices_S5x128_S1x128_4_0) : (⟨S5x128, .f32⟩ : BufTy).Contents (Elt F) → (⟨S1x128, .f32⟩ : BufTy).Contents (Elt F))
  :: reshape main_v357 main_v358 rfl shapeCasts_S1x128_S128
  :: unary main_arg12 main_v359 ((extractStridedSlice S1x128 ![4, 0] · slices_S5x128_S1x128_4_0) : (⟨S5x128, .f32⟩ : BufTy).Contents (Elt F) → (⟨S1x128, .f32⟩ : BufTy).Contents (Elt F))
  :: reshape main_v359 main_v360 rfl shapeCasts_S1x128_S128
  :: unary main_arg13 main_v361 ((extractStridedSlice S1x128 ![4, 0] · slices_S5x128_S1x128_4_0) : (⟨S5x128, .f32⟩ : BufTy).Contents (Elt F) → (⟨S1x128, .f32⟩ : BufTy).Contents (Elt F))
  :: reshape main_v361 main_v362 rfl shapeCasts_S1x128_S128
  :: unary main_v360 main_v363 (broadcastInDim S1x128 ![1] bcast_S128_S1x128_1 : (⟨S128, .f32⟩ : BufTy).Contents (Elt F) → (⟨S1x128, .f32⟩ : BufTy).Contents (Elt F))
  :: unary main_v363 main_v364 (broadcastInDim S100000x128 ![0, 1] bcast_S1x128_S100000x128_0_1 : (⟨S1x128, .f32⟩ : BufTy).Contents (Elt F) → (⟨S100000x128, .f32⟩ : BufTy).Contents (Elt F))
  :: binary main_v354 main_v364 main_v365 (subf : (⟨S100000x128, .f32⟩ : BufTy).Contents (Elt F) → (⟨S100000x128, .f32⟩ : BufTy).Contents (Elt F) → (⟨S100000x128, .f32⟩ : BufTy).Contents (Elt F))
  :: nullary main_cst_22 (constant S_ .f32 0x3727C5AC#32)
  :: unary main_cst_22 main_v366 (broadcastInDim S128 ![] bcast_S_S128 : (⟨S_, .f32⟩ : BufTy).Contents (Elt F) → (⟨S128, .f32⟩ : BufTy).Contents (Elt F))
  :: binary main_v362 main_v366 main_v367 (addf : (⟨S128, .f32⟩ : BufTy).Contents (Elt F) → (⟨S128, .f32⟩ : BufTy).Contents (Elt F) → (⟨S128, .f32⟩ : BufTy).Contents (Elt F))
  :: unary main_v367 main_v368 (Host.rsqrt : (⟨S128, .f32⟩ : BufTy).Contents (Elt F) → (⟨S128, .f32⟩ : BufTy).Contents (Elt F))
  :: unary main_v368 main_v369 (broadcastInDim S1x128 ![1] bcast_S128_S1x128_1 : (⟨S128, .f32⟩ : BufTy).Contents (Elt F) → (⟨S1x128, .f32⟩ : BufTy).Contents (Elt F))
  :: unary main_v369 main_v370 (broadcastInDim S100000x128 ![0, 1] bcast_S1x128_S100000x128_0_1 : (⟨S1x128, .f32⟩ : BufTy).Contents (Elt F) → (⟨S100000x128, .f32⟩ : BufTy).Contents (Elt F))
  :: binary main_v365 main_v370 main_v371 (mulf : (⟨S100000x128, .f32⟩ : BufTy).Contents (Elt F) → (⟨S100000x128, .f32⟩ : BufTy).Contents (Elt F) → (⟨S100000x128, .f32⟩ : BufTy).Contents (Elt F))
  :: unary main_v356 main_v372 (broadcastInDim S1x128 ![1] bcast_S128_S1x128_1 : (⟨S128, .f32⟩ : BufTy).Contents (Elt F) → (⟨S1x128, .f32⟩ : BufTy).Contents (Elt F))
  :: unary main_v372 main_v373 (broadcastInDim S100000x128 ![0, 1] bcast_S1x128_S100000x128_0_1 : (⟨S1x128, .f32⟩ : BufTy).Contents (Elt F) → (⟨S100000x128, .f32⟩ : BufTy).Contents (Elt F))
  :: binary main_v371 main_v373 main_v374 (mulf : (⟨S100000x128, .f32⟩ : BufTy).Contents (Elt F) → (⟨S100000x128, .f32⟩ : BufTy).Contents (Elt F) → (⟨S100000x128, .f32⟩ : BufTy).Contents (Elt F))
  :: unary main_v358 main_v375 (broadcastInDim S1x128 ![1] bcast_S128_S1x128_1 : (⟨S128, .f32⟩ : BufTy).Contents (Elt F) → (⟨S1x128, .f32⟩ : BufTy).Contents (Elt F))
  :: unary main_v375 main_v376 (broadcastInDim S100000x128 ![0, 1] bcast_S1x128_S100000x128_0_1 : (⟨S1x128, .f32⟩ : BufTy).Contents (Elt F) → (⟨S100000x128, .f32⟩ : BufTy).Contents (Elt F))
  :: binary main_v374 main_v376 main_v377 (addf : (⟨S100000x128, .f32⟩ : BufTy).Contents (Elt F) → (⟨S100000x128, .f32⟩ : BufTy).Contents (Elt F) → (⟨S100000x128, .f32⟩ : BufTy).Contents (Elt F))
  :: [] )

end Cert.ReferenceIdeal.RunValue

end
-- ==== Proof.RefRunSub.lean ====
/-
  Every operation of the reference touches TensorCore buffers only, and none allocates a buffer.

  Both facts are read off each operation's kind, one operation at a time, layer by layer.
-/
import proofs.«159699_j9251359555640_1_alg».proof.Proof.RefOps

set_option maxRecDepth 8192

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Each operation of layer 0 reads and writes TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- No operation of layer 0 allocates a buffer. -/
theorem ops0_fresh : (ops0 : List (HloOp τ sig (Elt F))).Forall fun op => op.fresh = ∅ := by
  simp only [List.Forall]; repeat' constructor

/-- Each operation of layer 1 reads and writes TensorCore buffers only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- No operation of layer 1 allocates a buffer. -/
theorem ops1_fresh : (ops1 : List (HloOp τ sig (Elt F))).Forall fun op => op.fresh = ∅ := by
  simp only [List.Forall]; repeat' constructor

/-- Each operation of layer 2 reads and writes TensorCore buffers only. -/
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- No operation of layer 2 allocates a buffer. -/
theorem ops2_fresh : (ops2 : List (HloOp τ sig (Elt F))).Forall fun op => op.fresh = ∅ := by
  simp only [List.Forall]; repeat' constructor

/-- Each operation of layer 3 reads and writes TensorCore buffers only. -/
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- No operation of layer 3 allocates a buffer. -/
theorem ops3_fresh : (ops3 : List (HloOp τ sig (Elt F))).Forall fun op => op.fresh = ∅ := by
  simp only [List.Forall]; repeat' constructor

/-- Each operation of layer 4 reads and writes TensorCore buffers only. -/
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
/-- No operation of layer 4 allocates a buffer. -/
theorem ops4_fresh : (ops4 : List (HloOp τ sig (Elt F))).Forall fun op => op.fresh = ∅ := by
  simp only [List.Forall]; repeat' constructor

end Cert.ReferenceIdeal.RunValue

end
-- ==== Proof.RefRunMain.lean ====
/-
  The reference's program as one line of operations, and what a line cut in two leaves.

  The reference has no kernel: its program is host operations only, so it is the line of its five layers' operations
  run in order. What a line leaves in the buffers is what its second part leaves from what its first part left, so the
  contents after the whole program are reached layer by layer.
-/
import proofs.«159699_j9251359555640_1_alg».proof.Proof.RefOps
import proofs.«159699_j9251359555640_1_alg».proof.Proof.RefRunSub
import Idealize.ShloMosaic.Lib.Pipeline.Regions

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The reference's program is its five layers' operations run one after the other: the printed program, a sequence
    of single operations and of calls whose bodies are three operations each, unfolds to that line. -/
theorem main_eq (d : Dev nD) : main (F := F) d = seq (ops0 ++ ops1 ++ ops2 ++ ops3 ++ ops4) := by
  chain_rfl

/-- The program scopes no buffer. -/
theorem scopedRefs_eq : (Finset.univ.filter fun b : Ref sig .tc => b.isScoped) = ∅ := by decide
/-- The program scopes no semaphore. -/
theorem scopedSems_eq : (Finset.univ.filter fun sm : SemLoc sig => sm.isScoped .tc) = ∅ := by decide

/-- What two lines run one after the other leave is what the second leaves from what the first left. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of the program reads and writes TensorCore buffers only. -/
theorem ops_sub : (ops0 ++ ops1 ++ ops2 ++ ops3 ++ ops4 : List (HloOp τ sig (Elt F))).Forall fun op => op.bufs ⊆ tcRefs τ sig :=
  List.forall_append.mpr ⟨List.forall_append.mpr ⟨List.forall_append.mpr ⟨List.forall_append.mpr ⟨ops0_sub, ops1_sub⟩, ops2_sub⟩, ops3_sub⟩, ops4_sub⟩

/-- No operation of the program allocates a buffer. -/
theorem ops_fresh (op : HloOp τ sig (Elt F)) (h : op ∈ (ops0 ++ ops1 ++ ops2 ++ ops3 ++ ops4 : List (HloOp τ sig (Elt F)))) : op.fresh = ∅ :=
  List.forall_iff_forall_mem.mp
    (List.forall_append.mpr ⟨List.forall_append.mpr ⟨List.forall_append.mpr ⟨List.forall_append.mpr ⟨ops0_fresh, ops1_fresh⟩, ops2_fresh⟩, ops3_fresh⟩, ops4_fresh⟩) op h

end Cert.ReferenceIdeal.RunValue

end
-- ==== Proof.RefStages.lean ====
/-
  The contents of the device's buffers at the boundaries between the reference's layers.

  The reference's operations run in order from the contents the launch deals the device. Cut after each layer's last
  operation, the run is five runs one after the other: the contents after layer l are the contents after layer l - 1
  with layer l's operations run from them.
-/
import proofs.«159699_j9251359555640_1_alg».proof.Proof.RefOps
import Idealize.ShloMosaic.PureOps.Ideal

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

/-- The device's buffers as the launch deals them. -/
abbrev U0 (m : (ℓ : Loc nD τ sig) → Buf (Elt Ideal) ℓ) (c : Dev nD) : Valuation τ sig (Elt Ideal) := launchContents m c
/-- The device's buffers after layer 0. -/
abbrev U1 (m : (ℓ : Loc nD τ sig) → Buf (Elt Ideal) ℓ) (c : Dev nD) : Valuation τ sig (Elt Ideal) := after ops0 (U0 m c)
/-- The device's buffers after layer 1. -/
abbrev U2 (m : (ℓ : Loc nD τ sig) → Buf (Elt Ideal) ℓ) (c : Dev nD) : Valuation τ sig (Elt Ideal) := after ops1 (U1 m c)
/-- The device's buffers after layer 2. -/
abbrev U3 (m : (ℓ : Loc nD τ sig) → Buf (Elt Ideal) ℓ) (c : Dev nD) : Valuation τ sig (Elt Ideal) := after ops2 (U2 m c)
/-- The device's buffers after layer 3. -/
abbrev U4 (m : (ℓ : Loc nD τ sig) → Buf (Elt Ideal) ℓ) (c : Dev nD) : Valuation τ sig (Elt Ideal) := after ops3 (U3 m c)
/-- The device's buffers after layer 4, the last: what the reference's run ends with. -/
abbrev U5 (m : (ℓ : Loc nD τ sig) → Buf (Elt Ideal) ℓ) (c : Dev nD) : Valuation τ sig (Elt Ideal) := after ops4 (U4 m c)

end Cert.ReferenceIdeal.RunValue

end
-- ==== Proof.RefKeep.lean ====
/-
  Which buffers a layer of the reference leaves alone.

  Each operation writes one buffer, its result. A buffer that is not the result of any operation of a layer holds after
  the layer's operations what it held before them: so do the argument arrays, which no operation writes, and, after the
  first layer, the two index rows cut out of the edge array and the previous layers' outputs.
-/
import proofs.«159699_j9251359555640_1_alg».proof.Proof.RefOps

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The buffers layer 0's operations write, in the order of the operations. -/
abbrev rwrites0 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_v31, main_v32, main_v33, main_cst_1, main_v34, main_v35, main_v36, main_v37, main_v38, main_v39, main_v40, main_v41, main_v42, main_v43, main_v44, main_v45, main_call0_cst, main_call0_v0, main_v46, main_v47, main_v48, main_v49, main_v50, main_v51, main_v52, main_v53, main_v54, main_v55, main_v56, main_v57, main_v58, main_v59, main_v60, main_v61, main_v62, main_v63, main_v64, main_v65, main_cst_2, main_v66, main_v67, main_v68, main_v69, main_v70, main_v71, main_v72, main_v73, main_v74, main_v75, main_v76, main_v77, main_call1_cst, main_call1_v0, main_v78]

/-- Each operation of layer 0 writes only its own result, which is in that list. -/
theorem rwrites0_sub : (ops0 : List (HloOp τ sig (Elt F))).Forall fun op => op.writes ⊆ (rwrites0.map (Proc.devRef (τ := τ) .tc)).toFinset := by
  simp only [ops0, List.Forall, nullary_writes, unary_writes, binary_writes, ternary_writes,
    quaternary_writes, reshape_writes, Finset.singleton_subset_iff]
  repeat' apply And.intro
  all_goals exact List.mem_toFinset.mpr (List.mem_map.mpr ⟨_, by decide, rfl⟩)

/-- A buffer layer 0 does not write holds after the layer's operations what it held before them. -/
theorem rkeep0 (V : Valuation τ sig (Elt F)) (r : Ref sig .tc) (hr : r ∉ rwrites0) :
    after ops0 V (Proc.devRef .tc r) = V (Proc.devRef .tc r) :=
  after_of_writes_sub ops0 V rwrites0_sub hr

/-- The buffers layer 1's operations write, in the order of the operations. -/
abbrev rwrites1 : List (Ref sig .tc) :=
  [main_c_3, main_v79, main_v80, main_c_4, main_v81, main_v82, main_v83, main_v84, main_v85, main_cst_5, main_v86, main_v87, main_v88, main_v89, main_v90, main_v91, main_v92, main_v93, main_v94, main_v95, main_v96, main_v97, main_v98, main_v99, main_v100, main_v101, main_v102, main_v103, main_v104, main_v105, main_v106, main_v107, main_v108, main_cst_6, main_v109, main_v110, main_v111, main_v112, main_v113, main_v114, main_v115, main_v116, main_v117, main_v118, main_v119, main_v120, main_call2_cst, main_call2_v0, main_v121, main_v122, main_v123, main_v124, main_v125, main_v126, main_v127, main_v128, main_v129, main_v130, main_v131, main_v132, main_v133, main_v134, main_v135, main_v136, main_v137, main_v138, main_v139, main_v140, main_cst_7, main_v141, main_v142, main_v143, main_v144, main_v145, main_v146, main_v147, main_v148, main_v149, main_v150, main_v151, main_v152, main_call3_cst, main_call3_v0, main_v153]

/-- Each operation of layer 1 writes only its own result, which is in that list. -/
theorem rwrites1_sub : (ops1 : List (HloOp τ sig (Elt F))).Forall fun op => op.writes ⊆ (rwrites1.map (Proc.devRef (τ := τ) .tc)).toFinset := by
  simp only [ops1, List.Forall, nullary_writes, unary_writes, binary_writes, ternary_writes,
    quaternary_writes, reshape_writes, Finset.singleton_subset_iff]
  repeat' apply And.intro
  all_goals exact List.mem_toFinset.mpr (List.mem_map.mpr ⟨_, by decide, rfl⟩)

/-- A buffer layer 1 does not write holds after the layer's operations what it held before them. -/
theorem rkeep1 (V : Valuation τ sig (Elt F)) (r : Ref sig .tc) (hr : r ∉ rwrites1) :
    after ops1 V (Proc.devRef .tc r) = V (Proc.devRef .tc r) :=
  after_of_writes_sub ops1 V rwrites1_sub hr

/-- The buffers layer 2's operations write, in the order of the operations. -/
abbrev rwrites2 : List (Ref sig .tc) :=
  [main_c_8, main_v154, main_v155, main_c_9, main_v156, main_v157, main_v158, main_v159, main_v160, main_cst_10, main_v161, main_v162, main_v163, main_v164, main_v165, main_v166, main_v167, main_v168, main_v169, main_v170, main_v171, main_v172, main_v173, main_v174, main_v175, main_v176, main_v177, main_v178, main_v179, main_v180, main_v181, main_v182, main_v183, main_cst_11, main_v184, main_v185, main_v186, main_v187, main_v188, main_v189, main_v190, main_v191, main_v192, main_v193, main_v194, main_v195, main_call4_cst, main_call4_v0, main_v196, main_v197, main_v198, main_v199, main_v200, main_v201, main_v202, main_v203, main_v204, main_v205, main_v206, main_v207, main_v208, main_v209, main_v210, main_v211, main_v212, main_v213, main_v214, main_v215, main_cst_12, main_v216, main_v217, main_v218, main_v219, main_v220, main_v221, main_v222, main_v223, main_v224, main_v225, main_v226, main_v227, main_call5_cst, main_call5_v0, main_v228]

/-- Each operation of layer 2 writes only its own result, which is in that list. -/
theorem rwrites2_sub : (ops2 : List (HloOp τ sig (Elt F))).Forall fun op => op.writes ⊆ (rwrites2.map (Proc.devRef (τ := τ) .tc)).toFinset := by
  simp only [ops2, List.Forall, nullary_writes, unary_writes, binary_writes, ternary_writes,
    quaternary_writes, reshape_writes, Finset.singleton_subset_iff]
  repeat' apply And.intro
  all_goals exact List.mem_toFinset.mpr (List.mem_map.mpr ⟨_, by decide, rfl⟩)

/-- A buffer layer 2 does not write holds after the layer's operations what it held before them. -/
theorem rkeep2 (V : Valuation τ sig (Elt F)) (r : Ref sig .tc) (hr : r ∉ rwrites2) :
    after ops2 V (Proc.devRef .tc r) = V (Proc.devRef .tc r) :=
  after_of_writes_sub ops2 V rwrites2_sub hr

/-- The buffers layer 3's operations write, in the order of the operations. -/
abbrev rwrites3 : List (Ref sig .tc) :=
  [main_c_13, main_v229, main_v230, main_c_14, main_v231, main_v232, main_v233, main_v234, main_v235, main_cst_15, main_v236, main_v237, main_v238, main_v239, main_v240, main_v241, main_v242, main_v243, main_v244, main_v245, main_v246, main_v247, main_v248, main_v249, main_v250, main_v251, main_v252, main_v253, main_v254, main_v255, main_v256, main_v257, main_v258, main_cst_16, main_v259, main_v260, main_v261, main_v262, main_v263, main_v264, main_v265, main_v266, main_v267, main_v268, main_v269, main_v270, main_call6_cst, main_call6_v0, main_v271, main_v272, main_v273, main_v274, main_v275, main_v276, main_v277, main_v278, main_v279, main_v280, main_v281, main_v282, main_v283, main_v284, main_v285, main_v286, main_v287, main_v288, main_v289, main_v290, main_cst_17, main_v291, main_v292, main_v293, main_v294, main_v295, main_v296, main_v297, main_v298, main_v299, main_v300, main_v301, main_v302, main_call7_cst, main_call7_v0, main_v303]

/-- Each operation of layer 3 writes only its own result, which is in that list. -/
theorem rwrites3_sub : (ops3 : List (HloOp τ sig (Elt F))).Forall fun op => op.writes ⊆ (rwrites3.map (Proc.devRef (τ := τ) .tc)).toFinset := by
  simp only [ops3, List.Forall, nullary_writes, unary_writes, binary_writes, ternary_writes,
    quaternary_writes, reshape_writes, Finset.singleton_subset_iff]
  repeat' apply And.intro
  all_goals exact List.mem_toFinset.mpr (List.mem_map.mpr ⟨_, by decide, rfl⟩)

/-- A buffer layer 3 does not write holds after the layer's operations what it held before them. -/
theorem rkeep3 (V : Valuation τ sig (Elt F)) (r : Ref sig .tc) (hr : r ∉ rwrites3) :
    after ops3 V (Proc.devRef .tc r) = V (Proc.devRef .tc r) :=
  after_of_writes_sub ops3 V rwrites3_sub hr

/-- The buffers layer 4's operations write, in the order of the operations. -/
abbrev rwrites4 : List (Ref sig .tc) :=
  [main_c_18, main_v304, main_v305, main_c_19, main_v306, main_v307, main_v308, main_v309, main_v310, main_cst_20, main_v311, main_v312, main_v313, main_v314, main_v315, main_v316, main_v317, main_v318, main_v319, main_v320, main_v321, main_v322, main_v323, main_v324, main_v325, main_v326, main_v327, main_v328, main_v329, main_v330, main_v331, main_v332, main_v333, main_cst_21, main_v334, main_v335, main_v336, main_v337, main_v338, main_v339, main_v340, main_v341, main_v342, main_v343, main_v344, main_v345, main_call8_cst, main_call8_v0, main_v346, main_v347, main_v348, main_v349, main_v350, main_v351, main_v352, main_v353, main_v354, main_v355, main_v356, main_v357, main_v358, main_v359, main_v360, main_v361, main_v362, main_v363, main_v364, main_v365, main_cst_22, main_v366, main_v367, main_v368, main_v369, main_v370, main_v371, main_v372, main_v373, main_v374, main_v375, main_v376, main_v377]

/-- Each operation of layer 4 writes only its own result, which is in that list. -/
theorem rwrites4_sub : (ops4 : List (HloOp τ sig (Elt F))).Forall fun op => op.writes ⊆ (rwrites4.map (Proc.devRef (τ := τ) .tc)).toFinset := by
  simp only [ops4, List.Forall, nullary_writes, unary_writes, binary_writes, ternary_writes,
    quaternary_writes, reshape_writes, Finset.singleton_subset_iff]
  repeat' apply And.intro
  all_goals exact List.mem_toFinset.mpr (List.mem_map.mpr ⟨_, by decide, rfl⟩)

/-- A buffer layer 4 does not write holds after the layer's operations what it held before them. -/
theorem rkeep4 (V : Valuation τ sig (Elt F)) (r : Ref sig .tc) (hr : r ∉ rwrites4) :
    after ops4 V (Proc.devRef .tc r) = V (Proc.devRef .tc r) :=
  after_of_writes_sub ops4 V rwrites4_sub hr

end Cert.ReferenceIdeal.RunValue

end
-- ==== Proof.RefChunk0.lean ====
/-
  Layer 0 of the reference, read off its operations.

  Run from any contents of the buffers, the operations of layer 0 leave: in the layer's output array, the stage the
  reference's reading names for it, as a function of the fourteen argument arrays as they stood before; in the two
  index rows, the two rows of the edge array, each as a vector. Each fact is a computation over the list of
  operations: an operation's result at its own buffer is its function of its operands' contents, and at any other
  buffer the contents pass through. The stage then unfolds, definition by definition, to exactly these operations
  applied to the arguments.
-/
import proofs.«159699_j9251359555640_1_alg».proof.Proof.RefOps
import proofs.«159699_j9251359555640_1_alg».proof.Proof.RefRead

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

/-- The sources: row 0 of the edge array, as a vector. -/
theorem read0_v1 (V : Valuation τ sig (Elt Ideal)) :
    (after (ops0 (F := Ideal)) V (Proc.devRef .tc main_v1) : (⟨S640000, .i32⟩ : BufTy).Contents (Elt Ideal))
      = ReadP.val_main_v1 (F := Ideal) (V (Proc.devRef .tc main_arg1)) := by
  dsimp only [ops0]
  after_results_simp
  rfl

/-- The destinations: row 1 of the edge array, as a vector. -/
theorem read0_v3 (V : Valuation τ sig (Elt Ideal)) :
    (after (ops0 (F := Ideal)) V (Proc.devRef .tc main_v3) : (⟨S640000, .i32⟩ : BufTy).Contents (Elt Ideal))
      = ReadP.val_main_v3 (F := Ideal) (V (Proc.devRef .tc main_arg1)) := by
  dsimp only [ops0]
  after_results_simp
  rfl

/-- The layer's output array: the reading's stage of the fourteen argument arrays. -/
theorem read0 (V : Valuation τ sig (Elt Ideal)) :
    (after (ops0 (F := Ideal)) V (Proc.devRef .tc main_v78) : (⟨S100000x128, .f32⟩ : BufTy).Contents (Elt Ideal))
      = ReadP.val_main_v78 (F := Ideal) (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13)) := by
  dsimp only [ops0]
  after_results_simp
  rfl

end Cert.ReferenceIdeal.RunValue

end
-- ==== Proof.RefBack.lean ====
/-
  What every layer finds where the launch and the first layer left it.

  No operation of the reference writes an argument array, and only the first layer writes the two index rows it cuts
  out of the edge array (the sources, the destinations). So at every layer boundary an argument holds its launch
  contents and an index row holds its term of the edge array. Each fact is a walk back through the boundaries, one
  step per layer, each step the layer's list of written buffers not naming the buffer.
-/
import proofs.«159699_j9251359555640_1_alg».proof.Proof.RefStages
import proofs.«159699_j9251359555640_1_alg».proof.Proof.RefKeep
import proofs.«159699_j9251359555640_1_alg».proof.Proof.RefChunk0

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

/-! ## After layer 0 -/

theorem u1_arg0 (c : Dev nD) : U1 m c (Proc.devRef .tc main_arg0) = m ((c.tc : Thread nD τ).loc main_arg0) :=
  rkeep0 (U0 m c) main_arg0 (by decide)
theorem u1_arg1 (c : Dev nD) : U1 m c (Proc.devRef .tc main_arg1) = m ((c.tc : Thread nD τ).loc main_arg1) :=
  rkeep0 (U0 m c) main_arg1 (by decide)
theorem u1_arg2 (c : Dev nD) : U1 m c (Proc.devRef .tc main_arg2) = m ((c.tc : Thread nD τ).loc main_arg2) :=
  rkeep0 (U0 m c) main_arg2 (by decide)
theorem u1_arg3 (c : Dev nD) : U1 m c (Proc.devRef .tc main_arg3) = m ((c.tc : Thread nD τ).loc main_arg3) :=
  rkeep0 (U0 m c) main_arg3 (by decide)
theorem u1_arg4 (c : Dev nD) : U1 m c (Proc.devRef .tc main_arg4) = m ((c.tc : Thread nD τ).loc main_arg4) :=
  rkeep0 (U0 m c) main_arg4 (by decide)
theorem u1_arg5 (c : Dev nD) : U1 m c (Proc.devRef .tc main_arg5) = m ((c.tc : Thread nD τ).loc main_arg5) :=
  rkeep0 (U0 m c) main_arg5 (by decide)
theorem u1_arg6 (c : Dev nD) : U1 m c (Proc.devRef .tc main_arg6) = m ((c.tc : Thread nD τ).loc main_arg6) :=
  rkeep0 (U0 m c) main_arg6 (by decide)
theorem u1_arg7 (c : Dev nD) : U1 m c (Proc.devRef .tc main_arg7) = m ((c.tc : Thread nD τ).loc main_arg7) :=
  rkeep0 (U0 m c) main_arg7 (by decide)
theorem u1_arg8 (c : Dev nD) : U1 m c (Proc.devRef .tc main_arg8) = m ((c.tc : Thread nD τ).loc main_arg8) :=
  rkeep0 (U0 m c) main_arg8 (by decide)
theorem u1_arg9 (c : Dev nD) : U1 m c (Proc.devRef .tc main_arg9) = m ((c.tc : Thread nD τ).loc main_arg9) :=
  rkeep0 (U0 m c) main_arg9 (by decide)
theorem u1_arg10 (c : Dev nD) : U1 m c (Proc.devRef .tc main_arg10) = m ((c.tc : Thread nD τ).loc main_arg10) :=
  rkeep0 (U0 m c) main_arg10 (by decide)
theorem u1_arg11 (c : Dev nD) : U1 m c (Proc.devRef .tc main_arg11) = m ((c.tc : Thread nD τ).loc main_arg11) :=
  rkeep0 (U0 m c) main_arg11 (by decide)
theorem u1_arg12 (c : Dev nD) : U1 m c (Proc.devRef .tc main_arg12) = m ((c.tc : Thread nD τ).loc main_arg12) :=
  rkeep0 (U0 m c) main_arg12 (by decide)
theorem u1_arg13 (c : Dev nD) : U1 m c (Proc.devRef .tc main_arg13) = m ((c.tc : Thread nD τ).loc main_arg13) :=
  rkeep0 (U0 m c) main_arg13 (by decide)
theorem u1_v1 (c : Dev nD) : (U1 m c (Proc.devRef .tc main_v1) : (⟨S640000, .i32⟩ : BufTy).Contents (Elt Ideal))
    = ReadP.val_main_v1 (F := Ideal) (m ((c.tc : Thread nD τ).loc main_arg1)) :=
  read0_v1 (U0 m c)
theorem u1_v3 (c : Dev nD) : (U1 m c (Proc.devRef .tc main_v3) : (⟨S640000, .i32⟩ : BufTy).Contents (Elt Ideal))
    = ReadP.val_main_v3 (F := Ideal) (m ((c.tc : Thread nD τ).loc main_arg1)) :=
  read0_v3 (U0 m c)

/-! ## After layer 1 -/

theorem u2_arg0 (c : Dev nD) : U2 m c (Proc.devRef .tc main_arg0) = m ((c.tc : Thread nD τ).loc main_arg0) :=
  (rkeep1 (U1 m c) main_arg0 (by decide)).trans (u1_arg0 m c)
theorem u2_arg1 (c : Dev nD) : U2 m c (Proc.devRef .tc main_arg1) = m ((c.tc : Thread nD τ).loc main_arg1) :=
  (rkeep1 (U1 m c) main_arg1 (by decide)).trans (u1_arg1 m c)
theorem u2_arg2 (c : Dev nD) : U2 m c (Proc.devRef .tc main_arg2) = m ((c.tc : Thread nD τ).loc main_arg2) :=
  (rkeep1 (U1 m c) main_arg2 (by decide)).trans (u1_arg2 m c)
theorem u2_arg3 (c : Dev nD) : U2 m c (Proc.devRef .tc main_arg3) = m ((c.tc : Thread nD τ).loc main_arg3) :=
  (rkeep1 (U1 m c) main_arg3 (by decide)).trans (u1_arg3 m c)
theorem u2_arg4 (c : Dev nD) : U2 m c (Proc.devRef .tc main_arg4) = m ((c.tc : Thread nD τ).loc main_arg4) :=
  (rkeep1 (U1 m c) main_arg4 (by decide)).trans (u1_arg4 m c)
theorem u2_arg5 (c : Dev nD) : U2 m c (Proc.devRef .tc main_arg5) = m ((c.tc : Thread nD τ).loc main_arg5) :=
  (rkeep1 (U1 m c) main_arg5 (by decide)).trans (u1_arg5 m c)
theorem u2_arg6 (c : Dev nD) : U2 m c (Proc.devRef .tc main_arg6) = m ((c.tc : Thread nD τ).loc main_arg6) :=
  (rkeep1 (U1 m c) main_arg6 (by decide)).trans (u1_arg6 m c)
theorem u2_arg7 (c : Dev nD) : U2 m c (Proc.devRef .tc main_arg7) = m ((c.tc : Thread nD τ).loc main_arg7) :=
  (rkeep1 (U1 m c) main_arg7 (by decide)).trans (u1_arg7 m c)
theorem u2_arg8 (c : Dev nD) : U2 m c (Proc.devRef .tc main_arg8) = m ((c.tc : Thread nD τ).loc main_arg8) :=
  (rkeep1 (U1 m c) main_arg8 (by decide)).trans (u1_arg8 m c)
theorem u2_arg9 (c : Dev nD) : U2 m c (Proc.devRef .tc main_arg9) = m ((c.tc : Thread nD τ).loc main_arg9) :=
  (rkeep1 (U1 m c) main_arg9 (by decide)).trans (u1_arg9 m c)
theorem u2_arg10 (c : Dev nD) : U2 m c (Proc.devRef .tc main_arg10) = m ((c.tc : Thread nD τ).loc main_arg10) :=
  (rkeep1 (U1 m c) main_arg10 (by decide)).trans (u1_arg10 m c)
theorem u2_arg11 (c : Dev nD) : U2 m c (Proc.devRef .tc main_arg11) = m ((c.tc : Thread nD τ).loc main_arg11) :=
  (rkeep1 (U1 m c) main_arg11 (by decide)).trans (u1_arg11 m c)
theorem u2_arg12 (c : Dev nD) : U2 m c (Proc.devRef .tc main_arg12) = m ((c.tc : Thread nD τ).loc main_arg12) :=
  (rkeep1 (U1 m c) main_arg12 (by decide)).trans (u1_arg12 m c)
theorem u2_arg13 (c : Dev nD) : U2 m c (Proc.devRef .tc main_arg13) = m ((c.tc : Thread nD τ).loc main_arg13) :=
  (rkeep1 (U1 m c) main_arg13 (by decide)).trans (u1_arg13 m c)
theorem u2_v1 (c : Dev nD) : (U2 m c (Proc.devRef .tc main_v1) : (⟨S640000, .i32⟩ : BufTy).Contents (Elt Ideal))
    = ReadP.val_main_v1 (F := Ideal) (m ((c.tc : Thread nD τ).loc main_arg1)) :=
  (rkeep1 (U1 m c) main_v1 (by decide)).trans (u1_v1 m c)
theorem u2_v3 (c : Dev nD) : (U2 m c (Proc.devRef .tc main_v3) : (⟨S640000, .i32⟩ : BufTy).Contents (Elt Ideal))
    = ReadP.val_main_v3 (F := Ideal) (m ((c.tc : Thread nD τ).loc main_arg1)) :=
  (rkeep1 (U1 m c) main_v3 (by decide)).trans (u1_v3 m c)

/-! ## After layer 2 -/

theorem u3_arg0 (c : Dev nD) : U3 m c (Proc.devRef .tc main_arg0) = m ((c.tc : Thread nD τ).loc main_arg0) :=
  (rkeep2 (U2 m c) main_arg0 (by decide)).trans (u2_arg0 m c)
theorem u3_arg1 (c : Dev nD) : U3 m c (Proc.devRef .tc main_arg1) = m ((c.tc : Thread nD τ).loc main_arg1) :=
  (rkeep2 (U2 m c) main_arg1 (by decide)).trans (u2_arg1 m c)
theorem u3_arg2 (c : Dev nD) : U3 m c (Proc.devRef .tc main_arg2) = m ((c.tc : Thread nD τ).loc main_arg2) :=
  (rkeep2 (U2 m c) main_arg2 (by decide)).trans (u2_arg2 m c)
theorem u3_arg3 (c : Dev nD) : U3 m c (Proc.devRef .tc main_arg3) = m ((c.tc : Thread nD τ).loc main_arg3) :=
  (rkeep2 (U2 m c) main_arg3 (by decide)).trans (u2_arg3 m c)
theorem u3_arg4 (c : Dev nD) : U3 m c (Proc.devRef .tc main_arg4) = m ((c.tc : Thread nD τ).loc main_arg4) :=
  (rkeep2 (U2 m c) main_arg4 (by decide)).trans (u2_arg4 m c)
theorem u3_arg5 (c : Dev nD) : U3 m c (Proc.devRef .tc main_arg5) = m ((c.tc : Thread nD τ).loc main_arg5) :=
  (rkeep2 (U2 m c) main_arg5 (by decide)).trans (u2_arg5 m c)
theorem u3_arg6 (c : Dev nD) : U3 m c (Proc.devRef .tc main_arg6) = m ((c.tc : Thread nD τ).loc main_arg6) :=
  (rkeep2 (U2 m c) main_arg6 (by decide)).trans (u2_arg6 m c)
theorem u3_arg7 (c : Dev nD) : U3 m c (Proc.devRef .tc main_arg7) = m ((c.tc : Thread nD τ).loc main_arg7) :=
  (rkeep2 (U2 m c) main_arg7 (by decide)).trans (u2_arg7 m c)
theorem u3_arg8 (c : Dev nD) : U3 m c (Proc.devRef .tc main_arg8) = m ((c.tc : Thread nD τ).loc main_arg8) :=
  (rkeep2 (U2 m c) main_arg8 (by decide)).trans (u2_arg8 m c)
theorem u3_arg9 (c : Dev nD) : U3 m c (Proc.devRef .tc main_arg9) = m ((c.tc : Thread nD τ).loc main_arg9) :=
  (rkeep2 (U2 m c) main_arg9 (by decide)).trans (u2_arg9 m c)
theorem u3_arg10 (c : Dev nD) : U3 m c (Proc.devRef .tc main_arg10) = m ((c.tc : Thread nD τ).loc main_arg10) :=
  (rkeep2 (U2 m c) main_arg10 (by decide)).trans (u2_arg10 m c)
theorem u3_arg11 (c : Dev nD) : U3 m c (Proc.devRef .tc main_arg11) = m ((c.tc : Thread nD τ).loc main_arg11) :=
  (rkeep2 (U2 m c) main_arg11 (by decide)).trans (u2_arg11 m c)
theorem u3_arg12 (c : Dev nD) : U3 m c (Proc.devRef .tc main_arg12) = m ((c.tc : Thread nD τ).loc main_arg12) :=
  (rkeep2 (U2 m c) main_arg12 (by decide)).trans (u2_arg12 m c)
theorem u3_arg13 (c : Dev nD) : U3 m c (Proc.devRef .tc main_arg13) = m ((c.tc : Thread nD τ).loc main_arg13) :=
  (rkeep2 (U2 m c) main_arg13 (by decide)).trans (u2_arg13 m c)
theorem u3_v1 (c : Dev nD) : (U3 m c (Proc.devRef .tc main_v1) : (⟨S640000, .i32⟩ : BufTy).Contents (Elt Ideal))
    = ReadP.val_main_v1 (F := Ideal) (m ((c.tc : Thread nD τ).loc main_arg1)) :=
  (rkeep2 (U2 m c) main_v1 (by decide)).trans (u2_v1 m c)
theorem u3_v3 (c : Dev nD) : (U3 m c (Proc.devRef .tc main_v3) : (⟨S640000, .i32⟩ : BufTy).Contents (Elt Ideal))
    = ReadP.val_main_v3 (F := Ideal) (m ((c.tc : Thread nD τ).loc main_arg1)) :=
  (rkeep2 (U2 m c) main_v3 (by decide)).trans (u2_v3 m c)

/-! ## After layer 3 -/

theorem u4_arg0 (c : Dev nD) : U4 m c (Proc.devRef .tc main_arg0) = m ((c.tc : Thread nD τ).loc main_arg0) :=
  (rkeep3 (U3 m c) main_arg0 (by decide)).trans (u3_arg0 m c)
theorem u4_arg1 (c : Dev nD) : U4 m c (Proc.devRef .tc main_arg1) = m ((c.tc : Thread nD τ).loc main_arg1) :=
  (rkeep3 (U3 m c) main_arg1 (by decide)).trans (u3_arg1 m c)
theorem u4_arg2 (c : Dev nD) : U4 m c (Proc.devRef .tc main_arg2) = m ((c.tc : Thread nD τ).loc main_arg2) :=
  (rkeep3 (U3 m c) main_arg2 (by decide)).trans (u3_arg2 m c)
theorem u4_arg3 (c : Dev nD) : U4 m c (Proc.devRef .tc main_arg3) = m ((c.tc : Thread nD τ).loc main_arg3) :=
  (rkeep3 (U3 m c) main_arg3 (by decide)).trans (u3_arg3 m c)
theorem u4_arg4 (c : Dev nD) : U4 m c (Proc.devRef .tc main_arg4) = m ((c.tc : Thread nD τ).loc main_arg4) :=
  (rkeep3 (U3 m c) main_arg4 (by decide)).trans (u3_arg4 m c)
theorem u4_arg5 (c : Dev nD) : U4 m c (Proc.devRef .tc main_arg5) = m ((c.tc : Thread nD τ).loc main_arg5) :=
  (rkeep3 (U3 m c) main_arg5 (by decide)).trans (u3_arg5 m c)
theorem u4_arg6 (c : Dev nD) : U4 m c (Proc.devRef .tc main_arg6) = m ((c.tc : Thread nD τ).loc main_arg6) :=
  (rkeep3 (U3 m c) main_arg6 (by decide)).trans (u3_arg6 m c)
theorem u4_arg7 (c : Dev nD) : U4 m c (Proc.devRef .tc main_arg7) = m ((c.tc : Thread nD τ).loc main_arg7) :=
  (rkeep3 (U3 m c) main_arg7 (by decide)).trans (u3_arg7 m c)
theorem u4_arg8 (c : Dev nD) : U4 m c (Proc.devRef .tc main_arg8) = m ((c.tc : Thread nD τ).loc main_arg8) :=
  (rkeep3 (U3 m c) main_arg8 (by decide)).trans (u3_arg8 m c)
theorem u4_arg9 (c : Dev nD) : U4 m c (Proc.devRef .tc main_arg9) = m ((c.tc : Thread nD τ).loc main_arg9) :=
  (rkeep3 (U3 m c) main_arg9 (by decide)).trans (u3_arg9 m c)
theorem u4_arg10 (c : Dev nD) : U4 m c (Proc.devRef .tc main_arg10) = m ((c.tc : Thread nD τ).loc main_arg10) :=
  (rkeep3 (U3 m c) main_arg10 (by decide)).trans (u3_arg10 m c)
theorem u4_arg11 (c : Dev nD) : U4 m c (Proc.devRef .tc main_arg11) = m ((c.tc : Thread nD τ).loc main_arg11) :=
  (rkeep3 (U3 m c) main_arg11 (by decide)).trans (u3_arg11 m c)
theorem u4_arg12 (c : Dev nD) : U4 m c (Proc.devRef .tc main_arg12) = m ((c.tc : Thread nD τ).loc main_arg12) :=
  (rkeep3 (U3 m c) main_arg12 (by decide)).trans (u3_arg12 m c)
theorem u4_arg13 (c : Dev nD) : U4 m c (Proc.devRef .tc main_arg13) = m ((c.tc : Thread nD τ).loc main_arg13) :=
  (rkeep3 (U3 m c) main_arg13 (by decide)).trans (u3_arg13 m c)
theorem u4_v1 (c : Dev nD) : (U4 m c (Proc.devRef .tc main_v1) : (⟨S640000, .i32⟩ : BufTy).Contents (Elt Ideal))
    = ReadP.val_main_v1 (F := Ideal) (m ((c.tc : Thread nD τ).loc main_arg1)) :=
  (rkeep3 (U3 m c) main_v1 (by decide)).trans (u3_v1 m c)
theorem u4_v3 (c : Dev nD) : (U4 m c (Proc.devRef .tc main_v3) : (⟨S640000, .i32⟩ : BufTy).Contents (Elt Ideal))
    = ReadP.val_main_v3 (F := Ideal) (m ((c.tc : Thread nD τ).loc main_arg1)) :=
  (rkeep3 (U3 m c) main_v3 (by decide)).trans (u3_v3 m c)

/-! ## After layer 4 -/

theorem u5_arg0 (c : Dev nD) : U5 m c (Proc.devRef .tc main_arg0) = m ((c.tc : Thread nD τ).loc main_arg0) :=
  (rkeep4 (U4 m c) main_arg0 (by decide)).trans (u4_arg0 m c)
theorem u5_arg1 (c : Dev nD) : U5 m c (Proc.devRef .tc main_arg1) = m ((c.tc : Thread nD τ).loc main_arg1) :=
  (rkeep4 (U4 m c) main_arg1 (by decide)).trans (u4_arg1 m c)
theorem u5_arg2 (c : Dev nD) : U5 m c (Proc.devRef .tc main_arg2) = m ((c.tc : Thread nD τ).loc main_arg2) :=
  (rkeep4 (U4 m c) main_arg2 (by decide)).trans (u4_arg2 m c)
theorem u5_arg3 (c : Dev nD) : U5 m c (Proc.devRef .tc main_arg3) = m ((c.tc : Thread nD τ).loc main_arg3) :=
  (rkeep4 (U4 m c) main_arg3 (by decide)).trans (u4_arg3 m c)
theorem u5_arg4 (c : Dev nD) : U5 m c (Proc.devRef .tc main_arg4) = m ((c.tc : Thread nD τ).loc main_arg4) :=
  (rkeep4 (U4 m c) main_arg4 (by decide)).trans (u4_arg4 m c)
theorem u5_arg5 (c : Dev nD) : U5 m c (Proc.devRef .tc main_arg5) = m ((c.tc : Thread nD τ).loc main_arg5) :=
  (rkeep4 (U4 m c) main_arg5 (by decide)).trans (u4_arg5 m c)
theorem u5_arg6 (c : Dev nD) : U5 m c (Proc.devRef .tc main_arg6) = m ((c.tc : Thread nD τ).loc main_arg6) :=
  (rkeep4 (U4 m c) main_arg6 (by decide)).trans (u4_arg6 m c)
theorem u5_arg7 (c : Dev nD) : U5 m c (Proc.devRef .tc main_arg7) = m ((c.tc : Thread nD τ).loc main_arg7) :=
  (rkeep4 (U4 m c) main_arg7 (by decide)).trans (u4_arg7 m c)
theorem u5_arg8 (c : Dev nD) : U5 m c (Proc.devRef .tc main_arg8) = m ((c.tc : Thread nD τ).loc main_arg8) :=
  (rkeep4 (U4 m c) main_arg8 (by decide)).trans (u4_arg8 m c)
theorem u5_arg9 (c : Dev nD) : U5 m c (Proc.devRef .tc main_arg9) = m ((c.tc : Thread nD τ).loc main_arg9) :=
  (rkeep4 (U4 m c) main_arg9 (by decide)).trans (u4_arg9 m c)
theorem u5_arg10 (c : Dev nD) : U5 m c (Proc.devRef .tc main_arg10) = m ((c.tc : Thread nD τ).loc main_arg10) :=
  (rkeep4 (U4 m c) main_arg10 (by decide)).trans (u4_arg10 m c)
theorem u5_arg11 (c : Dev nD) : U5 m c (Proc.devRef .tc main_arg11) = m ((c.tc : Thread nD τ).loc main_arg11) :=
  (rkeep4 (U4 m c) main_arg11 (by decide)).trans (u4_arg11 m c)
theorem u5_arg12 (c : Dev nD) : U5 m c (Proc.devRef .tc main_arg12) = m ((c.tc : Thread nD τ).loc main_arg12) :=
  (rkeep4 (U4 m c) main_arg12 (by decide)).trans (u4_arg12 m c)
theorem u5_arg13 (c : Dev nD) : U5 m c (Proc.devRef .tc main_arg13) = m ((c.tc : Thread nD τ).loc main_arg13) :=
  (rkeep4 (U4 m c) main_arg13 (by decide)).trans (u4_arg13 m c)
theorem u5_v1 (c : Dev nD) : (U5 m c (Proc.devRef .tc main_v1) : (⟨S640000, .i32⟩ : BufTy).Contents (Elt Ideal))
    = ReadP.val_main_v1 (F := Ideal) (m ((c.tc : Thread nD τ).loc main_arg1)) :=
  (rkeep4 (U4 m c) main_v1 (by decide)).trans (u4_v1 m c)
theorem u5_v3 (c : Dev nD) : (U5 m c (Proc.devRef .tc main_v3) : (⟨S640000, .i32⟩ : BufTy).Contents (Elt Ideal))
    = ReadP.val_main_v3 (F := Ideal) (m ((c.tc : Thread nD τ).loc main_arg1)) :=
  (rkeep4 (U4 m c) main_v3 (by decide)).trans (u4_v3 m c)

end Cert.ReferenceIdeal.RunValue

end
-- ==== Proof.RefChunk1.lean ====
/-
  Layer 1 of the reference, read off its operations.

  The operations of layer 1 read the output array of layer 0, the two index rows, and the argument arrays 2 to 13,
  and nothing else that they do not write themselves. Run from contents in which those buffers hold the reading's
  stages of fourteen arrays x0 … x13, they leave in the layer's output array the reading's stage of the same arrays:
  that stage unfolds, definition by definition, to exactly these operations applied to the earlier stages, and
  layer 0's stage stands on both sides as the same closed term, which is never opened.
-/
import proofs.«159699_j9251359555640_1_alg».proof.Proof.RefOps
import proofs.«159699_j9251359555640_1_alg».proof.Proof.RefRead

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

set_option maxHeartbeats 2000000 in
/-- The layer's output array: the reading's stage, given the stages in the buffers the layer reads. -/
theorem read1 (V : Valuation τ sig (Elt Ideal))
    (x0 : (⟨S100000x128, .f32⟩ : BufTy).Contents (Elt Ideal)) (x1 : (⟨S2x640000, .i32⟩ : BufTy).Contents (Elt Ideal))
    (x2 : (⟨S5x128x256, .f32⟩ : BufTy).Contents (Elt Ideal)) (x3 x4 x5 x6 x7 : (⟨S5x256, .f32⟩ : BufTy).Contents (Elt Ideal))
    (x8 : (⟨S5x256x128, .f32⟩ : BufTy).Contents (Elt Ideal)) (x9 x10 x11 x12 x13 : (⟨S5x128, .f32⟩ : BufTy).Contents (Elt Ideal))
    (hp : (V (Proc.devRef .tc main_v78) : (⟨S100000x128, .f32⟩ : BufTy).Contents (Elt Ideal)) = ReadP.val_main_v78 (F := Ideal) x0 x1 x2 x3 x4 x5 x6 x7 x8 x9 x10 x11 x12 x13)
    (h1 : (V (Proc.devRef .tc main_v1) : (⟨S640000, .i32⟩ : BufTy).Contents (Elt Ideal)) = ReadP.val_main_v1 (F := Ideal) x1)
    (h3 : (V (Proc.devRef .tc main_v3) : (⟨S640000, .i32⟩ : BufTy).Contents (Elt Ideal)) = ReadP.val_main_v3 (F := Ideal) x1)
    (a2 : (V (Proc.devRef .tc main_arg2) : (⟨S5x128x256, .f32⟩ : BufTy).Contents (Elt Ideal)) = x2)
    (a3 : (V (Proc.devRef .tc main_arg3) : (⟨S5x256, .f32⟩ : BufTy).Contents (Elt Ideal)) = x3)
    (a4 : (V (Proc.devRef .tc main_arg4) : (⟨S5x256, .f32⟩ : BufTy).Contents (Elt Ideal)) = x4)
    (a5 : (V (Proc.devRef .tc main_arg5) : (⟨S5x256, .f32⟩ : BufTy).Contents (Elt Ideal)) = x5)
    (a6 : (V (Proc.devRef .tc main_arg6) : (⟨S5x256, .f32⟩ : BufTy).Contents (Elt Ideal)) = x6)
    (a7 : (V (Proc.devRef .tc main_arg7) : (⟨S5x256, .f32⟩ : BufTy).Contents (Elt Ideal)) = x7)
    (a8 : (V (Proc.devRef .tc main_arg8) : (⟨S5x256x128, .f32⟩ : BufTy).Contents (Elt Ideal)) = x8)
    (a9 : (V (Proc.devRef .tc main_arg9) : (⟨S5x128, .f32⟩ : BufTy).Contents (Elt Ideal)) = x9)
    (a10 : (V (Proc.devRef .tc main_arg10) : (⟨S5x128, .f32⟩ : BufTy).Contents (Elt Ideal)) = x10)
    (a11 : (V (Proc.devRef .tc main_arg11) : (⟨S5x128, .f32⟩ : BufTy).Contents (Elt Ideal)) = x11)
    (a12 : (V (Proc.devRef .tc main_arg12) : (⟨S5x128, .f32⟩ : BufTy).Contents (Elt Ideal)) = x12)
    (a13 : (V (Proc.devRef .tc main_arg13) : (⟨S5x128, .f32⟩ : BufTy).Contents (Elt Ideal)) = x13) :
    (after (ops1 (F := Ideal)) V (Proc.devRef .tc main_v153) : (⟨S100000x128, .f32⟩ : BufTy).Contents (Elt Ideal))
      = ReadP.val_main_v153 (F := Ideal) x0 x1 x2 x3 x4 x5 x6 x7 x8 x9 x10 x11 x12 x13 := by
  dsimp only [ops1]
  after_results_simp
  rw [hp, h1, h3, a2, a3, a4, a5, a6, a7, a8, a9, a10, a11, a12, a13]
  rfl

end Cert.ReferenceIdeal.RunValue

end
-- ==== Proof.RefChunk2.lean ====
/-
  Layer 2 of the reference, read off its operations.

  The operations of layer 2 read the output array of layer 1, the two index rows, and the argument arrays 2 to 13,
  and nothing else that they do not write themselves. Run from contents in which those buffers hold the reading's
  stages of fourteen arrays x0 … x13, they leave in the layer's output array the reading's stage of the same arrays:
  that stage unfolds, definition by definition, to exactly these operations applied to the earlier stages, and
  layer 1's stage stands on both sides as the same closed term, which is never opened.
-/
import proofs.«159699_j9251359555640_1_alg».proof.Proof.RefOps
import proofs.«159699_j9251359555640_1_alg».proof.Proof.RefRead

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

set_option maxHeartbeats 2000000 in
/-- The layer's output array: the reading's stage, given the stages in the buffers the layer reads. -/
theorem read2 (V : Valuation τ sig (Elt Ideal))
    (x0 : (⟨S100000x128, .f32⟩ : BufTy).Contents (Elt Ideal)) (x1 : (⟨S2x640000, .i32⟩ : BufTy).Contents (Elt Ideal))
    (x2 : (⟨S5x128x256, .f32⟩ : BufTy).Contents (Elt Ideal)) (x3 x4 x5 x6 x7 : (⟨S5x256, .f32⟩ : BufTy).Contents (Elt Ideal))
    (x8 : (⟨S5x256x128, .f32⟩ : BufTy).Contents (Elt Ideal)) (x9 x10 x11 x12 x13 : (⟨S5x128, .f32⟩ : BufTy).Contents (Elt Ideal))
    (hp : (V (Proc.devRef .tc main_v153) : (⟨S100000x128, .f32⟩ : BufTy).Contents (Elt Ideal)) = ReadP.val_main_v153 (F := Ideal) x0 x1 x2 x3 x4 x5 x6 x7 x8 x9 x10 x11 x12 x13)
    (h1 : (V (Proc.devRef .tc main_v1) : (⟨S640000, .i32⟩ : BufTy).Contents (Elt Ideal)) = ReadP.val_main_v1 (F := Ideal) x1)
    (h3 : (V (Proc.devRef .tc main_v3) : (⟨S640000, .i32⟩ : BufTy).Contents (Elt Ideal)) = ReadP.val_main_v3 (F := Ideal) x1)
    (a2 : (V (Proc.devRef .tc main_arg2) : (⟨S5x128x256, .f32⟩ : BufTy).Contents (Elt Ideal)) = x2)
    (a3 : (V (Proc.devRef .tc main_arg3) : (⟨S5x256, .f32⟩ : BufTy).Contents (Elt Ideal)) = x3)
    (a4 : (V (Proc.devRef .tc main_arg4) : (⟨S5x256, .f32⟩ : BufTy).Contents (Elt Ideal)) = x4)
    (a5 : (V (Proc.devRef .tc main_arg5) : (⟨S5x256, .f32⟩ : BufTy).Contents (Elt Ideal)) = x5)
    (a6 : (V (Proc.devRef .tc main_arg6) : (⟨S5x256, .f32⟩ : BufTy).Contents (Elt Ideal)) = x6)
    (a7 : (V (Proc.devRef .tc main_arg7) : (⟨S5x256, .f32⟩ : BufTy).Contents (Elt Ideal)) = x7)
    (a8 : (V (Proc.devRef .tc main_arg8) : (⟨S5x256x128, .f32⟩ : BufTy).Contents (Elt Ideal)) = x8)
    (a9 : (V (Proc.devRef .tc main_arg9) : (⟨S5x128, .f32⟩ : BufTy).Contents (Elt Ideal)) = x9)
    (a10 : (V (Proc.devRef .tc main_arg10) : (⟨S5x128, .f32⟩ : BufTy).Contents (Elt Ideal)) = x10)
    (a11 : (V (Proc.devRef .tc main_arg11) : (⟨S5x128, .f32⟩ : BufTy).Contents (Elt Ideal)) = x11)
    (a12 : (V (Proc.devRef .tc main_arg12) : (⟨S5x128, .f32⟩ : BufTy).Contents (Elt Ideal)) = x12)
    (a13 : (V (Proc.devRef .tc main_arg13) : (⟨S5x128, .f32⟩ : BufTy).Contents (Elt Ideal)) = x13) :
    (after (ops2 (F := Ideal)) V (Proc.devRef .tc main_v228) : (⟨S100000x128, .f32⟩ : BufTy).Contents (Elt Ideal))
      = ReadP.val_main_v228 (F := Ideal) x0 x1 x2 x3 x4 x5 x6 x7 x8 x9 x10 x11 x12 x13 := by
  dsimp only [ops2]
  after_results_simp
  rw [hp, h1, h3, a2, a3, a4, a5, a6, a7, a8, a9, a10, a11, a12, a13]
  rfl

end Cert.ReferenceIdeal.RunValue

end
-- ==== Proof.RefChunk3.lean ====
/-
  Layer 3 of the reference, read off its operations.

  The operations of layer 3 read the output array of layer 2, the two index rows, and the argument arrays 2 to 13,
  and nothing else that they do not write themselves. Run from contents in which those buffers hold the reading's
  stages of fourteen arrays x0 … x13, they leave in the layer's output array the reading's stage of the same arrays:
  that stage unfolds, definition by definition, to exactly these operations applied to the earlier stages, and
  layer 2's stage stands on both sides as the same closed term, which is never opened.
-/
import proofs.«159699_j9251359555640_1_alg».proof.Proof.RefOps
import proofs.«159699_j9251359555640_1_alg».proof.Proof.RefRead

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

set_option maxHeartbeats 2000000 in
/-- The layer's output array: the reading's stage, given the stages in the buffers the layer reads. -/
theorem read3 (V : Valuation τ sig (Elt Ideal))
    (x0 : (⟨S100000x128, .f32⟩ : BufTy).Contents (Elt Ideal)) (x1 : (⟨S2x640000, .i32⟩ : BufTy).Contents (Elt Ideal))
    (x2 : (⟨S5x128x256, .f32⟩ : BufTy).Contents (Elt Ideal)) (x3 x4 x5 x6 x7 : (⟨S5x256, .f32⟩ : BufTy).Contents (Elt Ideal))
    (x8 : (⟨S5x256x128, .f32⟩ : BufTy).Contents (Elt Ideal)) (x9 x10 x11 x12 x13 : (⟨S5x128, .f32⟩ : BufTy).Contents (Elt Ideal))
    (hp : (V (Proc.devRef .tc main_v228) : (⟨S100000x128, .f32⟩ : BufTy).Contents (Elt Ideal)) = ReadP.val_main_v228 (F := Ideal) x0 x1 x2 x3 x4 x5 x6 x7 x8 x9 x10 x11 x12 x13)
    (h1 : (V (Proc.devRef .tc main_v1) : (⟨S640000, .i32⟩ : BufTy).Contents (Elt Ideal)) = ReadP.val_main_v1 (F := Ideal) x1)
    (h3 : (V (Proc.devRef .tc main_v3) : (⟨S640000, .i32⟩ : BufTy).Contents (Elt Ideal)) = ReadP.val_main_v3 (F := Ideal) x1)
    (a2 : (V (Proc.devRef .tc main_arg2) : (⟨S5x128x256, .f32⟩ : BufTy).Contents (Elt Ideal)) = x2)
    (a3 : (V (Proc.devRef .tc main_arg3) : (⟨S5x256, .f32⟩ : BufTy).Contents (Elt Ideal)) = x3)
    (a4 : (V (Proc.devRef .tc main_arg4) : (⟨S5x256, .f32⟩ : BufTy).Contents (Elt Ideal)) = x4)
    (a5 : (V (Proc.devRef .tc main_arg5) : (⟨S5x256, .f32⟩ : BufTy).Contents (Elt Ideal)) = x5)
    (a6 : (V (Proc.devRef .tc main_arg6) : (⟨S5x256, .f32⟩ : BufTy).Contents (Elt Ideal)) = x6)
    (a7 : (V (Proc.devRef .tc main_arg7) : (⟨S5x256, .f32⟩ : BufTy).Contents (Elt Ideal)) = x7)
    (a8 : (V (Proc.devRef .tc main_arg8) : (⟨S5x256x128, .f32⟩ : BufTy).Contents (Elt Ideal)) = x8)
    (a9 : (V (Proc.devRef .tc main_arg9) : (⟨S5x128, .f32⟩ : BufTy).Contents (Elt Ideal)) = x9)
    (a10 : (V (Proc.devRef .tc main_arg10) : (⟨S5x128, .f32⟩ : BufTy).Contents (Elt Ideal)) = x10)
    (a11 : (V (Proc.devRef .tc main_arg11) : (⟨S5x128, .f32⟩ : BufTy).Contents (Elt Ideal)) = x11)
    (a12 : (V (Proc.devRef .tc main_arg12) : (⟨S5x128, .f32⟩ : BufTy).Contents (Elt Ideal)) = x12)
    (a13 : (V (Proc.devRef .tc main_arg13) : (⟨S5x128, .f32⟩ : BufTy).Contents (Elt Ideal)) = x13) :
    (after (ops3 (F := Ideal)) V (Proc.devRef .tc main_v303) : (⟨S100000x128, .f32⟩ : BufTy).Contents (Elt Ideal))
      = ReadP.val_main_v303 (F := Ideal) x0 x1 x2 x3 x4 x5 x6 x7 x8 x9 x10 x11 x12 x13 := by
  dsimp only [ops3]
  after_results_simp
  rw [hp, h1, h3, a2, a3, a4, a5, a6, a7, a8, a9, a10, a11, a12, a13]
  rfl

end Cert.ReferenceIdeal.RunValue

end
-- ==== Proof.RefChunk4.lean ====
/-
  Layer 4 of the reference, read off its operations.

  The operations of layer 4 read the output array of layer 3, the two index rows, and the argument arrays 2 to 13,
  and nothing else that they do not write themselves. Run from contents in which those buffers hold the reading's
  stages of fourteen arrays x0 … x13, they leave in the layer's output array the reading's stage of the same arrays:
  that stage unfolds, definition by definition, to exactly these operations applied to the earlier stages, and
  layer 3's stage stands on both sides as the same closed term, which is never opened.
-/
import proofs.«159699_j9251359555640_1_alg».proof.Proof.RefOps
import proofs.«159699_j9251359555640_1_alg».proof.Proof.RefRead

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

set_option maxHeartbeats 2000000 in
/-- The layer's output array: the reading's stage, given the stages in the buffers the layer reads. -/
theorem read4 (V : Valuation τ sig (Elt Ideal))
    (x0 : (⟨S100000x128, .f32⟩ : BufTy).Contents (Elt Ideal)) (x1 : (⟨S2x640000, .i32⟩ : BufTy).Contents (Elt Ideal))
    (x2 : (⟨S5x128x256, .f32⟩ : BufTy).Contents (Elt Ideal)) (x3 x4 x5 x6 x7 : (⟨S5x256, .f32⟩ : BufTy).Contents (Elt Ideal))
    (x8 : (⟨S5x256x128, .f32⟩ : BufTy).Contents (Elt Ideal)) (x9 x10 x11 x12 x13 : (⟨S5x128, .f32⟩ : BufTy).Contents (Elt Ideal))
    (hp : (V (Proc.devRef .tc main_v303) : (⟨S100000x128, .f32⟩ : BufTy).Contents (Elt Ideal)) = ReadP.val_main_v303 (F := Ideal) x0 x1 x2 x3 x4 x5 x6 x7 x8 x9 x10 x11 x12 x13)
    (h1 : (V (Proc.devRef .tc main_v1) : (⟨S640000, .i32⟩ : BufTy).Contents (Elt Ideal)) = ReadP.val_main_v1 (F := Ideal) x1)
    (h3 : (V (Proc.devRef .tc main_v3) : (⟨S640000, .i32⟩ : BufTy).Contents (Elt Ideal)) = ReadP.val_main_v3 (F := Ideal) x1)
    (a2 : (V (Proc.devRef .tc main_arg2) : (⟨S5x128x256, .f32⟩ : BufTy).Contents (Elt Ideal)) = x2)
    (a3 : (V (Proc.devRef .tc main_arg3) : (⟨S5x256, .f32⟩ : BufTy).Contents (Elt Ideal)) = x3)
    (a4 : (V (Proc.devRef .tc main_arg4) : (⟨S5x256, .f32⟩ : BufTy).Contents (Elt Ideal)) = x4)
    (a5 : (V (Proc.devRef .tc main_arg5) : (⟨S5x256, .f32⟩ : BufTy).Contents (Elt Ideal)) = x5)
    (a6 : (V (Proc.devRef .tc main_arg6) : (⟨S5x256, .f32⟩ : BufTy).Contents (Elt Ideal)) = x6)
    (a7 : (V (Proc.devRef .tc main_arg7) : (⟨S5x256, .f32⟩ : BufTy).Contents (Elt Ideal)) = x7)
    (a8 : (V (Proc.devRef .tc main_arg8) : (⟨S5x256x128, .f32⟩ : BufTy).Contents (Elt Ideal)) = x8)
    (a9 : (V (Proc.devRef .tc main_arg9) : (⟨S5x128, .f32⟩ : BufTy).Contents (Elt Ideal)) = x9)
    (a10 : (V (Proc.devRef .tc main_arg10) : (⟨S5x128, .f32⟩ : BufTy).Contents (Elt Ideal)) = x10)
    (a11 : (V (Proc.devRef .tc main_arg11) : (⟨S5x128, .f32⟩ : BufTy).Contents (Elt Ideal)) = x11)
    (a12 : (V (Proc.devRef .tc main_arg12) : (⟨S5x128, .f32⟩ : BufTy).Contents (Elt Ideal)) = x12)
    (a13 : (V (Proc.devRef .tc main_arg13) : (⟨S5x128, .f32⟩ : BufTy).Contents (Elt Ideal)) = x13) :
    (after (ops4 (F := Ideal)) V (Proc.devRef .tc main_v377) : (⟨S100000x128, .f32⟩ : BufTy).Contents (Elt Ideal))
      = ReadP.val_main_v377 (F := Ideal) x0 x1 x2 x3 x4 x5 x6 x7 x8 x9 x10 x11 x12 x13 := by
  dsimp only [ops4]
  after_results_simp
  rw [hp, h1, h3, a2, a3, a4, a5, a6, a7, a8, a9, a10, a11, a12, a13]
  rfl

end Cert.ReferenceIdeal.RunValue

end
-- ==== Proof.RefChunks.lean ====
/-
  The reference's run, layer by layer: what its last layer leaves.

  At every boundary between two layers the live buffers are few: the output array of the layer before, the two index
  rows, and the fourteen argument arrays. After layer 0 the layer's output array holds the reading's stage of the
  arguments' launch contents. If the boundary before a later layer holds the reading's stages in those buffers, the
  boundary after it holds the layer's stage in the layer's output array; the arguments and the index rows are carried
  over unchanged. Five steps give the reference's result: after the last layer its result array holds the reading's
  last stage of the arguments' launch contents, and the arguments are as launched.
-/
import proofs.«159699_j9251359555640_1_alg».proof.Proof.RefBack
import proofs.«159699_j9251359555640_1_alg».proof.Proof.RefChunk1
import proofs.«159699_j9251359555640_1_alg».proof.Proof.RefChunk2
import proofs.«159699_j9251359555640_1_alg».proof.Proof.RefChunk3
import proofs.«159699_j9251359555640_1_alg».proof.Proof.RefChunk4

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

/-- After layer 0 its output array holds the reading's stage of the arguments' launch contents. -/
theorem u1_out (c : Dev nD) :
    U1 m c (Proc.devRef .tc main_v78) = ReadP.val_main_v78 (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13)) :=
  read0 (U0 m c)

/-- After layer 1 its output array holds the reading's stage of the arguments' launch contents. -/
theorem u2_out (c : Dev nD) :
    U2 m c (Proc.devRef .tc main_v153) = ReadP.val_main_v153 (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13)) :=
  read1 (U1 m c)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    (u1_out m c) (u1_v1 m c) (u1_v3 m c)
    (u1_arg2 m c) (u1_arg3 m c) (u1_arg4 m c) (u1_arg5 m c) (u1_arg6 m c) (u1_arg7 m c) (u1_arg8 m c) (u1_arg9 m c) (u1_arg10 m c) (u1_arg11 m c) (u1_arg12 m c) (u1_arg13 m c)

/-- After layer 2 its output array holds the reading's stage of the arguments' launch contents. -/
theorem u3_out (c : Dev nD) :
    U3 m c (Proc.devRef .tc main_v228) = ReadP.val_main_v228 (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13)) :=
  read2 (U2 m c)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    (u2_out m c) (u2_v1 m c) (u2_v3 m c)
    (u2_arg2 m c) (u2_arg3 m c) (u2_arg4 m c) (u2_arg5 m c) (u2_arg6 m c) (u2_arg7 m c) (u2_arg8 m c) (u2_arg9 m c) (u2_arg10 m c) (u2_arg11 m c) (u2_arg12 m c) (u2_arg13 m c)

/-- After layer 3 its output array holds the reading's stage of the arguments' launch contents. -/
theorem u4_out (c : Dev nD) :
    U4 m c (Proc.devRef .tc main_v303) = ReadP.val_main_v303 (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13)) :=
  read3 (U3 m c)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    (u3_out m c) (u3_v1 m c) (u3_v3 m c)
    (u3_arg2 m c) (u3_arg3 m c) (u3_arg4 m c) (u3_arg5 m c) (u3_arg6 m c) (u3_arg7 m c) (u3_arg8 m c) (u3_arg9 m c) (u3_arg10 m c) (u3_arg11 m c) (u3_arg12 m c) (u3_arg13 m c)

/-- After the last layer the result array holds the reading's last stage of the arguments' launch contents. -/
theorem u5_result (c : Dev nD) :
    U5 m c (Proc.devRef .tc main_v377) = ReadP.val_main_v377 (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13)) :=
  read4 (U4 m c)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    (u4_out m c) (u4_v1 m c) (u4_v3 m c)
    (u4_arg2 m c) (u4_arg3 m c) (u4_arg4 m c) (u4_arg5 m c) (u4_arg6 m c) (u4_arg7 m c) (u4_arg8 m c) (u4_arg9 m c) (u4_arg10 m c) (u4_arg11 m c) (u4_arg12 m c) (u4_arg13 m c)

end Cert.ReferenceIdeal.RunValue

end
-- ==== Proof.RefRunValue.lean ====
/-
  The reference's run, read.

  The reference is a line of host operations, so every weakly fair execution of it terminates, and each buffer ends at
  what the line leaves from the launch contents. Taken layer by layer, the result array ends at the last layer's stage
  of the argument arrays, and no operation writes an argument array.
-/
import proofs.«159699_j9251359555640_1_alg».proof.Proof.RefRunMain
import proofs.«159699_j9251359555640_1_alg».proof.Proof.RefRead
import proofs.«159699_j9251359555640_1_alg».proof.Proof.RefChunks

noncomputable section

namespace Cert.ReferenceIdeal.RunValue

open Cert.ReferenceIdeal Cert.ReferenceIdeal.Gen Idealize.ShloMosaic Idealize.ShloMosaic.TcCoe Idealize.SL.Sem Idealize.ShloMosaic.StableHlo

/-- The contents after the whole program are the contents after the last layer's operations, from what the fourth
    layer's left, and so on back to the launch contents. -/
theorem after_layers (m : (ℓ : Loc nD τ sig) → Buf (Elt Ideal) ℓ) (c : Dev nD) :
    after (ops0 ++ ops1 ++ ops2 ++ ops3 ++ ops4) (launchContents m c) = U5 m c := by
  rw [after_append, after_append, after_append, after_append]

/-- From any memory with zero counters every weakly fair execution of the reference terminates, with its result array
    at the last stage's value of the argument arrays' launch contents and the fourteen argument arrays unchanged. -/
theorem run_result (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v377) = Cert.ReferenceIdeal.ReadP.val_main_v377 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (Cert.ReferenceIdeal.defs (F := Ideal)) _ _).mono (fun r h c => ⟨(h c main_v377).trans ((congrFun (after_layers m c) _).trans (u5_result m c)),
      (h c main_arg0).trans ((congrFun (after_layers m c) _).trans (u5_arg0 m c)),
      (h c main_arg1).trans ((congrFun (after_layers m c) _).trans (u5_arg1 m c)),
      (h c main_arg2).trans ((congrFun (after_layers m c) _).trans (u5_arg2 m c)),
      (h c main_arg3).trans ((congrFun (after_layers m c) _).trans (u5_arg3 m c)),
      (h c main_arg4).trans ((congrFun (after_layers m c) _).trans (u5_arg4 m c)),
      (h c main_arg5).trans ((congrFun (after_layers m c) _).trans (u5_arg5 m c)),
      (h c main_arg6).trans ((congrFun (after_layers m c) _).trans (u5_arg6 m c)),
      (h c main_arg7).trans ((congrFun (after_layers m c) _).trans (u5_arg7 m c)),
      (h c main_arg8).trans ((congrFun (after_layers m c) _).trans (u5_arg8 m c)),
      (h c main_arg9).trans ((congrFun (after_layers m c) _).trans (u5_arg9 m c)),
      (h c main_arg10).trans ((congrFun (after_layers m c) _).trans (u5_arg10 m c)),
      (h c main_arg11).trans ((congrFun (after_layers m c) _).trans (u5_arg11 m c)),
      (h c main_arg12).trans ((congrFun (after_layers m c) _).trans (u5_arg12 m c)),
      (h c main_arg13).trans ((congrFun (after_layers m c) _).trans (u5_arg13 m c))⟩)
    (run_seq scopedRefs_eq scopedSems_eq (Cert.ReferenceIdeal.defs (F := Ideal)) (main (F := Ideal)) (fun _ => ops0 ++ ops1 ++ ops2 ++ ops3 ++ ops4)
      main_eq (fun _ => ops_sub) m ρ (fun _ op h => ops_fresh op h))

end Cert.ReferenceIdeal.RunValue

end
-- ==== Proof.KernelRun.lean ====
/-
  The idealized kernel's run, with its result array named.

  The program is ten segments: a stretch of host operations, then a grid of 50 points over row blocks of 2000, five
  times over. The contents of the TensorCore's buffers at the ten boundaries are a fold from the launch memory: a
  stretch of host operations leaves each written buffer at its operation's value of the buffers before it, and a
  region leaves each of its arrays at what its write-backs leave and every other buffer as it found it. Every weakly
  fair execution ends with every unscoped buffer at the last boundary's contents; in particular the result array is
  the last region's output array as that fold has it, and the fourteen argument arrays are as launched.
-/
import proofs.«159699_j9251359555640_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the contents the fold of the ten segments gives it after the last region. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

set_option backward.isDefEq.respectTransparency.types false in
/-- The same run read at the result array and at the arguments: the result is the last region's output array at
    the last boundary, the arguments are as launched. -/
theorem run_result : θ_run defs (onTc (τ := τ) (main (F := F))) ⟨m, fun _ => 0, ρ⟩ (fun r => ∀ c : Dev nD,
      r.2.mem ((c.tc : Thread nD τ).loc main_v233) = W10 m ρ c (Proc.devRef .tc main_v233)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun s h c =>
    ⟨h c _ (mem_uc main_v233 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c),
     (h c _ (mem_uc main_arg12 (by decide))).trans (W10_main_arg12 m ρ c),
     (h c _ (mem_uc main_arg13 (by decide))).trans (W10_main_arg13 m ρ c)⟩)
    (run_boundary m ρ)

end Cert.KernelIdeal.RunValue

end
-- ==== Proof.KernelKeep.lean ====
/-
  Which buffers a stretch of host operations leaves alone.

  Each of the five stretches of host operations writes a fixed list of buffers, one per operation; a buffer that is
  not in the list holds after the stretch what it held before it. The argument arrays are in no list, and neither are
  the two index rows the first stretch cuts out of the edge array, which every later stretch reads again.
-/
import proofs.«159699_j9251359555640_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers stretch 0 writes, in the order of its operations. -/
abbrev writes0 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48]

theorem writes0_sub : (hostOps0 : List (HloOp τ sig (Elt F))).Forall fun op => op.writes ⊆ (writes0.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, Finset.singleton_subset_iff]
  repeat' apply And.intro
  all_goals exact List.mem_toFinset.mpr (List.mem_map.mpr ⟨_, by decide, rfl⟩)

/-- A buffer stretch 0 does not write holds after it what it held before. -/
theorem host0 (c : Dev nD) (r : Ref sig .tc) (hr : r ∉ writes0) :
    W1 m ρ c (Proc.devRef .tc r) = W0 m ρ c (Proc.devRef .tc r) :=
  StableHlo.after_of_writes_sub hostOps0 (W0 m ρ c) writes0_sub hr

/-- The buffers stretch 1 writes, in the order of its operations. -/
abbrev writes1 : List (Ref sig .tc) :=
  [main_c_1, main_v50, main_v51, main_c_2, main_v52, main_v53, main_v54, main_v55, main_v56, main_cst_3, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94]

theorem writes1_sub : (hostOps1 : List (HloOp τ sig (Elt F))).Forall fun op => op.writes ⊆ (writes1.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, Finset.singleton_subset_iff]
  repeat' apply And.intro
  all_goals exact List.mem_toFinset.mpr (List.mem_map.mpr ⟨_, by decide, rfl⟩)

/-- A buffer stretch 1 does not write holds after it what it held before. -/
theorem host1 (c : Dev nD) (r : Ref sig .tc) (hr : r ∉ writes1) :
    W3 m ρ c (Proc.devRef .tc r) = W2 m ρ c (Proc.devRef .tc r) :=
  StableHlo.after_of_writes_sub hostOps1 (W2 m ρ c) writes1_sub hr

/-- The buffers stretch 2 writes, in the order of its operations. -/
abbrev writes2 : List (Ref sig .tc) :=
  [main_c_4, main_v96, main_v97, main_c_5, main_v98, main_v99, main_v100, main_v101, main_v102, main_cst_6, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140]

theorem writes2_sub : (hostOps2 : List (HloOp τ sig (Elt F))).Forall fun op => op.writes ⊆ (writes2.map (Proc.devRef (τ := τ) .tc)).toFinset := by
  simp only [hostOps2, List.Forall, StableHlo.nullary_writes, StableHlo.unary_writes, StableHlo.binary_writes, StableHlo.ternary_writes,
    StableHlo.quaternary_writes, StableHlo.reshape_writes, Finset.singleton_subset_iff]
  repeat' apply And.intro
  all_goals exact List.mem_toFinset.mpr (List.mem_map.mpr ⟨_, by decide, rfl⟩)

/-- A buffer stretch 2 does not write holds after it what it held before. -/
theorem host2 (c : Dev nD) (r : Ref sig .tc) (hr : r ∉ writes2) :
    W5 m ρ c (Proc.devRef .tc r) = W4 m ρ c (Proc.devRef .tc r) :=
  StableHlo.after_of_writes_sub hostOps2 (W4 m ρ c) writes2_sub hr

/-- The buffers stretch 3 writes, in the order of its operations. -/
abbrev writes3 : List (Ref sig .tc) :=
  [main_c_7, main_v142, main_v143, main_c_8, main_v144, main_v145, main_v146, main_v147, main_v148, main_cst_9, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186]

theorem writes3_sub : (hostOps3 : List (HloOp τ sig (Elt F))).Forall fun op => op.writes ⊆ (writes3.map (Proc.devRef (τ := τ) .tc)).toFinset := by
  simp only [hostOps3, List.Forall, StableHlo.nullary_writes, StableHlo.unary_writes, StableHlo.binary_writes, StableHlo.ternary_writes,
    StableHlo.quaternary_writes, StableHlo.reshape_writes, Finset.singleton_subset_iff]
  repeat' apply And.intro
  all_goals exact List.mem_toFinset.mpr (List.mem_map.mpr ⟨_, by decide, rfl⟩)

/-- A buffer stretch 3 does not write holds after it what it held before. -/
theorem host3 (c : Dev nD) (r : Ref sig .tc) (hr : r ∉ writes3) :
    W7 m ρ c (Proc.devRef .tc r) = W6 m ρ c (Proc.devRef .tc r) :=
  StableHlo.after_of_writes_sub hostOps3 (W6 m ρ c) writes3_sub hr

/-- The buffers stretch 4 writes, in the order of its operations. -/
abbrev writes4 : List (Ref sig .tc) :=
  [main_c_10, main_v188, main_v189, main_c_11, main_v190, main_v191, main_v192, main_v193, main_v194, main_cst_12, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232]

theorem writes4_sub : (hostOps4 : List (HloOp τ sig (Elt F))).Forall fun op => op.writes ⊆ (writes4.map (Proc.devRef (τ := τ) .tc)).toFinset := by
  simp only [hostOps4, List.Forall, StableHlo.nullary_writes, StableHlo.unary_writes, StableHlo.binary_writes, StableHlo.ternary_writes,
    StableHlo.quaternary_writes, StableHlo.reshape_writes, Finset.singleton_subset_iff]
  repeat' apply And.intro
  all_goals exact List.mem_toFinset.mpr (List.mem_map.mpr ⟨_, by decide, rfl⟩)

/-- A buffer stretch 4 does not write holds after it what it held before. -/
theorem host4 (c : Dev nD) (r : Ref sig .tc) (hr : r ∉ writes4) :
    W9 m ρ c (Proc.devRef .tc r) = W8 m ρ c (Proc.devRef .tc r) :=
  StableHlo.after_of_writes_sub hostOps4 (W8 m ρ c) writes4_sub hr

end Cert.KernelIdeal.Keep

end
-- ==== Proof.Spec.lean ====
/-
  One layer of the graph network, after the neighbourhood sum, as a function on the extended reals.

  A layer takes the aggregated rows `a` (100000 rows of 128 numbers), maps each row through a first linear map into
  256 hidden numbers, normalises every hidden number with fixed statistics (subtract a mean, multiply by the
  reciprocal square root of a variance plus a small constant, multiply by a gain, add a shift), clamps it at
  zero from below, maps the 256 hidden numbers through a second linear map back to 128 numbers, normalises again
  the same way, and — in every layer but the last — clamps at zero once more.

  Entry `(p, q)` of the result therefore depends on row `p` of `a` only, on all of both weight matrices' columns it
  meets, and on the entries `j` (hidden) and `q` (output) of the ten parameter vectors. Nothing here is rearranged:
  the two sums over the contracted axes are the only sums, and each is a sum over a finite type, so the order in
  which a program accumulates it is immaterial.
-/
import Idealize.ShloMosaic.PureOps.Ideal
import Idealize.ShloMosaic.Lib.ValueIdx

noncomputable section

namespace Cert.Gin

open Idealize.ShloMosaic Idealize.ShloMosaic.ValueIdx

/-- The arrays a layer is a function of, by their literal extents. -/
abbrev Rows : Type := (⟨2, ![100000, 128]⟩ : Shape).Idx → EReal
abbrev W1 : Type := (⟨2, ![128, 256]⟩ : Shape).Idx → EReal
abbrev W2 : Type := (⟨2, ![256, 128]⟩ : Shape).Idx → EReal
abbrev Hid : Type := (⟨1, ![256]⟩ : Shape).Idx → EReal
abbrev Out : Type := (⟨1, ![128]⟩ : Shape).Idx → EReal

/-- The small constant added to a variance before the reciprocal square root: the single-precision number nearest
    to one hundred-thousandth, as both programs spell it. -/
def eps : EReal := Ideal.ofBits .f32 0x3727C5AC#32

/-- The zero a value is clamped against. -/
def zero : EReal := Ideal.ofBits .f32 0x00000000#32

/-- Normalisation of one number with fixed statistics: `((z - mean) · (var + eps)^(-1/2)) · gain + shift`, in this
    order of operations. -/
def norm (z mean var gain shift : EReal) : EReal :=
  (z - mean) * Ideal.rsqrt (var + eps) * gain + shift

/-- Hidden number `j` of row `p`: the first linear map of the row, plus its bias, normalised, clamped at zero. -/
def hidden (a : Rows) (w1 : W1) (b1 g1 be1 m1 v1 : Hid) (p : Fin 100000) (j : Fin 256) : EReal :=
  max (norm ((∑ k : Fin 128, a (ix2 p k) * w1 (ix2 k j)) + b1 (ix1 j)) (m1 (ix1 j)) (v1 (ix1 j)) (g1 (ix1 j)) (be1 (ix1 j))) zero

/-- Output number `q` of row `p` before the last clamp: the second linear map of the row's hidden numbers, plus
    its bias, normalised. -/
def pre (a : Rows) (w1 : W1) (b1 g1 be1 m1 v1 : Hid) (w2 : W2) (b2 g2 be2 m2 v2 : Out) (p : Fin 100000) (q : Fin 128) : EReal :=
  norm ((∑ j : Fin 256, hidden a w1 b1 g1 be1 m1 v1 p j * w2 (ix2 j q)) + b2 (ix1 q)) (m2 (ix1 q)) (v2 (ix1 q)) (g2 (ix1 q)) (be2 (ix1 q))

/-- Entry `(p, q)` of a layer's result: `pre`, clamped at zero when `relu` is set (every layer but the last). -/
def entry (relu : Bool) (a : Rows) (w1 : W1) (b1 g1 be1 m1 v1 : Hid) (w2 : W2) (b2 g2 be2 m2 v2 : Out) (p : Fin 100000) (q : Fin 128) : EReal :=
  if relu then max (pre a w1 b1 g1 be1 m1 v1 w2 b2 g2 be2 m2 v2 p q) zero else pre a w1 b1 g1 be1 m1 v1 w2 b2 g2 be2 m2 v2 p q

/-- The layer: the whole result array as one function of the aggregated rows and the layer's parameters. -/
def layer (relu : Bool) (a : Rows) (w1 : W1) (b1 g1 be1 m1 v1 : Hid) (w2 : W2) (b2 g2 be2 m2 v2 : Out) : Rows :=
  fun i => entry relu a w1 b1 g1 be1 m1 v1 w2 b2 g2 be2 m2 v2 (i 0) (i 1)

theorem layer_ix2 (relu : Bool) (a : Rows) (w1 : W1) (b1 g1 be1 m1 v1 : Hid) (w2 : W2) (b2 g2 be2 m2 v2 : Out) (p : Fin 100000) (q : Fin 128) :
    layer relu a w1 b1 g1 be1 m1 v1 w2 b2 g2 be2 m2 v2 (ix2 p q) = entry relu a w1 b1 g1 be1 m1 v1 w2 b2 g2 be2 m2 v2 p q := rfl

/-- A parameter vector handed over as a one-row matrix, read as the vector. -/
def rowHid (r : (⟨2, ![1, 256]⟩ : Shape).Idx → EReal) : Hid := fun j => r (ix2 (0 : Fin 1) (j 0))
def rowOut (r : (⟨2, ![1, 128]⟩ : Shape).Idx → EReal) : Out := fun q => r (ix2 (0 : Fin 1) (q 0))

theorem rowHid_ix1 (r : (⟨2, ![1, 256]⟩ : Shape).Idx → EReal) (j : Fin 256) : rowHid r (ix1 j) = r (ix2 (0 : Fin 1) j) := rfl
theorem rowOut_ix1 (r : (⟨2, ![1, 128]⟩ : Shape).Idx → EReal) (q : Fin 128) : rowOut r (ix1 q) = r (ix2 (0 : Fin 1) q) := rfl

end Cert.Gin

end
-- ==== Proof.HostTerms.lean ====
/-
  The neighbourhood sum, and a parameter vector handed over as a one-row matrix.

  Before each layer both programs replace every row of the current features `h` by itself plus the sum of the rows of
  its in-neighbours: the rows at the edges' sources are looked up (a negative source index is first shifted by the
  number of rows), and added into a zero array at the edges' destinations; the result is added to `h`. Both programs
  spell this with the same host operations, so it is kept here as ONE closed term of `h` and of the edge array and is
  never opened: which row a lookup reads, and into which row it is added, depends on the edge array's values, and
  nothing in the equivalence needs to know.

  The reference recomputes the shifted sources and the zero array in every layer; those are the same terms each time.
-/
import proofs.«159699_j9251359555640_1_alg».proof.Proof.RefRead
import proofs.«159699_j9251359555640_1_alg».proof.Proof.Spec
import Idealize.ShloMosaic.Lib.Pipeline.Value

noncomputable section

namespace Cert.Gin

open Cert.ReferenceIdeal Cert.ReferenceIdeal.ReadP Idealize.ShloMosaic Idealize.ShloMosaic.ValueIdx

/-- The features: 100000 rows of 128 numbers. -/
abbrev Feat : Type := (⟨S100000x128, .f32⟩ : BufTy).Contents (Elt Ideal)
/-- The edges: a row of sources over a row of destinations, 640000 of each. -/
abbrev Edges : Type := (⟨S2x640000, .i32⟩ : BufTy).Contents (Elt Ideal)

/-- `h` plus, row by row, the sum of the rows of `h` at the sources of the edges that end in the row. Stated at any float
    instance, as the programs' own operations are; used at the extended reals. -/
def aggAt {F : FTy → Type} [FloatOps F] (h : (⟨S100000x128, .f32⟩ : BufTy).Contents (Elt F)) (e : (⟨S2x640000, .i32⟩ : BufTy).Contents (Elt F)) :
    (⟨S100000x128, .f32⟩ : BufTy).Contents (Elt F) :=
  addf (h) (Host.scatterAdd scatter_S100000x128_S640000x1_S640000x128_1_0_0_1 (val_main_v11 (F := F)) (val_main_v12 (F := F) e)
    (Host.gather gather_S100000x128_S640000x1_S640000x128_1_0_n_n_0_1_1128 (h) (val_main_v9 (F := F) e)))

/-- The neighbourhood sum on the extended reals. -/
abbrev agg (h : Feat) (e : Edges) : Feat := aggAt (F := Ideal) h e

/-- The reference's first aggregated rows are the neighbourhood sum of the input features. -/
theorem ref_agg0 (x0 : Feat) (x1 : Edges) : val_main_v14 (F := Ideal) x0 x1 = agg x0 x1 := rfl

/-! The reference's later aggregated rows are the neighbourhood sum of the previous layer's output: the shifted
    sources, the destinations and the zero array it recomputes are the first layer's terms again. -/
theorem ref_agg1 (x0 : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) :
    val_main_v89 (F := Ideal) x0 x1 x2 x3 x4 x5 x6 x7 x8 x9 x10 x11 x12 x13 = agg (val_main_v78 (F := Ideal) x0 x1 x2 x3 x4 x5 x6 x7 x8 x9 x10 x11 x12 x13) x1 := rfl
theorem ref_agg2 (x0 : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) :
    val_main_v164 (F := Ideal) x0 x1 x2 x3 x4 x5 x6 x7 x8 x9 x10 x11 x12 x13 = agg (val_main_v153 (F := Ideal) x0 x1 x2 x3 x4 x5 x6 x7 x8 x9 x10 x11 x12 x13) x1 := rfl
theorem ref_agg3 (x0 : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) :
    val_main_v239 (F := Ideal) x0 x1 x2 x3 x4 x5 x6 x7 x8 x9 x10 x11 x12 x13 = agg (val_main_v228 (F := Ideal) x0 x1 x2 x3 x4 x5 x6 x7 x8 x9 x10 x11 x12 x13) x1 := rfl
theorem ref_agg4 (x0 : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) :
    val_main_v314 (F := Ideal) x0 x1 x2 x3 x4 x5 x6 x7 x8 x9 x10 x11 x12 x13 = agg (val_main_v303 (F := Ideal) x0 x1 x2 x3 x4 x5 x6 x7 x8 x9 x10 x11 x12 x13) x1 := rfl

/-! ## The layers in turn

    A layer's twelve parameter arrays are slices of the stacked parameters, reshaped: the reference's own terms for
    them, which the kernel's host operations spell the same way. -/

/-- Layer 0: the layer of the neighbourhood sum of `h`, at the slices 0 of the twelve parameter arrays. -/
def step0 (h : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) : Feat :=
  layer true (agg h x1) (val_main_v16 (F := Ideal) x2)
    (val_main_v19 (F := Ideal) x3) (val_main_v24 (F := Ideal) x4) (val_main_v26 (F := Ideal) x5) (val_main_v28 (F := Ideal) x6) (val_main_v30 (F := Ideal) x7)
    (val_main_v48 (F := Ideal) x8)
    (val_main_v51 (F := Ideal) x9) (val_main_v56 (F := Ideal) x10) (val_main_v58 (F := Ideal) x11) (val_main_v60 (F := Ideal) x12) (val_main_v62 (F := Ideal) x13)

/-- Layer 1: the layer of the neighbourhood sum of `h`, at the slices 1 of the twelve parameter arrays. -/
def step1 (h : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) : Feat :=
  layer true (agg h x1) (val_main_v91 (F := Ideal) x2)
    (val_main_v94 (F := Ideal) x3) (val_main_v99 (F := Ideal) x4) (val_main_v101 (F := Ideal) x5) (val_main_v103 (F := Ideal) x6) (val_main_v105 (F := Ideal) x7)
    (val_main_v123 (F := Ideal) x8)
    (val_main_v126 (F := Ideal) x9) (val_main_v131 (F := Ideal) x10) (val_main_v133 (F := Ideal) x11) (val_main_v135 (F := Ideal) x12) (val_main_v137 (F := Ideal) x13)

/-- Layer 2: the layer of the neighbourhood sum of `h`, at the slices 2 of the twelve parameter arrays. -/
def step2 (h : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) : Feat :=
  layer true (agg h x1) (val_main_v166 (F := Ideal) x2)
    (val_main_v169 (F := Ideal) x3) (val_main_v174 (F := Ideal) x4) (val_main_v176 (F := Ideal) x5) (val_main_v178 (F := Ideal) x6) (val_main_v180 (F := Ideal) x7)
    (val_main_v198 (F := Ideal) x8)
    (val_main_v201 (F := Ideal) x9) (val_main_v206 (F := Ideal) x10) (val_main_v208 (F := Ideal) x11) (val_main_v210 (F := Ideal) x12) (val_main_v212 (F := Ideal) x13)

/-- Layer 3: the layer of the neighbourhood sum of `h`, at the slices 3 of the twelve parameter arrays. -/
def step3 (h : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) : Feat :=
  layer true (agg h x1) (val_main_v241 (F := Ideal) x2)
    (val_main_v244 (F := Ideal) x3) (val_main_v249 (F := Ideal) x4) (val_main_v251 (F := Ideal) x5) (val_main_v253 (F := Ideal) x6) (val_main_v255 (F := Ideal) x7)
    (val_main_v273 (F := Ideal) x8)
    (val_main_v276 (F := Ideal) x9) (val_main_v281 (F := Ideal) x10) (val_main_v283 (F := Ideal) x11) (val_main_v285 (F := Ideal) x12) (val_main_v287 (F := Ideal) x13)

/-- Layer 4: the layer of the neighbourhood sum of `h`, at the slices 4 of the twelve parameter arrays (the last layer: no final clamp). -/
def step4 (h : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) : Feat :=
  layer false (agg h x1) (val_main_v316 (F := Ideal) x2)
    (val_main_v319 (F := Ideal) x3) (val_main_v324 (F := Ideal) x4) (val_main_v326 (F := Ideal) x5) (val_main_v328 (F := Ideal) x6) (val_main_v330 (F := Ideal) x7)
    (val_main_v348 (F := Ideal) x8)
    (val_main_v351 (F := Ideal) x9) (val_main_v356 (F := Ideal) x10) (val_main_v358 (F := Ideal) x11) (val_main_v360 (F := Ideal) x12) (val_main_v362 (F := Ideal) x13)

/-- The network: the five layers in turn, from the input features. -/
def net (x0 : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) : Feat :=
  step4 (step3 (step2 (step1 (step0 x0 x1 x2 x3 x4 x5 x6 x7 x8 x9 x10 x11 x12 x13) x1 x2 x3 x4 x5 x6 x7 x8 x9 x10 x11 x12 x13) x1 x2 x3 x4 x5 x6 x7 x8 x9 x10 x11 x12 x13) x1 x2 x3 x4 x5 x6 x7 x8 x9 x10 x11 x12 x13) x1 x2 x3 x4 x5 x6 x7 x8 x9 x10 x11 x12 x13

/-- A vector reshaped to a one-row matrix, read back as the vector: entry `j` of the row is entry `j` of the vector. -/
theorem rowHid_reshape (y : (⟨1, ![256]⟩ : Shape).Idx → EReal) (h : (⟨1, ![256]⟩ : Shape).ShapeCasts ⟨2, ![1, 256]⟩) :
    rowHid (shapeCast ⟨2, ![1, 256]⟩ y h) = y := by
  funext j
  obtain ⟨j, rfl⟩ : ∃ j' : Fin 256, j = ix1 j' := ⟨j 0, eq_ix1 j⟩
  rw [rowHid_ix1]
  refine (shapeCast_addUnit_apply ![256] y h (ix2 (0 : Fin 1) j)).trans (congrArg y ?_)
  funext a; match a with | ⟨0, _⟩ => rfl

theorem rowOut_reshape (y : (⟨1, ![128]⟩ : Shape).Idx → EReal) (h : (⟨1, ![128]⟩ : Shape).ShapeCasts ⟨2, ![1, 128]⟩) :
    rowOut (shapeCast ⟨2, ![1, 128]⟩ y h) = y := by
  funext q
  obtain ⟨q, rfl⟩ : ∃ q' : Fin 128, q = ix1 q' := ⟨q 0, eq_ix1 q⟩
  rw [rowOut_ix1]
  refine (shapeCast_addUnit_apply ![128] y h (ix2 (0 : Fin 1) q)).trans (congrArg y ?_)
  funext a; match a with | ⟨0, _⟩ => rfl

end Cert.Gin

end
-- ==== Proof.KernelBack.lean ====
/-
  What the later layers find where the first stretch and the launch left it.

  No host operation after the first stretch and no region writes an argument array or either of the two index rows
  cut out of the edge array (the sources, the destinations). So at the entry of every later stretch those buffers
  hold what they held after the first stretch: an argument its launch contents, an index row the reference's own
  term of the edge array. Each fact is a walk back through the boundaries, one step per segment.
-/
import proofs.«159699_j9251359555640_1_alg».proof.Proof.KernelKeep
import proofs.«159699_j9251359555640_1_alg».proof.Proof.HostTerms

set_option maxRecDepth 16384

noncomputable section

namespace Cert.KernelIdeal.Back

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch -/

/-- The sources: row 0 of the edge array, as a vector. -/
theorem w1_v1 (c : Dev nD) : (W1 m ρ c (Proc.devRef .tc main_v1) : (⟨Cert.ReferenceIdeal.S640000, .i32⟩ : BufTy).Contents (Elt Ideal))
    = Cert.ReferenceIdeal.ReadP.val_main_v1 (F := Ideal) (m ((c : Thread nD τ).loc main_arg1)) := by
  dsimp only [W1, hostOps0]
  after_results_simp
  rfl

/-- The destinations: row 1 of the edge array, as a vector. -/
theorem w1_v3 (c : Dev nD) : (W1 m ρ c (Proc.devRef .tc main_v3) : (⟨Cert.ReferenceIdeal.S640000, .i32⟩ : BufTy).Contents (Elt Ideal))
    = Cert.ReferenceIdeal.ReadP.val_main_v3 (F := Ideal) (m ((c : Thread nD τ).loc main_arg1)) := by
  dsimp only [W1, hostOps0]
  after_results_simp
  rfl

theorem w1_arg1 (c : Dev nD) : W1 m ρ c (Proc.devRef .tc main_arg1) = m ((c : Thread nD τ).loc main_arg1) :=
  Keep.host0 m ρ c main_arg1 (by decide)
theorem w1_arg2 (c : Dev nD) : W1 m ρ c (Proc.devRef .tc main_arg2) = m ((c : Thread nD τ).loc main_arg2) :=
  Keep.host0 m ρ c main_arg2 (by decide)
theorem w1_arg3 (c : Dev nD) : W1 m ρ c (Proc.devRef .tc main_arg3) = m ((c : Thread nD τ).loc main_arg3) :=
  Keep.host0 m ρ c main_arg3 (by decide)
theorem w1_arg4 (c : Dev nD) : W1 m ρ c (Proc.devRef .tc main_arg4) = m ((c : Thread nD τ).loc main_arg4) :=
  Keep.host0 m ρ c main_arg4 (by decide)
theorem w1_arg5 (c : Dev nD) : W1 m ρ c (Proc.devRef .tc main_arg5) = m ((c : Thread nD τ).loc main_arg5) :=
  Keep.host0 m ρ c main_arg5 (by decide)
theorem w1_arg6 (c : Dev nD) : W1 m ρ c (Proc.devRef .tc main_arg6) = m ((c : Thread nD τ).loc main_arg6) :=
  Keep.host0 m ρ c main_arg6 (by decide)
theorem w1_arg7 (c : Dev nD) : W1 m ρ c (Proc.devRef .tc main_arg7) = m ((c : Thread nD τ).loc main_arg7) :=
  Keep.host0 m ρ c main_arg7 (by decide)
theorem w1_arg8 (c : Dev nD) : W1 m ρ c (Proc.devRef .tc main_arg8) = m ((c : Thread nD τ).loc main_arg8) :=
  Keep.host0 m ρ c main_arg8 (by decide)
theorem w1_arg9 (c : Dev nD) : W1 m ρ c (Proc.devRef .tc main_arg9) = m ((c : Thread nD τ).loc main_arg9) :=
  Keep.host0 m ρ c main_arg9 (by decide)
theorem w1_arg10 (c : Dev nD) : W1 m ρ c (Proc.devRef .tc main_arg10) = m ((c : Thread nD τ).loc main_arg10) :=
  Keep.host0 m ρ c main_arg10 (by decide)
theorem w1_arg11 (c : Dev nD) : W1 m ρ c (Proc.devRef .tc main_arg11) = m ((c : Thread nD τ).loc main_arg11) :=
  Keep.host0 m ρ c main_arg11 (by decide)
theorem w1_arg12 (c : Dev nD) : W1 m ρ c (Proc.devRef .tc main_arg12) = m ((c : Thread nD τ).loc main_arg12) :=
  Keep.host0 m ρ c main_arg12 (by decide)
theorem w1_arg13 (c : Dev nD) : W1 m ρ c (Proc.devRef .tc main_arg13) = m ((c : Thread nD τ).loc main_arg13) :=
  Keep.host0 m ρ c main_arg13 (by decide)

/-! ## At the entry of stretch 1 (after region 0) and after stretch 1 -/

theorem w2_v1 (c : Dev nD) : (W2 m ρ c (Proc.devRef .tc main_v1) : (⟨Cert.ReferenceIdeal.S640000, .i32⟩ : BufTy).Contents (Elt Ideal))
    = Cert.ReferenceIdeal.ReadP.val_main_v1 (F := Ideal) (m ((c : Thread nD τ).loc main_arg1)) :=
  (W2_of_ne m ρ c main_v1 (by decide)).trans (w1_v1 m ρ c)
theorem w2_v3 (c : Dev nD) : (W2 m ρ c (Proc.devRef .tc main_v3) : (⟨Cert.ReferenceIdeal.S640000, .i32⟩ : BufTy).Contents (Elt Ideal))
    = Cert.ReferenceIdeal.ReadP.val_main_v3 (F := Ideal) (m ((c : Thread nD τ).loc main_arg1)) :=
  (W2_of_ne m ρ c main_v3 (by decide)).trans (w1_v3 m ρ c)
theorem w2_arg1 (c : Dev nD) : W2 m ρ c (Proc.devRef .tc main_arg1) = m ((c : Thread nD τ).loc main_arg1) :=
  (W2_of_ne m ρ c main_arg1 (by decide)).trans (w1_arg1 m ρ c)
theorem w2_arg2 (c : Dev nD) : W2 m ρ c (Proc.devRef .tc main_arg2) = m ((c : Thread nD τ).loc main_arg2) :=
  (W2_of_ne m ρ c main_arg2 (by decide)).trans (w1_arg2 m ρ c)
theorem w2_arg3 (c : Dev nD) : W2 m ρ c (Proc.devRef .tc main_arg3) = m ((c : Thread nD τ).loc main_arg3) :=
  (W2_of_ne m ρ c main_arg3 (by decide)).trans (w1_arg3 m ρ c)
theorem w2_arg4 (c : Dev nD) : W2 m ρ c (Proc.devRef .tc main_arg4) = m ((c : Thread nD τ).loc main_arg4) :=
  (W2_of_ne m ρ c main_arg4 (by decide)).trans (w1_arg4 m ρ c)
theorem w2_arg5 (c : Dev nD) : W2 m ρ c (Proc.devRef .tc main_arg5) = m ((c : Thread nD τ).loc main_arg5) :=
  (W2_of_ne m ρ c main_arg5 (by decide)).trans (w1_arg5 m ρ c)
theorem w2_arg6 (c : Dev nD) : W2 m ρ c (Proc.devRef .tc main_arg6) = m ((c : Thread nD τ).loc main_arg6) :=
  (W2_of_ne m ρ c main_arg6 (by decide)).trans (w1_arg6 m ρ c)
theorem w2_arg7 (c : Dev nD) : W2 m ρ c (Proc.devRef .tc main_arg7) = m ((c : Thread nD τ).loc main_arg7) :=
  (W2_of_ne m ρ c main_arg7 (by decide)).trans (w1_arg7 m ρ c)
theorem w2_arg8 (c : Dev nD) : W2 m ρ c (Proc.devRef .tc main_arg8) = m ((c : Thread nD τ).loc main_arg8) :=
  (W2_of_ne m ρ c main_arg8 (by decide)).trans (w1_arg8 m ρ c)
theorem w2_arg9 (c : Dev nD) : W2 m ρ c (Proc.devRef .tc main_arg9) = m ((c : Thread nD τ).loc main_arg9) :=
  (W2_of_ne m ρ c main_arg9 (by decide)).trans (w1_arg9 m ρ c)
theorem w2_arg10 (c : Dev nD) : W2 m ρ c (Proc.devRef .tc main_arg10) = m ((c : Thread nD τ).loc main_arg10) :=
  (W2_of_ne m ρ c main_arg10 (by decide)).trans (w1_arg10 m ρ c)
theorem w2_arg11 (c : Dev nD) : W2 m ρ c (Proc.devRef .tc main_arg11) = m ((c : Thread nD τ).loc main_arg11) :=
  (W2_of_ne m ρ c main_arg11 (by decide)).trans (w1_arg11 m ρ c)
theorem w2_arg12 (c : Dev nD) : W2 m ρ c (Proc.devRef .tc main_arg12) = m ((c : Thread nD τ).loc main_arg12) :=
  (W2_of_ne m ρ c main_arg12 (by decide)).trans (w1_arg12 m ρ c)
theorem w2_arg13 (c : Dev nD) : W2 m ρ c (Proc.devRef .tc main_arg13) = m ((c : Thread nD τ).loc main_arg13) :=
  (W2_of_ne m ρ c main_arg13 (by decide)).trans (w1_arg13 m ρ c)

theorem w3_v1 (c : Dev nD) : (W3 m ρ c (Proc.devRef .tc main_v1) : (⟨Cert.ReferenceIdeal.S640000, .i32⟩ : BufTy).Contents (Elt Ideal))
    = Cert.ReferenceIdeal.ReadP.val_main_v1 (F := Ideal) (m ((c : Thread nD τ).loc main_arg1)) :=
  (Keep.host1 m ρ c main_v1 (by decide)).trans (w2_v1 m ρ c)
theorem w3_v3 (c : Dev nD) : (W3 m ρ c (Proc.devRef .tc main_v3) : (⟨Cert.ReferenceIdeal.S640000, .i32⟩ : BufTy).Contents (Elt Ideal))
    = Cert.ReferenceIdeal.ReadP.val_main_v3 (F := Ideal) (m ((c : Thread nD τ).loc main_arg1)) :=
  (Keep.host1 m ρ c main_v3 (by decide)).trans (w2_v3 m ρ c)
theorem w3_arg1 (c : Dev nD) : W3 m ρ c (Proc.devRef .tc main_arg1) = m ((c : Thread nD τ).loc main_arg1) :=
  (Keep.host1 m ρ c main_arg1 (by decide)).trans (w2_arg1 m ρ c)
theorem w3_arg2 (c : Dev nD) : W3 m ρ c (Proc.devRef .tc main_arg2) = m ((c : Thread nD τ).loc main_arg2) :=
  (Keep.host1 m ρ c main_arg2 (by decide)).trans (w2_arg2 m ρ c)
theorem w3_arg3 (c : Dev nD) : W3 m ρ c (Proc.devRef .tc main_arg3) = m ((c : Thread nD τ).loc main_arg3) :=
  (Keep.host1 m ρ c main_arg3 (by decide)).trans (w2_arg3 m ρ c)
theorem w3_arg4 (c : Dev nD) : W3 m ρ c (Proc.devRef .tc main_arg4) = m ((c : Thread nD τ).loc main_arg4) :=
  (Keep.host1 m ρ c main_arg4 (by decide)).trans (w2_arg4 m ρ c)
theorem w3_arg5 (c : Dev nD) : W3 m ρ c (Proc.devRef .tc main_arg5) = m ((c : Thread nD τ).loc main_arg5) :=
  (Keep.host1 m ρ c main_arg5 (by decide)).trans (w2_arg5 m ρ c)
theorem w3_arg6 (c : Dev nD) : W3 m ρ c (Proc.devRef .tc main_arg6) = m ((c : Thread nD τ).loc main_arg6) :=
  (Keep.host1 m ρ c main_arg6 (by decide)).trans (w2_arg6 m ρ c)
theorem w3_arg7 (c : Dev nD) : W3 m ρ c (Proc.devRef .tc main_arg7) = m ((c : Thread nD τ).loc main_arg7) :=
  (Keep.host1 m ρ c main_arg7 (by decide)).trans (w2_arg7 m ρ c)
theorem w3_arg8 (c : Dev nD) : W3 m ρ c (Proc.devRef .tc main_arg8) = m ((c : Thread nD τ).loc main_arg8) :=
  (Keep.host1 m ρ c main_arg8 (by decide)).trans (w2_arg8 m ρ c)
theorem w3_arg9 (c : Dev nD) : W3 m ρ c (Proc.devRef .tc main_arg9) = m ((c : Thread nD τ).loc main_arg9) :=
  (Keep.host1 m ρ c main_arg9 (by decide)).trans (w2_arg9 m ρ c)
theorem w3_arg10 (c : Dev nD) : W3 m ρ c (Proc.devRef .tc main_arg10) = m ((c : Thread nD τ).loc main_arg10) :=
  (Keep.host1 m ρ c main_arg10 (by decide)).trans (w2_arg10 m ρ c)
theorem w3_arg11 (c : Dev nD) : W3 m ρ c (Proc.devRef .tc main_arg11) = m ((c : Thread nD τ).loc main_arg11) :=
  (Keep.host1 m ρ c main_arg11 (by decide)).trans (w2_arg11 m ρ c)
theorem w3_arg12 (c : Dev nD) : W3 m ρ c (Proc.devRef .tc main_arg12) = m ((c : Thread nD τ).loc main_arg12) :=
  (Keep.host1 m ρ c main_arg12 (by decide)).trans (w2_arg12 m ρ c)
theorem w3_arg13 (c : Dev nD) : W3 m ρ c (Proc.devRef .tc main_arg13) = m ((c : Thread nD τ).loc main_arg13) :=
  (Keep.host1 m ρ c main_arg13 (by decide)).trans (w2_arg13 m ρ c)

/-! ## At the entry of stretch 2 (after region 1) and after stretch 2 -/

theorem w4_v1 (c : Dev nD) : (W4 m ρ c (Proc.devRef .tc main_v1) : (⟨Cert.ReferenceIdeal.S640000, .i32⟩ : BufTy).Contents (Elt Ideal))
    = Cert.ReferenceIdeal.ReadP.val_main_v1 (F := Ideal) (m ((c : Thread nD τ).loc main_arg1)) :=
  (W4_of_ne m ρ c main_v1 (by decide)).trans (w3_v1 m ρ c)
theorem w4_v3 (c : Dev nD) : (W4 m ρ c (Proc.devRef .tc main_v3) : (⟨Cert.ReferenceIdeal.S640000, .i32⟩ : BufTy).Contents (Elt Ideal))
    = Cert.ReferenceIdeal.ReadP.val_main_v3 (F := Ideal) (m ((c : Thread nD τ).loc main_arg1)) :=
  (W4_of_ne m ρ c main_v3 (by decide)).trans (w3_v3 m ρ c)
theorem w4_arg1 (c : Dev nD) : W4 m ρ c (Proc.devRef .tc main_arg1) = m ((c : Thread nD τ).loc main_arg1) :=
  (W4_of_ne m ρ c main_arg1 (by decide)).trans (w3_arg1 m ρ c)
theorem w4_arg2 (c : Dev nD) : W4 m ρ c (Proc.devRef .tc main_arg2) = m ((c : Thread nD τ).loc main_arg2) :=
  (W4_of_ne m ρ c main_arg2 (by decide)).trans (w3_arg2 m ρ c)
theorem w4_arg3 (c : Dev nD) : W4 m ρ c (Proc.devRef .tc main_arg3) = m ((c : Thread nD τ).loc main_arg3) :=
  (W4_of_ne m ρ c main_arg3 (by decide)).trans (w3_arg3 m ρ c)
theorem w4_arg4 (c : Dev nD) : W4 m ρ c (Proc.devRef .tc main_arg4) = m ((c : Thread nD τ).loc main_arg4) :=
  (W4_of_ne m ρ c main_arg4 (by decide)).trans (w3_arg4 m ρ c)
theorem w4_arg5 (c : Dev nD) : W4 m ρ c (Proc.devRef .tc main_arg5) = m ((c : Thread nD τ).loc main_arg5) :=
  (W4_of_ne m ρ c main_arg5 (by decide)).trans (w3_arg5 m ρ c)
theorem w4_arg6 (c : Dev nD) : W4 m ρ c (Proc.devRef .tc main_arg6) = m ((c : Thread nD τ).loc main_arg6) :=
  (W4_of_ne m ρ c main_arg6 (by decide)).trans (w3_arg6 m ρ c)
theorem w4_arg7 (c : Dev nD) : W4 m ρ c (Proc.devRef .tc main_arg7) = m ((c : Thread nD τ).loc main_arg7) :=
  (W4_of_ne m ρ c main_arg7 (by decide)).trans (w3_arg7 m ρ c)
theorem w4_arg8 (c : Dev nD) : W4 m ρ c (Proc.devRef .tc main_arg8) = m ((c : Thread nD τ).loc main_arg8) :=
  (W4_of_ne m ρ c main_arg8 (by decide)).trans (w3_arg8 m ρ c)
theorem w4_arg9 (c : Dev nD) : W4 m ρ c (Proc.devRef .tc main_arg9) = m ((c : Thread nD τ).loc main_arg9) :=
  (W4_of_ne m ρ c main_arg9 (by decide)).trans (w3_arg9 m ρ c)
theorem w4_arg10 (c : Dev nD) : W4 m ρ c (Proc.devRef .tc main_arg10) = m ((c : Thread nD τ).loc main_arg10) :=
  (W4_of_ne m ρ c main_arg10 (by decide)).trans (w3_arg10 m ρ c)
theorem w4_arg11 (c : Dev nD) : W4 m ρ c (Proc.devRef .tc main_arg11) = m ((c : Thread nD τ).loc main_arg11) :=
  (W4_of_ne m ρ c main_arg11 (by decide)).trans (w3_arg11 m ρ c)
theorem w4_arg12 (c : Dev nD) : W4 m ρ c (Proc.devRef .tc main_arg12) = m ((c : Thread nD τ).loc main_arg12) :=
  (W4_of_ne m ρ c main_arg12 (by decide)).trans (w3_arg12 m ρ c)
theorem w4_arg13 (c : Dev nD) : W4 m ρ c (Proc.devRef .tc main_arg13) = m ((c : Thread nD τ).loc main_arg13) :=
  (W4_of_ne m ρ c main_arg13 (by decide)).trans (w3_arg13 m ρ c)

theorem w5_v1 (c : Dev nD) : (W5 m ρ c (Proc.devRef .tc main_v1) : (⟨Cert.ReferenceIdeal.S640000, .i32⟩ : BufTy).Contents (Elt Ideal))
    = Cert.ReferenceIdeal.ReadP.val_main_v1 (F := Ideal) (m ((c : Thread nD τ).loc main_arg1)) :=
  (Keep.host2 m ρ c main_v1 (by decide)).trans (w4_v1 m ρ c)
theorem w5_v3 (c : Dev nD) : (W5 m ρ c (Proc.devRef .tc main_v3) : (⟨Cert.ReferenceIdeal.S640000, .i32⟩ : BufTy).Contents (Elt Ideal))
    = Cert.ReferenceIdeal.ReadP.val_main_v3 (F := Ideal) (m ((c : Thread nD τ).loc main_arg1)) :=
  (Keep.host2 m ρ c main_v3 (by decide)).trans (w4_v3 m ρ c)
theorem w5_arg1 (c : Dev nD) : W5 m ρ c (Proc.devRef .tc main_arg1) = m ((c : Thread nD τ).loc main_arg1) :=
  (Keep.host2 m ρ c main_arg1 (by decide)).trans (w4_arg1 m ρ c)
theorem w5_arg2 (c : Dev nD) : W5 m ρ c (Proc.devRef .tc main_arg2) = m ((c : Thread nD τ).loc main_arg2) :=
  (Keep.host2 m ρ c main_arg2 (by decide)).trans (w4_arg2 m ρ c)
theorem w5_arg3 (c : Dev nD) : W5 m ρ c (Proc.devRef .tc main_arg3) = m ((c : Thread nD τ).loc main_arg3) :=
  (Keep.host2 m ρ c main_arg3 (by decide)).trans (w4_arg3 m ρ c)
theorem w5_arg4 (c : Dev nD) : W5 m ρ c (Proc.devRef .tc main_arg4) = m ((c : Thread nD τ).loc main_arg4) :=
  (Keep.host2 m ρ c main_arg4 (by decide)).trans (w4_arg4 m ρ c)
theorem w5_arg5 (c : Dev nD) : W5 m ρ c (Proc.devRef .tc main_arg5) = m ((c : Thread nD τ).loc main_arg5) :=
  (Keep.host2 m ρ c main_arg5 (by decide)).trans (w4_arg5 m ρ c)
theorem w5_arg6 (c : Dev nD) : W5 m ρ c (Proc.devRef .tc main_arg6) = m ((c : Thread nD τ).loc main_arg6) :=
  (Keep.host2 m ρ c main_arg6 (by decide)).trans (w4_arg6 m ρ c)
theorem w5_arg7 (c : Dev nD) : W5 m ρ c (Proc.devRef .tc main_arg7) = m ((c : Thread nD τ).loc main_arg7) :=
  (Keep.host2 m ρ c main_arg7 (by decide)).trans (w4_arg7 m ρ c)
theorem w5_arg8 (c : Dev nD) : W5 m ρ c (Proc.devRef .tc main_arg8) = m ((c : Thread nD τ).loc main_arg8) :=
  (Keep.host2 m ρ c main_arg8 (by decide)).trans (w4_arg8 m ρ c)
theorem w5_arg9 (c : Dev nD) : W5 m ρ c (Proc.devRef .tc main_arg9) = m ((c : Thread nD τ).loc main_arg9) :=
  (Keep.host2 m ρ c main_arg9 (by decide)).trans (w4_arg9 m ρ c)
theorem w5_arg10 (c : Dev nD) : W5 m ρ c (Proc.devRef .tc main_arg10) = m ((c : Thread nD τ).loc main_arg10) :=
  (Keep.host2 m ρ c main_arg10 (by decide)).trans (w4_arg10 m ρ c)
theorem w5_arg11 (c : Dev nD) : W5 m ρ c (Proc.devRef .tc main_arg11) = m ((c : Thread nD τ).loc main_arg11) :=
  (Keep.host2 m ρ c main_arg11 (by decide)).trans (w4_arg11 m ρ c)
theorem w5_arg12 (c : Dev nD) : W5 m ρ c (Proc.devRef .tc main_arg12) = m ((c : Thread nD τ).loc main_arg12) :=
  (Keep.host2 m ρ c main_arg12 (by decide)).trans (w4_arg12 m ρ c)
theorem w5_arg13 (c : Dev nD) : W5 m ρ c (Proc.devRef .tc main_arg13) = m ((c : Thread nD τ).loc main_arg13) :=
  (Keep.host2 m ρ c main_arg13 (by decide)).trans (w4_arg13 m ρ c)

/-! ## At the entry of stretch 3 (after region 2) and after stretch 3 -/

theorem w6_v1 (c : Dev nD) : (W6 m ρ c (Proc.devRef .tc main_v1) : (⟨Cert.ReferenceIdeal.S640000, .i32⟩ : BufTy).Contents (Elt Ideal))
    = Cert.ReferenceIdeal.ReadP.val_main_v1 (F := Ideal) (m ((c : Thread nD τ).loc main_arg1)) :=
  (W6_of_ne m ρ c main_v1 (by decide)).trans (w5_v1 m ρ c)
theorem w6_v3 (c : Dev nD) : (W6 m ρ c (Proc.devRef .tc main_v3) : (⟨Cert.ReferenceIdeal.S640000, .i32⟩ : BufTy).Contents (Elt Ideal))
    = Cert.ReferenceIdeal.ReadP.val_main_v3 (F := Ideal) (m ((c : Thread nD τ).loc main_arg1)) :=
  (W6_of_ne m ρ c main_v3 (by decide)).trans (w5_v3 m ρ c)
theorem w6_arg1 (c : Dev nD) : W6 m ρ c (Proc.devRef .tc main_arg1) = m ((c : Thread nD τ).loc main_arg1) :=
  (W6_of_ne m ρ c main_arg1 (by decide)).trans (w5_arg1 m ρ c)
theorem w6_arg2 (c : Dev nD) : W6 m ρ c (Proc.devRef .tc main_arg2) = m ((c : Thread nD τ).loc main_arg2) :=
  (W6_of_ne m ρ c main_arg2 (by decide)).trans (w5_arg2 m ρ c)
theorem w6_arg3 (c : Dev nD) : W6 m ρ c (Proc.devRef .tc main_arg3) = m ((c : Thread nD τ).loc main_arg3) :=
  (W6_of_ne m ρ c main_arg3 (by decide)).trans (w5_arg3 m ρ c)
theorem w6_arg4 (c : Dev nD) : W6 m ρ c (Proc.devRef .tc main_arg4) = m ((c : Thread nD τ).loc main_arg4) :=
  (W6_of_ne m ρ c main_arg4 (by decide)).trans (w5_arg4 m ρ c)
theorem w6_arg5 (c : Dev nD) : W6 m ρ c (Proc.devRef .tc main_arg5) = m ((c : Thread nD τ).loc main_arg5) :=
  (W6_of_ne m ρ c main_arg5 (by decide)).trans (w5_arg5 m ρ c)
theorem w6_arg6 (c : Dev nD) : W6 m ρ c (Proc.devRef .tc main_arg6) = m ((c : Thread nD τ).loc main_arg6) :=
  (W6_of_ne m ρ c main_arg6 (by decide)).trans (w5_arg6 m ρ c)
theorem w6_arg7 (c : Dev nD) : W6 m ρ c (Proc.devRef .tc main_arg7) = m ((c : Thread nD τ).loc main_arg7) :=
  (W6_of_ne m ρ c main_arg7 (by decide)).trans (w5_arg7 m ρ c)
theorem w6_arg8 (c : Dev nD) : W6 m ρ c (Proc.devRef .tc main_arg8) = m ((c : Thread nD τ).loc main_arg8) :=
  (W6_of_ne m ρ c main_arg8 (by decide)).trans (w5_arg8 m ρ c)
theorem w6_arg9 (c : Dev nD) : W6 m ρ c (Proc.devRef .tc main_arg9) = m ((c : Thread nD τ).loc main_arg9) :=
  (W6_of_ne m ρ c main_arg9 (by decide)).trans (w5_arg9 m ρ c)
theorem w6_arg10 (c : Dev nD) : W6 m ρ c (Proc.devRef .tc main_arg10) = m ((c : Thread nD τ).loc main_arg10) :=
  (W6_of_ne m ρ c main_arg10 (by decide)).trans (w5_arg10 m ρ c)
theorem w6_arg11 (c : Dev nD) : W6 m ρ c (Proc.devRef .tc main_arg11) = m ((c : Thread nD τ).loc main_arg11) :=
  (W6_of_ne m ρ c main_arg11 (by decide)).trans (w5_arg11 m ρ c)
theorem w6_arg12 (c : Dev nD) : W6 m ρ c (Proc.devRef .tc main_arg12) = m ((c : Thread nD τ).loc main_arg12) :=
  (W6_of_ne m ρ c main_arg12 (by decide)).trans (w5_arg12 m ρ c)
theorem w6_arg13 (c : Dev nD) : W6 m ρ c (Proc.devRef .tc main_arg13) = m ((c : Thread nD τ).loc main_arg13) :=
  (W6_of_ne m ρ c main_arg13 (by decide)).trans (w5_arg13 m ρ c)

theorem w7_v1 (c : Dev nD) : (W7 m ρ c (Proc.devRef .tc main_v1) : (⟨Cert.ReferenceIdeal.S640000, .i32⟩ : BufTy).Contents (Elt Ideal))
    = Cert.ReferenceIdeal.ReadP.val_main_v1 (F := Ideal) (m ((c : Thread nD τ).loc main_arg1)) :=
  (Keep.host3 m ρ c main_v1 (by decide)).trans (w6_v1 m ρ c)
theorem w7_v3 (c : Dev nD) : (W7 m ρ c (Proc.devRef .tc main_v3) : (⟨Cert.ReferenceIdeal.S640000, .i32⟩ : BufTy).Contents (Elt Ideal))
    = Cert.ReferenceIdeal.ReadP.val_main_v3 (F := Ideal) (m ((c : Thread nD τ).loc main_arg1)) :=
  (Keep.host3 m ρ c main_v3 (by decide)).trans (w6_v3 m ρ c)
theorem w7_arg1 (c : Dev nD) : W7 m ρ c (Proc.devRef .tc main_arg1) = m ((c : Thread nD τ).loc main_arg1) :=
  (Keep.host3 m ρ c main_arg1 (by decide)).trans (w6_arg1 m ρ c)
theorem w7_arg2 (c : Dev nD) : W7 m ρ c (Proc.devRef .tc main_arg2) = m ((c : Thread nD τ).loc main_arg2) :=
  (Keep.host3 m ρ c main_arg2 (by decide)).trans (w6_arg2 m ρ c)
theorem w7_arg3 (c : Dev nD) : W7 m ρ c (Proc.devRef .tc main_arg3) = m ((c : Thread nD τ).loc main_arg3) :=
  (Keep.host3 m ρ c main_arg3 (by decide)).trans (w6_arg3 m ρ c)
theorem w7_arg4 (c : Dev nD) : W7 m ρ c (Proc.devRef .tc main_arg4) = m ((c : Thread nD τ).loc main_arg4) :=
  (Keep.host3 m ρ c main_arg4 (by decide)).trans (w6_arg4 m ρ c)
theorem w7_arg5 (c : Dev nD) : W7 m ρ c (Proc.devRef .tc main_arg5) = m ((c : Thread nD τ).loc main_arg5) :=
  (Keep.host3 m ρ c main_arg5 (by decide)).trans (w6_arg5 m ρ c)
theorem w7_arg6 (c : Dev nD) : W7 m ρ c (Proc.devRef .tc main_arg6) = m ((c : Thread nD τ).loc main_arg6) :=
  (Keep.host3 m ρ c main_arg6 (by decide)).trans (w6_arg6 m ρ c)
theorem w7_arg7 (c : Dev nD) : W7 m ρ c (Proc.devRef .tc main_arg7) = m ((c : Thread nD τ).loc main_arg7) :=
  (Keep.host3 m ρ c main_arg7 (by decide)).trans (w6_arg7 m ρ c)
theorem w7_arg8 (c : Dev nD) : W7 m ρ c (Proc.devRef .tc main_arg8) = m ((c : Thread nD τ).loc main_arg8) :=
  (Keep.host3 m ρ c main_arg8 (by decide)).trans (w6_arg8 m ρ c)
theorem w7_arg9 (c : Dev nD) : W7 m ρ c (Proc.devRef .tc main_arg9) = m ((c : Thread nD τ).loc main_arg9) :=
  (Keep.host3 m ρ c main_arg9 (by decide)).trans (w6_arg9 m ρ c)
theorem w7_arg10 (c : Dev nD) : W7 m ρ c (Proc.devRef .tc main_arg10) = m ((c : Thread nD τ).loc main_arg10) :=
  (Keep.host3 m ρ c main_arg10 (by decide)).trans (w6_arg10 m ρ c)
theorem w7_arg11 (c : Dev nD) : W7 m ρ c (Proc.devRef .tc main_arg11) = m ((c : Thread nD τ).loc main_arg11) :=
  (Keep.host3 m ρ c main_arg11 (by decide)).trans (w6_arg11 m ρ c)
theorem w7_arg12 (c : Dev nD) : W7 m ρ c (Proc.devRef .tc main_arg12) = m ((c : Thread nD τ).loc main_arg12) :=
  (Keep.host3 m ρ c main_arg12 (by decide)).trans (w6_arg12 m ρ c)
theorem w7_arg13 (c : Dev nD) : W7 m ρ c (Proc.devRef .tc main_arg13) = m ((c : Thread nD τ).loc main_arg13) :=
  (Keep.host3 m ρ c main_arg13 (by decide)).trans (w6_arg13 m ρ c)

/-! ## At the entry of stretch 4 (after region 3) -/

theorem w8_v1 (c : Dev nD) : (W8 m ρ c (Proc.devRef .tc main_v1) : (⟨Cert.ReferenceIdeal.S640000, .i32⟩ : BufTy).Contents (Elt Ideal))
    = Cert.ReferenceIdeal.ReadP.val_main_v1 (F := Ideal) (m ((c : Thread nD τ).loc main_arg1)) :=
  (W8_of_ne m ρ c main_v1 (by decide)).trans (w7_v1 m ρ c)
theorem w8_v3 (c : Dev nD) : (W8 m ρ c (Proc.devRef .tc main_v3) : (⟨Cert.ReferenceIdeal.S640000, .i32⟩ : BufTy).Contents (Elt Ideal))
    = Cert.ReferenceIdeal.ReadP.val_main_v3 (F := Ideal) (m ((c : Thread nD τ).loc main_arg1)) :=
  (W8_of_ne m ρ c main_v3 (by decide)).trans (w7_v3 m ρ c)
theorem w8_arg1 (c : Dev nD) : W8 m ρ c (Proc.devRef .tc main_arg1) = m ((c : Thread nD τ).loc main_arg1) :=
  (W8_of_ne m ρ c main_arg1 (by decide)).trans (w7_arg1 m ρ c)
theorem w8_arg2 (c : Dev nD) : W8 m ρ c (Proc.devRef .tc main_arg2) = m ((c : Thread nD τ).loc main_arg2) :=
  (W8_of_ne m ρ c main_arg2 (by decide)).trans (w7_arg2 m ρ c)
theorem w8_arg3 (c : Dev nD) : W8 m ρ c (Proc.devRef .tc main_arg3) = m ((c : Thread nD τ).loc main_arg3) :=
  (W8_of_ne m ρ c main_arg3 (by decide)).trans (w7_arg3 m ρ c)
theorem w8_arg4 (c : Dev nD) : W8 m ρ c (Proc.devRef .tc main_arg4) = m ((c : Thread nD τ).loc main_arg4) :=
  (W8_of_ne m ρ c main_arg4 (by decide)).trans (w7_arg4 m ρ c)
theorem w8_arg5 (c : Dev nD) : W8 m ρ c (Proc.devRef .tc main_arg5) = m ((c : Thread nD τ).loc main_arg5) :=
  (W8_of_ne m ρ c main_arg5 (by decide)).trans (w7_arg5 m ρ c)
theorem w8_arg6 (c : Dev nD) : W8 m ρ c (Proc.devRef .tc main_arg6) = m ((c : Thread nD τ).loc main_arg6) :=
  (W8_of_ne m ρ c main_arg6 (by decide)).trans (w7_arg6 m ρ c)
theorem w8_arg7 (c : Dev nD) : W8 m ρ c (Proc.devRef .tc main_arg7) = m ((c : Thread nD τ).loc main_arg7) :=
  (W8_of_ne m ρ c main_arg7 (by decide)).trans (w7_arg7 m ρ c)
theorem w8_arg8 (c : Dev nD) : W8 m ρ c (Proc.devRef .tc main_arg8) = m ((c : Thread nD τ).loc main_arg8) :=
  (W8_of_ne m ρ c main_arg8 (by decide)).trans (w7_arg8 m ρ c)
theorem w8_arg9 (c : Dev nD) : W8 m ρ c (Proc.devRef .tc main_arg9) = m ((c : Thread nD τ).loc main_arg9) :=
  (W8_of_ne m ρ c main_arg9 (by decide)).trans (w7_arg9 m ρ c)
theorem w8_arg10 (c : Dev nD) : W8 m ρ c (Proc.devRef .tc main_arg10) = m ((c : Thread nD τ).loc main_arg10) :=
  (W8_of_ne m ρ c main_arg10 (by decide)).trans (w7_arg10 m ρ c)
theorem w8_arg11 (c : Dev nD) : W8 m ρ c (Proc.devRef .tc main_arg11) = m ((c : Thread nD τ).loc main_arg11) :=
  (W8_of_ne m ρ c main_arg11 (by decide)).trans (w7_arg11 m ρ c)
theorem w8_arg12 (c : Dev nD) : W8 m ρ c (Proc.devRef .tc main_arg12) = m ((c : Thread nD τ).loc main_arg12) :=
  (W8_of_ne m ρ c main_arg12 (by decide)).trans (w7_arg12 m ρ c)
theorem w8_arg13 (c : Dev nD) : W8 m ρ c (Proc.devRef .tc main_arg13) = m ((c : Thread nD τ).loc main_arg13) :=
  (W8_of_ne m ρ c main_arg13 (by decide)).trans (w7_arg13 m ρ c)

end Cert.KernelIdeal.Back

end
-- ==== Proof.RegionLayout.lean ====
/-
  Two non-pointwise operations of a layer's body, read at one position of a block of 2000 rows.

  A parameter vector reaches the body as a matrix of one row; the body repeats that row 2000 times, so in any row the
  repeated matrix holds, in column `j`, the vector's entry `j`. A matrix product into a zero accumulator holds, at
  (row, column), the sum over the contracted positions `c` of the left factor at (row, c) times the right factor at
  (c, column); on the extended reals that sum is over a finite type and has no order.
-/
import proofs.«159699_j9251359555640_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.RegionValue

open Cert.KernelIdeal Cert.KernelIdeal.Gen

/-- A one-row matrix broadcast down 2000 rows reads, in every row, the row's entry of that column (256 columns). -/
theorem bcastHid_apply (v : FVec Ideal S1x256 .f32) (p : Fin 2000) (j : Fin 256) :
    broadcastTo S2000x256 v broadcasts_S1x256_S2000x256 (ix2 p j) = v (ix2 (0 : Fin 1) j) :=
  broadcastTo_apply v broadcasts_S1x256_S2000x256 (ix2 p j) (ix2 (0 : Fin 1) j) (fun a => by
    match a with
    | ⟨0, _⟩ => rfl
    | ⟨1, _⟩ => rfl)

/-- The same for 128 columns. -/
theorem bcastOut_apply (v : FVec Ideal S1x128 .f32) (p : Fin 2000) (q : Fin 128) :
    broadcastTo S2000x128 v broadcasts_S1x128_S2000x128 (ix2 p q) = v (ix2 (0 : Fin 1) q) :=
  broadcastTo_apply v broadcasts_S1x128_S2000x128 (ix2 p q) (ix2 (0 : Fin 1) q) (fun a => by
    match a with
    | ⟨0, _⟩ => rfl
    | ⟨1, _⟩ => rfl)

/-! The two products' operand positions: at output position (row, column) and contracted position `c`, the left
    operand is read at (row, c) and the right one at (c, column). -/

theorem matmulHid_lhs0 (i : S2000x256.Idx) (c : dot_S2000x128_S128x256_S2000x256_1_0_0_1_n_n.contr.Idx) : (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem matmulHid_lhs1 (i : S2000x256.Idx) (c : dot_S2000x128_S128x256_S2000x256_1_0_0_1_n_n.contr.Idx) : (dot_S2000x128_S128x256_S2000x256_1_0_0_1_n_n.lhsIdx i c 1).val = (c ⟨0, by decide⟩).val :=
  dot_S2000x128_S128x256_S2000x256_1_0_0_1_n_n.lhsIdx_val_of_single rfl i c
theorem matmulHid_rhs0 (i : S2000x256.Idx) (c : dot_S2000x128_S128x256_S2000x256_1_0_0_1_n_n.contr.Idx) : (dot_S2000x128_S128x256_S2000x256_1_0_0_1_n_n.rhsIdx i c 0).val = (c ⟨0, by decide⟩).val :=
  dot_S2000x128_S128x256_S2000x256_1_0_0_1_n_n.rhsIdx_val_of_single rfl i c
theorem matmulHid_rhs1 (i : S2000x256.Idx) (c : dot_S2000x128_S128x256_S2000x256_1_0_0_1_n_n.contr.Idx) : (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The first product, into a zero accumulator, at row `p` and hidden column `q`: the sum over the 128 contracted
    positions of the row's entry times the weight's. -/
theorem matmulHid_apply (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  refine (Ideal.matmul_constant_zero_apply dot_S2000x128_S128x256_S2000x256_1_0_0_1_n_n none l r (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k :=
    funext fun a => Fin.ext (by
      match a with
      | ⟨0, _⟩ => exact matmulHid_lhs0 _ _
      | ⟨1, _⟩ => exact (matmulHid_lhs1 _ _).trans hk)
  have er : dot_S2000x128_S128x256_S2000x256_1_0_0_1_n_n.rhsIdx (ix2 p q) ((contrEquiv1 dot_S2000x128_S128x256_S2000x256_1_0_0_1_n_n 128 rfl rfl).symm k) = ix2 k q :=
    funext fun a => Fin.ext (by
      match a with
      | ⟨0, _⟩ => exact (matmulHid_rhs0 _ _).trans hk
      | ⟨1, _⟩ => exact matmulHid_rhs1 _ _)
  rw [el, er]

theorem matmulOut_lhs0 (i : S2000x128.Idx) (c : dot_S2000x256_S256x128_S2000x128_1_0_0_1_n_n.contr.Idx) : (dot_S2000x256_S256x128_S2000x128_1_0_0_1_n_n.lhsIdx i c 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem matmulOut_lhs1 (i : S2000x128.Idx) (c : dot_S2000x256_S256x128_S2000x128_1_0_0_1_n_n.contr.Idx) : (dot_S2000x256_S256x128_S2000x128_1_0_0_1_n_n.lhsIdx i c 1).val = (c ⟨0, by decide⟩).val :=
  dot_S2000x256_S256x128_S2000x128_1_0_0_1_n_n.lhsIdx_val_of_single rfl i c
theorem matmulOut_rhs0 (i : S2000x128.Idx) (c : dot_S2000x256_S256x128_S2000x128_1_0_0_1_n_n.contr.Idx) : (dot_S2000x256_S256x128_S2000x128_1_0_0_1_n_n.rhsIdx i c 0).val = (c ⟨0, by decide⟩).val :=
  dot_S2000x256_S256x128_S2000x128_1_0_0_1_n_n.rhsIdx_val_of_single rfl i c
theorem matmulOut_rhs1 (i : S2000x128.Idx) (c : dot_S2000x256_S256x128_S2000x128_1_0_0_1_n_n.contr.Idx) : (dot_S2000x256_S256x128_S2000x128_1_0_0_1_n_n.rhsIdx i c 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second product, into a zero accumulator, at row `p` and output column `q`: the sum over the 256 hidden
    positions. -/
theorem matmulOut_apply (l : FVec Ideal S2000x256 .bf16) (r : FVec Ideal S256x128 .bf16) (p : Fin 2000) (q : Fin 128) :
    matmul dot_S2000x256_S256x128_S2000x128_1_0_0_1_n_n none l r (constant S2000x128 .f32 0x00000000#32) (ix2 p q)
      = ∑ k : Fin 256, l (ix2 p k) * r (ix2 k q) := by
  refine (Ideal.matmul_constant_zero_apply dot_S2000x256_S256x128_S2000x128_1_0_0_1_n_n none l r (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k :=
    funext fun a => Fin.ext (by
      match a with
      | ⟨0, _⟩ => exact matmulOut_lhs0 _ _
      | ⟨1, _⟩ => exact (matmulOut_lhs1 _ _).trans hk)
  have er : dot_S2000x256_S256x128_S2000x128_1_0_0_1_n_n.rhsIdx (ix2 p q) ((contrEquiv1 dot_S2000x256_S256x128_S2000x128_1_0_0_1_n_n 256 rfl rfl).symm k) = ix2 k q :=
    funext fun a => Fin.ext (by
      match a with
      | ⟨0, _⟩ => exact (matmulOut_rhs0 _ _).trans hk
      | ⟨1, _⟩ => exact matmulOut_rhs1 _ _)
  rw [el, er]

end Cert.KernelIdeal.RegionValue

end
-- ==== Proof.RegionPayload.lean ====
/-
  The body of a layer, read at one position of a block of 2000 rows.

  The body is two halves. The first takes the block's rows, maps each through the first weight matrix, adds a bias,
  normalises with fixed statistics (subtract a mean, multiply by the reciprocal square root of a variance plus a small
  constant, multiply by a gain, add a shift), clamps at zero from below, and maps the result through the second weight
  matrix. The second half adds a bias to that, normalises the same way and, in every layer but the last, clamps at zero
  again. Every step but the two products acts position by position, so the value at (row, column) is read by pushing the
  position through the steps; a change of number format is the identity on the extended reals, and so is a cast to the
  same shape.
-/
import proofs.«159699_j9251359555640_1_alg».proof.Proof.Gen.KernelIdeal.Skeleton
import proofs.«159699_j9251359555640_1_alg».proof.Proof.RegionLayout
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.RegionValue

open Cert.KernelIdeal Cert.KernelIdeal.Gen

/-- The offsets of a whole-buffer rectangle, however the zeros are spelt. -/
theorem zeroOffsets : (![0, 0] : Fin 2 → Nat) = fun _ => 0 := funext fun a => by fin_cases a <;> rfl

/-- What the first half of the body leaves at row `p`, output column `q` of a block: the second product of the
    clamped, normalised hidden numbers of the row with the second weight matrix. The hidden number `j` of the row is
    the first product plus its bias, minus the mean, times the reciprocal square root of the variance plus the small
    constant, times the gain, plus the shift, clamped at zero from below. The changes of number format and the
    same-shape casts are the identity here; each parameter row is read in its one row `0`. -/
theorem hiddenProduct_apply (x0 : Vec Ideal S2000x128 .f32) (w1 : Vec Ideal S128x256 .f32) (b m v g s : Vec Ideal S1x256 .f32)
    (w2 : Vec Ideal S256x128 .f32) (p : Fin 2000) (q : Fin 128) :
    Gen.k0_pay2 x0 w1 b m v g s w2 (ix2 p q)
      = ∑ j : Fin 256,
          max ((((∑ k : Fin 128, x0 (ix2 p k) * w1 (ix2 k j)) + b (ix2 (0 : Fin 1) j) - m (ix2 (0 : Fin 1) j))
                * Ideal.rsqrt (v (ix2 (0 : Fin 1) j) + Ideal.ofBits .f32 0x3727C5AC#32)) * g (ix2 (0 : Fin 1) j) + s (ix2 (0 : Fin 1) j))
              (Ideal.ofBits .f32 0x00000000#32)
            * w2 (ix2 j q) := by
  unfold Gen.k0_pay2
  simp only [shapeCast_self]
  refine (matmulOut_apply _ _ p q).trans ?_
  refine Finset.sum_congr rfl fun j _ => ?_
  simp only [truncf_apply, maximumf_apply, addf_apply, mulf_apply, subf_apply, broadcast_apply, matmulHid_apply, bcastHid_apply]
  rfl

/-- What the second half of the body makes of the second product `z` at row `p`, output column `q`: plus the bias,
    minus the mean, times the reciprocal square root of the variance plus the small constant, times the gain, plus the
    shift, clamped at zero from below (the first four layers). -/
theorem clampedOut_apply (z : FVec Ideal S2000x128 .f32) (b m v g s : Vec Ideal S1x128 .f32) (p : Fin 2000) (q : Fin 128) :
    Gen.k0_pay1 z b m v g s (ix2 p q)
      = max (((z (ix2 p q) + b (ix2 (0 : Fin 1) q) - m (ix2 (0 : Fin 1) q))
                * Ideal.rsqrt (v (ix2 (0 : Fin 1) q) + Ideal.ofBits .f32 0x3727C5AC#32)) * g (ix2 (0 : Fin 1) q) + s (ix2 (0 : Fin 1) q))
            (Ideal.ofBits .f32 0x00000000#32) := by
  unfold Gen.k0_pay1
  simp only [shapeCast_self]
  simp only [maximumf_apply, addf_apply, mulf_apply, subf_apply, broadcast_apply, bcastOut_apply]
  rfl

/-- The same without the last clamp (the last layer). -/
theorem plainOut_apply (z : FVec Ideal S2000x128 .f32) (b m v g s : Vec Ideal S1x128 .f32) (p : Fin 2000) (q : Fin 128) :
    Gen.k4_pay1 z b m v g s (ix2 p q)
      = ((z (ix2 p q) + b (ix2 (0 : Fin 1) q) - m (ix2 (0 : Fin 1) q))
                * Ideal.rsqrt (v (ix2 (0 : Fin 1) q) + Ideal.ofBits .f32 0x3727C5AC#32)) * g (ix2 (0 : Fin 1) q) + s (ix2 (0 : Fin 1) q) := by
  unfold Gen.k4_pay1
  simp only [shapeCast_self]
  simp only [addf_apply, mulf_apply, subf_apply, broadcast_apply, bcastOut_apply]
  rfl

/-- The five layers' bodies are one and the same text up to the last clamp: the first half is literally the same
    function in every layer, and so is the second half in the first four. -/
theorem pay2_1 : @Gen.k1_pay2 Ideal _ = @Gen.k0_pay2 Ideal _ := rfl
theorem pay2_2 : @Gen.k2_pay2 Ideal _ = @Gen.k0_pay2 Ideal _ := rfl
theorem pay2_3 : @Gen.k3_pay2 Ideal _ = @Gen.k0_pay2 Ideal _ := rfl
theorem pay2_4 : @Gen.k4_pay2 Ideal _ = @Gen.k0_pay2 Ideal _ := rfl
theorem pay1_1 : @Gen.k1_pay1 Ideal _ = @Gen.k0_pay1 Ideal _ := rfl
theorem pay1_2 : @Gen.k2_pay1 Ideal _ = @Gen.k0_pay1 Ideal _ := rfl
theorem pay1_3 : @Gen.k3_pay1 Ideal _ = @Gen.k0_pay1 Ideal _ := rfl

end Cert.KernelIdeal.RegionValue

end
-- ==== Proof.RegionEntry.lean ====
/-
  One position of a block, as an entry of the layer.

  A block holds 2000 consecutive rows of the aggregated rows. If row `r` of the block is row `P` of the whole array,
  then what the body leaves at (`r`, `q`) is the layer's entry (`P`, `q`): both are the same expression in row `P` of
  the aggregated rows, the two weight matrices and the ten parameter vectors, each of these read in the one row of
  the one-row matrix it arrives as. Nothing is rearranged; the two sums are the same sums.
-/
import proofs.«159699_j9251359555640_1_alg».proof.Proof.RegionPayload
import proofs.«159699_j9251359555640_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.RegionValue

open Cert.KernelIdeal Cert.KernelIdeal.Gen

/-- In the first four layers: the body's value at (`r`, `q`) of a block whose row `r` is row `P` of the aggregated rows
    is the clamped entry (`P`, `q`) of the layer. The body takes the parameter rows in the order bias, mean, variance,
    gain, shift; the layer lists them bias, gain, shift, mean, variance. -/
theorem layerBlock_apply (x0 : Vec Ideal S2000x128 .f32) (a : Cert.Gin.Rows) (w1 : Vec Ideal S128x256 .f32)
    (b1 g1 be1 m1 v1 : Vec Ideal S1x256 .f32) (w2 : Vec Ideal S256x128 .f32) (b2 g2 be2 m2 v2 : Vec Ideal S1x128 .f32)
    (P : Fin 100000) (r : Fin 2000) (q : Fin 128) (hx : ∀ k : Fin 128, x0 (ix2 r k) = a (ix2 P k)) :
    Gen.k0_pay1 (Gen.k0_pay2 x0 w1 b1 m1 v1 g1 be1 w2) b2 m2 v2 g2 be2 (ix2 r q)
      = Cert.Gin.entry true a w1 (Cert.Gin.rowHid b1) (Cert.Gin.rowHid g1) (Cert.Gin.rowHid be1) (Cert.Gin.rowHid m1) (Cert.Gin.rowHid v1)
          w2 (Cert.Gin.rowOut b2) (Cert.Gin.rowOut g2) (Cert.Gin.rowOut be2) (Cert.Gin.rowOut m2) (Cert.Gin.rowOut v2) P q := by
  rw [clampedOut_apply, hiddenProduct_apply]
  simp only [hx]
  rfl

/-- In the last layer: the same without the last clamp. -/
theorem lastLayerBlock_apply (x0 : Vec Ideal S2000x128 .f32) (a : Cert.Gin.Rows) (w1 : Vec Ideal S128x256 .f32)
    (b1 g1 be1 m1 v1 : Vec Ideal S1x256 .f32) (w2 : Vec Ideal S256x128 .f32) (b2 g2 be2 m2 v2 : Vec Ideal S1x128 .f32)
    (P : Fin 100000) (r : Fin 2000) (q : Fin 128) (hx : ∀ k : Fin 128, x0 (ix2 r k) = a (ix2 P k)) :
    Gen.k4_pay1 (Gen.k0_pay2 x0 w1 b1 m1 v1 g1 be1 w2) b2 m2 v2 g2 be2 (ix2 r q)
      = Cert.Gin.entry false a w1 (Cert.Gin.rowHid b1) (Cert.Gin.rowHid g1) (Cert.Gin.rowHid be1) (Cert.Gin.rowHid m1) (Cert.Gin.rowHid v1)
          w2 (Cert.Gin.rowOut b2) (Cert.Gin.rowOut g2) (Cert.Gin.rowOut be2) (Cert.Gin.rowOut m2) (Cert.Gin.rowOut v2) P q := by
  rw [plainOut_apply, hiddenProduct_apply]
  simp only [hx]
  rfl

end Cert.KernelIdeal.RegionValue

end
-- ==== Proof.RegionValue0.lean ====
/-
  The first layer's region: what its output array holds after the region, whatever the arrays held at entry.

  The region runs fifty points. Point `t` stages rows `2000 t … 2000 t + 1999` of the aggregated rows, the whole of
  each of the twelve parameter arrays (their windows never move), runs the body on them and writes the result back
  as rows `2000 t … 2000 t + 1999` of the output array. Position (`r`, `q`) of what point `t` writes is the layer's
  entry at row `2000 t + r` and column `q`, so each point writes block `t` of one and the same whole-array function, the
  layer. Row `p` of the output lies in the block of point `p / 2000`, so the fifty blocks cover the array, and the array
  ends holding the layer.
-/
import proofs.«159699_j9251359555640_1_alg».proof.Proof.Gen.KernelIdeal.Frame
import proofs.«159699_j9251359555640_1_alg».proof.Proof.RegionEntry
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-! ## Where each window's block sits -/

/-- At point `t` the rows window and the output window both sit at block `t` of the rows and block 0 of the columns. -/
theorem rowsIdx0 : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, _)

/-- Row `r` of the rows window's block at point `t` is row `2000 t + r` of the aggregated rows. -/
theorem rows0 (c : Dev nD) (t : Fin cfg0.N) (r : Fin 2000) (k : Fin 128) (P : Fin 100000) (hP : P.val = 2000 * t.val + r.val) :
    (iblk0 V c 0 t : Vec Ideal S2000x128 .f32) (ix2 r k) = (V c main_v14 : Cert.Gin.Rows) (ix2 P k) := by
  obtain ⟨e0, e1, -, -⟩ := rowsIdx0 t
  show V c main_v14 (((cfg0.win 0).blk t).view.emb (ix2 r k)) = V c main_v14 (ix2 P k)
  refine congrArg (V c main_v14) (funext fun a => Fin.ext ?_)
  match a with
  | ⟨0, _⟩ => show win0_0.index t (0 : Fin 2) * 2000 + 1 * r.val = P.val; omega
  | ⟨1, _⟩ => show win0_0.index t (1 : Fin 2) * 128 + 1 * k.val = k.val; omega

/-- Window 1 (the first weight matrix) never moves: its index map is constantly (0, 0). -/
theorem paramIdx0_1 : ∀ t : Fin cfg0.N, win0_1.index t (0 : Fin 2) = 0 ∧ win0_1.index t (1 : Fin 2) = 0 :=
  (by decide +kernel : ∀ t : Fin grid0.N, _)
/-- A window that never moves stages, at every point, its whole array. -/
theorem whole0_1 (c : Dev nD) (t : Fin cfg0.N) : (iblk0 V c 1 t : Vec Ideal S128x256 .f32) = V c main_v16 := by
  obtain ⟨e0, e1⟩ := paramIdx0_1 t
  funext y
  show V c main_v16 (((cfg0.win 1).blk t).view.emb y) = V c main_v16 y
  refine congrArg (V c main_v16) (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Window 2 (the first bias) never moves: its index map is constantly (0, 0). -/
theorem paramIdx0_2 : ∀ t : Fin cfg0.N, win0_2.index t (0 : Fin 2) = 0 ∧ win0_2.index t (1 : Fin 2) = 0 :=
  (by decide +kernel : ∀ t : Fin grid0.N, _)
/-- A window that never moves stages, at every point, its whole array. -/
theorem whole0_2 (c : Dev nD) (t : Fin cfg0.N) : (iblk0 V c 2 t : Vec Ideal S1x256 .f32) = V c main_v39 := by
  obtain ⟨e0, e1⟩ := paramIdx0_2 t
  funext y
  show V c main_v39 (((cfg0.win 2).blk t).view.emb y) = V c main_v39 y
  refine congrArg (V c main_v39) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Window 3 (the first gain) never moves: its index map is constantly (0, 0). -/
theorem paramIdx0_3 : ∀ t : Fin cfg0.N, win0_3.index t (0 : Fin 2) = 0 ∧ win0_3.index t (1 : Fin 2) = 0 :=
  (by decide +kernel : ∀ t : Fin grid0.N, _)
/-- A window that never moves stages, at every point, its whole array. -/
theorem whole0_3 (c : Dev nD) (t : Fin cfg0.N) : (iblk0 V c 3 t : Vec Ideal S1x256 .f32) = V c main_v40 := by
  obtain ⟨e0, e1⟩ := paramIdx0_3 t
  funext y
  show V c main_v40 (((cfg0.win 3).blk t).view.emb y) = V c main_v40 y
  refine congrArg (V c main_v40) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Window 4 (the first shift) never moves: its index map is constantly (0, 0). -/
theorem paramIdx0_4 : ∀ t : Fin cfg0.N, win0_4.index t (0 : Fin 2) = 0 ∧ win0_4.index t (1 : Fin 2) = 0 :=
  (by decide +kernel : ∀ t : Fin grid0.N, _)
/-- A window that never moves stages, at every point, its whole array. -/
theorem whole0_4 (c : Dev nD) (t : Fin cfg0.N) : (iblk0 V c 4 t : Vec Ideal S1x256 .f32) = V c main_v41 := by
  obtain ⟨e0, e1⟩ := paramIdx0_4 t
  funext y
  show V c main_v41 (((cfg0.win 4).blk t).view.emb y) = V c main_v41 y
  refine congrArg (V c main_v41) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5 (the first mean) never moves: its index map is constantly (0, 0). -/
theorem paramIdx0_5 : ∀ t : Fin cfg0.N, win0_5.index t (0 : Fin 2) = 0 ∧ win0_5.index t (1 : Fin 2) = 0 :=
  (by decide +kernel : ∀ t : Fin grid0.N, _)
/-- A window that never moves stages, at every point, its whole array. -/
theorem whole0_5 (c : Dev nD) (t : Fin cfg0.N) : (iblk0 V c 5 t : Vec Ideal S1x256 .f32) = V c main_v42 := by
  obtain ⟨e0, e1⟩ := paramIdx0_5 t
  funext y
  show V c main_v42 (((cfg0.win 5).blk t).view.emb y) = V c main_v42 y
  refine congrArg (V c main_v42) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Window 6 (the first variance) never moves: its index map is constantly (0, 0). -/
theorem paramIdx0_6 : ∀ t : Fin cfg0.N, win0_6.index t (0 : Fin 2) = 0 ∧ win0_6.index t (1 : Fin 2) = 0 :=
  (by decide +kernel : ∀ t : Fin grid0.N, _)
/-- A window that never moves stages, at every point, its whole array. -/
theorem whole0_6 (c : Dev nD) (t : Fin cfg0.N) : (iblk0 V c 6 t : Vec Ideal S1x256 .f32) = V c main_v43 := by
  obtain ⟨e0, e1⟩ := paramIdx0_6 t
  funext y
  show V c main_v43 (((cfg0.win 6).blk t).view.emb y) = V c main_v43 y
  refine congrArg (V c main_v43) (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- Window 7 (the second weight matrix) never moves: its index map is constantly (0, 0). -/
theorem paramIdx0_7 : ∀ t : Fin cfg0.N, win0_7.index t (0 : Fin 2) = 0 ∧ win0_7.index t (1 : Fin 2) = 0 :=
  (by decide +kernel : ∀ t : Fin grid0.N, _)
/-- A window that never moves stages, at every point, its whole array. -/
theorem whole0_7 (c : Dev nD) (t : Fin cfg0.N) : (iblk0 V c 7 t : Vec Ideal S256x128 .f32) = V c main_v28 := by
  obtain ⟨e0, e1⟩ := paramIdx0_7 t
  funext y
  show V c main_v28 (((cfg0.win 7).blk t).view.emb y) = V c main_v28 y
  refine congrArg (V c main_v28) (funext fun a => Fin.ext ?_)
  match a with
  | ⟨0, _⟩ => show win0_7.index t (0 : Fin 2) * 256 + 1 * (y 0).val = (y 0).val; omega
  | ⟨1, _⟩ => show win0_7.index t (1 : Fin 2) * 128 + 1 * (y 1).val = (y 1).val; omega

/-- Window 8 (the second bias) never moves: its index map is constantly (0, 0). -/
theorem paramIdx0_8 : ∀ t : Fin cfg0.N, win0_8.index t (0 : Fin 2) = 0 ∧ win0_8.index t (1 : Fin 2) = 0 :=
  (by decide +kernel : ∀ t : Fin grid0.N, _)
/-- A window that never moves stages, at every point, its whole array. -/
theorem whole0_8 (c : Dev nD) (t : Fin cfg0.N) : (iblk0 V c 8 t : Vec Ideal S1x128 .f32) = V c main_v44 := by
  obtain ⟨e0, e1⟩ := paramIdx0_8 t
  funext y
  show V c main_v44 (((cfg0.win 8).blk t).view.emb y) = V c main_v44 y
  refine congrArg (V c main_v44) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9 (the second gain) never moves: its index map is constantly (0, 0). -/
theorem paramIdx0_9 : ∀ t : Fin cfg0.N, win0_9.index t (0 : Fin 2) = 0 ∧ win0_9.index t (1 : Fin 2) = 0 :=
  (by decide +kernel : ∀ t : Fin grid0.N, _)
/-- A window that never moves stages, at every point, its whole array. -/
theorem whole0_9 (c : Dev nD) (t : Fin cfg0.N) : (iblk0 V c 9 t : Vec Ideal S1x128 .f32) = V c main_v45 := by
  obtain ⟨e0, e1⟩ := paramIdx0_9 t
  funext y
  show V c main_v45 (((cfg0.win 9).blk t).view.emb y) = V c main_v45 y
  refine congrArg (V c main_v45) (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Window 10 (the second shift) never moves: its index map is constantly (0, 0). -/
theorem paramIdx0_10 : ∀ t : Fin cfg0.N, win0_10.index t (0 : Fin 2) = 0 ∧ win0_10.index t (1 : Fin 2) = 0 :=
  (by decide +kernel : ∀ t : Fin grid0.N, _)
/-- A window that never moves stages, at every point, its whole array. -/
theorem whole0_10 (c : Dev nD) (t : Fin cfg0.N) : (iblk0 V c 10 t : Vec Ideal S1x128 .f32) = V c main_v46 := by
  obtain ⟨e0, e1⟩ := paramIdx0_10 t
  funext y
  show V c main_v46 (((cfg0.win 10).blk t).view.emb y) = V c main_v46 y
  refine congrArg (V c main_v46) (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Window 11 (the second mean) never moves: its index map is constantly (0, 0). -/
theorem paramIdx0_11 : ∀ t : Fin cfg0.N, win0_11.index t (0 : Fin 2) = 0 ∧ win0_11.index t (1 : Fin 2) = 0 :=
  (by decide +kernel : ∀ t : Fin grid0.N, _)
/-- A window that never moves stages, at every point, its whole array. -/
theorem whole0_11 (c : Dev nD) (t : Fin cfg0.N) : (iblk0 V c 11 t : Vec Ideal S1x128 .f32) = V c main_v47 := by
  obtain ⟨e0, e1⟩ := paramIdx0_11 t
  funext y
  show V c main_v47 (((cfg0.win 11).blk t).view.emb y) = V c main_v47 y
  refine congrArg (V c main_v47) (funext fun a => Fin.ext ?_)
  match a with
  | ⟨0, _⟩ => show win0_11.index t (0 : Fin 2) * 1 + 1 * (y 0).val = (y 0).val; omega
  | ⟨1, _⟩ => show win0_11.index t (1 : Fin 2) * 128 + 1 * (y 1).val = (y 1).val; omega

/-- Window 12 (the second variance) never moves: its index map is constantly (0, 0). -/
theorem paramIdx0_12 : ∀ t : Fin cfg0.N, win0_12.index t (0 : Fin 2) = 0 ∧ win0_12.index t (1 : Fin 2) = 0 :=
  (by decide +kernel : ∀ t : Fin grid0.N, _)
/-- A window that never moves stages, at every point, its whole array. -/
theorem whole0_12 (c : Dev nD) (t : Fin cfg0.N) : (iblk0 V c 12 t : Vec Ideal S1x128 .f32) = V c main_v48 := by
  obtain ⟨e0, e1⟩ := paramIdx0_12 t
  funext y
  show V c main_v48 (((cfg0.win 12).blk t).view.emb y) = V c main_v48 y
  refine congrArg (V c main_v48) (funext fun a => Fin.ext ?_)
  match a with
  | ⟨0, _⟩ => show win0_12.index t (0 : Fin 2) * 1 + 1 * (y 0).val = (y 0).val; omega
  | ⟨1, _⟩ => show win0_12.index t (1 : Fin 2) * 128 + 1 * (y 1).val = (y 1).val; omega

/-! ## What a point writes back -/

/-- The layer of the arrays this region finds at entry. -/
abbrev layerOf0 (c : Dev nD) : Cert.Gin.Rows :=
  Cert.Gin.layer true (V c main_v14) (V c main_v16)
      (Cert.Gin.rowHid (V c main_v39)) (Cert.Gin.rowHid (V c main_v40)) (Cert.Gin.rowHid (V c main_v41)) (Cert.Gin.rowHid (V c main_v42)) (Cert.Gin.rowHid (V c main_v43))
      (V c main_v28)
      (Cert.Gin.rowOut (V c main_v44)) (Cert.Gin.rowOut (V c main_v45)) (Cert.Gin.rowOut (V c main_v46)) (Cert.Gin.rowOut (V c main_v47)) (Cert.Gin.rowOut (V c main_v48))

/-- What point `t` writes back is block `t` of the layer: position (`r`, `q`) of the block is the body's value there,
    which is the layer's entry at row `2000 t + r`, where the output window's block puts it. -/
theorem flushed0 (c : Dev nD) (t : Fin cfg0.N) :
    (dat0 V c).flushed 13 t = ((cfg0.win 13).blk t).view.read (Elt Ideal) (layerOf0 V c) := by
  show (cfg0.win 13).cut (grid0.coords t) ((dat0 V c).after 13 t) = _
  rw [after0_13]
  unfold out0_13
  rw [View.canon_unit_zero zeroOffsets]
  simp only [View.ld_unit_zero (S := S2000x128) zeroOffsets, View.ld_unit_zero (S := S128x256) zeroOffsets, View.ld_unit_zero (S := S1x256) zeroOffsets,
    View.ld_unit_zero (S := S256x128) zeroOffsets, View.ld_unit_zero (S := S1x128) zeroOffsets]
  rw [whole0_1 V c t, whole0_2 V c t, whole0_3 V c t, whole0_4 V c t, whole0_5 V c t, whole0_6 V c t, whole0_7 V c t, whole0_8 V c t,
    whole0_9 V c t, whole0_10 V c t, whole0_11 V c t, whole0_12 V c t]
  obtain ⟨-, -, e2, e3⟩ := rowsIdx0 t
  have hN : cfg0.N = 50 := N_0
  refine funext fun (j : S2000x128.Idx) => ?_
  obtain ⟨r, q, rfl⟩ : ∃ (r : Fin 2000) (q : Fin 128), j = ix2 r q := ⟨j 0, j 1, eq_ix2 j⟩
  have hP : 2000 * t.val + r.val < 100000 := by have := t.isLt; omega
  refine (layerBlock_apply (iblk0 V c 0 t) (V c main_v14) (V c main_v16) (V c main_v39) (V c main_v40) (V c main_v41) (V c main_v42) (V c main_v43)
    (V c main_v28) (V c main_v44) (V c main_v45) (V c main_v46) (V c main_v47) (V c main_v48)
    ⟨2000 * t.val + r.val, hP⟩ r q (fun k => rows0 V c t r k ⟨2000 * t.val + r.val, hP⟩ rfl)).trans ?_
  show _ = layerOf0 V c (((cfg0.win 13).blk t).view.emb (ix2 r q))
  have he : ((cfg0.win 13).blk t).view.emb (ix2 r q) = ix2 (⟨2000 * t.val + r.val, hP⟩ : Fin 100000) q := funext fun a => Fin.ext (by
    match a with
    | ⟨0, _⟩ => show win0_13.index t (0 : Fin 2) * 2000 + 1 * r.val = 2000 * t.val + r.val; omega
    | ⟨1, _⟩ => show win0_13.index t (1 : Fin 2) * 128 + 1 * q.val = q.val; omega)
  rw [he]
  rfl

/-! ## The blocks cover the array -/

/-- A position of the array is in point `t`'s block iff each coordinate is in the block's range on its axis. -/
theorem mem_blk0 (t : Fin cfg0.N) (i : S100000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v49).slice (win0_13.rect t)).set ↔ _
  rw [View.set_slice_whole, Rect.mem_set_unit]
  exact Iff.rfl

/-- Row `p` of the array is in the block of point `p / 2000`, and every point writes its block back. -/
theorem cover0 (i : S100000x128.Idx) :
    ∃ t : Fin cfg0.N, (cfg0.win 13).flush t = true ∧ i ∈ ((cfg0.win 13).blk t).view.set := by
  have hi0 : (i 0).val < 100000 := idx2_lt0 i
  have hi1 : (i 1).val < 128 := idx2_lt1 i
  have hN : cfg0.N = 50 := N_0
  obtain ⟨t, ht⟩ : ∃ t : Fin cfg0.N, t.val = (i 0).val / 2000 := ⟨⟨(i 0).val / 2000, by rw [hN]; omega⟩, rfl⟩
  obtain ⟨-, -, e2, e3⟩ := rowsIdx0 t
  refine ⟨t, flush0_13 t, ?_⟩
  rw [mem_blk0]
  intro a
  match a with
  | ⟨0, _⟩ =>
    show win0_13.index t (0 : Fin 2) * 2000 ≤ (i 0).val ∧ (i 0).val < win0_13.index t (0 : Fin 2) * 2000 + 2000
    omega
  | ⟨1, _⟩ =>
    show win0_13.index t (1 : Fin 2) * 128 ≤ (i 1).val ∧ (i 1).val < win0_13.index t (1 : Fin 2) * 128 + 128
    omega

/-! ## The array after the region -/

/-- After the region's fifty points the output array holds the layer of the arrays the region found at entry. -/
theorem region0 (c : Dev nD) :
    (Gen.dat0 (F := Ideal) V c).arrAt 13 cfg0.N
      = Cert.Gin.layer true (V c main_v14) (V c main_v16)
      (Cert.Gin.rowHid (V c main_v39)) (Cert.Gin.rowHid (V c main_v40)) (Cert.Gin.rowHid (V c main_v41)) (Cert.Gin.rowHid (V c main_v42)) (Cert.Gin.rowHid (V c main_v43))
      (V c main_v28)
      (Cert.Gin.rowOut (V c main_v44)) (Cert.Gin.rowOut (V c main_v45)) (Cert.Gin.rowOut (V c main_v46)) (Cert.Gin.rowOut (V c main_v47)) (Cert.Gin.rowOut (V c main_v48)) :=
  (dat0 V c).arrAt_eq_of_cover 13 (layerOf0 V c) (fun t _ => flushed0 V c t) cover0

end Cert.KernelIdeal.RegionValue

end
-- ==== Proof.KernelFold0.lean ====
/-
  Layer 0 of the idealized kernel, read off its run.

  The stretch of host operations before region 0 leaves, in the region's thirteen input arrays: the neighbourhood sum
  of the input features; slice 0 of each weight array; and slice 0 of each of the ten parameter vectors, reshaped
  to a one-row matrix. The region then leaves in its output array the layer of these — so the features after region 0
  are the layer step of the features before it.
-/
import proofs.«159699_j9251359555640_1_alg».proof.Proof.KernelBack
import proofs.«159699_j9251359555640_1_alg».proof.Proof.RegionValue0

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The aggregated rows region 0 reads: the neighbourhood sum of the features before it. -/
theorem s0_agg (c : Dev nD) : (V1 m ρ c main_v14 : Cert.Gin.Feat) = Cert.Gin.agg (m ((c : Thread nD τ).loc main_arg0)) (m ((c : Thread nD τ).loc main_arg1)) := by
  dsimp only [V1, W1, hostOps0]
  after_results_simp
  rfl

/-- The first weight matrix region 0 reads: slice 0 of the stacked first weights. -/
theorem s0_w1 (c : Dev nD) : (V1 m ρ c main_v16 : Cert.Gin.W1) = Cert.ReferenceIdeal.ReadP.val_main_v16 (F := Ideal) (m ((c : Thread nD τ).loc main_arg2)) := by
  dsimp only [V1, W1, hostOps0]
  after_results_simp
  rfl

/-- The second weight matrix region 0 reads: slice 0 of the stacked second weights. -/
theorem s0_w2 (c : Dev nD) : (V1 m ρ c main_v28 : Cert.Gin.W2) = Cert.ReferenceIdeal.ReadP.val_main_v48 (F := Ideal) (m ((c : Thread nD τ).loc main_arg8)) := by
  dsimp only [V1, W1, hostOps0]
  after_results_simp
  rfl

/-- The one-row matrix region 0 reads for b1, as a vector: slice 0 of argument 3. -/
theorem s0_b1 (c : Dev nD) : Cert.Gin.rowHid (V1 m ρ c main_v39) = Cert.ReferenceIdeal.ReadP.val_main_v19 (F := Ideal) (m ((c : Thread nD τ).loc main_arg3)) := by
  have e : (V1 m ρ c main_v39 : (⟨2, ![1, 256]⟩ : Shape).Idx → EReal)
      = shapeCast ⟨2, ![1, 256]⟩ (Cert.ReferenceIdeal.ReadP.val_main_v19 (F := Ideal) (m ((c : Thread nD τ).loc main_arg3))) shapeCasts_S256_S1x256 := by
    dsimp only [V1, W1, hostOps0]
    after_results_simp
    rfl
  rw [e]; exact Cert.Gin.rowHid_reshape _ _

/-- The one-row matrix region 0 reads for g1, as a vector: slice 0 of argument 4. -/
theorem s0_g1 (c : Dev nD) : Cert.Gin.rowHid (V1 m ρ c main_v40) = Cert.ReferenceIdeal.ReadP.val_main_v24 (F := Ideal) (m ((c : Thread nD τ).loc main_arg4)) := by
  have e : (V1 m ρ c main_v40 : (⟨2, ![1, 256]⟩ : Shape).Idx → EReal)
      = shapeCast ⟨2, ![1, 256]⟩ (Cert.ReferenceIdeal.ReadP.val_main_v24 (F := Ideal) (m ((c : Thread nD τ).loc main_arg4))) shapeCasts_S256_S1x256 := by
    dsimp only [V1, W1, hostOps0]
    after_results_simp
    rfl
  rw [e]; exact Cert.Gin.rowHid_reshape _ _

/-- The one-row matrix region 0 reads for be1, as a vector: slice 0 of argument 5. -/
theorem s0_be1 (c : Dev nD) : Cert.Gin.rowHid (V1 m ρ c main_v41) = Cert.ReferenceIdeal.ReadP.val_main_v26 (F := Ideal) (m ((c : Thread nD τ).loc main_arg5)) := by
  have e : (V1 m ρ c main_v41 : (⟨2, ![1, 256]⟩ : Shape).Idx → EReal)
      = shapeCast ⟨2, ![1, 256]⟩ (Cert.ReferenceIdeal.ReadP.val_main_v26 (F := Ideal) (m ((c : Thread nD τ).loc main_arg5))) shapeCasts_S256_S1x256 := by
    dsimp only [V1, W1, hostOps0]
    after_results_simp
    rfl
  rw [e]; exact Cert.Gin.rowHid_reshape _ _

/-- The one-row matrix region 0 reads for m1, as a vector: slice 0 of argument 6. -/
theorem s0_m1 (c : Dev nD) : Cert.Gin.rowHid (V1 m ρ c main_v42) = Cert.ReferenceIdeal.ReadP.val_main_v28 (F := Ideal) (m ((c : Thread nD τ).loc main_arg6)) := by
  have e : (V1 m ρ c main_v42 : (⟨2, ![1, 256]⟩ : Shape).Idx → EReal)
      = shapeCast ⟨2, ![1, 256]⟩ (Cert.ReferenceIdeal.ReadP.val_main_v28 (F := Ideal) (m ((c : Thread nD τ).loc main_arg6))) shapeCasts_S256_S1x256 := by
    dsimp only [V1, W1, hostOps0]
    after_results_simp
    rfl
  rw [e]; exact Cert.Gin.rowHid_reshape _ _

/-- The one-row matrix region 0 reads for v1, as a vector: slice 0 of argument 7. -/
theorem s0_v1 (c : Dev nD) : Cert.Gin.rowHid (V1 m ρ c main_v43) = Cert.ReferenceIdeal.ReadP.val_main_v30 (F := Ideal) (m ((c : Thread nD τ).loc main_arg7)) := by
  have e : (V1 m ρ c main_v43 : (⟨2, ![1, 256]⟩ : Shape).Idx → EReal)
      = shapeCast ⟨2, ![1, 256]⟩ (Cert.ReferenceIdeal.ReadP.val_main_v30 (F := Ideal) (m ((c : Thread nD τ).loc main_arg7))) shapeCasts_S256_S1x256 := by
    dsimp only [V1, W1, hostOps0]
    after_results_simp
    rfl
  rw [e]; exact Cert.Gin.rowHid_reshape _ _

/-- The one-row matrix region 0 reads for b2, as a vector: slice 0 of argument 9. -/
theorem s0_b2 (c : Dev nD) : Cert.Gin.rowOut (V1 m ρ c main_v44) = Cert.ReferenceIdeal.ReadP.val_main_v51 (F := Ideal) (m ((c : Thread nD τ).loc main_arg9)) := by
  have e : (V1 m ρ c main_v44 : (⟨2, ![1, 128]⟩ : Shape).Idx → EReal)
      = shapeCast ⟨2, ![1, 128]⟩ (Cert.ReferenceIdeal.ReadP.val_main_v51 (F := Ideal) (m ((c : Thread nD τ).loc main_arg9))) shapeCasts_S128_S1x128 := by
    dsimp only [V1, W1, hostOps0]
    after_results_simp
    rfl
  rw [e]; exact Cert.Gin.rowOut_reshape _ _

/-- The one-row matrix region 0 reads for g2, as a vector: slice 0 of argument 10. -/
theorem s0_g2 (c : Dev nD) : Cert.Gin.rowOut (V1 m ρ c main_v45) = Cert.ReferenceIdeal.ReadP.val_main_v56 (F := Ideal) (m ((c : Thread nD τ).loc main_arg10)) := by
  have e : (V1 m ρ c main_v45 : (⟨2, ![1, 128]⟩ : Shape).Idx → EReal)
      = shapeCast ⟨2, ![1, 128]⟩ (Cert.ReferenceIdeal.ReadP.val_main_v56 (F := Ideal) (m ((c : Thread nD τ).loc main_arg10))) shapeCasts_S128_S1x128 := by
    dsimp only [V1, W1, hostOps0]
    after_results_simp
    rfl
  rw [e]; exact Cert.Gin.rowOut_reshape _ _

/-- The one-row matrix region 0 reads for be2, as a vector: slice 0 of argument 11. -/
theorem s0_be2 (c : Dev nD) : Cert.Gin.rowOut (V1 m ρ c main_v46) = Cert.ReferenceIdeal.ReadP.val_main_v58 (F := Ideal) (m ((c : Thread nD τ).loc main_arg11)) := by
  have e : (V1 m ρ c main_v46 : (⟨2, ![1, 128]⟩ : Shape).Idx → EReal)
      = shapeCast ⟨2, ![1, 128]⟩ (Cert.ReferenceIdeal.ReadP.val_main_v58 (F := Ideal) (m ((c : Thread nD τ).loc main_arg11))) shapeCasts_S128_S1x128 := by
    dsimp only [V1, W1, hostOps0]
    after_results_simp
    rfl
  rw [e]; exact Cert.Gin.rowOut_reshape _ _

/-- The one-row matrix region 0 reads for m2, as a vector: slice 0 of argument 12. -/
theorem s0_m2 (c : Dev nD) : Cert.Gin.rowOut (V1 m ρ c main_v47) = Cert.ReferenceIdeal.ReadP.val_main_v60 (F := Ideal) (m ((c : Thread nD τ).loc main_arg12)) := by
  have e : (V1 m ρ c main_v47 : (⟨2, ![1, 128]⟩ : Shape).Idx → EReal)
      = shapeCast ⟨2, ![1, 128]⟩ (Cert.ReferenceIdeal.ReadP.val_main_v60 (F := Ideal) (m ((c : Thread nD τ).loc main_arg12))) shapeCasts_S128_S1x128 := by
    dsimp only [V1, W1, hostOps0]
    after_results_simp
    rfl
  rw [e]; exact Cert.Gin.rowOut_reshape _ _

/-- The one-row matrix region 0 reads for v2, as a vector: slice 0 of argument 13. -/
theorem s0_v2 (c : Dev nD) : Cert.Gin.rowOut (V1 m ρ c main_v48) = Cert.ReferenceIdeal.ReadP.val_main_v62 (F := Ideal) (m ((c : Thread nD τ).loc main_arg13)) := by
  have e : (V1 m ρ c main_v48 : (⟨2, ![1, 128]⟩ : Shape).Idx → EReal)
      = shapeCast ⟨2, ![1, 128]⟩ (Cert.ReferenceIdeal.ReadP.val_main_v62 (F := Ideal) (m ((c : Thread nD τ).loc main_arg13))) shapeCasts_S128_S1x128 := by
    dsimp only [V1, W1, hostOps0]
    after_results_simp
    rfl
  rw [e]; exact Cert.Gin.rowOut_reshape _ _

/-- The features after region 0 are the layer step of the features before it. -/
theorem feat1 (c : Dev nD) : (W2 m ρ c (Proc.devRef .tc main_v49) : Cert.Gin.Feat)
    = Cert.Gin.step0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W2_arr m ρ c 13).trans ?_
  refine (Cert.KernelIdeal.RegionValue.region0 (V1 m ρ) c).trans ?_
  show Cert.Gin.layer true (V1 m ρ c main_v14) (V1 m ρ c main_v16) (Cert.Gin.rowHid (V1 m ρ c main_v39)) (Cert.Gin.rowHid (V1 m ρ c main_v40)) (Cert.Gin.rowHid (V1 m ρ c main_v41)) (Cert.Gin.rowHid (V1 m ρ c main_v42)) (Cert.Gin.rowHid (V1 m ρ c main_v43))
      (V1 m ρ c main_v28) (Cert.Gin.rowOut (V1 m ρ c main_v44)) (Cert.Gin.rowOut (V1 m ρ c main_v45)) (Cert.Gin.rowOut (V1 m ρ c main_v46)) (Cert.Gin.rowOut (V1 m ρ c main_v47)) (Cert.Gin.rowOut (V1 m ρ c main_v48)) = _
  rw [s0_agg m ρ c, s0_w1 m ρ c, s0_w2 m ρ c, s0_b1 m ρ c, s0_g1 m ρ c, s0_be1 m ρ c, s0_m1 m ρ c, s0_v1 m ρ c, s0_b2 m ρ c, s0_g2 m ρ c, s0_be2 m ρ c, s0_m2 m ρ c, s0_v2 m ρ c]
  rfl

end Cert.KernelIdeal.Fold

end
-- ==== Proof.RegionValue1.lean ====
/-
  The second layer's region: what its output array holds after the region, whatever the arrays held at entry.

  The region runs fifty points. Point `t` stages rows `2000 t … 2000 t + 1999` of the aggregated rows, the whole of
  each of the twelve parameter arrays (their windows never move), runs the body on them and writes the result back
  as rows `2000 t … 2000 t + 1999` of the output array. Position (`r`, `q`) of what point `t` writes is the layer's
  entry at row `2000 t + r` and column `q`, so each point writes block `t` of one and the same whole-array function, the
  layer. Row `p` of the output lies in the block of point `p / 2000`, so the fifty blocks cover the array, and the array
  ends holding the layer.
-/
import proofs.«159699_j9251359555640_1_alg».proof.Proof.Gen.KernelIdeal.Frame
import proofs.«159699_j9251359555640_1_alg».proof.Proof.RegionEntry
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-! ## Where each window's block sits -/

/-- At point `t` the rows window and the output window both sit at block `t` of the rows and block 0 of the columns. -/
theorem rowsIdx1 : ∀ t : Fin cfg1.N, win1_0.index t (0 : Fin 2) = t.val ∧ win1_0.index t (1 : Fin 2) = 0
    ∧ win1_13.index t (0 : Fin 2) = t.val ∧ win1_13.index t (1 : Fin 2) = 0 :=
  (by decide +kernel : ∀ t : Fin grid1.N, _)

/-- Row `r` of the rows window's block at point `t` is row `2000 t + r` of the aggregated rows. -/
theorem rows1 (c : Dev nD) (t : Fin cfg1.N) (r : Fin 2000) (k : Fin 128) (P : Fin 100000) (hP : P.val = 2000 * t.val + r.val) :
    (iblk1 V c 0 t : Vec Ideal S2000x128 .f32) (ix2 r k) = (V c main_v60 : Cert.Gin.Rows) (ix2 P k) := by
  obtain ⟨e0, e1, -, -⟩ := rowsIdx1 t
  show V c main_v60 (((cfg1.win 0).blk t).view.emb (ix2 r k)) = V c main_v60 (ix2 P k)
  refine congrArg (V c main_v60) (funext fun a => Fin.ext ?_)
  match a with
  | ⟨0, _⟩ => show win1_0.index t (0 : Fin 2) * 2000 + 1 * r.val = P.val; omega
  | ⟨1, _⟩ => show win1_0.index t (1 : Fin 2) * 128 + 1 * k.val = k.val; omega

/-- Window 1 (the first weight matrix) never moves: its index map is constantly (0, 0). -/
theorem paramIdx1_1 : ∀ t : Fin cfg1.N, win1_1.index t (0 : Fin 2) = 0 ∧ win1_1.index t (1 : Fin 2) = 0 :=
  (by decide +kernel : ∀ t : Fin grid1.N, _)
/-- A window that never moves stages, at every point, its whole array. -/
theorem whole1_1 (c : Dev nD) (t : Fin cfg1.N) : (iblk1 V c 1 t : Vec Ideal S128x256 .f32) = V c main_v62 := by
  obtain ⟨e0, e1⟩ := paramIdx1_1 t
  funext y
  show V c main_v62 (((cfg1.win 1).blk t).view.emb y) = V c main_v62 y
  refine congrArg (V c main_v62) (funext fun a => Fin.ext ?_)
  match a with
  | ⟨0, _⟩ => show win1_1.index t (0 : Fin 2) * 128 + 1 * (y 0).val = (y 0).val; omega
  | ⟨1, _⟩ => show win1_1.index t (1 : Fin 2) * 256 + 1 * (y 1).val = (y 1).val; omega

/-- Window 2 (the first bias) never moves: its index map is constantly (0, 0). -/
theorem paramIdx1_2 : ∀ t : Fin cfg1.N, win1_2.index t (0 : Fin 2) = 0 ∧ win1_2.index t (1 : Fin 2) = 0 :=
  (by decide +kernel : ∀ t : Fin grid1.N, _)
/-- A window that never moves stages, at every point, its whole array. -/
theorem whole1_2 (c : Dev nD) (t : Fin cfg1.N) : (iblk1 V c 2 t : Vec Ideal S1x256 .f32) = V c main_v85 := by
  obtain ⟨e0, e1⟩ := paramIdx1_2 t
  funext y
  show V c main_v85 (((cfg1.win 2).blk t).view.emb y) = V c main_v85 y
  refine congrArg (V c main_v85) (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- Window 3 (the first gain) never moves: its index map is constantly (0, 0). -/
theorem paramIdx1_3 : ∀ t : Fin cfg1.N, win1_3.index t (0 : Fin 2) = 0 ∧ win1_3.index t (1 : Fin 2) = 0 :=
  (by decide +kernel : ∀ t : Fin grid1.N, _)
/-- A window that never moves stages, at every point, its whole array. -/
theorem whole1_3 (c : Dev nD) (t : Fin cfg1.N) : (iblk1 V c 3 t : Vec Ideal S1x256 .f32) = V c main_v86 := by
  obtain ⟨e0, e1⟩ := paramIdx1_3 t
  funext y
  show V c main_v86 (((cfg1.win 3).blk t).view.emb y) = V c main_v86 y
  refine congrArg (V c main_v86) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- Window 4 (the first shift) never moves: its index map is constantly (0, 0). -/
theorem paramIdx1_4 : ∀ t : Fin cfg1.N, win1_4.index t (0 : Fin 2) = 0 ∧ win1_4.index t (1 : Fin 2) = 0 :=
  (by decide +kernel : ∀ t : Fin grid1.N, _)
/-- A window that never moves stages, at every point, its whole array. -/
theorem whole1_4 (c : Dev nD) (t : Fin cfg1.N) : (iblk1 V c 4 t : Vec Ideal S1x256 .f32) = V c main_v87 := by
  obtain ⟨e0, e1⟩ := paramIdx1_4 t
  funext y
  show V c main_v87 (((cfg1.win 4).blk t).view.emb y) = V c main_v87 y
  refine congrArg (V c main_v87) (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- Window 5 (the first mean) never moves: its index map is constantly (0, 0). -/
theorem paramIdx1_5 : ∀ t : Fin cfg1.N, win1_5.index t (0 : Fin 2) = 0 ∧ win1_5.index t (1 : Fin 2) = 0 :=
  (by decide +kernel : ∀ t : Fin grid1.N, _)
/-- A window that never moves stages, at every point, its whole array. -/
theorem whole1_5 (c : Dev nD) (t : Fin cfg1.N) : (iblk1 V c 5 t : Vec Ideal S1x256 .f32) = V c main_v88 := by
  obtain ⟨e0, e1⟩ := paramIdx1_5 t
  funext y
  show V c main_v88 (((cfg1.win 5).blk t).view.emb y) = V c main_v88 y
  refine congrArg (V c main_v88) (funext fun a => Fin.ext ?_)
  match a with
  | ⟨0, _⟩ => show win1_5.index t (0 : Fin 2) * 1 + 1 * (y 0).val = (y 0).val; omega
  | ⟨1, _⟩ => show win1_5.index t (1 : Fin 2) * 256 + 1 * (y 1).val = (y 1).val; omega

/-- Window 6 (the first variance) never moves: its index map is constantly (0, 0). -/
theorem paramIdx1_6 : ∀ t : Fin cfg1.N, win1_6.index t (0 : Fin 2) = 0 ∧ win1_6.index t (1 : Fin 2) = 0 :=
  (by decide +kernel : ∀ t : Fin grid1.N, _)
/-- A window that never moves stages, at every point, its whole array. -/
theorem whole1_6 (c : Dev nD) (t : Fin cfg1.N) : (iblk1 V c 6 t : Vec Ideal S1x256 .f32) = V c main_v89 := by
  obtain ⟨e0, e1⟩ := paramIdx1_6 t
  funext y
  show V c main_v89 (((cfg1.win 6).blk t).view.emb y) = V c main_v89 y
  refine congrArg (V c main_v89) (funext fun a => Fin.ext ?_)
  match a with
  | ⟨0, _⟩ => show win1_6.index t (0 : Fin 2) * 1 + 1 * (y 0).val = (y 0).val; omega
  | ⟨1, _⟩ => show win1_6.index t (1 : Fin 2) * 256 + 1 * (y 1).val = (y 1).val; omega

/-- Window 7 (the second weight matrix) never moves: its index map is constantly (0, 0). -/
theorem paramIdx1_7 : ∀ t : Fin cfg1.N, win1_7.index t (0 : Fin 2) = 0 ∧ win1_7.index t (1 : Fin 2) = 0 :=
  (by decide +kernel : ∀ t : Fin grid1.N, _)
/-- A window that never moves stages, at every point, its whole array. -/
theorem whole1_7 (c : Dev nD) (t : Fin cfg1.N) : (iblk1 V c 7 t : Vec Ideal S256x128 .f32) = V c main_v74 := by
  obtain ⟨e0, e1⟩ := paramIdx1_7 t
  funext y
  show V c main_v74 (((cfg1.win 7).blk t).view.emb y) = V c main_v74 y
  refine congrArg (V c main_v74) (funext fun a => Fin.ext ?_)
  match a with
  | ⟨0, _⟩ => show win1_7.index t (0 : Fin 2) * 256 + 1 * (y 0).val = (y 0).val; omega
  | ⟨1, _⟩ => show win1_7.index t (1 : Fin 2) * 128 + 1 * (y 1).val = (y 1).val; omega

/-- Window 8 (the second bias) never moves: its index map is constantly (0, 0). -/
theorem paramIdx1_8 : ∀ t : Fin cfg1.N, win1_8.index t (0 : Fin 2) = 0 ∧ win1_8.index t (1 : Fin 2) = 0 :=
  (by decide +kernel : ∀ t : Fin grid1.N, _)
/-- A window that never moves stages, at every point, its whole array. -/
theorem whole1_8 (c : Dev nD) (t : Fin cfg1.N) : (iblk1 V c 8 t : Vec Ideal S1x128 .f32) = V c main_v90 := by
  obtain ⟨e0, e1⟩ := paramIdx1_8 t
  funext y
  show V c main_v90 (((cfg1.win 8).blk t).view.emb y) = V c main_v90 y
  refine congrArg (V c main_v90) (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- Window 9 (the second gain) never moves: its index map is constantly (0, 0). -/
theorem paramIdx1_9 : ∀ t : Fin cfg1.N, win1_9.index t (0 : Fin 2) = 0 ∧ win1_9.index t (1 : Fin 2) = 0 :=
  (by decide +kernel : ∀ t : Fin grid1.N, _)
/-- A window that never moves stages, at every point, its whole array. -/
theorem whole1_9 (c : Dev nD) (t : Fin cfg1.N) : (iblk1 V c 9 t : Vec Ideal S1x128 .f32) = V c main_v91 := by
  obtain ⟨e0, e1⟩ := paramIdx1_9 t
  funext y
  show V c main_v91 (((cfg1.win 9).blk t).view.emb y) = V c main_v91 y
  refine congrArg (V c main_v91) (funext fun a => Fin.ext ?_)
  match a with
  | ⟨0, _⟩ => show win1_9.index t (0 : Fin 2) * 1 + 1 * (y 0).val = (y 0).val; omega
  | ⟨1, _⟩ => show win1_9.index t (1 : Fin 2) * 128 + 1 * (y 1).val = (y 1).val; omega

/-- Window 10 (the second shift) never moves: its index map is constantly (0, 0). -/
theorem paramIdx1_10 : ∀ t : Fin cfg1.N, win1_10.index t (0 : Fin 2) = 0 ∧ win1_10.index t (1 : Fin 2) = 0 :=
  (by decide +kernel : ∀ t : Fin grid1.N, _)
/-- A window that never moves stages, at every point, its whole array. -/
theorem whole1_10 (c : Dev nD) (t : Fin cfg1.N) : (iblk1 V c 10 t : Vec Ideal S1x128 .f32) = V c main_v92 := by
  obtain ⟨e0, e1⟩ := paramIdx1_10 t
  funext y
  show V c main_v92 (((cfg1.win 10).blk t).view.emb y) = V c main_v92 y
  refine congrArg (V c main_v92) (funext fun a => Fin.ext ?_)
  match a with
  | ⟨0, _⟩ => show win1_10.index t (0 : Fin 2) * 1 + 1 * (y 0).val = (y 0).val; omega
  | ⟨1, _⟩ => show win1_10.index t (1 : Fin 2) * 128 + 1 * (y 1).val = (y 1).val; omega

/-- Window 11 (the second mean) never moves: its index map is constantly (0, 0). -/
theorem paramIdx1_11 : ∀ t : Fin cfg1.N, win1_11.index t (0 : Fin 2) = 0 ∧ win1_11.index t (1 : Fin 2) = 0 :=
  (by decide +kernel : ∀ t : Fin grid1.N, _)
/-- A window that never moves stages, at every point, its whole array. -/
theorem whole1_11 (c : Dev nD) (t : Fin cfg1.N) : (iblk1 V c 11 t : Vec Ideal S1x128 .f32) = V c main_v93 := by
  obtain ⟨e0, e1⟩ := paramIdx1_11 t
  funext y
  show V c main_v93 (((cfg1.win 11).blk t).view.emb y) = V c main_v93 y
  refine congrArg (V c main_v93) (funext fun a => Fin.ext ?_)
  match a with
  | ⟨0, _⟩ => show win1_11.index t (0 : Fin 2) * 1 + 1 * (y 0).val = (y 0).val; omega
  | ⟨1, _⟩ => show win1_11.index t (1 : Fin 2) * 128 + 1 * (y 1).val = (y 1).val; omega

/-- Window 12 (the second variance) never moves: its index map is constantly (0, 0). -/
theorem paramIdx1_12 : ∀ t : Fin cfg1.N, win1_12.index t (0 : Fin 2) = 0 ∧ win1_12.index t (1 : Fin 2) = 0 :=
  (by decide +kernel : ∀ t : Fin grid1.N, _)
/-- A window that never moves stages, at every point, its whole array. -/
theorem whole1_12 (c : Dev nD) (t : Fin cfg1.N) : (iblk1 V c 12 t : Vec Ideal S1x128 .f32) = V c main_v94 := by
  obtain ⟨e0, e1⟩ := paramIdx1_12 t
  funext y
  show V c main_v94 (((cfg1.win 12).blk t).view.emb y) = V c main_v94 y
  refine congrArg (V c main_v94) (funext fun a => Fin.ext ?_)
  match a with
  | ⟨0, _⟩ => show win1_12.index t (0 : Fin 2) * 1 + 1 * (y 0).val = (y 0).val; omega
  | ⟨1, _⟩ => show win1_12.index t (1 : Fin 2) * 128 + 1 * (y 1).val = (y 1).val; omega

/-! ## What a point writes back -/

/-- The layer of the arrays this region finds at entry. -/
abbrev layerOf1 (c : Dev nD) : Cert.Gin.Rows :=
  Cert.Gin.layer true (V c main_v60) (V c main_v62)
      (Cert.Gin.rowHid (V c main_v85)) (Cert.Gin.rowHid (V c main_v86)) (Cert.Gin.rowHid (V c main_v87)) (Cert.Gin.rowHid (V c main_v88)) (Cert.Gin.rowHid (V c main_v89))
      (V c main_v74)
      (Cert.Gin.rowOut (V c main_v90)) (Cert.Gin.rowOut (V c main_v91)) (Cert.Gin.rowOut (V c main_v92)) (Cert.Gin.rowOut (V c main_v93)) (Cert.Gin.rowOut (V c main_v94))

/-- What point `t` writes back is block `t` of the layer: position (`r`, `q`) of the block is the body's value there,
    which is the layer's entry at row `2000 t + r`, where the output window's block puts it. -/
theorem flushed1 (c : Dev nD) (t : Fin cfg1.N) :
    (dat1 V c).flushed 13 t = ((cfg1.win 13).blk t).view.read (Elt Ideal) (layerOf1 V c) := by
  show (cfg1.win 13).cut (grid1.coords t) ((dat1 V c).after 13 t) = _
  rw [after1_13]
  unfold out1_13
  rw [View.canon_unit_zero zeroOffsets]
  simp only [View.ld_unit_zero (S := S2000x128) zeroOffsets, View.ld_unit_zero (S := S128x256) zeroOffsets, View.ld_unit_zero (S := S1x256) zeroOffsets,
    View.ld_unit_zero (S := S256x128) zeroOffsets, View.ld_unit_zero (S := S1x128) zeroOffsets]
  rw [whole1_1 V c t, whole1_2 V c t, whole1_3 V c t, whole1_4 V c t, whole1_5 V c t, whole1_6 V c t, whole1_7 V c t, whole1_8 V c t,
    whole1_9 V c t, whole1_10 V c t, whole1_11 V c t, whole1_12 V c t]
  obtain ⟨-, -, e2, e3⟩ := rowsIdx1 t
  have hN : cfg1.N = 50 := N_1
  refine funext fun (j : S2000x128.Idx) => ?_
  obtain ⟨r, q, rfl⟩ : ∃ (r : Fin 2000) (q : Fin 128), j = ix2 r q := ⟨j 0, j 1, eq_ix2 j⟩
  have hP : 2000 * t.val + r.val < 100000 := by have := t.isLt; omega
  refine (layerBlock_apply (iblk1 V c 0 t) (V c main_v60) (V c main_v62) (V c main_v85) (V c main_v86) (V c main_v87) (V c main_v88) (V c main_v89)
    (V c main_v74) (V c main_v90) (V c main_v91) (V c main_v92) (V c main_v93) (V c main_v94)
    ⟨2000 * t.val + r.val, hP⟩ r q (fun k => rows1 V c t r k ⟨2000 * t.val + r.val, hP⟩ rfl)).trans ?_
  show _ = layerOf1 V c (((cfg1.win 13).blk t).view.emb (ix2 r q))
  have he : ((cfg1.win 13).blk t).view.emb (ix2 r q) = ix2 (⟨2000 * t.val + r.val, hP⟩ : Fin 100000) q := funext fun a => Fin.ext (by
    match a with
    | ⟨0, _⟩ => show win1_13.index t (0 : Fin 2) * 2000 + 1 * r.val = 2000 * t.val + r.val; omega
    | ⟨1, _⟩ => show win1_13.index t (1 : Fin 2) * 128 + 1 * q.val = q.val; omega)
  rw [he]
  rfl

/-! ## The blocks cover the array -/

/-- A position of the array is in point `t`'s block iff each coordinate is in the block's range on its axis. -/
theorem mem_blk1 (t : Fin cfg1.N) (i : S100000x128.Idx) :
    i ∈ ((cfg1.win 13).blk t).view.set ↔ ∀ a : Fin 2, win1_13.index t a * S2000x128.size a ≤ (i a).val ∧ (i a).val < win1_13.index t a * S2000x128.size a + S2000x128.size a := by
  show i ∈ ((View.whole main_v95).slice (win1_13.rect t)).set ↔ _
  rw [View.set_slice_whole, Rect.mem_set_unit]
  exact Iff.rfl

/-- Row `p` of the array is in the block of point `p / 2000`, and every point writes its block back. -/
theorem cover1 (i : S100000x128.Idx) :
    ∃ t : Fin cfg1.N, (cfg1.win 13).flush t = true ∧ i ∈ ((cfg1.win 13).blk t).view.set := by
  have hi0 : (i 0).val < 100000 := idx2_lt0 i
  have hi1 : (i 1).val < 128 := idx2_lt1 i
  have hN : cfg1.N = 50 := N_1
  obtain ⟨t, ht⟩ : ∃ t : Fin cfg1.N, t.val = (i 0).val / 2000 := ⟨⟨(i 0).val / 2000, by rw [hN]; omega⟩, rfl⟩
  obtain ⟨-, -, e2, e3⟩ := rowsIdx1 t
  refine ⟨t, flush1_13 t, ?_⟩
  rw [mem_blk1]
  intro a
  match a with
  | ⟨0, _⟩ =>
    show win1_13.index t (0 : Fin 2) * 2000 ≤ (i 0).val ∧ (i 0).val < win1_13.index t (0 : Fin 2) * 2000 + 2000
    omega
  | ⟨1, _⟩ =>
    show win1_13.index t (1 : Fin 2) * 128 ≤ (i 1).val ∧ (i 1).val < win1_13.index t (1 : Fin 2) * 128 + 128
    omega

/-! ## The array after the region -/

/-- After the region's fifty points the output array holds the layer of the arrays the region found at entry. -/
theorem region1 (c : Dev nD) :
    (Gen.dat1 (F := Ideal) V c).arrAt 13 cfg1.N
      = Cert.Gin.layer true (V c main_v60) (V c main_v62)
      (Cert.Gin.rowHid (V c main_v85)) (Cert.Gin.rowHid (V c main_v86)) (Cert.Gin.rowHid (V c main_v87)) (Cert.Gin.rowHid (V c main_v88)) (Cert.Gin.rowHid (V c main_v89))
      (V c main_v74)
      (Cert.Gin.rowOut (V c main_v90)) (Cert.Gin.rowOut (V c main_v91)) (Cert.Gin.rowOut (V c main_v92)) (Cert.Gin.rowOut (V c main_v93)) (Cert.Gin.rowOut (V c main_v94)) :=
  (dat1 V c).arrAt_eq_of_cover 13 (layerOf1 V c) (fun t _ => flushed1 V c t) cover1

end Cert.KernelIdeal.RegionValue

end
-- ==== Proof.KernelFold1.lean ====
/-
  Layer 1 of the idealized kernel, read off its run.

  The stretch of host operations before region 1 leaves, in the region's thirteen input arrays: the neighbourhood sum
  of the previous region's output; slice 1 of each weight array; and slice 1 of each of the ten parameter vectors, reshaped
  to a one-row matrix. The region then leaves in its output array the layer of these — so the features after region 1
  are the layer step of the features before it.
-/
import proofs.«159699_j9251359555640_1_alg».proof.Proof.KernelBack
import proofs.«159699_j9251359555640_1_alg».proof.Proof.RegionValue1

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The aggregated rows region 1 reads: the neighbourhood sum of the features before it. -/
theorem s1_agg (c : Dev nD) : (V3 m ρ c main_v60 : Cert.Gin.Feat) = Cert.Gin.agg (W2 m ρ c (Proc.devRef .tc main_v49) : Cert.Gin.Feat) (m ((c : Thread nD τ).loc main_arg1)) := by
  dsimp only [V3, W3, hostOps1]
  after_results_simp
  rw [Back.w2_v1 m ρ c, Back.w2_v3 m ρ c]
  rfl

/-- The first weight matrix region 1 reads: slice 1 of the stacked first weights. -/
theorem s1_w1 (c : Dev nD) : (V3 m ρ c main_v62 : Cert.Gin.W1) = Cert.ReferenceIdeal.ReadP.val_main_v91 (F := Ideal) (m ((c : Thread nD τ).loc main_arg2)) := by
  dsimp only [V3, W3, hostOps1]
  after_results_simp
  rw [Back.w2_arg2 m ρ c]
  rfl

/-- The second weight matrix region 1 reads: slice 1 of the stacked second weights. -/
theorem s1_w2 (c : Dev nD) : (V3 m ρ c main_v74 : Cert.Gin.W2) = Cert.ReferenceIdeal.ReadP.val_main_v123 (F := Ideal) (m ((c : Thread nD τ).loc main_arg8)) := by
  dsimp only [V3, W3, hostOps1]
  after_results_simp
  rw [Back.w2_arg8 m ρ c]
  rfl

/-- The one-row matrix region 1 reads for b1, as a vector: slice 1 of argument 3. -/
theorem s1_b1 (c : Dev nD) : Cert.Gin.rowHid (V3 m ρ c main_v85) = Cert.ReferenceIdeal.ReadP.val_main_v94 (F := Ideal) (m ((c : Thread nD τ).loc main_arg3)) := by
  have e : (V3 m ρ c main_v85 : (⟨2, ![1, 256]⟩ : Shape).Idx → EReal)
      = shapeCast ⟨2, ![1, 256]⟩ (Cert.ReferenceIdeal.ReadP.val_main_v94 (F := Ideal) (m ((c : Thread nD τ).loc main_arg3))) shapeCasts_S256_S1x256 := by
    dsimp only [V3, W3, hostOps1]
    after_results_simp
    rw [Back.w2_arg3 m ρ c]
    rfl
  rw [e]; exact Cert.Gin.rowHid_reshape _ _

/-- The one-row matrix region 1 reads for g1, as a vector: slice 1 of argument 4. -/
theorem s1_g1 (c : Dev nD) : Cert.Gin.rowHid (V3 m ρ c main_v86) = Cert.ReferenceIdeal.ReadP.val_main_v99 (F := Ideal) (m ((c : Thread nD τ).loc main_arg4)) := by
  have e : (V3 m ρ c main_v86 : (⟨2, ![1, 256]⟩ : Shape).Idx → EReal)
      = shapeCast ⟨2, ![1, 256]⟩ (Cert.ReferenceIdeal.ReadP.val_main_v99 (F := Ideal) (m ((c : Thread nD τ).loc main_arg4))) shapeCasts_S256_S1x256 := by
    dsimp only [V3, W3, hostOps1]
    after_results_simp
    rw [Back.w2_arg4 m ρ c]
    rfl
  rw [e]; exact Cert.Gin.rowHid_reshape _ _

/-- The one-row matrix region 1 reads for be1, as a vector: slice 1 of argument 5. -/
theorem s1_be1 (c : Dev nD) : Cert.Gin.rowHid (V3 m ρ c main_v87) = Cert.ReferenceIdeal.ReadP.val_main_v101 (F := Ideal) (m ((c : Thread nD τ).loc main_arg5)) := by
  have e : (V3 m ρ c main_v87 : (⟨2, ![1, 256]⟩ : Shape).Idx → EReal)
      = shapeCast ⟨2, ![1, 256]⟩ (Cert.ReferenceIdeal.ReadP.val_main_v101 (F := Ideal) (m ((c : Thread nD τ).loc main_arg5))) shapeCasts_S256_S1x256 := by
    dsimp only [V3, W3, hostOps1]
    after_results_simp
    rw [Back.w2_arg5 m ρ c]
    rfl
  rw [e]; exact Cert.Gin.rowHid_reshape _ _

/-- The one-row matrix region 1 reads for m1, as a vector: slice 1 of argument 6. -/
theorem s1_m1 (c : Dev nD) : Cert.Gin.rowHid (V3 m ρ c main_v88) = Cert.ReferenceIdeal.ReadP.val_main_v103 (F := Ideal) (m ((c : Thread nD τ).loc main_arg6)) := by
  have e : (V3 m ρ c main_v88 : (⟨2, ![1, 256]⟩ : Shape).Idx → EReal)
      = shapeCast ⟨2, ![1, 256]⟩ (Cert.ReferenceIdeal.ReadP.val_main_v103 (F := Ideal) (m ((c : Thread nD τ).loc main_arg6))) shapeCasts_S256_S1x256 := by
    dsimp only [V3, W3, hostOps1]
    after_results_simp
    rw [Back.w2_arg6 m ρ c]
    rfl
  rw [e]; exact Cert.Gin.rowHid_reshape _ _

/-- The one-row matrix region 1 reads for v1, as a vector: slice 1 of argument 7. -/
theorem s1_v1 (c : Dev nD) : Cert.Gin.rowHid (V3 m ρ c main_v89) = Cert.ReferenceIdeal.ReadP.val_main_v105 (F := Ideal) (m ((c : Thread nD τ).loc main_arg7)) := by
  have e : (V3 m ρ c main_v89 : (⟨2, ![1, 256]⟩ : Shape).Idx → EReal)
      = shapeCast ⟨2, ![1, 256]⟩ (Cert.ReferenceIdeal.ReadP.val_main_v105 (F := Ideal) (m ((c : Thread nD τ).loc main_arg7))) shapeCasts_S256_S1x256 := by
    dsimp only [V3, W3, hostOps1]
    after_results_simp
    rw [Back.w2_arg7 m ρ c]
    rfl
  rw [e]; exact Cert.Gin.rowHid_reshape _ _

/-- The one-row matrix region 1 reads for b2, as a vector: slice 1 of argument 9. -/
theorem s1_b2 (c : Dev nD) : Cert.Gin.rowOut (V3 m ρ c main_v90) = Cert.ReferenceIdeal.ReadP.val_main_v126 (F := Ideal) (m ((c : Thread nD τ).loc main_arg9)) := by
  have e : (V3 m ρ c main_v90 : (⟨2, ![1, 128]⟩ : Shape).Idx → EReal)
      = shapeCast ⟨2, ![1, 128]⟩ (Cert.ReferenceIdeal.ReadP.val_main_v126 (F := Ideal) (m ((c : Thread nD τ).loc main_arg9))) shapeCasts_S128_S1x128 := by
    dsimp only [V3, W3, hostOps1]
    after_results_simp
    rw [Back.w2_arg9 m ρ c]
    rfl
  rw [e]; exact Cert.Gin.rowOut_reshape _ _

/-- The one-row matrix region 1 reads for g2, as a vector: slice 1 of argument 10. -/
theorem s1_g2 (c : Dev nD) : Cert.Gin.rowOut (V3 m ρ c main_v91) = Cert.ReferenceIdeal.ReadP.val_main_v131 (F := Ideal) (m ((c : Thread nD τ).loc main_arg10)) := by
  have e : (V3 m ρ c main_v91 : (⟨2, ![1, 128]⟩ : Shape).Idx → EReal)
      = shapeCast ⟨2, ![1, 128]⟩ (Cert.ReferenceIdeal.ReadP.val_main_v131 (F := Ideal) (m ((c : Thread nD τ).loc main_arg10))) shapeCasts_S128_S1x128 := by
    dsimp only [V3, W3, hostOps1]
    after_results_simp
    rw [Back.w2_arg10 m ρ c]
    rfl
  rw [e]; exact Cert.Gin.rowOut_reshape _ _

/-- The one-row matrix region 1 reads for be2, as a vector: slice 1 of argument 11. -/
theorem s1_be2 (c : Dev nD) : Cert.Gin.rowOut (V3 m ρ c main_v92) = Cert.ReferenceIdeal.ReadP.val_main_v133 (F := Ideal) (m ((c : Thread nD τ).loc main_arg11)) := by
  have e : (V3 m ρ c main_v92 : (⟨2, ![1, 128]⟩ : Shape).Idx → EReal)
      = shapeCast ⟨2, ![1, 128]⟩ (Cert.ReferenceIdeal.ReadP.val_main_v133 (F := Ideal) (m ((c : Thread nD τ).loc main_arg11))) shapeCasts_S128_S1x128 := by
    dsimp only [V3, W3, hostOps1]
    after_results_simp
    rw [Back.w2_arg11 m ρ c]
    rfl
  rw [e]; exact Cert.Gin.rowOut_reshape _ _

/-- The one-row matrix region 1 reads for m2, as a vector: slice 1 of argument 12. -/
theorem s1_m2 (c : Dev nD) : Cert.Gin.rowOut (V3 m ρ c main_v93) = Cert.ReferenceIdeal.ReadP.val_main_v135 (F := Ideal) (m ((c : Thread nD τ).loc main_arg12)) := by
  have e : (V3 m ρ c main_v93 : (⟨2, ![1, 128]⟩ : Shape).Idx → EReal)
      = shapeCast ⟨2, ![1, 128]⟩ (Cert.ReferenceIdeal.ReadP.val_main_v135 (F := Ideal) (m ((c : Thread nD τ).loc main_arg12))) shapeCasts_S128_S1x128 := by
    dsimp only [V3, W3, hostOps1]
    after_results_simp
    rw [Back.w2_arg12 m ρ c]
    rfl
  rw [e]; exact Cert.Gin.rowOut_reshape _ _

/-- The one-row matrix region 1 reads for v2, as a vector: slice 1 of argument 13. -/
theorem s1_v2 (c : Dev nD) : Cert.Gin.rowOut (V3 m ρ c main_v94) = Cert.ReferenceIdeal.ReadP.val_main_v137 (F := Ideal) (m ((c : Thread nD τ).loc main_arg13)) := by
  have e : (V3 m ρ c main_v94 : (⟨2, ![1, 128]⟩ : Shape).Idx → EReal)
      = shapeCast ⟨2, ![1, 128]⟩ (Cert.ReferenceIdeal.ReadP.val_main_v137 (F := Ideal) (m ((c : Thread nD τ).loc main_arg13))) shapeCasts_S128_S1x128 := by
    dsimp only [V3, W3, hostOps1]
    after_results_simp
    rw [Back.w2_arg13 m ρ c]
    rfl
  rw [e]; exact Cert.Gin.rowOut_reshape _ _

/-- The features after region 1 are the layer step of the features before it. -/
theorem feat2 (c : Dev nD) : (W4 m ρ c (Proc.devRef .tc main_v95) : Cert.Gin.Feat)
    = Cert.Gin.step1 (W2 m ρ c (Proc.devRef .tc main_v49) : Cert.Gin.Feat) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 13).trans ?_
  refine (Cert.KernelIdeal.RegionValue.region1 (V3 m ρ) c).trans ?_
  show Cert.Gin.layer true (V3 m ρ c main_v60) (V3 m ρ c main_v62) (Cert.Gin.rowHid (V3 m ρ c main_v85)) (Cert.Gin.rowHid (V3 m ρ c main_v86)) (Cert.Gin.rowHid (V3 m ρ c main_v87)) (Cert.Gin.rowHid (V3 m ρ c main_v88)) (Cert.Gin.rowHid (V3 m ρ c main_v89))
      (V3 m ρ c main_v74) (Cert.Gin.rowOut (V3 m ρ c main_v90)) (Cert.Gin.rowOut (V3 m ρ c main_v91)) (Cert.Gin.rowOut (V3 m ρ c main_v92)) (Cert.Gin.rowOut (V3 m ρ c main_v93)) (Cert.Gin.rowOut (V3 m ρ c main_v94)) = _
  rw [s1_agg m ρ c, s1_w1 m ρ c, s1_w2 m ρ c, s1_b1 m ρ c, s1_g1 m ρ c, s1_be1 m ρ c, s1_m1 m ρ c, s1_v1 m ρ c, s1_b2 m ρ c, s1_g2 m ρ c, s1_be2 m ρ c, s1_m2 m ρ c, s1_v2 m ρ c]
  rfl

end Cert.KernelIdeal.Fold

end
-- ==== Proof.RegionValue2.lean ====
/-
  The third layer's region: what its output array holds after the region, whatever the arrays held at entry.

  The region runs fifty points. Point `t` stages rows `2000 t … 2000 t + 1999` of the aggregated rows, the whole of
  each of the twelve parameter arrays (their windows never move), runs the body on them and writes the result back
  as rows `2000 t … 2000 t + 1999` of the output array. Position (`r`, `q`) of what point `t` writes is the layer's
  entry at row `2000 t + r` and column `q`, so each point writes block `t` of one and the same whole-array function, the
  layer. Row `p` of the output lies in the block of point `p / 2000`, so the fifty blocks cover the array, and the array
  ends holding the layer.
-/
import proofs.«159699_j9251359555640_1_alg».proof.Proof.Gen.KernelIdeal.Frame
import proofs.«159699_j9251359555640_1_alg».proof.Proof.RegionEntry
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-! ## Where each window's block sits -/

/-- At point `t` the rows window and the output window both sit at block `t` of the rows and block 0 of the columns. -/
theorem rowsIdx2 : ∀ t : Fin cfg2.N, win2_0.index t (0 : Fin 2) = t.val ∧ win2_0.index t (1 : Fin 2) = 0
    ∧ win2_13.index t (0 : Fin 2) = t.val ∧ win2_13.index t (1 : Fin 2) = 0 :=
  (by decide +kernel : ∀ t : Fin grid2.N, _)

/-- Row `r` of the rows window's block at point `t` is row `2000 t + r` of the aggregated rows. -/
theorem rows2 (c : Dev nD) (t : Fin cfg2.N) (r : Fin 2000) (k : Fin 128) (P : Fin 100000) (hP : P.val = 2000 * t.val + r.val) :
    (iblk2 V c 0 t : Vec Ideal S2000x128 .f32) (ix2 r k) = (V c main_v106 : Cert.Gin.Rows) (ix2 P k) := by
  obtain ⟨e0, e1, -, -⟩ := rowsIdx2 t
  show V c main_v106 (((cfg2.win 0).blk t).view.emb (ix2 r k)) = V c main_v106 (ix2 P k)
  refine congrArg (V c main_v106) (funext fun a => Fin.ext ?_)
  match a with
  | ⟨0, _⟩ => show win2_0.index t (0 : Fin 2) * 2000 + 1 * r.val = P.val; omega
  | ⟨1, _⟩ => show win2_0.index t (1 : Fin 2) * 128 + 1 * k.val = k.val; omega

/-- Window 1 (the first weight matrix) never moves: its index map is constantly (0, 0). -/
theorem paramIdx2_1 : ∀ t : Fin cfg2.N, win2_1.index t (0 : Fin 2) = 0 ∧ win2_1.index t (1 : Fin 2) = 0 :=
  (by decide +kernel : ∀ t : Fin grid2.N, _)
/-- A window that never moves stages, at every point, its whole array. -/
theorem whole2_1 (c : Dev nD) (t : Fin cfg2.N) : (iblk2 V c 1 t : Vec Ideal S128x256 .f32) = V c main_v108 := by
  obtain ⟨e0, e1⟩ := paramIdx2_1 t
  funext y
  show V c main_v108 (((cfg2.win 1).blk t).view.emb y) = V c main_v108 y
  refine congrArg (V c main_v108) (funext fun a => Fin.ext ?_)
  match a with
  | ⟨0, _⟩ => show win2_1.index t (0 : Fin 2) * 128 + 1 * (y 0).val = (y 0).val; omega
  | ⟨1, _⟩ => show win2_1.index t (1 : Fin 2) * 256 + 1 * (y 1).val = (y 1).val; omega

/-- Window 2 (the first bias) never moves: its index map is constantly (0, 0). -/
theorem paramIdx2_2 : ∀ t : Fin cfg2.N, win2_2.index t (0 : Fin 2) = 0 ∧ win2_2.index t (1 : Fin 2) = 0 :=
  (by decide +kernel : ∀ t : Fin grid2.N, _)
/-- A window that never moves stages, at every point, its whole array. -/
theorem whole2_2 (c : Dev nD) (t : Fin cfg2.N) : (iblk2 V c 2 t : Vec Ideal S1x256 .f32) = V c main_v131 := by
  obtain ⟨e0, e1⟩ := paramIdx2_2 t
  funext y
  show V c main_v131 (((cfg2.win 2).blk t).view.emb y) = V c main_v131 y
  refine congrArg (V c main_v131) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- Window 3 (the first gain) never moves: its index map is constantly (0, 0). -/
theorem paramIdx2_3 : ∀ t : Fin cfg2.N, win2_3.index t (0 : Fin 2) = 0 ∧ win2_3.index t (1 : Fin 2) = 0 :=
  (by decide +kernel : ∀ t : Fin grid2.N, _)
/-- A window that never moves stages, at every point, its whole array. -/
theorem whole2_3 (c : Dev nD) (t : Fin cfg2.N) : (iblk2 V c 3 t : Vec Ideal S1x256 .f32) = V c main_v132 := by
  obtain ⟨e0, e1⟩ := paramIdx2_3 t
  funext y
  show V c main_v132 (((cfg2.win 3).blk t).view.emb y) = V c main_v132 y
  refine congrArg (V c main_v132) (funext fun a => Fin.ext ?_)
  match a with
  | ⟨0, _⟩ => show win2_3.index t (0 : Fin 2) * 1 + 1 * (y 0).val = (y 0).val; omega
  | ⟨1, _⟩ => show win2_3.index t (1 : Fin 2) * 256 + 1 * (y 1).val = (y 1).val; omega

/-- Window 4 (the first shift) never moves: its index map is constantly (0, 0). -/
theorem paramIdx2_4 : ∀ t : Fin cfg2.N, win2_4.index t (0 : Fin 2) = 0 ∧ win2_4.index t (1 : Fin 2) = 0 :=
  (by decide +kernel : ∀ t : Fin grid2.N, _)
/-- A window that never moves stages, at every point, its whole array. -/
theorem whole2_4 (c : Dev nD) (t : Fin cfg2.N) : (iblk2 V c 4 t : Vec Ideal S1x256 .f32) = V c main_v133 := by
  obtain ⟨e0, e1⟩ := paramIdx2_4 t
  funext y
  show V c main_v133 (((cfg2.win 4).blk t).view.emb y) = V c main_v133 y
  refine congrArg (V c main_v133) (funext fun a => Fin.ext ?_)
  match a with
  | ⟨0, _⟩ => show win2_4.index t (0 : Fin 2) * 1 + 1 * (y 0).val = (y 0).val; omega
  | ⟨1, _⟩ => show win2_4.index t (1 : Fin 2) * 256 + 1 * (y 1).val = (y 1).val; omega

/-- Window 5 (the first mean) never moves: its index map is constantly (0, 0). -/
theorem paramIdx2_5 : ∀ t : Fin cfg2.N, win2_5.index t (0 : Fin 2) = 0 ∧ win2_5.index t (1 : Fin 2) = 0 :=
  (by decide +kernel : ∀ t : Fin grid2.N, _)
/-- A window that never moves stages, at every point, its whole array. -/
theorem whole2_5 (c : Dev nD) (t : Fin cfg2.N) : (iblk2 V c 5 t : Vec Ideal S1x256 .f32) = V c main_v134 := by
  obtain ⟨e0, e1⟩ := paramIdx2_5 t
  funext y
  show V c main_v134 (((cfg2.win 5).blk t).view.emb y) = V c main_v134 y
  refine congrArg (V c main_v134) (funext fun a => Fin.ext ?_)
  match a with
  | ⟨0, _⟩ => show win2_5.index t (0 : Fin 2) * 1 + 1 * (y 0).val = (y 0).val; omega
  | ⟨1, _⟩ => show win2_5.index t (1 : Fin 2) * 256 + 1 * (y 1).val = (y 1).val; omega

/-- Window 6 (the first variance) never moves: its index map is constantly (0, 0). -/
theorem paramIdx2_6 : ∀ t : Fin cfg2.N, win2_6.index t (0 : Fin 2) = 0 ∧ win2_6.index t (1 : Fin 2) = 0 :=
  (by decide +kernel : ∀ t : Fin grid2.N, _)
/-- A window that never moves stages, at every point, its whole array. -/
theorem whole2_6 (c : Dev nD) (t : Fin cfg2.N) : (iblk2 V c 6 t : Vec Ideal S1x256 .f32) = V c main_v135 := by
  obtain ⟨e0, e1⟩ := paramIdx2_6 t
  funext y
  show V c main_v135 (((cfg2.win 6).blk t).view.emb y) = V c main_v135 y
  refine congrArg (V c main_v135) (funext fun a => Fin.ext ?_)
  match a with
  | ⟨0, _⟩ => show win2_6.index t (0 : Fin 2) * 1 + 1 * (y 0).val = (y 0).val; omega
  | ⟨1, _⟩ => show win2_6.index t (1 : Fin 2) * 256 + 1 * (y 1).val = (y 1).val; omega

/-- Window 7 (the second weight matrix) never moves: its index map is constantly (0, 0). -/
theorem paramIdx2_7 : ∀ t : Fin cfg2.N, win2_7.index t (0 : Fin 2) = 0 ∧ win2_7.index t (1 : Fin 2) = 0 :=
  (by decide +kernel : ∀ t : Fin grid2.N, _)
/-- A window that never moves stages, at every point, its whole array. -/
theorem whole2_7 (c : Dev nD) (t : Fin cfg2.N) : (iblk2 V c 7 t : Vec Ideal S256x128 .f32) = V c main_v120 := by
  obtain ⟨e0, e1⟩ := paramIdx2_7 t
  funext y
  show V c main_v120 (((cfg2.win 7).blk t).view.emb y) = V c main_v120 y
  refine congrArg (V c main_v120) (funext fun a => Fin.ext ?_)
  match a with
  | ⟨0, _⟩ => show win2_7.index t (0 : Fin 2) * 256 + 1 * (y 0).val = (y 0).val; omega
  | ⟨1, _⟩ => show win2_7.index t (1 : Fin 2) * 128 + 1 * (y 1).val = (y 1).val; omega

/-- Window 8 (the second bias) never moves: its index map is constantly (0, 0). -/
theorem paramIdx2_8 : ∀ t : Fin cfg2.N, win2_8.index t (0 : Fin 2) = 0 ∧ win2_8.index t (1 : Fin 2) = 0 :=
  (by decide +kernel : ∀ t : Fin grid2.N, _)
/-- A window that never moves stages, at every point, its whole array. -/
theorem whole2_8 (c : Dev nD) (t : Fin cfg2.N) : (iblk2 V c 8 t : Vec Ideal S1x128 .f32) = V c main_v136 := by
  obtain ⟨e0, e1⟩ := paramIdx2_8 t
  funext y
  show V c main_v136 (((cfg2.win 8).blk t).view.emb y) = V c main_v136 y
  refine congrArg (V c main_v136) (funext fun a => Fin.ext ?_)
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- Window 9 (the second gain) never moves: its index map is constantly (0, 0). -/
theorem paramIdx2_9 : ∀ t : Fin cfg2.N, win2_9.index t (0 : Fin 2) = 0 ∧ win2_9.index t (1 : Fin 2) = 0 :=
  (by decide +kernel : ∀ t : Fin grid2.N, _)
/-- A window that never moves stages, at every point, its whole array. -/
theorem whole2_9 (c : Dev nD) (t : Fin cfg2.N) : (iblk2 V c 9 t : Vec Ideal S1x128 .f32) = V c main_v137 := by
  obtain ⟨e0, e1⟩ := paramIdx2_9 t
  funext y
  show V c main_v137 (((cfg2.win 9).blk t).view.emb y) = V c main_v137 y
  refine congrArg (V c main_v137) (funext fun a => Fin.ext ?_)
  match a with
  | ⟨0, _⟩ => show win2_9.index t (0 : Fin 2) * 1 + 1 * (y 0).val = (y 0).val; omega
  | ⟨1, _⟩ => show win2_9.index t (1 : Fin 2) * 128 + 1 * (y 1).val = (y 1).val; omega

/-- Window 10 (the second shift) never moves: its index map is constantly (0, 0). -/
theorem paramIdx2_10 : ∀ t : Fin cfg2.N, win2_10.index t (0 : Fin 2) = 0 ∧ win2_10.index t (1 : Fin 2) = 0 :=
  (by decide +kernel : ∀ t : Fin grid2.N, _)
/-- A window that never moves stages, at every point, its whole array. -/
theorem whole2_10 (c : Dev nD) (t : Fin cfg2.N) : (iblk2 V c 10 t : Vec Ideal S1x128 .f32) = V c main_v138 := by
  obtain ⟨e0, e1⟩ := paramIdx2_10 t
  funext y
  show V c main_v138 (((cfg2.win 10).blk t).view.emb y) = V c main_v138 y
  refine congrArg (V c main_v138) (funext fun a => Fin.ext ?_)
  match a with
  | ⟨0, _⟩ => show win2_10.index t (0 : Fin 2) * 1 + 1 * (y 0).val = (y 0).val; omega
  | ⟨1, _⟩ => show win2_10.index t (1 : Fin 2) * 128 + 1 * (y 1).val = (y 1).val; omega

/-- Window 11 (the second mean) never moves: its index map is constantly (0, 0). -/
theorem paramIdx2_11 : ∀ t : Fin cfg2.N, win2_11.index t (0 : Fin 2) = 0 ∧ win2_11.index t (1 : Fin 2) = 0 :=
  (by decide +kernel : ∀ t : Fin grid2.N, _)
/-- A window that never moves stages, at every point, its whole array. -/
theorem whole2_11 (c : Dev nD) (t : Fin cfg2.N) : (iblk2 V c 11 t : Vec Ideal S1x128 .f32) = V c main_v139 := by
  obtain ⟨e0, e1⟩ := paramIdx2_11 t
  funext y
  show V c main_v139 (((cfg2.win 11).blk t).view.emb y) = V c main_v139 y
  refine congrArg (V c main_v139) (funext fun a => Fin.ext ?_)
  match a with
  | ⟨0, _⟩ => show win2_11.index t (0 : Fin 2) * 1 + 1 * (y 0).val = (y 0).val; omega
  | ⟨1, _⟩ => show win2_11.index t (1 : Fin 2) * 128 + 1 * (y 1).val = (y 1).val; omega

/-- Window 12 (the second variance) never moves: its index map is constantly (0, 0). -/
theorem paramIdx2_12 : ∀ t : Fin cfg2.N, win2_12.index t (0 : Fin 2) = 0 ∧ win2_12.index t (1 : Fin 2) = 0 :=
  (by decide +kernel : ∀ t : Fin grid2.N, _)
/-- A window that never moves stages, at every point, its whole array. -/
theorem whole2_12 (c : Dev nD) (t : Fin cfg2.N) : (iblk2 V c 12 t : Vec Ideal S1x128 .f32) = V c main_v140 := by
  obtain ⟨e0, e1⟩ := paramIdx2_12 t
  funext y
  show V c main_v140 (((cfg2.win 12).blk t).view.emb y) = V c main_v140 y
  refine congrArg (V c main_v140) (funext fun a => Fin.ext ?_)
  match a with
  | ⟨0, _⟩ => show win2_12.index t (0 : Fin 2) * 1 + 1 * (y 0).val = (y 0).val; omega
  | ⟨1, _⟩ => show win2_12.index t (1 : Fin 2) * 128 + 1 * (y 1).val = (y 1).val; omega

/-! ## What a point writes back -/

/-- The layer of the arrays this region finds at entry. -/
abbrev layerOf2 (c : Dev nD) : Cert.Gin.Rows :=
  Cert.Gin.layer true (V c main_v106) (V c main_v108)
      (Cert.Gin.rowHid (V c main_v131)) (Cert.Gin.rowHid (V c main_v132)) (Cert.Gin.rowHid (V c main_v133)) (Cert.Gin.rowHid (V c main_v134)) (Cert.Gin.rowHid (V c main_v135))
      (V c main_v120)
      (Cert.Gin.rowOut (V c main_v136)) (Cert.Gin.rowOut (V c main_v137)) (Cert.Gin.rowOut (V c main_v138)) (Cert.Gin.rowOut (V c main_v139)) (Cert.Gin.rowOut (V c main_v140))

/-- What point `t` writes back is block `t` of the layer: position (`r`, `q`) of the block is the body's value there,
    which is the layer's entry at row `2000 t + r`, where the output window's block puts it. -/
theorem flushed2 (c : Dev nD) (t : Fin cfg2.N) :
    (dat2 V c).flushed 13 t = ((cfg2.win 13).blk t).view.read (Elt Ideal) (layerOf2 V c) := by
  show (cfg2.win 13).cut (grid2.coords t) ((dat2 V c).after 13 t) = _
  rw [after2_13]
  unfold out2_13
  rw [View.canon_unit_zero zeroOffsets]
  simp only [View.ld_unit_zero (S := S2000x128) zeroOffsets, View.ld_unit_zero (S := S128x256) zeroOffsets, View.ld_unit_zero (S := S1x256) zeroOffsets,
    View.ld_unit_zero (S := S256x128) zeroOffsets, View.ld_unit_zero (S := S1x128) zeroOffsets]
  rw [whole2_1 V c t, whole2_2 V c t, whole2_3 V c t, whole2_4 V c t, whole2_5 V c t, whole2_6 V c t, whole2_7 V c t, whole2_8 V c t,
    whole2_9 V c t, whole2_10 V c t, whole2_11 V c t, whole2_12 V c t]
  obtain ⟨-, -, e2, e3⟩ := rowsIdx2 t
  have hN : cfg2.N = 50 := N_2
  refine funext fun (j : S2000x128.Idx) => ?_
  obtain ⟨r, q, rfl⟩ : ∃ (r : Fin 2000) (q : Fin 128), j = ix2 r q := ⟨j 0, j 1, eq_ix2 j⟩
  have hP : 2000 * t.val + r.val < 100000 := by have := t.isLt; omega
  refine (layerBlock_apply (iblk2 V c 0 t) (V c main_v106) (V c main_v108) (V c main_v131) (V c main_v132) (V c main_v133) (V c main_v134) (V c main_v135)
    (V c main_v120) (V c main_v136) (V c main_v137) (V c main_v138) (V c main_v139) (V c main_v140)
    ⟨2000 * t.val + r.val, hP⟩ r q (fun k => rows2 V c t r k ⟨2000 * t.val + r.val, hP⟩ rfl)).trans ?_
  show _ = layerOf2 V c (((cfg2.win 13).blk t).view.emb (ix2 r q))
  have he : ((cfg2.win 13).blk t).view.emb (ix2 r q) = ix2 (⟨2000 * t.val + r.val, hP⟩ : Fin 100000) q := funext fun a => Fin.ext (by
    match a with
    | ⟨0, _⟩ => show win2_13.index t (0 : Fin 2) * 2000 + 1 * r.val = 2000 * t.val + r.val; omega
    | ⟨1, _⟩ => show win2_13.index t (1 : Fin 2) * 128 + 1 * q.val = q.val; omega)
  rw [he]
  rfl

/-! ## The blocks cover the array -/

/-- A position of the array is in point `t`'s block iff each coordinate is in the block's range on its axis. -/
theorem mem_blk2 (t : Fin cfg2.N) (i : S100000x128.Idx) :
    i ∈ ((cfg2.win 13).blk t).view.set ↔ ∀ a : Fin 2, win2_13.index t a * S2000x128.size a ≤ (i a).val ∧ (i a).val < win2_13.index t a * S2000x128.size a + S2000x128.size a := by
  show i ∈ ((View.whole main_v141).slice (win2_13.rect t)).set ↔ _
  rw [View.set_slice_whole, Rect.mem_set_unit]
  exact Iff.rfl

/-- Row `p` of the array is in the block of point `p / 2000`, and every point writes its block back. -/
theorem cover2 (i : S100000x128.Idx) :
    ∃ t : Fin cfg2.N, (cfg2.win 13).flush t = true ∧ i ∈ ((cfg2.win 13).blk t).view.set := by
  have hi0 : (i 0).val < 100000 := idx2_lt0 i
  have hi1 : (i 1).val < 128 := idx2_lt1 i
  have hN : cfg2.N = 50 := N_2
  obtain ⟨t, ht⟩ : ∃ t : Fin cfg2.N, t.val = (i 0).val / 2000 := ⟨⟨(i 0).val / 2000, by rw [hN]; omega⟩, rfl⟩
  obtain ⟨-, -, e2, e3⟩ := rowsIdx2 t
  refine ⟨t, flush2_13 t, ?_⟩
  rw [mem_blk2]
  intro a
  match a with
  | ⟨0, _⟩ =>
    show win2_13.index t (0 : Fin 2) * 2000 ≤ (i 0).val ∧ (i 0).val < win2_13.index t (0 : Fin 2) * 2000 + 2000
    omega
  | ⟨1, _⟩ =>
    show win2_13.index t (1 : Fin 2) * 128 ≤ (i 1).val ∧ (i 1).val < win2_13.index t (1 : Fin 2) * 128 + 128
    omega

/-! ## The array after the region -/

/-- After the region's fifty points the output array holds the layer of the arrays the region found at entry. -/
theorem region2 (c : Dev nD) :
    (Gen.dat2 (F := Ideal) V c).arrAt 13 cfg2.N
      = Cert.Gin.layer true (V c main_v106) (V c main_v108)
      (Cert.Gin.rowHid (V c main_v131)) (Cert.Gin.rowHid (V c main_v132)) (Cert.Gin.rowHid (V c main_v133)) (Cert.Gin.rowHid (V c main_v134)) (Cert.Gin.rowHid (V c main_v135))
      (V c main_v120)
      (Cert.Gin.rowOut (V c main_v136)) (Cert.Gin.rowOut (V c main_v137)) (Cert.Gin.rowOut (V c main_v138)) (Cert.Gin.rowOut (V c main_v139)) (Cert.Gin.rowOut (V c main_v140)) :=
  (dat2 V c).arrAt_eq_of_cover 13 (layerOf2 V c) (fun t _ => flushed2 V c t) cover2

end Cert.KernelIdeal.RegionValue

end
-- ==== Proof.KernelFold2.lean ====
/-
  Layer 2 of the idealized kernel, read off its run.

  The stretch of host operations before region 2 leaves, in the region's thirteen input arrays: the neighbourhood sum
  of the previous region's output; slice 2 of each weight array; and slice 2 of each of the ten parameter vectors, reshaped
  to a one-row matrix. The region then leaves in its output array the layer of these — so the features after region 2
  are the layer step of the features before it.
-/
import proofs.«159699_j9251359555640_1_alg».proof.Proof.KernelBack
import proofs.«159699_j9251359555640_1_alg».proof.Proof.RegionValue2

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The aggregated rows region 2 reads: the neighbourhood sum of the features before it. -/
theorem s2_agg (c : Dev nD) : (V5 m ρ c main_v106 : Cert.Gin.Feat) = Cert.Gin.agg (W4 m ρ c (Proc.devRef .tc main_v95) : Cert.Gin.Feat) (m ((c : Thread nD τ).loc main_arg1)) := by
  dsimp only [V5, W5, hostOps2]
  after_results_simp
  rw [Back.w4_v1 m ρ c, Back.w4_v3 m ρ c]
  rfl

/-- The first weight matrix region 2 reads: slice 2 of the stacked first weights. -/
theorem s2_w1 (c : Dev nD) : (V5 m ρ c main_v108 : Cert.Gin.W1) = Cert.ReferenceIdeal.ReadP.val_main_v166 (F := Ideal) (m ((c : Thread nD τ).loc main_arg2)) := by
  dsimp only [V5, W5, hostOps2]
  after_results_simp
  rw [Back.w4_arg2 m ρ c]
  rfl

/-- The second weight matrix region 2 reads: slice 2 of the stacked second weights. -/
theorem s2_w2 (c : Dev nD) : (V5 m ρ c main_v120 : Cert.Gin.W2) = Cert.ReferenceIdeal.ReadP.val_main_v198 (F := Ideal) (m ((c : Thread nD τ).loc main_arg8)) := by
  dsimp only [V5, W5, hostOps2]
  after_results_simp
  rw [Back.w4_arg8 m ρ c]
  rfl

/-- The one-row matrix region 2 reads for b1, as a vector: slice 2 of argument 3. -/
theorem s2_b1 (c : Dev nD) : Cert.Gin.rowHid (V5 m ρ c main_v131) = Cert.ReferenceIdeal.ReadP.val_main_v169 (F := Ideal) (m ((c : Thread nD τ).loc main_arg3)) := by
  have e : (V5 m ρ c main_v131 : (⟨2, ![1, 256]⟩ : Shape).Idx → EReal)
      = shapeCast ⟨2, ![1, 256]⟩ (Cert.ReferenceIdeal.ReadP.val_main_v169 (F := Ideal) (m ((c : Thread nD τ).loc main_arg3))) shapeCasts_S256_S1x256 := by
    dsimp only [V5, W5, hostOps2]
    after_results_simp
    rw [Back.w4_arg3 m ρ c]
    rfl
  rw [e]; exact Cert.Gin.rowHid_reshape _ _

/-- The one-row matrix region 2 reads for g1, as a vector: slice 2 of argument 4. -/
theorem s2_g1 (c : Dev nD) : Cert.Gin.rowHid (V5 m ρ c main_v132) = Cert.ReferenceIdeal.ReadP.val_main_v174 (F := Ideal) (m ((c : Thread nD τ).loc main_arg4)) := by
  have e : (V5 m ρ c main_v132 : (⟨2, ![1, 256]⟩ : Shape).Idx → EReal)
      = shapeCast ⟨2, ![1, 256]⟩ (Cert.ReferenceIdeal.ReadP.val_main_v174 (F := Ideal) (m ((c : Thread nD τ).loc main_arg4))) shapeCasts_S256_S1x256 := by
    dsimp only [V5, W5, hostOps2]
    after_results_simp
    rw [Back.w4_arg4 m ρ c]
    rfl
  rw [e]; exact Cert.Gin.rowHid_reshape _ _

/-- The one-row matrix region 2 reads for be1, as a vector: slice 2 of argument 5. -/
theorem s2_be1 (c : Dev nD) : Cert.Gin.rowHid (V5 m ρ c main_v133) = Cert.ReferenceIdeal.ReadP.val_main_v176 (F := Ideal) (m ((c : Thread nD τ).loc main_arg5)) := by
  have e : (V5 m ρ c main_v133 : (⟨2, ![1, 256]⟩ : Shape).Idx → EReal)
      = shapeCast ⟨2, ![1, 256]⟩ (Cert.ReferenceIdeal.ReadP.val_main_v176 (F := Ideal) (m ((c : Thread nD τ).loc main_arg5))) shapeCasts_S256_S1x256 := by
    dsimp only [V5, W5, hostOps2]
    after_results_simp
    rw [Back.w4_arg5 m ρ c]
    rfl
  rw [e]; exact Cert.Gin.rowHid_reshape _ _

/-- The one-row matrix region 2 reads for m1, as a vector: slice 2 of argument 6. -/
theorem s2_m1 (c : Dev nD) : Cert.Gin.rowHid (V5 m ρ c main_v134) = Cert.ReferenceIdeal.ReadP.val_main_v178 (F := Ideal) (m ((c : Thread nD τ).loc main_arg6)) := by
  have e : (V5 m ρ c main_v134 : (⟨2, ![1, 256]⟩ : Shape).Idx → EReal)
      = shapeCast ⟨2, ![1, 256]⟩ (Cert.ReferenceIdeal.ReadP.val_main_v178 (F := Ideal) (m ((c : Thread nD τ).loc main_arg6))) shapeCasts_S256_S1x256 := by
    dsimp only [V5, W5, hostOps2]
    after_results_simp
    rw [Back.w4_arg6 m ρ c]
    rfl
  rw [e]; exact Cert.Gin.rowHid_reshape _ _

/-- The one-row matrix region 2 reads for v1, as a vector: slice 2 of argument 7. -/
theorem s2_v1 (c : Dev nD) : Cert.Gin.rowHid (V5 m ρ c main_v135) = Cert.ReferenceIdeal.ReadP.val_main_v180 (F := Ideal) (m ((c : Thread nD τ).loc main_arg7)) := by
  have e : (V5 m ρ c main_v135 : (⟨2, ![1, 256]⟩ : Shape).Idx → EReal)
      = shapeCast ⟨2, ![1, 256]⟩ (Cert.ReferenceIdeal.ReadP.val_main_v180 (F := Ideal) (m ((c : Thread nD τ).loc main_arg7))) shapeCasts_S256_S1x256 := by
    dsimp only [V5, W5, hostOps2]
    after_results_simp
    rw [Back.w4_arg7 m ρ c]
    rfl
  rw [e]; exact Cert.Gin.rowHid_reshape _ _

/-- The one-row matrix region 2 reads for b2, as a vector: slice 2 of argument 9. -/
theorem s2_b2 (c : Dev nD) : Cert.Gin.rowOut (V5 m ρ c main_v136) = Cert.ReferenceIdeal.ReadP.val_main_v201 (F := Ideal) (m ((c : Thread nD τ).loc main_arg9)) := by
  have e : (V5 m ρ c main_v136 : (⟨2, ![1, 128]⟩ : Shape).Idx → EReal)
      = shapeCast ⟨2, ![1, 128]⟩ (Cert.ReferenceIdeal.ReadP.val_main_v201 (F := Ideal) (m ((c : Thread nD τ).loc main_arg9))) shapeCasts_S128_S1x128 := by
    dsimp only [V5, W5, hostOps2]
    after_results_simp
    rw [Back.w4_arg9 m ρ c]
    rfl
  rw [e]; exact Cert.Gin.rowOut_reshape _ _

/-- The one-row matrix region 2 reads for g2, as a vector: slice 2 of argument 10. -/
theorem s2_g2 (c : Dev nD) : Cert.Gin.rowOut (V5 m ρ c main_v137) = Cert.ReferenceIdeal.ReadP.val_main_v206 (F := Ideal) (m ((c : Thread nD τ).loc main_arg10)) := by
  have e : (V5 m ρ c main_v137 : (⟨2, ![1, 128]⟩ : Shape).Idx → EReal)
      = shapeCast ⟨2, ![1, 128]⟩ (Cert.ReferenceIdeal.ReadP.val_main_v206 (F := Ideal) (m ((c : Thread nD τ).loc main_arg10))) shapeCasts_S128_S1x128 := by
    dsimp only [V5, W5, hostOps2]
    after_results_simp
    rw [Back.w4_arg10 m ρ c]
    rfl
  rw [e]; exact Cert.Gin.rowOut_reshape _ _

/-- The one-row matrix region 2 reads for be2, as a vector: slice 2 of argument 11. -/
theorem s2_be2 (c : Dev nD) : Cert.Gin.rowOut (V5 m ρ c main_v138) = Cert.ReferenceIdeal.ReadP.val_main_v208 (F := Ideal) (m ((c : Thread nD τ).loc main_arg11)) := by
  have e : (V5 m ρ c main_v138 : (⟨2, ![1, 128]⟩ : Shape).Idx → EReal)
      = shapeCast ⟨2, ![1, 128]⟩ (Cert.ReferenceIdeal.ReadP.val_main_v208 (F := Ideal) (m ((c : Thread nD τ).loc main_arg11))) shapeCasts_S128_S1x128 := by
    dsimp only [V5, W5, hostOps2]
    after_results_simp
    rw [Back.w4_arg11 m ρ c]
    rfl
  rw [e]; exact Cert.Gin.rowOut_reshape _ _

/-- The one-row matrix region 2 reads for m2, as a vector: slice 2 of argument 12. -/
theorem s2_m2 (c : Dev nD) : Cert.Gin.rowOut (V5 m ρ c main_v139) = Cert.ReferenceIdeal.ReadP.val_main_v210 (F := Ideal) (m ((c : Thread nD τ).loc main_arg12)) := by
  have e : (V5 m ρ c main_v139 : (⟨2, ![1, 128]⟩ : Shape).Idx → EReal)
      = shapeCast ⟨2, ![1, 128]⟩ (Cert.ReferenceIdeal.ReadP.val_main_v210 (F := Ideal) (m ((c : Thread nD τ).loc main_arg12))) shapeCasts_S128_S1x128 := by
    dsimp only [V5, W5, hostOps2]
    after_results_simp
    rw [Back.w4_arg12 m ρ c]
    rfl
  rw [e]; exact Cert.Gin.rowOut_reshape _ _

/-- The one-row matrix region 2 reads for v2, as a vector: slice 2 of argument 13. -/
theorem s2_v2 (c : Dev nD) : Cert.Gin.rowOut (V5 m ρ c main_v140) = Cert.ReferenceIdeal.ReadP.val_main_v212 (F := Ideal) (m ((c : Thread nD τ).loc main_arg13)) := by
  have e : (V5 m ρ c main_v140 : (⟨2, ![1, 128]⟩ : Shape).Idx → EReal)
      = shapeCast ⟨2, ![1, 128]⟩ (Cert.ReferenceIdeal.ReadP.val_main_v212 (F := Ideal) (m ((c : Thread nD τ).loc main_arg13))) shapeCasts_S128_S1x128 := by
    dsimp only [V5, W5, hostOps2]
    after_results_simp
    rw [Back.w4_arg13 m ρ c]
    rfl
  rw [e]; exact Cert.Gin.rowOut_reshape _ _

/-- The features after region 2 are the layer step of the features before it. -/
theorem feat3 (c : Dev nD) : (W6 m ρ c (Proc.devRef .tc main_v141) : Cert.Gin.Feat)
    = Cert.Gin.step2 (W4 m ρ c (Proc.devRef .tc main_v95) : Cert.Gin.Feat) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 13).trans ?_
  refine (Cert.KernelIdeal.RegionValue.region2 (V5 m ρ) c).trans ?_
  show Cert.Gin.layer true (V5 m ρ c main_v106) (V5 m ρ c main_v108) (Cert.Gin.rowHid (V5 m ρ c main_v131)) (Cert.Gin.rowHid (V5 m ρ c main_v132)) (Cert.Gin.rowHid (V5 m ρ c main_v133)) (Cert.Gin.rowHid (V5 m ρ c main_v134)) (Cert.Gin.rowHid (V5 m ρ c main_v135))
      (V5 m ρ c main_v120) (Cert.Gin.rowOut (V5 m ρ c main_v136)) (Cert.Gin.rowOut (V5 m ρ c main_v137)) (Cert.Gin.rowOut (V5 m ρ c main_v138)) (Cert.Gin.rowOut (V5 m ρ c main_v139)) (Cert.Gin.rowOut (V5 m ρ c main_v140)) = _
  rw [s2_agg m ρ c, s2_w1 m ρ c, s2_w2 m ρ c, s2_b1 m ρ c, s2_g1 m ρ c, s2_be1 m ρ c, s2_m1 m ρ c, s2_v1 m ρ c, s2_b2 m ρ c, s2_g2 m ρ c, s2_be2 m ρ c, s2_m2 m ρ c, s2_v2 m ρ c]
  rfl

end Cert.KernelIdeal.Fold

end
-- ==== Proof.RegionValue3.lean ====
/-
  The fourth layer's region: what its output array holds after the region, whatever the arrays held at entry.

  The region runs fifty points. Point `t` stages rows `2000 t … 2000 t + 1999` of the aggregated rows, the whole of
  each of the twelve parameter arrays (their windows never move), runs the body on them and writes the result back
  as rows `2000 t … 2000 t + 1999` of the output array. Position (`r`, `q`) of what point `t` writes is the layer's
  entry at row `2000 t + r` and column `q`, so each point writes block `t` of one and the same whole-array function, the
  layer. Row `p` of the output lies in the block of point `p / 2000`, so the fifty blocks cover the array, and the array
  ends holding the layer.
-/
import proofs.«159699_j9251359555640_1_alg».proof.Proof.Gen.KernelIdeal.Frame
import proofs.«159699_j9251359555640_1_alg».proof.Proof.RegionEntry
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-! ## Where each window's block sits -/

/-- At point `t` the rows window and the output window both sit at block `t` of the rows and block 0 of the columns. -/
theorem rowsIdx3 : ∀ t : Fin cfg3.N, win3_0.index t (0 : Fin 2) = t.val ∧ win3_0.index t (1 : Fin 2) = 0
    ∧ win3_13.index t (0 : Fin 2) = t.val ∧ win3_13.index t (1 : Fin 2) = 0 :=
  (by decide +kernel : ∀ t : Fin grid3.N, _)

/-- Row `r` of the rows window's block at point `t` is row `2000 t + r` of the aggregated rows. -/
theorem rows3 (c : Dev nD) (t : Fin cfg3.N) (r : Fin 2000) (k : Fin 128) (P : Fin 100000) (hP : P.val = 2000 * t.val + r.val) :
    (iblk3 V c 0 t : Vec Ideal S2000x128 .f32) (ix2 r k) = (V c main_v152 : Cert.Gin.Rows) (ix2 P k) := by
  obtain ⟨e0, e1, -, -⟩ := rowsIdx3 t
  show V c main_v152 (((cfg3.win 0).blk t).view.emb (ix2 r k)) = V c main_v152 (ix2 P k)
  refine congrArg (V c main_v152) (funext fun a => Fin.ext ?_)
  match a with
  | ⟨0, _⟩ => show win3_0.index t (0 : Fin 2) * 2000 + 1 * r.val = P.val; omega
  | ⟨1, _⟩ => show win3_0.index t (1 : Fin 2) * 128 + 1 * k.val = k.val; omega

/-- Window 1 (the first weight matrix) never moves: its index map is constantly (0, 0). -/
theorem paramIdx3_1 : ∀ t : Fin cfg3.N, win3_1.index t (0 : Fin 2) = 0 ∧ win3_1.index t (1 : Fin 2) = 0 :=
  (by decide +kernel : ∀ t : Fin grid3.N, _)
/-- A window that never moves stages, at every point, its whole array. -/
theorem whole3_1 (c : Dev nD) (t : Fin cfg3.N) : (iblk3 V c 1 t : Vec Ideal S128x256 .f32) = V c main_v154 := by
  obtain ⟨e0, e1⟩ := paramIdx3_1 t
  funext y
  show V c main_v154 (((cfg3.win 1).blk t).view.emb y) = V c main_v154 y
  refine congrArg (V c main_v154) (funext fun a => Fin.ext ?_)
  match a with
  | ⟨0, _⟩ => show win3_1.index t (0 : Fin 2) * 128 + 1 * (y 0).val = (y 0).val; omega
  | ⟨1, _⟩ => show win3_1.index t (1 : Fin 2) * 256 + 1 * (y 1).val = (y 1).val; omega

/-- Window 2 (the first bias) never moves: its index map is constantly (0, 0). -/
theorem paramIdx3_2 : ∀ t : Fin cfg3.N, win3_2.index t (0 : Fin 2) = 0 ∧ win3_2.index t (1 : Fin 2) = 0 :=
  (by decide +kernel : ∀ t : Fin grid3.N, _)
/-- A window that never moves stages, at every point, its whole array. -/
theorem whole3_2 (c : Dev nD) (t : Fin cfg3.N) : (iblk3 V c 2 t : Vec Ideal S1x256 .f32) = V c main_v177 := by
  obtain ⟨e0, e1⟩ := paramIdx3_2 t
  funext y
  show V c main_v177 (((cfg3.win 2).blk t).view.emb y) = V c main_v177 y
  refine congrArg (V c main_v177) (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- Window 3 (the first gain) never moves: its index map is constantly (0, 0). -/
theorem paramIdx3_3 : ∀ t : Fin cfg3.N, win3_3.index t (0 : Fin 2) = 0 ∧ win3_3.index t (1 : Fin 2) = 0 :=
  (by decide +kernel : ∀ t : Fin grid3.N, _)
/-- A window that never moves stages, at every point, its whole array. -/
theorem whole3_3 (c : Dev nD) (t : Fin cfg3.N) : (iblk3 V c 3 t : Vec Ideal S1x256 .f32) = V c main_v178 := by
  obtain ⟨e0, e1⟩ := paramIdx3_3 t
  funext y
  show V c main_v178 (((cfg3.win 3).blk t).view.emb y) = V c main_v178 y
  refine congrArg (V c main_v178) (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- Window 4 (the first shift) never moves: its index map is constantly (0, 0). -/
theorem paramIdx3_4 : ∀ t : Fin cfg3.N, win3_4.index t (0 : Fin 2) = 0 ∧ win3_4.index t (1 : Fin 2) = 0 :=
  (by decide +kernel : ∀ t : Fin grid3.N, _)
/-- A window that never moves stages, at every point, its whole array. -/
theorem whole3_4 (c : Dev nD) (t : Fin cfg3.N) : (iblk3 V c 4 t : Vec Ideal S1x256 .f32) = V c main_v179 := by
  obtain ⟨e0, e1⟩ := paramIdx3_4 t
  funext y
  show V c main_v179 (((cfg3.win 4).blk t).view.emb y) = V c main_v179 y
  refine congrArg (V c main_v179) (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- Window 5 (the first mean) never moves: its index map is constantly (0, 0). -/
theorem paramIdx3_5 : ∀ t : Fin cfg3.N, win3_5.index t (0 : Fin 2) = 0 ∧ win3_5.index t (1 : Fin 2) = 0 :=
  (by decide +kernel : ∀ t : Fin grid3.N, _)
/-- A window that never moves stages, at every point, its whole array. -/
theorem whole3_5 (c : Dev nD) (t : Fin cfg3.N) : (iblk3 V c 5 t : Vec Ideal S1x256 .f32) = V c main_v180 := by
  obtain ⟨e0, e1⟩ := paramIdx3_5 t
  funext y
  show V c main_v180 (((cfg3.win 5).blk t).view.emb y) = V c main_v180 y
  refine congrArg (V c main_v180) (funext fun a => Fin.ext ?_)
  match a with
  | ⟨0, _⟩ => show win3_5.index t (0 : Fin 2) * 1 + 1 * (y 0).val = (y 0).val; omega
  | ⟨1, _⟩ => show win3_5.index t (1 : Fin 2) * 256 + 1 * (y 1).val = (y 1).val; omega

/-- Window 6 (the first variance) never moves: its index map is constantly (0, 0). -/
theorem paramIdx3_6 : ∀ t : Fin cfg3.N, win3_6.index t (0 : Fin 2) = 0 ∧ win3_6.index t (1 : Fin 2) = 0 :=
  (by decide +kernel : ∀ t : Fin grid3.N, _)
/-- A window that never moves stages, at every point, its whole array. -/
theorem whole3_6 (c : Dev nD) (t : Fin cfg3.N) : (iblk3 V c 6 t : Vec Ideal S1x256 .f32) = V c main_v181 := by
  obtain ⟨e0, e1⟩ := paramIdx3_6 t
  funext y
  show V c main_v181 (((cfg3.win 6).blk t).view.emb y) = V c main_v181 y
  refine congrArg (V c main_v181) (funext fun a => Fin.ext ?_)
  match a with
  | ⟨0, _⟩ => show win3_6.index t (0 : Fin 2) * 1 + 1 * (y 0).val = (y 0).val; omega
  | ⟨1, _⟩ => show win3_6.index t (1 : Fin 2) * 256 + 1 * (y 1).val = (y 1).val; omega

/-- Window 7 (the second weight matrix) never moves: its index map is constantly (0, 0). -/
theorem paramIdx3_7 : ∀ t : Fin cfg3.N, win3_7.index t (0 : Fin 2) = 0 ∧ win3_7.index t (1 : Fin 2) = 0 :=
  (by decide +kernel : ∀ t : Fin grid3.N, _)
/-- A window that never moves stages, at every point, its whole array. -/
theorem whole3_7 (c : Dev nD) (t : Fin cfg3.N) : (iblk3 V c 7 t : Vec Ideal S256x128 .f32) = V c main_v166 := by
  obtain ⟨e0, e1⟩ := paramIdx3_7 t
  funext y
  show V c main_v166 (((cfg3.win 7).blk t).view.emb y) = V c main_v166 y
  refine congrArg (V c main_v166) (funext fun a => Fin.ext ?_)
  match a with
  | ⟨0, _⟩ => show win3_7.index t (0 : Fin 2) * 256 + 1 * (y 0).val = (y 0).val; omega
  | ⟨1, _⟩ => show win3_7.index t (1 : Fin 2) * 128 + 1 * (y 1).val = (y 1).val; omega

/-- Window 8 (the second bias) never moves: its index map is constantly (0, 0). -/
theorem paramIdx3_8 : ∀ t : Fin cfg3.N, win3_8.index t (0 : Fin 2) = 0 ∧ win3_8.index t (1 : Fin 2) = 0 :=
  (by decide +kernel : ∀ t : Fin grid3.N, _)
/-- A window that never moves stages, at every point, its whole array. -/
theorem whole3_8 (c : Dev nD) (t : Fin cfg3.N) : (iblk3 V c 8 t : Vec Ideal S1x128 .f32) = V c main_v182 := by
  obtain ⟨e0, e1⟩ := paramIdx3_8 t
  funext y
  show V c main_v182 (((cfg3.win 8).blk t).view.emb y) = V c main_v182 y
  refine congrArg (V c main_v182) (funext fun a => Fin.ext ?_)
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- Window 9 (the second gain) never moves: its index map is constantly (0, 0). -/
theorem paramIdx3_9 : ∀ t : Fin cfg3.N, win3_9.index t (0 : Fin 2) = 0 ∧ win3_9.index t (1 : Fin 2) = 0 :=
  (by decide +kernel : ∀ t : Fin grid3.N, _)
/-- A window that never moves stages, at every point, its whole array. -/
theorem whole3_9 (c : Dev nD) (t : Fin cfg3.N) : (iblk3 V c 9 t : Vec Ideal S1x128 .f32) = V c main_v183 := by
  obtain ⟨e0, e1⟩ := paramIdx3_9 t
  funext y
  show V c main_v183 (((cfg3.win 9).blk t).view.emb y) = V c main_v183 y
  refine congrArg (V c main_v183) (funext fun a => Fin.ext ?_)
  match a with
  | ⟨0, _⟩ => show win3_9.index t (0 : Fin 2) * 1 + 1 * (y 0).val = (y 0).val; omega
  | ⟨1, _⟩ => show win3_9.index t (1 : Fin 2) * 128 + 1 * (y 1).val = (y 1).val; omega

/-- Window 10 (the second shift) never moves: its index map is constantly (0, 0). -/
theorem paramIdx3_10 : ∀ t : Fin cfg3.N, win3_10.index t (0 : Fin 2) = 0 ∧ win3_10.index t (1 : Fin 2) = 0 :=
  (by decide +kernel : ∀ t : Fin grid3.N, _)
/-- A window that never moves stages, at every point, its whole array. -/
theorem whole3_10 (c : Dev nD) (t : Fin cfg3.N) : (iblk3 V c 10 t : Vec Ideal S1x128 .f32) = V c main_v184 := by
  obtain ⟨e0, e1⟩ := paramIdx3_10 t
  funext y
  show V c main_v184 (((cfg3.win 10).blk t).view.emb y) = V c main_v184 y
  refine congrArg (V c main_v184) (funext fun a => Fin.ext ?_)
  match a with
  | ⟨0, _⟩ => show win3_10.index t (0 : Fin 2) * 1 + 1 * (y 0).val = (y 0).val; omega
  | ⟨1, _⟩ => show win3_10.index t (1 : Fin 2) * 128 + 1 * (y 1).val = (y 1).val; omega

/-- Window 11 (the second mean) never moves: its index map is constantly (0, 0). -/
theorem paramIdx3_11 : ∀ t : Fin cfg3.N, win3_11.index t (0 : Fin 2) = 0 ∧ win3_11.index t (1 : Fin 2) = 0 :=
  (by decide +kernel : ∀ t : Fin grid3.N, _)
/-- A window that never moves stages, at every point, its whole array. -/
theorem whole3_11 (c : Dev nD) (t : Fin cfg3.N) : (iblk3 V c 11 t : Vec Ideal S1x128 .f32) = V c main_v185 := by
  obtain ⟨e0, e1⟩ := paramIdx3_11 t
  funext y
  show V c main_v185 (((cfg3.win 11).blk t).view.emb y) = V c main_v185 y
  refine congrArg (V c main_v185) (funext fun a => Fin.ext ?_)
  match a with
  | ⟨0, _⟩ => show win3_11.index t (0 : Fin 2) * 1 + 1 * (y 0).val = (y 0).val; omega
  | ⟨1, _⟩ => show win3_11.index t (1 : Fin 2) * 128 + 1 * (y 1).val = (y 1).val; omega

/-- Window 12 (the second variance) never moves: its index map is constantly (0, 0). -/
theorem paramIdx3_12 : ∀ t : Fin cfg3.N, win3_12.index t (0 : Fin 2) = 0 ∧ win3_12.index t (1 : Fin 2) = 0 :=
  (by decide +kernel : ∀ t : Fin grid3.N, _)
/-- A window that never moves stages, at every point, its whole array. -/
theorem whole3_12 (c : Dev nD) (t : Fin cfg3.N) : (iblk3 V c 12 t : Vec Ideal S1x128 .f32) = V c main_v186 := by
  obtain ⟨e0, e1⟩ := paramIdx3_12 t
  funext y
  show V c main_v186 (((cfg3.win 12).blk t).view.emb y) = V c main_v186 y
  refine congrArg (V c main_v186) (funext fun a => Fin.ext ?_)
  match a with
  | ⟨0, _⟩ => show win3_12.index t (0 : Fin 2) * 1 + 1 * (y 0).val = (y 0).val; omega
  | ⟨1, _⟩ => show win3_12.index t (1 : Fin 2) * 128 + 1 * (y 1).val = (y 1).val; omega

/-! ## What a point writes back -/

/-- The layer of the arrays this region finds at entry. -/
abbrev layerOf3 (c : Dev nD) : Cert.Gin.Rows :=
  Cert.Gin.layer true (V c main_v152) (V c main_v154)
      (Cert.Gin.rowHid (V c main_v177)) (Cert.Gin.rowHid (V c main_v178)) (Cert.Gin.rowHid (V c main_v179)) (Cert.Gin.rowHid (V c main_v180)) (Cert.Gin.rowHid (V c main_v181))
      (V c main_v166)
      (Cert.Gin.rowOut (V c main_v182)) (Cert.Gin.rowOut (V c main_v183)) (Cert.Gin.rowOut (V c main_v184)) (Cert.Gin.rowOut (V c main_v185)) (Cert.Gin.rowOut (V c main_v186))

/-- What point `t` writes back is block `t` of the layer: position (`r`, `q`) of the block is the body's value there,
    which is the layer's entry at row `2000 t + r`, where the output window's block puts it. -/
theorem flushed3 (c : Dev nD) (t : Fin cfg3.N) :
    (dat3 V c).flushed 13 t = ((cfg3.win 13).blk t).view.read (Elt Ideal) (layerOf3 V c) := by
  show (cfg3.win 13).cut (grid3.coords t) ((dat3 V c).after 13 t) = _
  rw [after3_13]
  unfold out3_13
  rw [View.canon_unit_zero zeroOffsets]
  simp only [View.ld_unit_zero (S := S2000x128) zeroOffsets, View.ld_unit_zero (S := S128x256) zeroOffsets, View.ld_unit_zero (S := S1x256) zeroOffsets,
    View.ld_unit_zero (S := S256x128) zeroOffsets, View.ld_unit_zero (S := S1x128) zeroOffsets]
  rw [whole3_1 V c t, whole3_2 V c t, whole3_3 V c t, whole3_4 V c t, whole3_5 V c t, whole3_6 V c t, whole3_7 V c t, whole3_8 V c t,
    whole3_9 V c t, whole3_10 V c t, whole3_11 V c t, whole3_12 V c t]
  obtain ⟨-, -, e2, e3⟩ := rowsIdx3 t
  have hN : cfg3.N = 50 := N_3
  refine funext fun (j : S2000x128.Idx) => ?_
  obtain ⟨r, q, rfl⟩ : ∃ (r : Fin 2000) (q : Fin 128), j = ix2 r q := ⟨j 0, j 1, eq_ix2 j⟩
  have hP : 2000 * t.val + r.val < 100000 := by have := t.isLt; omega
  refine (layerBlock_apply (iblk3 V c 0 t) (V c main_v152) (V c main_v154) (V c main_v177) (V c main_v178) (V c main_v179) (V c main_v180) (V c main_v181)
    (V c main_v166) (V c main_v182) (V c main_v183) (V c main_v184) (V c main_v185) (V c main_v186)
    ⟨2000 * t.val + r.val, hP⟩ r q (fun k => rows3 V c t r k ⟨2000 * t.val + r.val, hP⟩ rfl)).trans ?_
  show _ = layerOf3 V c (((cfg3.win 13).blk t).view.emb (ix2 r q))
  have he : ((cfg3.win 13).blk t).view.emb (ix2 r q) = ix2 (⟨2000 * t.val + r.val, hP⟩ : Fin 100000) q := funext fun a => Fin.ext (by
    match a with
    | ⟨0, _⟩ => show win3_13.index t (0 : Fin 2) * 2000 + 1 * r.val = 2000 * t.val + r.val; omega
    | ⟨1, _⟩ => show win3_13.index t (1 : Fin 2) * 128 + 1 * q.val = q.val; omega)
  rw [he]
  rfl

/-! ## The blocks cover the array -/

/-- A position of the array is in point `t`'s block iff each coordinate is in the block's range on its axis. -/
theorem mem_blk3 (t : Fin cfg3.N) (i : S100000x128.Idx) :
    i ∈ ((cfg3.win 13).blk t).view.set ↔ ∀ a : Fin 2, win3_13.index t a * S2000x128.size a ≤ (i a).val ∧ (i a).val < win3_13.index t a * S2000x128.size a + S2000x128.size a := by
  show i ∈ ((View.whole main_v187).slice (win3_13.rect t)).set ↔ _
  rw [View.set_slice_whole, Rect.mem_set_unit]
  exact Iff.rfl

/-- Row `p` of the array is in the block of point `p / 2000`, and every point writes its block back. -/
theorem cover3 (i : S100000x128.Idx) :
    ∃ t : Fin cfg3.N, (cfg3.win 13).flush t = true ∧ i ∈ ((cfg3.win 13).blk t).view.set := by
  have hi0 : (i 0).val < 100000 := idx2_lt0 i
  have hi1 : (i 1).val < 128 := idx2_lt1 i
  have hN : cfg3.N = 50 := N_3
  obtain ⟨t, ht⟩ : ∃ t : Fin cfg3.N, t.val = (i 0).val / 2000 := ⟨⟨(i 0).val / 2000, by rw [hN]; omega⟩, rfl⟩
  obtain ⟨-, -, e2, e3⟩ := rowsIdx3 t
  refine ⟨t, flush3_13 t, ?_⟩
  rw [mem_blk3]
  intro a
  match a with
  | ⟨0, _⟩ =>
    show win3_13.index t (0 : Fin 2) * 2000 ≤ (i 0).val ∧ (i 0).val < win3_13.index t (0 : Fin 2) * 2000 + 2000
    omega
  | ⟨1, _⟩ =>
    show win3_13.index t (1 : Fin 2) * 128 ≤ (i 1).val ∧ (i 1).val < win3_13.index t (1 : Fin 2) * 128 + 128
    omega

/-! ## The array after the region -/

/-- After the region's fifty points the output array holds the layer of the arrays the region found at entry. -/
theorem region3 (c : Dev nD) :
    (Gen.dat3 (F := Ideal) V c).arrAt 13 cfg3.N
      = Cert.Gin.layer true (V c main_v152) (V c main_v154)
      (Cert.Gin.rowHid (V c main_v177)) (Cert.Gin.rowHid (V c main_v178)) (Cert.Gin.rowHid (V c main_v179)) (Cert.Gin.rowHid (V c main_v180)) (Cert.Gin.rowHid (V c main_v181))
      (V c main_v166)
      (Cert.Gin.rowOut (V c main_v182)) (Cert.Gin.rowOut (V c main_v183)) (Cert.Gin.rowOut (V c main_v184)) (Cert.Gin.rowOut (V c main_v185)) (Cert.Gin.rowOut (V c main_v186)) :=
  (dat3 V c).arrAt_eq_of_cover 13 (layerOf3 V c) (fun t _ => flushed3 V c t) cover3

end Cert.KernelIdeal.RegionValue

end
-- ==== Proof.KernelFold3.lean ====
/-
  Layer 3 of the idealized kernel, read off its run.

  The stretch of host operations before region 3 leaves, in the region's thirteen input arrays: the neighbourhood sum
  of the previous region's output; slice 3 of each weight array; and slice 3 of each of the ten parameter vectors, reshaped
  to a one-row matrix. The region then leaves in its output array the layer of these — so the features after region 3
  are the layer step of the features before it.
-/
import proofs.«159699_j9251359555640_1_alg».proof.Proof.KernelBack
import proofs.«159699_j9251359555640_1_alg».proof.Proof.RegionValue3

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The aggregated rows region 3 reads: the neighbourhood sum of the features before it. -/
theorem s3_agg (c : Dev nD) : (V7 m ρ c main_v152 : Cert.Gin.Feat) = Cert.Gin.agg (W6 m ρ c (Proc.devRef .tc main_v141) : Cert.Gin.Feat) (m ((c : Thread nD τ).loc main_arg1)) := by
  dsimp only [V7, W7, hostOps3]
  after_results_simp
  rw [Back.w6_v1 m ρ c, Back.w6_v3 m ρ c]
  rfl

/-- The first weight matrix region 3 reads: slice 3 of the stacked first weights. -/
theorem s3_w1 (c : Dev nD) : (V7 m ρ c main_v154 : Cert.Gin.W1) = Cert.ReferenceIdeal.ReadP.val_main_v241 (F := Ideal) (m ((c : Thread nD τ).loc main_arg2)) := by
  dsimp only [V7, W7, hostOps3]
  after_results_simp
  rw [Back.w6_arg2 m ρ c]
  rfl

/-- The second weight matrix region 3 reads: slice 3 of the stacked second weights. -/
theorem s3_w2 (c : Dev nD) : (V7 m ρ c main_v166 : Cert.Gin.W2) = Cert.ReferenceIdeal.ReadP.val_main_v273 (F := Ideal) (m ((c : Thread nD τ).loc main_arg8)) := by
  dsimp only [V7, W7, hostOps3]
  after_results_simp
  rw [Back.w6_arg8 m ρ c]
  rfl

/-- The one-row matrix region 3 reads for b1, as a vector: slice 3 of argument 3. -/
theorem s3_b1 (c : Dev nD) : Cert.Gin.rowHid (V7 m ρ c main_v177) = Cert.ReferenceIdeal.ReadP.val_main_v244 (F := Ideal) (m ((c : Thread nD τ).loc main_arg3)) := by
  have e : (V7 m ρ c main_v177 : (⟨2, ![1, 256]⟩ : Shape).Idx → EReal)
      = shapeCast ⟨2, ![1, 256]⟩ (Cert.ReferenceIdeal.ReadP.val_main_v244 (F := Ideal) (m ((c : Thread nD τ).loc main_arg3))) shapeCasts_S256_S1x256 := by
    dsimp only [V7, W7, hostOps3]
    after_results_simp
    rw [Back.w6_arg3 m ρ c]
    rfl
  rw [e]; exact Cert.Gin.rowHid_reshape _ _

/-- The one-row matrix region 3 reads for g1, as a vector: slice 3 of argument 4. -/
theorem s3_g1 (c : Dev nD) : Cert.Gin.rowHid (V7 m ρ c main_v178) = Cert.ReferenceIdeal.ReadP.val_main_v249 (F := Ideal) (m ((c : Thread nD τ).loc main_arg4)) := by
  have e : (V7 m ρ c main_v178 : (⟨2, ![1, 256]⟩ : Shape).Idx → EReal)
      = shapeCast ⟨2, ![1, 256]⟩ (Cert.ReferenceIdeal.ReadP.val_main_v249 (F := Ideal) (m ((c : Thread nD τ).loc main_arg4))) shapeCasts_S256_S1x256 := by
    dsimp only [V7, W7, hostOps3]
    after_results_simp
    rw [Back.w6_arg4 m ρ c]
    rfl
  rw [e]; exact Cert.Gin.rowHid_reshape _ _

/-- The one-row matrix region 3 reads for be1, as a vector: slice 3 of argument 5. -/
theorem s3_be1 (c : Dev nD) : Cert.Gin.rowHid (V7 m ρ c main_v179) = Cert.ReferenceIdeal.ReadP.val_main_v251 (F := Ideal) (m ((c : Thread nD τ).loc main_arg5)) := by
  have e : (V7 m ρ c main_v179 : (⟨2, ![1, 256]⟩ : Shape).Idx → EReal)
      = shapeCast ⟨2, ![1, 256]⟩ (Cert.ReferenceIdeal.ReadP.val_main_v251 (F := Ideal) (m ((c : Thread nD τ).loc main_arg5))) shapeCasts_S256_S1x256 := by
    dsimp only [V7, W7, hostOps3]
    after_results_simp
    rw [Back.w6_arg5 m ρ c]
    rfl
  rw [e]; exact Cert.Gin.rowHid_reshape _ _

/-- The one-row matrix region 3 reads for m1, as a vector: slice 3 of argument 6. -/
theorem s3_m1 (c : Dev nD) : Cert.Gin.rowHid (V7 m ρ c main_v180) = Cert.ReferenceIdeal.ReadP.val_main_v253 (F := Ideal) (m ((c : Thread nD τ).loc main_arg6)) := by
  have e : (V7 m ρ c main_v180 : (⟨2, ![1, 256]⟩ : Shape).Idx → EReal)
      = shapeCast ⟨2, ![1, 256]⟩ (Cert.ReferenceIdeal.ReadP.val_main_v253 (F := Ideal) (m ((c : Thread nD τ).loc main_arg6))) shapeCasts_S256_S1x256 := by
    dsimp only [V7, W7, hostOps3]
    after_results_simp
    rw [Back.w6_arg6 m ρ c]
    rfl
  rw [e]; exact Cert.Gin.rowHid_reshape _ _

/-- The one-row matrix region 3 reads for v1, as a vector: slice 3 of argument 7. -/
theorem s3_v1 (c : Dev nD) : Cert.Gin.rowHid (V7 m ρ c main_v181) = Cert.ReferenceIdeal.ReadP.val_main_v255 (F := Ideal) (m ((c : Thread nD τ).loc main_arg7)) := by
  have e : (V7 m ρ c main_v181 : (⟨2, ![1, 256]⟩ : Shape).Idx → EReal)
      = shapeCast ⟨2, ![1, 256]⟩ (Cert.ReferenceIdeal.ReadP.val_main_v255 (F := Ideal) (m ((c : Thread nD τ).loc main_arg7))) shapeCasts_S256_S1x256 := by
    dsimp only [V7, W7, hostOps3]
    after_results_simp
    rw [Back.w6_arg7 m ρ c]
    rfl
  rw [e]; exact Cert.Gin.rowHid_reshape _ _

/-- The one-row matrix region 3 reads for b2, as a vector: slice 3 of argument 9. -/
theorem s3_b2 (c : Dev nD) : Cert.Gin.rowOut (V7 m ρ c main_v182) = Cert.ReferenceIdeal.ReadP.val_main_v276 (F := Ideal) (m ((c : Thread nD τ).loc main_arg9)) := by
  have e : (V7 m ρ c main_v182 : (⟨2, ![1, 128]⟩ : Shape).Idx → EReal)
      = shapeCast ⟨2, ![1, 128]⟩ (Cert.ReferenceIdeal.ReadP.val_main_v276 (F := Ideal) (m ((c : Thread nD τ).loc main_arg9))) shapeCasts_S128_S1x128 := by
    dsimp only [V7, W7, hostOps3]
    after_results_simp
    rw [Back.w6_arg9 m ρ c]
    rfl
  rw [e]; exact Cert.Gin.rowOut_reshape _ _

/-- The one-row matrix region 3 reads for g2, as a vector: slice 3 of argument 10. -/
theorem s3_g2 (c : Dev nD) : Cert.Gin.rowOut (V7 m ρ c main_v183) = Cert.ReferenceIdeal.ReadP.val_main_v281 (F := Ideal) (m ((c : Thread nD τ).loc main_arg10)) := by
  have e : (V7 m ρ c main_v183 : (⟨2, ![1, 128]⟩ : Shape).Idx → EReal)
      = shapeCast ⟨2, ![1, 128]⟩ (Cert.ReferenceIdeal.ReadP.val_main_v281 (F := Ideal) (m ((c : Thread nD τ).loc main_arg10))) shapeCasts_S128_S1x128 := by
    dsimp only [V7, W7, hostOps3]
    after_results_simp
    rw [Back.w6_arg10 m ρ c]
    rfl
  rw [e]; exact Cert.Gin.rowOut_reshape _ _

/-- The one-row matrix region 3 reads for be2, as a vector: slice 3 of argument 11. -/
theorem s3_be2 (c : Dev nD) : Cert.Gin.rowOut (V7 m ρ c main_v184) = Cert.ReferenceIdeal.ReadP.val_main_v283 (F := Ideal) (m ((c : Thread nD τ).loc main_arg11)) := by
  have e : (V7 m ρ c main_v184 : (⟨2, ![1, 128]⟩ : Shape).Idx → EReal)
      = shapeCast ⟨2, ![1, 128]⟩ (Cert.ReferenceIdeal.ReadP.val_main_v283 (F := Ideal) (m ((c : Thread nD τ).loc main_arg11))) shapeCasts_S128_S1x128 := by
    dsimp only [V7, W7, hostOps3]
    after_results_simp
    rw [Back.w6_arg11 m ρ c]
    rfl
  rw [e]; exact Cert.Gin.rowOut_reshape _ _

/-- The one-row matrix region 3 reads for m2, as a vector: slice 3 of argument 12. -/
theorem s3_m2 (c : Dev nD) : Cert.Gin.rowOut (V7 m ρ c main_v185) = Cert.ReferenceIdeal.ReadP.val_main_v285 (F := Ideal) (m ((c : Thread nD τ).loc main_arg12)) := by
  have e : (V7 m ρ c main_v185 : (⟨2, ![1, 128]⟩ : Shape).Idx → EReal)
      = shapeCast ⟨2, ![1, 128]⟩ (Cert.ReferenceIdeal.ReadP.val_main_v285 (F := Ideal) (m ((c : Thread nD τ).loc main_arg12))) shapeCasts_S128_S1x128 := by
    dsimp only [V7, W7, hostOps3]
    after_results_simp
    rw [Back.w6_arg12 m ρ c]
    rfl
  rw [e]; exact Cert.Gin.rowOut_reshape _ _

/-- The one-row matrix region 3 reads for v2, as a vector: slice 3 of argument 13. -/
theorem s3_v2 (c : Dev nD) : Cert.Gin.rowOut (V7 m ρ c main_v186) = Cert.ReferenceIdeal.ReadP.val_main_v287 (F := Ideal) (m ((c : Thread nD τ).loc main_arg13)) := by
  have e : (V7 m ρ c main_v186 : (⟨2, ![1, 128]⟩ : Shape).Idx → EReal)
      = shapeCast ⟨2, ![1, 128]⟩ (Cert.ReferenceIdeal.ReadP.val_main_v287 (F := Ideal) (m ((c : Thread nD τ).loc main_arg13))) shapeCasts_S128_S1x128 := by
    dsimp only [V7, W7, hostOps3]
    after_results_simp
    rw [Back.w6_arg13 m ρ c]
    rfl
  rw [e]; exact Cert.Gin.rowOut_reshape _ _

/-- The features after region 3 are the layer step of the features before it. -/
theorem feat4 (c : Dev nD) : (W8 m ρ c (Proc.devRef .tc main_v187) : Cert.Gin.Feat)
    = Cert.Gin.step3 (W6 m ρ c (Proc.devRef .tc main_v141) : Cert.Gin.Feat) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 13).trans ?_
  refine (Cert.KernelIdeal.RegionValue.region3 (V7 m ρ) c).trans ?_
  show Cert.Gin.layer true (V7 m ρ c main_v152) (V7 m ρ c main_v154) (Cert.Gin.rowHid (V7 m ρ c main_v177)) (Cert.Gin.rowHid (V7 m ρ c main_v178)) (Cert.Gin.rowHid (V7 m ρ c main_v179)) (Cert.Gin.rowHid (V7 m ρ c main_v180)) (Cert.Gin.rowHid (V7 m ρ c main_v181))
      (V7 m ρ c main_v166) (Cert.Gin.rowOut (V7 m ρ c main_v182)) (Cert.Gin.rowOut (V7 m ρ c main_v183)) (Cert.Gin.rowOut (V7 m ρ c main_v184)) (Cert.Gin.rowOut (V7 m ρ c main_v185)) (Cert.Gin.rowOut (V7 m ρ c main_v186)) = _
  rw [s3_agg m ρ c, s3_w1 m ρ c, s3_w2 m ρ c, s3_b1 m ρ c, s3_g1 m ρ c, s3_be1 m ρ c, s3_m1 m ρ c, s3_v1 m ρ c, s3_b2 m ρ c, s3_g2 m ρ c, s3_be2 m ρ c, s3_m2 m ρ c, s3_v2 m ρ c]
  rfl

end Cert.KernelIdeal.Fold

end
-- ==== Proof.RegionValue4.lean ====
/-
  The fifth and last layer's region: what its output array holds after the region, whatever the arrays held at entry.

  The region runs fifty points. Point `t` stages rows `2000 t … 2000 t + 1999` of the aggregated rows, the whole of
  each of the twelve parameter arrays (their windows never move), runs the body on them and writes the result back
  as rows `2000 t … 2000 t + 1999` of the output array. Position (`r`, `q`) of what point `t` writes is the layer's
  entry at row `2000 t + r` and column `q`, so each point writes block `t` of one and the same whole-array function, the
  layer. Row `p` of the output lies in the block of point `p / 2000`, so the fifty blocks cover the array, and the array
  ends holding the layer.
-/
import proofs.«159699_j9251359555640_1_alg».proof.Proof.Gen.KernelIdeal.Frame
import proofs.«159699_j9251359555640_1_alg».proof.Proof.RegionEntry
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-! ## Where each window's block sits -/

/-- At point `t` the rows window and the output window both sit at block `t` of the rows and block 0 of the columns. -/
theorem rowsIdx4 : ∀ t : Fin cfg4.N, win4_0.index t (0 : Fin 2) = t.val ∧ win4_0.index t (1 : Fin 2) = 0
    ∧ win4_13.index t (0 : Fin 2) = t.val ∧ win4_13.index t (1 : Fin 2) = 0 :=
  (by decide +kernel : ∀ t : Fin grid4.N, _)

/-- Row `r` of the rows window's block at point `t` is row `2000 t + r` of the aggregated rows. -/
theorem rows4 (c : Dev nD) (t : Fin cfg4.N) (r : Fin 2000) (k : Fin 128) (P : Fin 100000) (hP : P.val = 2000 * t.val + r.val) :
    (iblk4 V c 0 t : Vec Ideal S2000x128 .f32) (ix2 r k) = (V c main_v198 : Cert.Gin.Rows) (ix2 P k) := by
  obtain ⟨e0, e1, -, -⟩ := rowsIdx4 t
  show V c main_v198 (((cfg4.win 0).blk t).view.emb (ix2 r k)) = V c main_v198 (ix2 P k)
  refine congrArg (V c main_v198) (funext fun a => Fin.ext ?_)
  match a with
  | ⟨0, _⟩ => show win4_0.index t (0 : Fin 2) * 2000 + 1 * r.val = P.val; omega
  | ⟨1, _⟩ => show win4_0.index t (1 : Fin 2) * 128 + 1 * k.val = k.val; omega

/-- Window 1 (the first weight matrix) never moves: its index map is constantly (0, 0). -/
theorem paramIdx4_1 : ∀ t : Fin cfg4.N, win4_1.index t (0 : Fin 2) = 0 ∧ win4_1.index t (1 : Fin 2) = 0 :=
  (by decide +kernel : ∀ t : Fin grid4.N, _)
/-- A window that never moves stages, at every point, its whole array. -/
theorem whole4_1 (c : Dev nD) (t : Fin cfg4.N) : (iblk4 V c 1 t : Vec Ideal S128x256 .f32) = V c main_v200 := by
  obtain ⟨e0, e1⟩ := paramIdx4_1 t
  funext y
  show V c main_v200 (((cfg4.win 1).blk t).view.emb y) = V c main_v200 y
  refine congrArg (V c main_v200) (funext fun a => Fin.ext ?_)
  match a with
  | ⟨0, _⟩ => show win4_1.index t (0 : Fin 2) * 128 + 1 * (y 0).val = (y 0).val; omega
  | ⟨1, _⟩ => show win4_1.index t (1 : Fin 2) * 256 + 1 * (y 1).val = (y 1).val; omega

/-- Window 2 (the first bias) never moves: its index map is constantly (0, 0). -/
theorem paramIdx4_2 : ∀ t : Fin cfg4.N, win4_2.index t (0 : Fin 2) = 0 ∧ win4_2.index t (1 : Fin 2) = 0 :=
  (by decide +kernel : ∀ t : Fin grid4.N, _)
/-- A window that never moves stages, at every point, its whole array. -/
theorem whole4_2 (c : Dev nD) (t : Fin cfg4.N) : (iblk4 V c 2 t : Vec Ideal S1x256 .f32) = V c main_v223 := by
  obtain ⟨e0, e1⟩ := paramIdx4_2 t
  funext y
  show V c main_v223 (((cfg4.win 2).blk t).view.emb y) = V c main_v223 y
  refine congrArg (V c main_v223) (funext fun a => Fin.ext ?_)
  match a with
  | ⟨0, _⟩ => show win4_2.index t (0 : Fin 2) * 1 + 1 * (y 0).val = (y 0).val; omega
  | ⟨1, _⟩ => show win4_2.index t (1 : Fin 2) * 256 + 1 * (y 1).val = (y 1).val; omega

/-- Window 3 (the first gain) never moves: its index map is constantly (0, 0). -/
theorem paramIdx4_3 : ∀ t : Fin cfg4.N, win4_3.index t (0 : Fin 2) = 0 ∧ win4_3.index t (1 : Fin 2) = 0 :=
  (by decide +kernel : ∀ t : Fin grid4.N, _)
/-- A window that never moves stages, at every point, its whole array. -/
theorem whole4_3 (c : Dev nD) (t : Fin cfg4.N) : (iblk4 V c 3 t : Vec Ideal S1x256 .f32) = V c main_v224 := by
  obtain ⟨e0, e1⟩ := paramIdx4_3 t
  funext y
  show V c main_v224 (((cfg4.win 3).blk t).view.emb y) = V c main_v224 y
  refine congrArg (V c main_v224) (funext fun a => Fin.ext ?_)
  match a with
  | ⟨0, _⟩ => show win4_3.index t (0 : Fin 2) * 1 + 1 * (y 0).val = (y 0).val; omega
  | ⟨1, _⟩ => show win4_3.index t (1 : Fin 2) * 256 + 1 * (y 1).val = (y 1).val; omega

/-- Window 4 (the first shift) never moves: its index map is constantly (0, 0). -/
theorem paramIdx4_4 : ∀ t : Fin cfg4.N, win4_4.index t (0 : Fin 2) = 0 ∧ win4_4.index t (1 : Fin 2) = 0 :=
  (by decide +kernel : ∀ t : Fin grid4.N, _)
/-- A window that never moves stages, at every point, its whole array. -/
theorem whole4_4 (c : Dev nD) (t : Fin cfg4.N) : (iblk4 V c 4 t : Vec Ideal S1x256 .f32) = V c main_v225 := by
  obtain ⟨e0, e1⟩ := paramIdx4_4 t
  funext y
  show V c main_v225 (((cfg4.win 4).blk t).view.emb y) = V c main_v225 y
  refine congrArg (V c main_v225) (funext fun a => Fin.ext ?_)
  match a with
  | ⟨0, _⟩ => show win4_4.index t (0 : Fin 2) * 1 + 1 * (y 0).val = (y 0).val; omega
  | ⟨1, _⟩ => show win4_4.index t (1 : Fin 2) * 256 + 1 * (y 1).val = (y 1).val; omega

/-- Window 5 (the first mean) never moves: its index map is constantly (0, 0). -/
theorem paramIdx4_5 : ∀ t : Fin cfg4.N, win4_5.index t (0 : Fin 2) = 0 ∧ win4_5.index t (1 : Fin 2) = 0 :=
  (by decide +kernel : ∀ t : Fin grid4.N, _)
/-- A window that never moves stages, at every point, its whole array. -/
theorem whole4_5 (c : Dev nD) (t : Fin cfg4.N) : (iblk4 V c 5 t : Vec Ideal S1x256 .f32) = V c main_v226 := by
  obtain ⟨e0, e1⟩ := paramIdx4_5 t
  funext y
  show V c main_v226 (((cfg4.win 5).blk t).view.emb y) = V c main_v226 y
  refine congrArg (V c main_v226) (funext fun a => Fin.ext ?_)
  match a with
  | ⟨0, _⟩ => show win4_5.index t (0 : Fin 2) * 1 + 1 * (y 0).val = (y 0).val; omega
  | ⟨1, _⟩ => show win4_5.index t (1 : Fin 2) * 256 + 1 * (y 1).val = (y 1).val; omega

/-- Window 6 (the first variance) never moves: its index map is constantly (0, 0). -/
theorem paramIdx4_6 : ∀ t : Fin cfg4.N, win4_6.index t (0 : Fin 2) = 0 ∧ win4_6.index t (1 : Fin 2) = 0 :=
  (by decide +kernel : ∀ t : Fin grid4.N, _)
/-- A window that never moves stages, at every point, its whole array. -/
theorem whole4_6 (c : Dev nD) (t : Fin cfg4.N) : (iblk4 V c 6 t : Vec Ideal S1x256 .f32) = V c main_v227 := by
  obtain ⟨e0, e1⟩ := paramIdx4_6 t
  funext y
  show V c main_v227 (((cfg4.win 6).blk t).view.emb y) = V c main_v227 y
  refine congrArg (V c main_v227) (funext fun a => Fin.ext ?_)
  match a with
  | ⟨0, _⟩ => show win4_6.index t (0 : Fin 2) * 1 + 1 * (y 0).val = (y 0).val; omega
  | ⟨1, _⟩ => show win4_6.index t (1 : Fin 2) * 256 + 1 * (y 1).val = (y 1).val; omega

/-- Window 7 (the second weight matrix) never moves: its index map is constantly (0, 0). -/
theorem paramIdx4_7 : ∀ t : Fin cfg4.N, win4_7.index t (0 : Fin 2) = 0 ∧ win4_7.index t (1 : Fin 2) = 0 :=
  (by decide +kernel : ∀ t : Fin grid4.N, _)
/-- A window that never moves stages, at every point, its whole array. -/
theorem whole4_7 (c : Dev nD) (t : Fin cfg4.N) : (iblk4 V c 7 t : Vec Ideal S256x128 .f32) = V c main_v212 := by
  obtain ⟨e0, e1⟩ := paramIdx4_7 t
  funext y
  show V c main_v212 (((cfg4.win 7).blk t).view.emb y) = V c main_v212 y
  refine congrArg (V c main_v212) (funext fun a => Fin.ext ?_)
  match a with
  | ⟨0, _⟩ => show win4_7.index t (0 : Fin 2) * 256 + 1 * (y 0).val = (y 0).val; omega
  | ⟨1, _⟩ => show win4_7.index t (1 : Fin 2) * 128 + 1 * (y 1).val = (y 1).val; omega

/-- Window 8 (the second bias) never moves: its index map is constantly (0, 0). -/
theorem paramIdx4_8 : ∀ t : Fin cfg4.N, win4_8.index t (0 : Fin 2) = 0 ∧ win4_8.index t (1 : Fin 2) = 0 :=
  (by decide +kernel : ∀ t : Fin grid4.N, _)
/-- A window that never moves stages, at every point, its whole array. -/
theorem whole4_8 (c : Dev nD) (t : Fin cfg4.N) : (iblk4 V c 8 t : Vec Ideal S1x128 .f32) = V c main_v228 := by
  obtain ⟨e0, e1⟩ := paramIdx4_8 t
  funext y
  show V c main_v228 (((cfg4.win 8).blk t).view.emb y) = V c main_v228 y
  refine congrArg (V c main_v228) (funext fun a => Fin.ext ?_)
  match a with
  | ⟨0, _⟩ => show win4_8.index t (0 : Fin 2) * 1 + 1 * (y 0).val = (y 0).val; omega
  | ⟨1, _⟩ => show win4_8.index t (1 : Fin 2) * 128 + 1 * (y 1).val = (y 1).val; omega

/-- Window 9 (the second gain) never moves: its index map is constantly (0, 0). -/
theorem paramIdx4_9 : ∀ t : Fin cfg4.N, win4_9.index t (0 : Fin 2) = 0 ∧ win4_9.index t (1 : Fin 2) = 0 :=
  (by decide +kernel : ∀ t : Fin grid4.N, _)
/-- A window that never moves stages, at every point, its whole array. -/
theorem whole4_9 (c : Dev nD) (t : Fin cfg4.N) : (iblk4 V c 9 t : Vec Ideal S1x128 .f32) = V c main_v229 := by
  obtain ⟨e0, e1⟩ := paramIdx4_9 t
  funext y
  show V c main_v229 (((cfg4.win 9).blk t).view.emb y) = V c main_v229 y
  refine congrArg (V c main_v229) (funext fun a => Fin.ext ?_)
  match a with
  | ⟨0, _⟩ => show win4_9.index t (0 : Fin 2) * 1 + 1 * (y 0).val = (y 0).val; omega
  | ⟨1, _⟩ => show win4_9.index t (1 : Fin 2) * 128 + 1 * (y 1).val = (y 1).val; omega

/-- Window 10 (the second shift) never moves: its index map is constantly (0, 0). -/
theorem paramIdx4_10 : ∀ t : Fin cfg4.N, win4_10.index t (0 : Fin 2) = 0 ∧ win4_10.index t (1 : Fin 2) = 0 :=
  (by decide +kernel : ∀ t : Fin grid4.N, _)
/-- A window that never moves stages, at every point, its whole array. -/
theorem whole4_10 (c : Dev nD) (t : Fin cfg4.N) : (iblk4 V c 10 t : Vec Ideal S1x128 .f32) = V c main_v230 := by
  obtain ⟨e0, e1⟩ := paramIdx4_10 t
  funext y
  show V c main_v230 (((cfg4.win 10).blk t).view.emb y) = V c main_v230 y
  refine congrArg (V c main_v230) (funext fun a => Fin.ext ?_)
  match a with
  | ⟨0, _⟩ => show win4_10.index t (0 : Fin 2) * 1 + 1 * (y 0).val = (y 0).val; omega
  | ⟨1, _⟩ => show win4_10.index t (1 : Fin 2) * 128 + 1 * (y 1).val = (y 1).val; omega

/-- Window 11 (the second mean) never moves: its index map is constantly (0, 0). -/
theorem paramIdx4_11 : ∀ t : Fin cfg4.N, win4_11.index t (0 : Fin 2) = 0 ∧ win4_11.index t (1 : Fin 2) = 0 :=
  (by decide +kernel : ∀ t : Fin grid4.N, _)
/-- A window that never moves stages, at every point, its whole array. -/
theorem whole4_11 (c : Dev nD) (t : Fin cfg4.N) : (iblk4 V c 11 t : Vec Ideal S1x128 .f32) = V c main_v231 := by
  obtain ⟨e0, e1⟩ := paramIdx4_11 t
  funext y
  show V c main_v231 (((cfg4.win 11).blk t).view.emb y) = V c main_v231 y
  refine congrArg (V c main_v231) (funext fun a => Fin.ext ?_)
  match a with
  | ⟨0, _⟩ => show win4_11.index t (0 : Fin 2) * 1 + 1 * (y 0).val = (y 0).val; omega
  | ⟨1, _⟩ => show win4_11.index t (1 : Fin 2) * 128 + 1 * (y 1).val = (y 1).val; omega

/-- Window 12 (the second variance) never moves: its index map is constantly (0, 0). -/
theorem paramIdx4_12 : ∀ t : Fin cfg4.N, win4_12.index t (0 : Fin 2) = 0 ∧ win4_12.index t (1 : Fin 2) = 0 :=
  (by decide +kernel : ∀ t : Fin grid4.N, _)
/-- A window that never moves stages, at every point, its whole array. -/
theorem whole4_12 (c : Dev nD) (t : Fin cfg4.N) : (iblk4 V c 12 t : Vec Ideal S1x128 .f32) = V c main_v232 := by
  obtain ⟨e0, e1⟩ := paramIdx4_12 t
  funext y
  show V c main_v232 (((cfg4.win 12).blk t).view.emb y) = V c main_v232 y
  refine congrArg (V c main_v232) (funext fun a => Fin.ext ?_)
  match a with
  | ⟨0, _⟩ => show win4_12.index t (0 : Fin 2) * 1 + 1 * (y 0).val = (y 0).val; omega
  | ⟨1, _⟩ => show win4_12.index t (1 : Fin 2) * 128 + 1 * (y 1).val = (y 1).val; omega

/-! ## What a point writes back -/

/-- The layer of the arrays this region finds at entry. -/
abbrev layerOf4 (c : Dev nD) : Cert.Gin.Rows :=
  Cert.Gin.layer false (V c main_v198) (V c main_v200)
      (Cert.Gin.rowHid (V c main_v223)) (Cert.Gin.rowHid (V c main_v224)) (Cert.Gin.rowHid (V c main_v225)) (Cert.Gin.rowHid (V c main_v226)) (Cert.Gin.rowHid (V c main_v227))
      (V c main_v212)
      (Cert.Gin.rowOut (V c main_v228)) (Cert.Gin.rowOut (V c main_v229)) (Cert.Gin.rowOut (V c main_v230)) (Cert.Gin.rowOut (V c main_v231)) (Cert.Gin.rowOut (V c main_v232))

/-- What point `t` writes back is block `t` of the layer: position (`r`, `q`) of the block is the body's value there,
    which is the layer's entry at row `2000 t + r`, where the output window's block puts it. -/
theorem flushed4 (c : Dev nD) (t : Fin cfg4.N) :
    (dat4 V c).flushed 13 t = ((cfg4.win 13).blk t).view.read (Elt Ideal) (layerOf4 V c) := by
  show (cfg4.win 13).cut (grid4.coords t) ((dat4 V c).after 13 t) = _
  rw [after4_13]
  unfold out4_13
  rw [View.canon_unit_zero zeroOffsets]
  simp only [View.ld_unit_zero (S := S2000x128) zeroOffsets, View.ld_unit_zero (S := S128x256) zeroOffsets, View.ld_unit_zero (S := S1x256) zeroOffsets,
    View.ld_unit_zero (S := S256x128) zeroOffsets, View.ld_unit_zero (S := S1x128) zeroOffsets]
  rw [whole4_1 V c t, whole4_2 V c t, whole4_3 V c t, whole4_4 V c t, whole4_5 V c t, whole4_6 V c t, whole4_7 V c t, whole4_8 V c t,
    whole4_9 V c t, whole4_10 V c t, whole4_11 V c t, whole4_12 V c t]
  obtain ⟨-, -, e2, e3⟩ := rowsIdx4 t
  have hN : cfg4.N = 50 := N_4
  refine funext fun (j : S2000x128.Idx) => ?_
  obtain ⟨r, q, rfl⟩ : ∃ (r : Fin 2000) (q : Fin 128), j = ix2 r q := ⟨j 0, j 1, eq_ix2 j⟩
  have hP : 2000 * t.val + r.val < 100000 := by have := t.isLt; omega
  refine (lastLayerBlock_apply (iblk4 V c 0 t) (V c main_v198) (V c main_v200) (V c main_v223) (V c main_v224) (V c main_v225) (V c main_v226) (V c main_v227)
    (V c main_v212) (V c main_v228) (V c main_v229) (V c main_v230) (V c main_v231) (V c main_v232)
    ⟨2000 * t.val + r.val, hP⟩ r q (fun k => rows4 V c t r k ⟨2000 * t.val + r.val, hP⟩ rfl)).trans ?_
  show _ = layerOf4 V c (((cfg4.win 13).blk t).view.emb (ix2 r q))
  have he : ((cfg4.win 13).blk t).view.emb (ix2 r q) = ix2 (⟨2000 * t.val + r.val, hP⟩ : Fin 100000) q := funext fun a => Fin.ext (by
    match a with
    | ⟨0, _⟩ => show win4_13.index t (0 : Fin 2) * 2000 + 1 * r.val = 2000 * t.val + r.val; omega
    | ⟨1, _⟩ => show win4_13.index t (1 : Fin 2) * 128 + 1 * q.val = q.val; omega)
  rw [he]
  rfl

/-! ## The blocks cover the array -/

/-- A position of the array is in point `t`'s block iff each coordinate is in the block's range on its axis. -/
theorem mem_blk4 (t : Fin cfg4.N) (i : S100000x128.Idx) :
    i ∈ ((cfg4.win 13).blk t).view.set ↔ ∀ a : Fin 2, win4_13.index t a * S2000x128.size a ≤ (i a).val ∧ (i a).val < win4_13.index t a * S2000x128.size a + S2000x128.size a := by
  show i ∈ ((View.whole main_v233).slice (win4_13.rect t)).set ↔ _
  rw [View.set_slice_whole, Rect.mem_set_unit]
  exact Iff.rfl

/-- Row `p` of the array is in the block of point `p / 2000`, and every point writes its block back. -/
theorem cover4 (i : S100000x128.Idx) :
    ∃ t : Fin cfg4.N, (cfg4.win 13).flush t = true ∧ i ∈ ((cfg4.win 13).blk t).view.set := by
  have hi0 : (i 0).val < 100000 := idx2_lt0 i
  have hi1 : (i 1).val < 128 := idx2_lt1 i
  have hN : cfg4.N = 50 := N_4
  obtain ⟨t, ht⟩ : ∃ t : Fin cfg4.N, t.val = (i 0).val / 2000 := ⟨⟨(i 0).val / 2000, by rw [hN]; omega⟩, rfl⟩
  obtain ⟨-, -, e2, e3⟩ := rowsIdx4 t
  refine ⟨t, flush4_13 t, ?_⟩
  rw [mem_blk4]
  intro a
  match a with
  | ⟨0, _⟩ =>
    show win4_13.index t (0 : Fin 2) * 2000 ≤ (i 0).val ∧ (i 0).val < win4_13.index t (0 : Fin 2) * 2000 + 2000
    omega
  | ⟨1, _⟩ =>
    show win4_13.index t (1 : Fin 2) * 128 ≤ (i 1).val ∧ (i 1).val < win4_13.index t (1 : Fin 2) * 128 + 128
    omega

/-! ## The array after the region -/

/-- After the region's fifty points the output array holds the layer of the arrays the region found at entry. -/
theorem region4 (c : Dev nD) :
    (Gen.dat4 (F := Ideal) V c).arrAt 13 cfg4.N
      = Cert.Gin.layer false (V c main_v198) (V c main_v200)
      (Cert.Gin.rowHid (V c main_v223)) (Cert.Gin.rowHid (V c main_v224)) (Cert.Gin.rowHid (V c main_v225)) (Cert.Gin.rowHid (V c main_v226)) (Cert.Gin.rowHid (V c main_v227))
      (V c main_v212)
      (Cert.Gin.rowOut (V c main_v228)) (Cert.Gin.rowOut (V c main_v229)) (Cert.Gin.rowOut (V c main_v230)) (Cert.Gin.rowOut (V c main_v231)) (Cert.Gin.rowOut (V c main_v232)) :=
  (dat4 V c).arrAt_eq_of_cover 13 (layerOf4 V c) (fun t _ => flushed4 V c t) cover4

end Cert.KernelIdeal.RegionValue

end
-- ==== Proof.KernelFold4.lean ====
/-
  Layer 4 of the idealized kernel, read off its run.

  The stretch of host operations before region 4 leaves, in the region's thirteen input arrays: the neighbourhood sum
  of the previous region's output; slice 4 of each weight array; and slice 4 of each of the ten parameter vectors, reshaped
  to a one-row matrix. The region then leaves in its output array the layer of these — so the features after region 4
  are the layer step of the features before it.
-/
import proofs.«159699_j9251359555640_1_alg».proof.Proof.KernelBack
import proofs.«159699_j9251359555640_1_alg».proof.Proof.RegionValue4

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The aggregated rows region 4 reads: the neighbourhood sum of the features before it. -/
theorem s4_agg (c : Dev nD) : (V9 m ρ c main_v198 : Cert.Gin.Feat) = Cert.Gin.agg (W8 m ρ c (Proc.devRef .tc main_v187) : Cert.Gin.Feat) (m ((c : Thread nD τ).loc main_arg1)) := by
  dsimp only [V9, W9, hostOps4]
  after_results_simp
  rw [Back.w8_v1 m ρ c, Back.w8_v3 m ρ c]
  rfl

/-- The first weight matrix region 4 reads: slice 4 of the stacked first weights. -/
theorem s4_w1 (c : Dev nD) : (V9 m ρ c main_v200 : Cert.Gin.W1) = Cert.ReferenceIdeal.ReadP.val_main_v316 (F := Ideal) (m ((c : Thread nD τ).loc main_arg2)) := by
  dsimp only [V9, W9, hostOps4]
  after_results_simp
  rw [Back.w8_arg2 m ρ c]
  rfl

/-- The second weight matrix region 4 reads: slice 4 of the stacked second weights. -/
theorem s4_w2 (c : Dev nD) : (V9 m ρ c main_v212 : Cert.Gin.W2) = Cert.ReferenceIdeal.ReadP.val_main_v348 (F := Ideal) (m ((c : Thread nD τ).loc main_arg8)) := by
  dsimp only [V9, W9, hostOps4]
  after_results_simp
  rw [Back.w8_arg8 m ρ c]
  rfl

/-- The one-row matrix region 4 reads for b1, as a vector: slice 4 of argument 3. -/
theorem s4_b1 (c : Dev nD) : Cert.Gin.rowHid (V9 m ρ c main_v223) = Cert.ReferenceIdeal.ReadP.val_main_v319 (F := Ideal) (m ((c : Thread nD τ).loc main_arg3)) := by
  have e : (V9 m ρ c main_v223 : (⟨2, ![1, 256]⟩ : Shape).Idx → EReal)
      = shapeCast ⟨2, ![1, 256]⟩ (Cert.ReferenceIdeal.ReadP.val_main_v319 (F := Ideal) (m ((c : Thread nD τ).loc main_arg3))) shapeCasts_S256_S1x256 := by
    dsimp only [V9, W9, hostOps4]
    after_results_simp
    rw [Back.w8_arg3 m ρ c]
    rfl
  rw [e]; exact Cert.Gin.rowHid_reshape _ _

/-- The one-row matrix region 4 reads for g1, as a vector: slice 4 of argument 4. -/
theorem s4_g1 (c : Dev nD) : Cert.Gin.rowHid (V9 m ρ c main_v224) = Cert.ReferenceIdeal.ReadP.val_main_v324 (F := Ideal) (m ((c : Thread nD τ).loc main_arg4)) := by
  have e : (V9 m ρ c main_v224 : (⟨2, ![1, 256]⟩ : Shape).Idx → EReal)
      = shapeCast ⟨2, ![1, 256]⟩ (Cert.ReferenceIdeal.ReadP.val_main_v324 (F := Ideal) (m ((c : Thread nD τ).loc main_arg4))) shapeCasts_S256_S1x256 := by
    dsimp only [V9, W9, hostOps4]
    after_results_simp
    rw [Back.w8_arg4 m ρ c]
    rfl
  rw [e]; exact Cert.Gin.rowHid_reshape _ _

/-- The one-row matrix region 4 reads for be1, as a vector: slice 4 of argument 5. -/
theorem s4_be1 (c : Dev nD) : Cert.Gin.rowHid (V9 m ρ c main_v225) = Cert.ReferenceIdeal.ReadP.val_main_v326 (F := Ideal) (m ((c : Thread nD τ).loc main_arg5)) := by
  have e : (V9 m ρ c main_v225 : (⟨2, ![1, 256]⟩ : Shape).Idx → EReal)
      = shapeCast ⟨2, ![1, 256]⟩ (Cert.ReferenceIdeal.ReadP.val_main_v326 (F := Ideal) (m ((c : Thread nD τ).loc main_arg5))) shapeCasts_S256_S1x256 := by
    dsimp only [V9, W9, hostOps4]
    after_results_simp
    rw [Back.w8_arg5 m ρ c]
    rfl
  rw [e]; exact Cert.Gin.rowHid_reshape _ _

/-- The one-row matrix region 4 reads for m1, as a vector: slice 4 of argument 6. -/
theorem s4_m1 (c : Dev nD) : Cert.Gin.rowHid (V9 m ρ c main_v226) = Cert.ReferenceIdeal.ReadP.val_main_v328 (F := Ideal) (m ((c : Thread nD τ).loc main_arg6)) := by
  have e : (V9 m ρ c main_v226 : (⟨2, ![1, 256]⟩ : Shape).Idx → EReal)
      = shapeCast ⟨2, ![1, 256]⟩ (Cert.ReferenceIdeal.ReadP.val_main_v328 (F := Ideal) (m ((c : Thread nD τ).loc main_arg6))) shapeCasts_S256_S1x256 := by
    dsimp only [V9, W9, hostOps4]
    after_results_simp
    rw [Back.w8_arg6 m ρ c]
    rfl
  rw [e]; exact Cert.Gin.rowHid_reshape _ _

/-- The one-row matrix region 4 reads for v1, as a vector: slice 4 of argument 7. -/
theorem s4_v1 (c : Dev nD) : Cert.Gin.rowHid (V9 m ρ c main_v227) = Cert.ReferenceIdeal.ReadP.val_main_v330 (F := Ideal) (m ((c : Thread nD τ).loc main_arg7)) := by
  have e : (V9 m ρ c main_v227 : (⟨2, ![1, 256]⟩ : Shape).Idx → EReal)
      = shapeCast ⟨2, ![1, 256]⟩ (Cert.ReferenceIdeal.ReadP.val_main_v330 (F := Ideal) (m ((c : Thread nD τ).loc main_arg7))) shapeCasts_S256_S1x256 := by
    dsimp only [V9, W9, hostOps4]
    after_results_simp
    rw [Back.w8_arg7 m ρ c]
    rfl
  rw [e]; exact Cert.Gin.rowHid_reshape _ _

/-- The one-row matrix region 4 reads for b2, as a vector: slice 4 of argument 9. -/
theorem s4_b2 (c : Dev nD) : Cert.Gin.rowOut (V9 m ρ c main_v228) = Cert.ReferenceIdeal.ReadP.val_main_v351 (F := Ideal) (m ((c : Thread nD τ).loc main_arg9)) := by
  have e : (V9 m ρ c main_v228 : (⟨2, ![1, 128]⟩ : Shape).Idx → EReal)
      = shapeCast ⟨2, ![1, 128]⟩ (Cert.ReferenceIdeal.ReadP.val_main_v351 (F := Ideal) (m ((c : Thread nD τ).loc main_arg9))) shapeCasts_S128_S1x128 := by
    dsimp only [V9, W9, hostOps4]
    after_results_simp
    rw [Back.w8_arg9 m ρ c]
    rfl
  rw [e]; exact Cert.Gin.rowOut_reshape _ _

/-- The one-row matrix region 4 reads for g2, as a vector: slice 4 of argument 10. -/
theorem s4_g2 (c : Dev nD) : Cert.Gin.rowOut (V9 m ρ c main_v229) = Cert.ReferenceIdeal.ReadP.val_main_v356 (F := Ideal) (m ((c : Thread nD τ).loc main_arg10)) := by
  have e : (V9 m ρ c main_v229 : (⟨2, ![1, 128]⟩ : Shape).Idx → EReal)
      = shapeCast ⟨2, ![1, 128]⟩ (Cert.ReferenceIdeal.ReadP.val_main_v356 (F := Ideal) (m ((c : Thread nD τ).loc main_arg10))) shapeCasts_S128_S1x128 := by
    dsimp only [V9, W9, hostOps4]
    after_results_simp
    rw [Back.w8_arg10 m ρ c]
    rfl
  rw [e]; exact Cert.Gin.rowOut_reshape _ _

/-- The one-row matrix region 4 reads for be2, as a vector: slice 4 of argument 11. -/
theorem s4_be2 (c : Dev nD) : Cert.Gin.rowOut (V9 m ρ c main_v230) = Cert.ReferenceIdeal.ReadP.val_main_v358 (F := Ideal) (m ((c : Thread nD τ).loc main_arg11)) := by
  have e : (V9 m ρ c main_v230 : (⟨2, ![1, 128]⟩ : Shape).Idx → EReal)
      = shapeCast ⟨2, ![1, 128]⟩ (Cert.ReferenceIdeal.ReadP.val_main_v358 (F := Ideal) (m ((c : Thread nD τ).loc main_arg11))) shapeCasts_S128_S1x128 := by
    dsimp only [V9, W9, hostOps4]
    after_results_simp
    rw [Back.w8_arg11 m ρ c]
    rfl
  rw [e]; exact Cert.Gin.rowOut_reshape _ _

/-- The one-row matrix region 4 reads for m2, as a vector: slice 4 of argument 12. -/
theorem s4_m2 (c : Dev nD) : Cert.Gin.rowOut (V9 m ρ c main_v231) = Cert.ReferenceIdeal.ReadP.val_main_v360 (F := Ideal) (m ((c : Thread nD τ).loc main_arg12)) := by
  have e : (V9 m ρ c main_v231 : (⟨2, ![1, 128]⟩ : Shape).Idx → EReal)
      = shapeCast ⟨2, ![1, 128]⟩ (Cert.ReferenceIdeal.ReadP.val_main_v360 (F := Ideal) (m ((c : Thread nD τ).loc main_arg12))) shapeCasts_S128_S1x128 := by
    dsimp only [V9, W9, hostOps4]
    after_results_simp
    rw [Back.w8_arg12 m ρ c]
    rfl
  rw [e]; exact Cert.Gin.rowOut_reshape _ _

/-- The one-row matrix region 4 reads for v2, as a vector: slice 4 of argument 13. -/
theorem s4_v2 (c : Dev nD) : Cert.Gin.rowOut (V9 m ρ c main_v232) = Cert.ReferenceIdeal.ReadP.val_main_v362 (F := Ideal) (m ((c : Thread nD τ).loc main_arg13)) := by
  have e : (V9 m ρ c main_v232 : (⟨2, ![1, 128]⟩ : Shape).Idx → EReal)
      = shapeCast ⟨2, ![1, 128]⟩ (Cert.ReferenceIdeal.ReadP.val_main_v362 (F := Ideal) (m ((c : Thread nD τ).loc main_arg13))) shapeCasts_S128_S1x128 := by
    dsimp only [V9, W9, hostOps4]
    after_results_simp
    rw [Back.w8_arg13 m ρ c]
    rfl
  rw [e]; exact Cert.Gin.rowOut_reshape _ _

/-- The features after region 4 are the layer step of the features before it. -/
theorem feat5 (c : Dev nD) : (W10 m ρ c (Proc.devRef .tc main_v233) : Cert.Gin.Feat)
    = Cert.Gin.step4 (W8 m ρ c (Proc.devRef .tc main_v187) : Cert.Gin.Feat) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W10_arr m ρ c 13).trans ?_
  refine (Cert.KernelIdeal.RegionValue.region4 (V9 m ρ) c).trans ?_
  show Cert.Gin.layer false (V9 m ρ c main_v198) (V9 m ρ c main_v200) (Cert.Gin.rowHid (V9 m ρ c main_v223)) (Cert.Gin.rowHid (V9 m ρ c main_v224)) (Cert.Gin.rowHid (V9 m ρ c main_v225)) (Cert.Gin.rowHid (V9 m ρ c main_v226)) (Cert.Gin.rowHid (V9 m ρ c main_v227))
      (V9 m ρ c main_v212) (Cert.Gin.rowOut (V9 m ρ c main_v228)) (Cert.Gin.rowOut (V9 m ρ c main_v229)) (Cert.Gin.rowOut (V9 m ρ c main_v230)) (Cert.Gin.rowOut (V9 m ρ c main_v231)) (Cert.Gin.rowOut (V9 m ρ c main_v232)) = _
  rw [s4_agg m ρ c, s4_w1 m ρ c, s4_w2 m ρ c, s4_b1 m ρ c, s4_g1 m ρ c, s4_be1 m ρ c, s4_m1 m ρ c, s4_v1 m ρ c, s4_b2 m ρ c, s4_g2 m ρ c, s4_be2 m ρ c, s4_m2 m ρ c, s4_v2 m ρ c]
  rfl

end Cert.KernelIdeal.Fold

end
-- ==== Proof.KernelValue.lean ====
/-
  The idealized kernel's result is the network of its arguments.

  The features after each region are the layer step of the features before it; the features before the first region are
  the input features. So the last region's output array, which is the program's result, is the five layer steps in
  turn from the input features.
-/
import proofs.«159699_j9251359555640_1_alg».proof.Proof.KernelFold0
import proofs.«159699_j9251359555640_1_alg».proof.Proof.KernelFold1
import proofs.«159699_j9251359555640_1_alg».proof.Proof.KernelFold2
import proofs.«159699_j9251359555640_1_alg».proof.Proof.KernelFold3
import proofs.«159699_j9251359555640_1_alg».proof.Proof.KernelFold4

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array at the last boundary is the network of the launch arguments. -/
theorem result_net (c : Dev nD) : (W10 m ρ c (Proc.devRef .tc main_v233) : Cert.Gin.Feat)
    = Cert.Gin.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [feat5 m ρ c, feat4 m ρ c, feat3 m ρ c, feat2 m ρ c, feat1 m ρ c]
  rfl

end Cert.KernelIdeal.Fold

end
-- ==== Proof.RefLayer0.lean ====
import proofs.«159699_j9251359555640_1_alg».proof.Proof.RefRead
import proofs.«159699_j9251359555640_1_alg».proof.Proof.Spec

noncomputable section

namespace Cert.ReferenceIdeal.RefLayer

open Cert.ReferenceIdeal Cert.ReferenceIdeal.ReadP Idealize.ShloMosaic Idealize.ShloMosaic.ValueIdx

/-! Layer 0 of the reference, entry by entry.

    The reference computes the layer with whole-array operations: a contraction of the aggregated rows with the
    first weight matrix, the bias, mean, reciprocal square root of the variance plus the small constant, gain and
    shift broadcast along the rows, a clamp at zero, and the same again with the second weight matrix, followed by a
    last clamp at zero. Read at one entry `(p, q)`, every broadcast picks the entry of its parameter vector in the
    column of the entry, every pointwise operation acts on the entries, and each contraction is the sum over the
    contracted coordinate; that is the specification's formula, term for term, so nothing is regrouped. -/

/-- Hidden number `j` of row `p`: the clamped, normalised first linear map, read off the reference's array. -/
theorem hidden0 (x0 : (⟨S100000x128, .f32⟩ : BufTy).Contents (Elt Ideal)) (x1 : (⟨S2x640000, .i32⟩ : BufTy).Contents (Elt Ideal)) (x2 : (⟨S5x128x256, .f32⟩ : BufTy).Contents (Elt Ideal)) (x3 x4 x5 x6 x7 : (⟨S5x256, .f32⟩ : BufTy).Contents (Elt Ideal)) (p : Fin 100000) (j : Fin 256) :
    val_main_v46 (F := Ideal) x0 x1 x2 x3 x4 x5 x6 x7 (ix2 p j)
      = Cert.Gin.hidden (val_main_v14 (F := Ideal) x0 x1) (val_main_v16 (F := Ideal) x2)
          (val_main_v19 (F := Ideal) x3) (val_main_v24 (F := Ideal) x4) (val_main_v26 (F := Ideal) x5) (val_main_v28 (F := Ideal) x6) (val_main_v30 (F := Ideal) x7) p j := by
  -- the contraction reads row `p` of the rows and column `j` of the weights
  have eL : ∀ k : Fin 128, lidx_main_v17 (ix2 p j) k = ix2 p k := fun k => funext fun a => Fin.ext (by match a with | ⟨0, _⟩ => rfl | ⟨1, _⟩ => rfl)
  have eR : ∀ k : Fin 128, ridx_main_v17 (ix2 p j) k = ix2 k j := fun k => funext fun a => Fin.ext (by match a with | ⟨0, _⟩ => rfl | ⟨1, _⟩ => rfl)
  -- each broadcast of a parameter vector along the rows reads the vector at the column `j`
  have e21 : idx_main_v20 (idx_main_v21 (ix2 p j)) = ix1 j := funext fun a => Fin.ext (by match a with | ⟨0, _⟩ => rfl)
  have e32 : idx_main_v31 (idx_main_v32 (ix2 p j)) = ix1 j := funext fun a => Fin.ext (by match a with | ⟨0, _⟩ => rfl)
  have e38 : idx_main_v37 (idx_main_v38 (ix2 p j)) = ix1 j := funext fun a => Fin.ext (by match a with | ⟨0, _⟩ => rfl)
  have e41 : idx_main_v40 (idx_main_v41 (ix2 p j)) = ix1 j := funext fun a => Fin.ext (by match a with | ⟨0, _⟩ => rfl)
  have e44 : idx_main_v43 (idx_main_v44 (ix2 p j)) = ix1 j := funext fun a => Fin.ext (by match a with | ⟨0, _⟩ => rfl)
  rw [val_main_v46_apply, val_main_v45_apply, val_main_v42_apply, val_main_v39_apply, val_main_v33_apply, val_main_v22_apply, val_main_v17_apply, val_main_v21_apply, val_main_v20_apply, val_main_v32_apply, val_main_v31_apply, val_main_v38_apply, val_main_v37_apply, val_main_v36_apply, val_main_v35_apply, val_main_v34_apply, val_main_cst_1_apply,
    val_main_v41_apply, val_main_v40_apply, val_main_v44_apply, val_main_v43_apply, val_main_call0_v0_apply, val_main_call0_cst_apply]
  simp only [eL, eR, e21, e32, e38, e41, e44, Cert.Gin.hidden, Cert.Gin.norm, Cert.Gin.eps, Cert.Gin.zero,
    Ideal.addf_def, Ideal.subf_def, Ideal.mulf_def, Ideal.maximumf_def, Ideal.hostUnary_rsqrt_def, Ideal.ofBits_def]

/-- The layer's result array is the specification's layer of the aggregated rows and the layer's parameters. -/
theorem layer0 (x0 : (⟨S100000x128, .f32⟩ : BufTy).Contents (Elt Ideal)) (x1 : (⟨S2x640000, .i32⟩ : BufTy).Contents (Elt Ideal)) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) :
    val_main_v78 (F := Ideal) x0 x1 x2 x3 x4 x5 x6 x7 x8 x9 x10 x11 x12 x13
      = Cert.Gin.layer true (val_main_v14 (F := Ideal) x0 x1) (val_main_v16 (F := Ideal) x2)
          (val_main_v19 (F := Ideal) x3) (val_main_v24 (F := Ideal) x4) (val_main_v26 (F := Ideal) x5) (val_main_v28 (F := Ideal) x6) (val_main_v30 (F := Ideal) x7)
          (val_main_v48 (F := Ideal) x8)
          (val_main_v51 (F := Ideal) x9) (val_main_v56 (F := Ideal) x10) (val_main_v58 (F := Ideal) x11) (val_main_v60 (F := Ideal) x12) (val_main_v62 (F := Ideal) x13) := by
  funext i
  obtain ⟨p, q, rfl⟩ : ∃ (p : Fin 100000) (q : Fin 128), i = ix2 p q := ⟨i 0, i 1, eq_ix2 i⟩
  -- the contraction reads row `p` of the hidden numbers and column `q` of the weights
  have eL : ∀ k : Fin 256, lidx_main_v49 (ix2 p q) k = ix2 p k := fun k => funext fun a => Fin.ext (by match a with | ⟨0, _⟩ => rfl | ⟨1, _⟩ => rfl)
  have eR : ∀ k : Fin 256, ridx_main_v49 (ix2 p q) k = ix2 k q := fun k => funext fun a => Fin.ext (by match a with | ⟨0, _⟩ => rfl | ⟨1, _⟩ => rfl)
  -- each broadcast of a parameter vector along the rows reads the vector at the column `q`
  have e53 : idx_main_v52 (idx_main_v53 (ix2 p q)) = ix1 q := funext fun a => Fin.ext (by match a with | ⟨0, _⟩ => rfl)
  have e64 : idx_main_v63 (idx_main_v64 (ix2 p q)) = ix1 q := funext fun a => Fin.ext (by match a with | ⟨0, _⟩ => rfl)
  have e70 : idx_main_v69 (idx_main_v70 (ix2 p q)) = ix1 q := funext fun a => Fin.ext (by match a with | ⟨0, _⟩ => rfl)
  have e73 : idx_main_v72 (idx_main_v73 (ix2 p q)) = ix1 q := funext fun a => Fin.ext (by match a with | ⟨0, _⟩ => rfl)
  have e76 : idx_main_v75 (idx_main_v76 (ix2 p q)) = ix1 q := funext fun a => Fin.ext (by match a with | ⟨0, _⟩ => rfl)
  rw [Cert.Gin.layer_ix2, val_main_v78_apply, val_main_v77_apply, val_main_v74_apply, val_main_v71_apply, val_main_v65_apply, val_main_v54_apply, val_main_v49_apply, val_main_v53_apply, val_main_v52_apply, val_main_v64_apply, val_main_v63_apply, val_main_v70_apply, val_main_v69_apply, val_main_v68_apply, val_main_v67_apply, val_main_v66_apply, val_main_cst_2_apply,
    val_main_v73_apply, val_main_v72_apply, val_main_v76_apply, val_main_v75_apply, val_main_call1_v0_apply, val_main_call1_cst_apply]
  simp only [eL, eR, e53, e64, e70, e73, e76, hidden0, Cert.Gin.entry, Cert.Gin.pre, Cert.Gin.norm, Cert.Gin.eps, Cert.Gin.zero,
    Ideal.addf_def, Ideal.subf_def, Ideal.mulf_def, Ideal.maximumf_def, Ideal.hostUnary_rsqrt_def, Ideal.ofBits_def, eq_self_iff_true, if_true]

end Cert.ReferenceIdeal.RefLayer

end
-- ==== Proof.RefLayer1.lean ====
import proofs.«159699_j9251359555640_1_alg».proof.Proof.RefRead
import proofs.«159699_j9251359555640_1_alg».proof.Proof.Spec

noncomputable section

namespace Cert.ReferenceIdeal.RefLayer

open Cert.ReferenceIdeal Cert.ReferenceIdeal.ReadP Idealize.ShloMosaic Idealize.ShloMosaic.ValueIdx

/-! Layer 1 of the reference, entry by entry.

    The reference computes the layer with whole-array operations: a contraction of the aggregated rows with the
    first weight matrix, the bias, mean, reciprocal square root of the variance plus the small constant, gain and
    shift broadcast along the rows, a clamp at zero, and the same again with the second weight matrix, followed by a
    last clamp at zero. Read at one entry `(p, q)`, every broadcast picks the entry of its parameter vector in the
    column of the entry, every pointwise operation acts on the entries, and each contraction is the sum over the
    contracted coordinate; that is the specification's formula, term for term, so nothing is regrouped. -/

/-- Hidden number `j` of row `p`: the clamped, normalised first linear map, read off the reference's array. -/
theorem hidden1 (x0 : (⟨S100000x128, .f32⟩ : BufTy).Contents (Elt Ideal)) (x1 : (⟨S2x640000, .i32⟩ : BufTy).Contents (Elt Ideal)) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) (p : Fin 100000) (j : Fin 256) :
    val_main_v121 (F := Ideal) x0 x1 x2 x3 x4 x5 x6 x7 x8 x9 x10 x11 x12 x13 (ix2 p j)
      = Cert.Gin.hidden (val_main_v89 (F := Ideal) x0 x1 x2 x3 x4 x5 x6 x7 x8 x9 x10 x11 x12 x13) (val_main_v91 (F := Ideal) x2)
          (val_main_v94 (F := Ideal) x3) (val_main_v99 (F := Ideal) x4) (val_main_v101 (F := Ideal) x5) (val_main_v103 (F := Ideal) x6) (val_main_v105 (F := Ideal) x7) p j := by
  -- the contraction reads row `p` of the rows and column `j` of the weights
  have eL : ∀ k : Fin 128, lidx_main_v92 (ix2 p j) k = ix2 p k := fun k => funext fun a => Fin.ext (by match a with | ⟨0, _⟩ => rfl | ⟨1, _⟩ => rfl)
  have eR : ∀ k : Fin 128, ridx_main_v92 (ix2 p j) k = ix2 k j := fun k => funext fun a => Fin.ext (by match a with | ⟨0, _⟩ => rfl | ⟨1, _⟩ => rfl)
  -- each broadcast of a parameter vector along the rows reads the vector at the column `j`
  have e21 : idx_main_v95 (idx_main_v96 (ix2 p j)) = ix1 j := funext fun a => Fin.ext (by match a with | ⟨0, _⟩ => rfl)
  have e32 : idx_main_v106 (idx_main_v107 (ix2 p j)) = ix1 j := funext fun a => Fin.ext (by match a with | ⟨0, _⟩ => rfl)
  have e38 : idx_main_v112 (idx_main_v113 (ix2 p j)) = ix1 j := funext fun a => Fin.ext (by match a with | ⟨0, _⟩ => rfl)
  have e41 : idx_main_v115 (idx_main_v116 (ix2 p j)) = ix1 j := funext fun a => Fin.ext (by match a with | ⟨0, _⟩ => rfl)
  have e44 : idx_main_v118 (idx_main_v119 (ix2 p j)) = ix1 j := funext fun a => Fin.ext (by match a with | ⟨0, _⟩ => rfl)
  rw [val_main_v121_apply, val_main_v120_apply, val_main_v117_apply, val_main_v114_apply, val_main_v108_apply, val_main_v97_apply, val_main_v92_apply, val_main_v96_apply, val_main_v95_apply, val_main_v107_apply, val_main_v106_apply, val_main_v113_apply, val_main_v112_apply, val_main_v111_apply, val_main_v110_apply, val_main_v109_apply, val_main_cst_6_apply,
    val_main_v116_apply, val_main_v115_apply, val_main_v119_apply, val_main_v118_apply, val_main_call2_v0_apply, val_main_call2_cst_apply]
  simp only [eL, eR, e21, e32, e38, e41, e44, Cert.Gin.hidden, Cert.Gin.norm, Cert.Gin.eps, Cert.Gin.zero,
    Ideal.addf_def, Ideal.subf_def, Ideal.mulf_def, Ideal.maximumf_def, Ideal.hostUnary_rsqrt_def, Ideal.ofBits_def]

/-- The layer's result array is the specification's layer of the aggregated rows and the layer's parameters. -/
theorem layer1 (x0 : (⟨S100000x128, .f32⟩ : BufTy).Contents (Elt Ideal)) (x1 : (⟨S2x640000, .i32⟩ : BufTy).Contents (Elt Ideal)) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) :
    val_main_v153 (F := Ideal) x0 x1 x2 x3 x4 x5 x6 x7 x8 x9 x10 x11 x12 x13
      = Cert.Gin.layer true (val_main_v89 (F := Ideal) x0 x1 x2 x3 x4 x5 x6 x7 x8 x9 x10 x11 x12 x13) (val_main_v91 (F := Ideal) x2)
          (val_main_v94 (F := Ideal) x3) (val_main_v99 (F := Ideal) x4) (val_main_v101 (F := Ideal) x5) (val_main_v103 (F := Ideal) x6) (val_main_v105 (F := Ideal) x7)
          (val_main_v123 (F := Ideal) x8)
          (val_main_v126 (F := Ideal) x9) (val_main_v131 (F := Ideal) x10) (val_main_v133 (F := Ideal) x11) (val_main_v135 (F := Ideal) x12) (val_main_v137 (F := Ideal) x13) := by
  funext i
  obtain ⟨p, q, rfl⟩ : ∃ (p : Fin 100000) (q : Fin 128), i = ix2 p q := ⟨i 0, i 1, eq_ix2 i⟩
  -- the contraction reads row `p` of the hidden numbers and column `q` of the weights
  have eL : ∀ k : Fin 256, lidx_main_v124 (ix2 p q) k = ix2 p k := fun k => funext fun a => Fin.ext (by match a with | ⟨0, _⟩ => rfl | ⟨1, _⟩ => rfl)
  have eR : ∀ k : Fin 256, ridx_main_v124 (ix2 p q) k = ix2 k q := fun k => funext fun a => Fin.ext (by match a with | ⟨0, _⟩ => rfl | ⟨1, _⟩ => rfl)
  -- each broadcast of a parameter vector along the rows reads the vector at the column `q`
  have e53 : idx_main_v127 (idx_main_v128 (ix2 p q)) = ix1 q := funext fun a => Fin.ext (by match a with | ⟨0, _⟩ => rfl)
  have e64 : idx_main_v138 (idx_main_v139 (ix2 p q)) = ix1 q := funext fun a => Fin.ext (by match a with | ⟨0, _⟩ => rfl)
  have e70 : idx_main_v144 (idx_main_v145 (ix2 p q)) = ix1 q := funext fun a => Fin.ext (by match a with | ⟨0, _⟩ => rfl)
  have e73 : idx_main_v147 (idx_main_v148 (ix2 p q)) = ix1 q := funext fun a => Fin.ext (by match a with | ⟨0, _⟩ => rfl)
  have e76 : idx_main_v150 (idx_main_v151 (ix2 p q)) = ix1 q := funext fun a => Fin.ext (by match a with | ⟨0, _⟩ => rfl)
  rw [Cert.Gin.layer_ix2, val_main_v153_apply, val_main_v152_apply, val_main_v149_apply, val_main_v146_apply, val_main_v140_apply, val_main_v129_apply, val_main_v124_apply, val_main_v128_apply, val_main_v127_apply, val_main_v139_apply, val_main_v138_apply, val_main_v145_apply, val_main_v144_apply, val_main_v143_apply, val_main_v142_apply, val_main_v141_apply, val_main_cst_7_apply,
    val_main_v148_apply, val_main_v147_apply, val_main_v151_apply, val_main_v150_apply, val_main_call3_v0_apply, val_main_call3_cst_apply]
  simp only [eL, eR, e53, e64, e70, e73, e76, hidden1, Cert.Gin.entry, Cert.Gin.pre, Cert.Gin.norm, Cert.Gin.eps, Cert.Gin.zero,
    Ideal.addf_def, Ideal.subf_def, Ideal.mulf_def, Ideal.maximumf_def, Ideal.hostUnary_rsqrt_def, Ideal.ofBits_def, eq_self_iff_true, if_true]

end Cert.ReferenceIdeal.RefLayer

end
-- ==== Proof.RefLayer2.lean ====
import proofs.«159699_j9251359555640_1_alg».proof.Proof.RefRead
import proofs.«159699_j9251359555640_1_alg».proof.Proof.Spec

noncomputable section

namespace Cert.ReferenceIdeal.RefLayer

open Cert.ReferenceIdeal Cert.ReferenceIdeal.ReadP Idealize.ShloMosaic Idealize.ShloMosaic.ValueIdx

/-! Layer 2 of the reference, entry by entry.

    The reference computes the layer with whole-array operations: a contraction of the aggregated rows with the
    first weight matrix, the bias, mean, reciprocal square root of the variance plus the small constant, gain and
    shift broadcast along the rows, a clamp at zero, and the same again with the second weight matrix, followed by a
    last clamp at zero. Read at one entry `(p, q)`, every broadcast picks the entry of its parameter vector in the
    column of the entry, every pointwise operation acts on the entries, and each contraction is the sum over the
    contracted coordinate; that is the specification's formula, term for term, so nothing is regrouped. -/

/-- Hidden number `j` of row `p`: the clamped, normalised first linear map, read off the reference's array. -/
theorem hidden2 (x0 : (⟨S100000x128, .f32⟩ : BufTy).Contents (Elt Ideal)) (x1 : (⟨S2x640000, .i32⟩ : BufTy).Contents (Elt Ideal)) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) (p : Fin 100000) (j : Fin 256) :
    val_main_v196 (F := Ideal) x0 x1 x2 x3 x4 x5 x6 x7 x8 x9 x10 x11 x12 x13 (ix2 p j)
      = Cert.Gin.hidden (val_main_v164 (F := Ideal) x0 x1 x2 x3 x4 x5 x6 x7 x8 x9 x10 x11 x12 x13) (val_main_v166 (F := Ideal) x2)
          (val_main_v169 (F := Ideal) x3) (val_main_v174 (F := Ideal) x4) (val_main_v176 (F := Ideal) x5) (val_main_v178 (F := Ideal) x6) (val_main_v180 (F := Ideal) x7) p j := by
  -- the contraction reads row `p` of the rows and column `j` of the weights
  have eL : ∀ k : Fin 128, lidx_main_v167 (ix2 p j) k = ix2 p k := fun k => funext fun a => Fin.ext (by match a with | ⟨0, _⟩ => rfl | ⟨1, _⟩ => rfl)
  have eR : ∀ k : Fin 128, ridx_main_v167 (ix2 p j) k = ix2 k j := fun k => funext fun a => Fin.ext (by match a with | ⟨0, _⟩ => rfl | ⟨1, _⟩ => rfl)
  -- each broadcast of a parameter vector along the rows reads the vector at the column `j`
  have e21 : idx_main_v170 (idx_main_v171 (ix2 p j)) = ix1 j := funext fun a => Fin.ext (by match a with | ⟨0, _⟩ => rfl)
  have e32 : idx_main_v181 (idx_main_v182 (ix2 p j)) = ix1 j := funext fun a => Fin.ext (by match a with | ⟨0, _⟩ => rfl)
  have e38 : idx_main_v187 (idx_main_v188 (ix2 p j)) = ix1 j := funext fun a => Fin.ext (by match a with | ⟨0, _⟩ => rfl)
  have e41 : idx_main_v190 (idx_main_v191 (ix2 p j)) = ix1 j := funext fun a => Fin.ext (by match a with | ⟨0, _⟩ => rfl)
  have e44 : idx_main_v193 (idx_main_v194 (ix2 p j)) = ix1 j := funext fun a => Fin.ext (by match a with | ⟨0, _⟩ => rfl)
  rw [val_main_v196_apply, val_main_v195_apply, val_main_v192_apply, val_main_v189_apply, val_main_v183_apply, val_main_v172_apply, val_main_v167_apply, val_main_v171_apply, val_main_v170_apply, val_main_v182_apply, val_main_v181_apply, val_main_v188_apply, val_main_v187_apply, val_main_v186_apply, val_main_v185_apply, val_main_v184_apply, val_main_cst_11_apply,
    val_main_v191_apply, val_main_v190_apply, val_main_v194_apply, val_main_v193_apply, val_main_call4_v0_apply, val_main_call4_cst_apply]
  simp only [eL, eR, e21, e32, e38, e41, e44, Cert.Gin.hidden, Cert.Gin.norm, Cert.Gin.eps, Cert.Gin.zero,
    Ideal.addf_def, Ideal.subf_def, Ideal.mulf_def, Ideal.maximumf_def, Ideal.hostUnary_rsqrt_def, Ideal.ofBits_def]

/-- The layer's result array is the specification's layer of the aggregated rows and the layer's parameters. -/
theorem layer2 (x0 : (⟨S100000x128, .f32⟩ : BufTy).Contents (Elt Ideal)) (x1 : (⟨S2x640000, .i32⟩ : BufTy).Contents (Elt Ideal)) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) :
    val_main_v228 (F := Ideal) x0 x1 x2 x3 x4 x5 x6 x7 x8 x9 x10 x11 x12 x13
      = Cert.Gin.layer true (val_main_v164 (F := Ideal) x0 x1 x2 x3 x4 x5 x6 x7 x8 x9 x10 x11 x12 x13) (val_main_v166 (F := Ideal) x2)
          (val_main_v169 (F := Ideal) x3) (val_main_v174 (F := Ideal) x4) (val_main_v176 (F := Ideal) x5) (val_main_v178 (F := Ideal) x6) (val_main_v180 (F := Ideal) x7)
          (val_main_v198 (F := Ideal) x8)
          (val_main_v201 (F := Ideal) x9) (val_main_v206 (F := Ideal) x10) (val_main_v208 (F := Ideal) x11) (val_main_v210 (F := Ideal) x12) (val_main_v212 (F := Ideal) x13) := by
  funext i
  obtain ⟨p, q, rfl⟩ : ∃ (p : Fin 100000) (q : Fin 128), i = ix2 p q := ⟨i 0, i 1, eq_ix2 i⟩
  -- the contraction reads row `p` of the hidden numbers and column `q` of the weights
  have eL : ∀ k : Fin 256, lidx_main_v199 (ix2 p q) k = ix2 p k := fun k => funext fun a => Fin.ext (by match a with | ⟨0, _⟩ => rfl | ⟨1, _⟩ => rfl)
  have eR : ∀ k : Fin 256, ridx_main_v199 (ix2 p q) k = ix2 k q := fun k => funext fun a => Fin.ext (by match a with | ⟨0, _⟩ => rfl | ⟨1, _⟩ => rfl)
  -- each broadcast of a parameter vector along the rows reads the vector at the column `q`
  have e53 : idx_main_v202 (idx_main_v203 (ix2 p q)) = ix1 q := funext fun a => Fin.ext (by match a with | ⟨0, _⟩ => rfl)
  have e64 : idx_main_v213 (idx_main_v214 (ix2 p q)) = ix1 q := funext fun a => Fin.ext (by match a with | ⟨0, _⟩ => rfl)
  have e70 : idx_main_v219 (idx_main_v220 (ix2 p q)) = ix1 q := funext fun a => Fin.ext (by match a with | ⟨0, _⟩ => rfl)
  have e73 : idx_main_v222 (idx_main_v223 (ix2 p q)) = ix1 q := funext fun a => Fin.ext (by match a with | ⟨0, _⟩ => rfl)
  have e76 : idx_main_v225 (idx_main_v226 (ix2 p q)) = ix1 q := funext fun a => Fin.ext (by match a with | ⟨0, _⟩ => rfl)
  rw [Cert.Gin.layer_ix2, val_main_v228_apply, val_main_v227_apply, val_main_v224_apply, val_main_v221_apply, val_main_v215_apply, val_main_v204_apply, val_main_v199_apply, val_main_v203_apply, val_main_v202_apply, val_main_v214_apply, val_main_v213_apply, val_main_v220_apply, val_main_v219_apply, val_main_v218_apply, val_main_v217_apply, val_main_v216_apply, val_main_cst_12_apply,
    val_main_v223_apply, val_main_v222_apply, val_main_v226_apply, val_main_v225_apply, val_main_call5_v0_apply, val_main_call5_cst_apply]
  simp only [eL, eR, e53, e64, e70, e73, e76, hidden2, Cert.Gin.entry, Cert.Gin.pre, Cert.Gin.norm, Cert.Gin.eps, Cert.Gin.zero,
    Ideal.addf_def, Ideal.subf_def, Ideal.mulf_def, Ideal.maximumf_def, Ideal.hostUnary_rsqrt_def, Ideal.ofBits_def, eq_self_iff_true, if_true]

end Cert.ReferenceIdeal.RefLayer

end
-- ==== Proof.RefLayer3.lean ====
import proofs.«159699_j9251359555640_1_alg».proof.Proof.RefRead
import proofs.«159699_j9251359555640_1_alg».proof.Proof.Spec

noncomputable section

namespace Cert.ReferenceIdeal.RefLayer

open Cert.ReferenceIdeal Cert.ReferenceIdeal.ReadP Idealize.ShloMosaic Idealize.ShloMosaic.ValueIdx

/-! Layer 3 of the reference, entry by entry.

    The reference computes the layer with whole-array operations: a contraction of the aggregated rows with the
    first weight matrix, the bias, mean, reciprocal square root of the variance plus the small constant, gain and
    shift broadcast along the rows, a clamp at zero, and the same again with the second weight matrix, followed by a
    last clamp at zero. Read at one entry `(p, q)`, every broadcast picks the entry of its parameter vector in the
    column of the entry, every pointwise operation acts on the entries, and each contraction is the sum over the
    contracted coordinate; that is the specification's formula, term for term, so nothing is regrouped. -/

/-- Hidden number `j` of row `p`: the clamped, normalised first linear map, read off the reference's array. -/
theorem hidden3 (x0 : (⟨S100000x128, .f32⟩ : BufTy).Contents (Elt Ideal)) (x1 : (⟨S2x640000, .i32⟩ : BufTy).Contents (Elt Ideal)) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) (p : Fin 100000) (j : Fin 256) :
    val_main_v271 (F := Ideal) x0 x1 x2 x3 x4 x5 x6 x7 x8 x9 x10 x11 x12 x13 (ix2 p j)
      = Cert.Gin.hidden (val_main_v239 (F := Ideal) x0 x1 x2 x3 x4 x5 x6 x7 x8 x9 x10 x11 x12 x13) (val_main_v241 (F := Ideal) x2)
          (val_main_v244 (F := Ideal) x3) (val_main_v249 (F := Ideal) x4) (val_main_v251 (F := Ideal) x5) (val_main_v253 (F := Ideal) x6) (val_main_v255 (F := Ideal) x7) p j := by
  -- the contraction reads row `p` of the rows and column `j` of the weights
  have eL : ∀ k : Fin 128, lidx_main_v242 (ix2 p j) k = ix2 p k := fun k => funext fun a => Fin.ext (by match a with | ⟨0, _⟩ => rfl | ⟨1, _⟩ => rfl)
  have eR : ∀ k : Fin 128, ridx_main_v242 (ix2 p j) k = ix2 k j := fun k => funext fun a => Fin.ext (by match a with | ⟨0, _⟩ => rfl | ⟨1, _⟩ => rfl)
  -- each broadcast of a parameter vector along the rows reads the vector at the column `j`
  have e21 : idx_main_v245 (idx_main_v246 (ix2 p j)) = ix1 j := funext fun a => Fin.ext (by match a with | ⟨0, _⟩ => rfl)
  have e32 : idx_main_v256 (idx_main_v257 (ix2 p j)) = ix1 j := funext fun a => Fin.ext (by match a with | ⟨0, _⟩ => rfl)
  have e38 : idx_main_v262 (idx_main_v263 (ix2 p j)) = ix1 j := funext fun a => Fin.ext (by match a with | ⟨0, _⟩ => rfl)
  have e41 : idx_main_v265 (idx_main_v266 (ix2 p j)) = ix1 j := funext fun a => Fin.ext (by match a with | ⟨0, _⟩ => rfl)
  have e44 : idx_main_v268 (idx_main_v269 (ix2 p j)) = ix1 j := funext fun a => Fin.ext (by match a with | ⟨0, _⟩ => rfl)
  rw [val_main_v271_apply, val_main_v270_apply, val_main_v267_apply, val_main_v264_apply, val_main_v258_apply, val_main_v247_apply, val_main_v242_apply, val_main_v246_apply, val_main_v245_apply, val_main_v257_apply, val_main_v256_apply, val_main_v263_apply, val_main_v262_apply, val_main_v261_apply, val_main_v260_apply, val_main_v259_apply, val_main_cst_16_apply,
    val_main_v266_apply, val_main_v265_apply, val_main_v269_apply, val_main_v268_apply, val_main_call6_v0_apply, val_main_call6_cst_apply]
  simp only [eL, eR, e21, e32, e38, e41, e44, Cert.Gin.hidden, Cert.Gin.norm, Cert.Gin.eps, Cert.Gin.zero,
    Ideal.addf_def, Ideal.subf_def, Ideal.mulf_def, Ideal.maximumf_def, Ideal.hostUnary_rsqrt_def, Ideal.ofBits_def]

/-- The layer's result array is the specification's layer of the aggregated rows and the layer's parameters. -/
theorem layer3 (x0 : (⟨S100000x128, .f32⟩ : BufTy).Contents (Elt Ideal)) (x1 : (⟨S2x640000, .i32⟩ : BufTy).Contents (Elt Ideal)) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) :
    val_main_v303 (F := Ideal) x0 x1 x2 x3 x4 x5 x6 x7 x8 x9 x10 x11 x12 x13
      = Cert.Gin.layer true (val_main_v239 (F := Ideal) x0 x1 x2 x3 x4 x5 x6 x7 x8 x9 x10 x11 x12 x13) (val_main_v241 (F := Ideal) x2)
          (val_main_v244 (F := Ideal) x3) (val_main_v249 (F := Ideal) x4) (val_main_v251 (F := Ideal) x5) (val_main_v253 (F := Ideal) x6) (val_main_v255 (F := Ideal) x7)
          (val_main_v273 (F := Ideal) x8)
          (val_main_v276 (F := Ideal) x9) (val_main_v281 (F := Ideal) x10) (val_main_v283 (F := Ideal) x11) (val_main_v285 (F := Ideal) x12) (val_main_v287 (F := Ideal) x13) := by
  funext i
  obtain ⟨p, q, rfl⟩ : ∃ (p : Fin 100000) (q : Fin 128), i = ix2 p q := ⟨i 0, i 1, eq_ix2 i⟩
  -- the contraction reads row `p` of the hidden numbers and column `q` of the weights
  have eL : ∀ k : Fin 256, lidx_main_v274 (ix2 p q) k = ix2 p k := fun k => funext fun a => Fin.ext (by match a with | ⟨0, _⟩ => rfl | ⟨1, _⟩ => rfl)
  have eR : ∀ k : Fin 256, ridx_main_v274 (ix2 p q) k = ix2 k q := fun k => funext fun a => Fin.ext (by match a with | ⟨0, _⟩ => rfl | ⟨1, _⟩ => rfl)
  -- each broadcast of a parameter vector along the rows reads the vector at the column `q`
  have e53 : idx_main_v277 (idx_main_v278 (ix2 p q)) = ix1 q := funext fun a => Fin.ext (by match a with | ⟨0, _⟩ => rfl)
  have e64 : idx_main_v288 (idx_main_v289 (ix2 p q)) = ix1 q := funext fun a => Fin.ext (by match a with | ⟨0, _⟩ => rfl)
  have e70 : idx_main_v294 (idx_main_v295 (ix2 p q)) = ix1 q := funext fun a => Fin.ext (by match a with | ⟨0, _⟩ => rfl)
  have e73 : idx_main_v297 (idx_main_v298 (ix2 p q)) = ix1 q := funext fun a => Fin.ext (by match a with | ⟨0, _⟩ => rfl)
  have e76 : idx_main_v300 (idx_main_v301 (ix2 p q)) = ix1 q := funext fun a => Fin.ext (by match a with | ⟨0, _⟩ => rfl)
  rw [Cert.Gin.layer_ix2, val_main_v303_apply, val_main_v302_apply, val_main_v299_apply, val_main_v296_apply, val_main_v290_apply, val_main_v279_apply, val_main_v274_apply, val_main_v278_apply, val_main_v277_apply, val_main_v289_apply, val_main_v288_apply, val_main_v295_apply, val_main_v294_apply, val_main_v293_apply, val_main_v292_apply, val_main_v291_apply, val_main_cst_17_apply,
    val_main_v298_apply, val_main_v297_apply, val_main_v301_apply, val_main_v300_apply, val_main_call7_v0_apply, val_main_call7_cst_apply]
  simp only [eL, eR, e53, e64, e70, e73, e76, hidden3, Cert.Gin.entry, Cert.Gin.pre, Cert.Gin.norm, Cert.Gin.eps, Cert.Gin.zero,
    Ideal.addf_def, Ideal.subf_def, Ideal.mulf_def, Ideal.maximumf_def, Ideal.hostUnary_rsqrt_def, Ideal.ofBits_def, eq_self_iff_true, if_true]

end Cert.ReferenceIdeal.RefLayer

end
-- ==== Proof.RefLayer4.lean ====
import proofs.«159699_j9251359555640_1_alg».proof.Proof.RefRead
import proofs.«159699_j9251359555640_1_alg».proof.Proof.Spec

noncomputable section

namespace Cert.ReferenceIdeal.RefLayer

open Cert.ReferenceIdeal Cert.ReferenceIdeal.ReadP Idealize.ShloMosaic Idealize.ShloMosaic.ValueIdx

/-! Layer 4 of the reference, entry by entry.

    The reference computes the layer with whole-array operations: a contraction of the aggregated rows with the
    first weight matrix, the bias, mean, reciprocal square root of the variance plus the small constant, gain and
    shift broadcast along the rows, a clamp at zero, and the same again with the second weight matrix (this last layer
    has no final clamp). Read at one entry `(p, q)`, every broadcast picks the entry of its parameter vector in the
    column of the entry, every pointwise operation acts on the entries, and each contraction is the sum over the
    contracted coordinate; that is the specification's formula, term for term, so nothing is regrouped. -/

/-- Hidden number `j` of row `p`: the clamped, normalised first linear map, read off the reference's array. -/
theorem hidden4 (x0 : (⟨S100000x128, .f32⟩ : BufTy).Contents (Elt Ideal)) (x1 : (⟨S2x640000, .i32⟩ : BufTy).Contents (Elt Ideal)) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) (p : Fin 100000) (j : Fin 256) :
    val_main_v346 (F := Ideal) x0 x1 x2 x3 x4 x5 x6 x7 x8 x9 x10 x11 x12 x13 (ix2 p j)
      = Cert.Gin.hidden (val_main_v314 (F := Ideal) x0 x1 x2 x3 x4 x5 x6 x7 x8 x9 x10 x11 x12 x13) (val_main_v316 (F := Ideal) x2)
          (val_main_v319 (F := Ideal) x3) (val_main_v324 (F := Ideal) x4) (val_main_v326 (F := Ideal) x5) (val_main_v328 (F := Ideal) x6) (val_main_v330 (F := Ideal) x7) p j := by
  -- the contraction reads row `p` of the rows and column `j` of the weights
  have eL : ∀ k : Fin 128, lidx_main_v317 (ix2 p j) k = ix2 p k := fun k => funext fun a => Fin.ext (by match a with | ⟨0, _⟩ => rfl | ⟨1, _⟩ => rfl)
  have eR : ∀ k : Fin 128, ridx_main_v317 (ix2 p j) k = ix2 k j := fun k => funext fun a => Fin.ext (by match a with | ⟨0, _⟩ => rfl | ⟨1, _⟩ => rfl)
  -- each broadcast of a parameter vector along the rows reads the vector at the column `j`
  have e21 : idx_main_v320 (idx_main_v321 (ix2 p j)) = ix1 j := funext fun a => Fin.ext (by match a with | ⟨0, _⟩ => rfl)
  have e32 : idx_main_v331 (idx_main_v332 (ix2 p j)) = ix1 j := funext fun a => Fin.ext (by match a with | ⟨0, _⟩ => rfl)
  have e38 : idx_main_v337 (idx_main_v338 (ix2 p j)) = ix1 j := funext fun a => Fin.ext (by match a with | ⟨0, _⟩ => rfl)
  have e41 : idx_main_v340 (idx_main_v341 (ix2 p j)) = ix1 j := funext fun a => Fin.ext (by match a with | ⟨0, _⟩ => rfl)
  have e44 : idx_main_v343 (idx_main_v344 (ix2 p j)) = ix1 j := funext fun a => Fin.ext (by match a with | ⟨0, _⟩ => rfl)
  rw [val_main_v346_apply, val_main_v345_apply, val_main_v342_apply, val_main_v339_apply, val_main_v333_apply, val_main_v322_apply, val_main_v317_apply, val_main_v321_apply, val_main_v320_apply, val_main_v332_apply, val_main_v331_apply, val_main_v338_apply, val_main_v337_apply, val_main_v336_apply, val_main_v335_apply, val_main_v334_apply, val_main_cst_21_apply,
    val_main_v341_apply, val_main_v340_apply, val_main_v344_apply, val_main_v343_apply, val_main_call8_v0_apply, val_main_call8_cst_apply]
  simp only [eL, eR, e21, e32, e38, e41, e44, Cert.Gin.hidden, Cert.Gin.norm, Cert.Gin.eps, Cert.Gin.zero,
    Ideal.addf_def, Ideal.subf_def, Ideal.mulf_def, Ideal.maximumf_def, Ideal.hostUnary_rsqrt_def, Ideal.ofBits_def]

/-- The layer's result array is the specification's layer of the aggregated rows and the layer's parameters. -/
theorem layer4 (x0 : (⟨S100000x128, .f32⟩ : BufTy).Contents (Elt Ideal)) (x1 : (⟨S2x640000, .i32⟩ : BufTy).Contents (Elt Ideal)) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) :
    val_main_v377 (F := Ideal) x0 x1 x2 x3 x4 x5 x6 x7 x8 x9 x10 x11 x12 x13
      = Cert.Gin.layer false (val_main_v314 (F := Ideal) x0 x1 x2 x3 x4 x5 x6 x7 x8 x9 x10 x11 x12 x13) (val_main_v316 (F := Ideal) x2)
          (val_main_v319 (F := Ideal) x3) (val_main_v324 (F := Ideal) x4) (val_main_v326 (F := Ideal) x5) (val_main_v328 (F := Ideal) x6) (val_main_v330 (F := Ideal) x7)
          (val_main_v348 (F := Ideal) x8)
          (val_main_v351 (F := Ideal) x9) (val_main_v356 (F := Ideal) x10) (val_main_v358 (F := Ideal) x11) (val_main_v360 (F := Ideal) x12) (val_main_v362 (F := Ideal) x13) := by
  funext i
  obtain ⟨p, q, rfl⟩ : ∃ (p : Fin 100000) (q : Fin 128), i = ix2 p q := ⟨i 0, i 1, eq_ix2 i⟩
  -- the contraction reads row `p` of the hidden numbers and column `q` of the weights
  have eL : ∀ k : Fin 256, lidx_main_v349 (ix2 p q) k = ix2 p k := fun k => funext fun a => Fin.ext (by match a with | ⟨0, _⟩ => rfl | ⟨1, _⟩ => rfl)
  have eR : ∀ k : Fin 256, ridx_main_v349 (ix2 p q) k = ix2 k q := fun k => funext fun a => Fin.ext (by match a with | ⟨0, _⟩ => rfl | ⟨1, _⟩ => rfl)
  -- each broadcast of a parameter vector along the rows reads the vector at the column `q`
  have e53 : idx_main_v352 (idx_main_v353 (ix2 p q)) = ix1 q := funext fun a => Fin.ext (by match a with | ⟨0, _⟩ => rfl)
  have e64 : idx_main_v363 (idx_main_v364 (ix2 p q)) = ix1 q := funext fun a => Fin.ext (by match a with | ⟨0, _⟩ => rfl)
  have e70 : idx_main_v369 (idx_main_v370 (ix2 p q)) = ix1 q := funext fun a => Fin.ext (by match a with | ⟨0, _⟩ => rfl)
  have e73 : idx_main_v372 (idx_main_v373 (ix2 p q)) = ix1 q := funext fun a => Fin.ext (by match a with | ⟨0, _⟩ => rfl)
  have e76 : idx_main_v375 (idx_main_v376 (ix2 p q)) = ix1 q := funext fun a => Fin.ext (by match a with | ⟨0, _⟩ => rfl)
  rw [Cert.Gin.layer_ix2, val_main_v377_apply, val_main_v374_apply, val_main_v371_apply, val_main_v365_apply, val_main_v354_apply, val_main_v349_apply, val_main_v353_apply, val_main_v352_apply, val_main_v364_apply, val_main_v363_apply, val_main_v370_apply, val_main_v369_apply, val_main_v368_apply, val_main_v367_apply, val_main_v366_apply, val_main_cst_22_apply,
    val_main_v373_apply, val_main_v372_apply, val_main_v376_apply, val_main_v375_apply]
  simp only [eL, eR, e53, e64, e70, e73, e76, hidden4, Cert.Gin.entry, Cert.Gin.pre, Cert.Gin.norm, Cert.Gin.eps, Cert.Gin.zero,
    Ideal.addf_def, Ideal.subf_def, Ideal.mulf_def, Ideal.maximumf_def, Ideal.hostUnary_rsqrt_def, Ideal.ofBits_def, Bool.false_eq_true, if_false]

end Cert.ReferenceIdeal.RefLayer

end
-- ==== Proof.RefValue.lean ====
/-
  The idealized reference's result is the network of its arguments.

  Each of the reference's five layers is the layer of its aggregated rows at that layer's parameter slices, and its
  aggregated rows are the neighbourhood sum of the previous layer's output (of the input features, for the first). So
  its result, the last layer's output, is the five layer steps in turn from the input features.
-/
import proofs.«159699_j9251359555640_1_alg».proof.Proof.HostTerms
import proofs.«159699_j9251359555640_1_alg».proof.Proof.RefLayer0
import proofs.«159699_j9251359555640_1_alg».proof.Proof.RefLayer1
import proofs.«159699_j9251359555640_1_alg».proof.Proof.RefLayer2
import proofs.«159699_j9251359555640_1_alg».proof.Proof.RefLayer3
import proofs.«159699_j9251359555640_1_alg».proof.Proof.RefLayer4

noncomputable section

namespace Cert.ReferenceIdeal.RefLayer

open Cert.ReferenceIdeal Cert.ReferenceIdeal.ReadP Idealize.ShloMosaic Cert.Gin

/-- The reference's result stage is the network. -/
theorem result_net (x0 : Feat) (x1 : Edges) (x2 : (⟨S5x128x256, .f32⟩ : BufTy).Contents (Elt Ideal)) (x3 x4 x5 x6 x7 : (⟨S5x256, .f32⟩ : BufTy).Contents (Elt Ideal)) (x8 : (⟨S5x256x128, .f32⟩ : BufTy).Contents (Elt Ideal)) (x9 x10 x11 x12 x13 : (⟨S5x128, .f32⟩ : BufTy).Contents (Elt Ideal)) :
    val_main_v377 (F := Ideal) x0 x1 x2 x3 x4 x5 x6 x7 x8 x9 x10 x11 x12 x13 = Cert.Gin.net x0 x1 x2 x3 x4 x5 x6 x7 x8 x9 x10 x11 x12 x13 := by
  rw [layer4, ref_agg4, layer3, ref_agg3, layer2, ref_agg2, layer1, ref_agg1, layer0, ref_agg0]
  rfl

end Cert.ReferenceIdeal.RefLayer

end
-- ==== Proof.lean ====
/-
  A five-layer graph network on 100000 nodes of 128 features over 640000 edges, computed by a kernel and by a plain
  reference, is the same function on the extended reals.

  Per layer both programs first replace every node's row by itself plus the sum of its in-neighbours' rows (a row lookup
  at the edges' sources, added into a zero array at the edges' destinations): the same host operations on both sides,
  kept as one closed term. The layer proper maps each row through a linear map into 256 hidden numbers, normalises each
  with fixed statistics, clamps at zero, maps back to 128 numbers through a second linear map, normalises again, and
  clamps at zero in all layers but the last. The kernel does this for blocks of 2000 rows at each of 50 grid points,
  with the twelve parameter arrays whole at every point and its matrix products fed through a narrower float format; the
  reference does it for the whole array at once. On the extended reals a change of float format is the identity and both
  kinds of matrix product are the plain sum over the contracted axis, so entry (p, q) of a layer's output is on both
  sides one and the same expression of row p of the aggregated rows and of the parameters. Nothing is regrouped beyond
  the order of a finite sum, so the precondition (finite inputs) is never opened.

  The kernel's run is ten segments — host operations, then a region, five times — and its result is read off the
  contents of the buffers at the segment boundaries; the reference's run is one line of host operations read one
  operation at a time. Both results are the five layer steps in turn from the input features.
-/
import proofs.«159699_j9251359555640_1_alg».proof.Defs
import proofs.«159699_j9251359555640_1_alg».proof.Proof.Gen.Kernel
import proofs.«159699_j9251359555640_1_alg».proof.Proof.Gen.Kernel.Skeleton
import proofs.«159699_j9251359555640_1_alg».proof.Proof.Gen.Kernel.Launch
import proofs.«159699_j9251359555640_1_alg».proof.Proof.Gen.Kernel.Points
import proofs.«159699_j9251359555640_1_alg».proof.Proof.Gen.Kernel.Frame
import proofs.«159699_j9251359555640_1_alg».proof.Proof.Gen.KernelIdeal
import proofs.«159699_j9251359555640_1_alg».proof.Proof.Gen.KernelIdeal.Skeleton
import proofs.«159699_j9251359555640_1_alg».proof.Proof.Gen.KernelIdeal.Launch
import proofs.«159699_j9251359555640_1_alg».proof.Proof.Gen.KernelIdeal.Points
import proofs.«159699_j9251359555640_1_alg».proof.Proof.Gen.KernelIdeal.Frame
import proofs.«159699_j9251359555640_1_alg».proof.Proof.Gen.ReferenceIdeal
import proofs.«159699_j9251359555640_1_alg».proof.Proof.RefRunValue
import proofs.«159699_j9251359555640_1_alg».proof.Proof.Gen.Pre_finite_inputs
import proofs.«159699_j9251359555640_1_alg».proof.Proof.KernelRun
import proofs.«159699_j9251359555640_1_alg».proof.Proof.KernelValue
import proofs.«159699_j9251359555640_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, terminates and leaves its arguments as launched. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with what it says about the result dropped. -/
theorem frame_ri : Cert.frame_ReferenceIdeal := fun m ρ _ =>
  (θ_run Cert.ReferenceIdeal.defs _ _).mono (fun _ h c => (h c).2) (Cert.ReferenceIdeal.RunValue.run_result m ρ)

/-- The kernel read on the extended reals is the printed kernel's own text: no operation was rewritten. -/
theorem preserves : Cert.preserves_Kernel_KernelIdeal := trivial

/-- From memories agreeing on the arguments both programs end with the network of the arguments in their result arrays. -/
theorem algebraic : Cert.algebraic_KernelIdeal_ReferenceIdeal := by
  intro m ρ m' ρ' _ hagree
  refine ⟨fun c => Cert.Gin.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Fold.result_net m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RunValue.run_result m' ρ')
    rw [Cert.ReferenceIdeal.RefLayer.result_net]
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
